-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v174)) (v1 : (c : Dev Cert.KernelIdeal.nD) → Buf (Elt Ideal) ((c.tc : Thread Cert.KernelIdeal.nD Cert.KernelIdeal.τ).loc Cert.KernelIdeal.main_v179)) (v2 : (c : Dev Cert.KernelIdeal.nD) → Buf (Elt Ideal) ((c.tc : Thread Cert.KernelIdeal.nD Cert.KernelIdeal.τ).loc Cert.KernelIdeal.main_v183)) (v3 : (c : Dev Cert.KernelIdeal.nD) → Buf (Elt Ideal) ((c.tc : Thread Cert.KernelIdeal.nD Cert.KernelIdeal.τ).loc Cert.KernelIdeal.main_v189)) (v4 : (c : Dev Cert.KernelIdeal.nD) → Buf (Elt Ideal) ((c.tc : Thread Cert.KernelIdeal.nD Cert.KernelIdeal.τ).loc Cert.KernelIdeal.main_v192)) (v5 : (c : Dev Cert.KernelIdeal.nD) → Buf (Elt Ideal) ((c.tc : Thread Cert.KernelIdeal.nD Cert.KernelIdeal.τ).loc Cert.KernelIdeal.main_v195)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v174) = v0 c
          ∧ r.2.mem ((c.tc : Thread Cert.KernelIdeal.nD Cert.KernelIdeal.τ).loc Cert.KernelIdeal.main_v179) = v1 c
          ∧ r.2.mem ((c.tc : Thread Cert.KernelIdeal.nD Cert.KernelIdeal.τ).loc Cert.KernelIdeal.main_v183) = v2 c
          ∧ r.2.mem ((c.tc : Thread Cert.KernelIdeal.nD Cert.KernelIdeal.τ).loc Cert.KernelIdeal.main_v189) = v3 c
          ∧ r.2.mem ((c.tc : Thread Cert.KernelIdeal.nD Cert.KernelIdeal.τ).loc Cert.KernelIdeal.main_v192) = v4 c
          ∧ r.2.mem ((c.tc : Thread Cert.KernelIdeal.nD Cert.KernelIdeal.τ).loc Cert.KernelIdeal.main_v195) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_v184) = v1 c
          ∧ r.2.mem ((c.tc : Thread Cert.ReferenceIdeal.nD Cert.ReferenceIdeal.τ).loc Cert.ReferenceIdeal.main_v188) = v2 c
          ∧ r.2.mem ((c.tc : Thread Cert.ReferenceIdeal.nD Cert.ReferenceIdeal.τ).loc Cert.ReferenceIdeal.main_v194) = v3 c
          ∧ r.2.mem ((c.tc : Thread Cert.ReferenceIdeal.nD Cert.ReferenceIdeal.τ).loc Cert.ReferenceIdeal.main_v197) = v4 c
          ∧ r.2.mem ((c.tc : Thread Cert.ReferenceIdeal.nD Cert.ReferenceIdeal.τ).loc Cert.ReferenceIdeal.main_v200) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x3 : Shape := ⟨2, ![2000, 3]⟩
abbrev S80000x128x5 : Shape := ⟨3, ![80000, 128, 5]⟩
abbrev S500x64x4 : Shape := ⟨3, ![500, 64, 4]⟩
abbrev S500x1x320 : Shape := ⟨3, ![500, 1, 320]⟩
abbrev S500x2x320 : Shape := ⟨3, ![500, 2, 320]⟩
abbrev S_ : Shape := ⟨0, ![]⟩

class Facts : Prop where
  bcast_S_S80000x128x5 : S_.BroadcastsInDim S80000x128x5 (![] : Fin 0 → Fin S80000x128x5.rank)
  reducesTo_S80000x128x5_S_d0_1_2 : S80000x128x5.ReducesTo [0, 1, 2] S_
  h_S_ : 0 < S_.numel
  bcast_S_S500x64x4 : S_.BroadcastsInDim S500x64x4 (![] : Fin 0 → Fin S500x64x4.rank)
  reducesTo_S500x64x4_S_d0_1_2 : S500x64x4.ReducesTo [0, 1, 2] S_
  bcast_S_S500x1x320 : S_.BroadcastsInDim S500x1x320 (![] : Fin 0 → Fin S500x1x320.rank)
  reducesTo_S500x1x320_S_d0_1_2 : S500x1x320.ReducesTo [0, 1, 2] S_
  bcast_S_S500x2x320 : S_.BroadcastsInDim S500x2x320 (![] : Fin 0 → Fin S500x2x320.rank)
  reducesTo_S500x2x320_S_d0_1_2 : S500x2x320.ReducesTo [0, 1, 2] S_

variable [Facts]

def fn_part1 {F : FTy → Type} [FloatOps F] (main_arg5 : FVec F S500x2x320 .f32) (main_v13 : IVec S_ 1) (main_v16 : IVec S500x1x320 1) : IVec S_ 1 :=
  let main_c_5 : IVec S_ 1 := constantI S_ 1 1#1
  let main_v17 : IVec S_ 1 := (fun x v => Host.reduce IntOp.andi x v reducesTo_S500x1x320_S_d0_1_2 h_S_) main_v16 main_c_5
  let main_v18 : IVec S_ 1 := andi main_v13 main_v17
  let main_v19 : FVec F S500x2x320 .f32 := Host.absf main_arg5
  let main_cst_6 : FVec F S_ .f32 := constant S_ .f32 0x7F800000#32
  let main_v20 : FVec F S500x2x320 .f32 := broadcastInDim S500x2x320 ![] bcast_S_S500x2x320 main_cst_6
  let main_v21 : IVec S500x2x320 1 := cmpf .olt main_v19 main_v20
  let main_c_7 : IVec S_ 1 := constantI S_ 1 1#1
  let main_v22 : IVec S_ 1 := (fun x v => Host.reduce IntOp.andi x v reducesTo_S500x2x320_S_d0_1_2 h_S_) main_v21 main_c_7
  let main_v23 : IVec S_ 1 := andi main_v18 main_v22
  main_v23

def fn {F : FTy → Type} [FloatOps F] (main_arg0 : IVec S2000x3 32) (main_arg1 : FVec F S80000x128x5 .f32) (main_arg2 : FVec F S500x64x4 .f32) (main_arg3 : FVec F S500x64x4 .f32) (main_arg4 : FVec F S500x1x320 .f32) (main_arg5 : FVec F S500x2x320 .f32) : IVec S_ 1 :=
  let main_v0 : FVec F S80000x128x5 .f32 := Host.absf main_arg1
  let main_cst : FVec F S_ .f32 := constant S_ .f32 0x7F800000#32
  let main_v1 : FVec F S80000x128x5 .f32 := broadcastInDim S80000x128x5 ![] bcast_S_S80000x128x5 main_cst
  let main_v2 : IVec S80000x128x5 1 := cmpf .olt main_v0 main_v1
  let main_c : IVec S_ 1 := constantI S_ 1 1#1
  let main_v3 : IVec S_ 1 := (fun x v => Host.reduce IntOp.andi x v reducesTo_S80000x128x5_S_d0_1_2 h_S_) main_v2 main_c
  let main_v4 : FVec F S500x64x4 .f32 := Host.absf main_arg2
  let main_cst_0 : FVec F S_ .f32 := constant S_ .f32 0x7F800000#32
  let main_v5 : FVec F S500x64x4 .f32 := broadcastInDim S500x64x4 ![] bcast_S_S500x64x4 main_cst_0
  let main_v6 : IVec S500x64x4 1 := cmpf .olt main_v4 main_v5
  let main_c_1 : IVec S_ 1 := constantI S_ 1 1#1
  let main_v7 : IVec S_ 1 := (fun x v => Host.reduce IntOp.andi x v reducesTo_S500x64x4_S_d0_1_2 h_S_) main_v6 main_c_1
  let main_v8 : IVec S_ 1 := andi main_v3 main_v7
  let main_v9 : FVec F S500x64x4 .f32 := Host.absf main_arg3
  let main_cst_2 : FVec F S_ .f32 := constant S_ .f32 0x7F800000#32
  let main_v10 : FVec F S500x64x4 .f32 := broadcastInDim S500x64x4 ![] bcast_S_S500x64x4 main_cst_2
  let main_v11 : IVec S500x64x4 1 := cmpf .olt main_v9 main_v10
  let main_c_3 : IVec S_ 1 := constantI S_ 1 1#1
  let main_v12 : IVec S_ 1 := (fun x v => Host.reduce IntOp.andi x v reducesTo_S500x64x4_S_d0_1_2 h_S_) main_v11 main_c_3
  let main_v13 : IVec S_ 1 := andi main_v8 main_v12
  let main_v14 : FVec F S500x1x320 .f32 := Host.absf main_arg4
  let main_cst_4 : FVec F S_ .f32 := constant S_ .f32 0x7F800000#32
  let main_v15 : FVec F S500x1x320 .f32 := broadcastInDim S500x1x320 ![] bcast_S_S500x1x320 main_cst_4
  let main_v16 : IVec S500x1x320 1 := cmpf .olt main_v14 main_v15
  fn_part1 (F := F) main_arg5 main_v13 main_v16
-- ==== Kernel.lean ====
abbrev S2000x3 : Shape := ⟨2, ![2000, 3]⟩
abbrev S80000x128x5 : Shape := ⟨3, ![80000, 128, 5]⟩
abbrev S500x64x4 : Shape := ⟨3, ![500, 64, 4]⟩
abbrev S500x1x320 : Shape := ⟨3, ![500, 1, 320]⟩
abbrev S500x2x320 : Shape := ⟨3, ![500, 2, 320]⟩
abbrev S2000x1 : Shape := ⟨2, ![2000, 1]⟩
abbrev S2000 : Shape := ⟨1, ![2000]⟩
abbrev S_ : Shape := ⟨0, ![]⟩
abbrev S2000x128x5 : Shape := ⟨3, ![2000, 128, 5]⟩
abbrev S2000x64x5 : Shape := ⟨3, ![2000, 64, 5]⟩
abbrev S2000x320 : Shape := ⟨2, ![2000, 320]⟩
abbrev S2000x64x4 : Shape := ⟨3, ![2000, 64, 4]⟩
abbrev S2000x1x320 : Shape := ⟨3, ![2000, 1, 320]⟩
abbrev S2000x2x320 : Shape := ⟨3, ![2000, 2, 320]⟩
abbrev S80000x640 : Shape := ⟨2, ![80000, 640]⟩
abbrev S2000x64 : Shape := ⟨2, ![2000, 64]⟩
abbrev S2000x64x1 : Shape := ⟨3, ![2000, 64, 1]⟩
abbrev S2000x320x1 : Shape := ⟨3, ![2000, 320, 1]⟩
abbrev S2000x320x2 : Shape := ⟨3, ![2000, 320, 2]⟩
abbrev S2000x1x2 : Shape := ⟨3, ![2000, 1, 2]⟩
abbrev S2000x1x1 : Shape := ⟨3, ![2000, 1, 1]⟩
abbrev S2000x640 : Shape := ⟨2, ![2000, 640]⟩
abbrev S2000x80000 : Shape := ⟨2, ![2000, 80000]⟩
abbrev S1280x640 : Shape := ⟨2, ![1280, 640]⟩
abbrev S2000x1280 : Shape := ⟨2, ![2000, 1280]⟩

abbrev nBuf : Space → Nat
  | .hbm => 236
  | .vmem => 5
  | .smem => 0
  | _ => 0

abbrev hbmTy0_0 (i : Nat) : BufTy := match i % 128 with
  | 0 => ⟨S2000x3, .i32⟩
  | 1 => ⟨S80000x128x5, .f32⟩
  | 2 => ⟨S500x64x4, .f32⟩
  | 3 => ⟨S500x64x4, .f32⟩
  | 4 => ⟨S500x1x320, .f32⟩
  | 5 => ⟨S500x2x320, .f32⟩
  | 6 => ⟨S2000x1, .i32⟩
  | 7 => ⟨S2000, .i32⟩
  | 8 => ⟨S2000x1, .i32⟩
  | 9 => ⟨S2000, .i32⟩
  | 10 => ⟨S2000x1, .i32⟩
  | 11 => ⟨S2000, .i32⟩
  | 12 => ⟨S_, .i32⟩
  | 13 => ⟨S2000, .i32⟩
  | 14 => ⟨S2000, .i1⟩
  | 15 => ⟨S_, .i32⟩
  | 16 => ⟨S2000, .i32⟩
  | 17 => ⟨S2000, .i32⟩
  | 18 => ⟨S2000, .i32⟩
  | 19 => ⟨S2000x1, .i32⟩
  | 20 => ⟨S2000x128x5, .f32⟩
  | 21 => ⟨S_, .i32⟩
  | 22 => ⟨S2000, .i32⟩
  | 23 => ⟨S2000, .i1⟩
  | 24 => ⟨S_, .i32⟩
  | 25 => ⟨S2000, .i32⟩
  | 26 => ⟨S2000, .i32⟩
  | 27 => ⟨S2000, .i32⟩
  | 28 => ⟨S2000x1, .i32⟩
  | 29 => ⟨S2000x128x5, .f32⟩
  | 30 => ⟨S2000x64x5, .f32⟩
  | 31 => ⟨S2000x64x5, .f32⟩
  | 32 => ⟨S2000x320, .f32⟩
  | 33 => ⟨S2000x64x5, .f32⟩
  | 34 => ⟨S2000x320, .f32⟩
  | 35 => ⟨S2000x64x5, .f32⟩
  | 36 => ⟨S2000x320, .f32⟩
  | 37 => ⟨S_, .i32⟩
  | 38 => ⟨S2000, .i32⟩
  | 39 => ⟨S2000, .i1⟩
  | 40 => ⟨S_, .i32⟩
  | 41 => ⟨S2000, .i32⟩
  | 42 => ⟨S2000, .i32⟩
  | 43 => ⟨S2000, .i32⟩
  | 44 => ⟨S2000x1, .i32⟩
  | 45 => ⟨S2000x64x4, .f32⟩
  | 46 => ⟨S_, .i32⟩
  | 47 => ⟨S2000, .i32⟩
  | 48 => ⟨S2000, .i1⟩
  | 49 => ⟨S_, .i32⟩
  | 50 => ⟨S2000, .i32⟩
  | 51 => ⟨S2000, .i32⟩
  | 52 => ⟨S2000, .i32⟩
  | 53 => ⟨S2000x1, .i32⟩
  | 54 => ⟨S2000x64x4, .f32⟩
  | 55 => ⟨S_, .i32⟩
  | 56 => ⟨S2000, .i32⟩
  | 57 => ⟨S2000, .i1⟩
  | 58 => ⟨S_, .i32⟩
  | 59 => ⟨S2000, .i32⟩
  | 60 => ⟨S2000, .i32⟩
  | 61 => ⟨S2000, .i32⟩
  | 62 => ⟨S2000x1, .i32⟩
  | 63 => ⟨S2000x1x320, .f32⟩
  | 64 => ⟨S_, .i32⟩
  | 65 => ⟨S2000, .i32⟩
  | 66 => ⟨S2000, .i1⟩
  | 67 => ⟨S_, .i32⟩
  | 68 => ⟨S2000, .i32⟩
  | 69 => ⟨S2000, .i32⟩
  | 70 => ⟨S2000, .i32⟩
  | 71 => ⟨S2000x1, .i32⟩
  | 72 => ⟨S2000x2x320, .f32⟩
  | 73 => ⟨S2000x1x320, .f32⟩
  | 74 => ⟨S2000x320, .f32⟩
  | 75 => ⟨S2000x1x320, .f32⟩
  | 76 => ⟨S2000x320, .f32⟩
  | 77 => ⟨S80000x640, .f32⟩
  | 78 => ⟨S2000x64x4, .f32⟩
  | 79 => ⟨S_, .f32⟩
  | 80 => ⟨S2000x64, .f32⟩
  | 81 => ⟨S2000x64x1, .f32⟩
  | 82 => ⟨S_, .f32⟩
  | 83 => ⟨S2000x64x1, .f32⟩
  | 84 => ⟨S2000x64x1, .f32⟩
  | 85 => ⟨S2000x64x1, .f32⟩
  | 86 => ⟨S2000x64x4, .f32⟩
  | 87 => ⟨S2000x64x4, .f32⟩
  | 88 => ⟨S2000x64x1, .f32⟩
  | 89 => ⟨S2000x64x4, .f32⟩
  | 90 => ⟨S2000x64x1, .f32⟩
  | 91 => ⟨S2000x64, .f32⟩
  | 92 => ⟨S2000x64x1, .f32⟩
  | 93 => ⟨S2000x64, .f32⟩
  | 94 => ⟨S2000x64x1, .f32⟩
  | 95 => ⟨S2000x64, .f32⟩
  | 96 => ⟨S2000x64x1, .f32⟩
  | 97 => ⟨S2000x64, .f32⟩
  | 98 => ⟨S2000x64x1, .f32⟩
  | 99 => ⟨S2000x64, .f32⟩
  | 100 => ⟨S2000x64x1, .f32⟩
  | 101 => ⟨S2000x64, .f32⟩
  | 102 => ⟨S2000x64x1, .f32⟩
  | 103 => ⟨S2000x64, .f32⟩
  | 104 => ⟨S2000x64x1, .f32⟩
  | 105 => ⟨S2000x64, .f32⟩
  | 106 => ⟨S2000x64, .f32⟩
  | 107 => ⟨S2000x64, .f32⟩
  | 108 => ⟨S2000x64, .f32⟩
  | 109 => ⟨S2000x64, .f32⟩
  | 110 => ⟨S2000x64, .f32⟩
  | 111 => ⟨S2000x64, .f32⟩
  | 112 => ⟨S2000x64, .f32⟩
  | 113 => ⟨S2000x64, .f32⟩
  | 114 => ⟨S2000x64, .f32⟩
  | 115 => ⟨S2000x64, .f32⟩
  | 116 => ⟨S2000x64, .f32⟩
  | 117 => ⟨S2000x64, .f32⟩
  | 118 => ⟨S2000x64, .f32⟩
  | 119 => ⟨S2000x64, .f32⟩
  | 120 => ⟨S2000x64, .f32⟩
  | 121 => ⟨S2000x64, .f32⟩
  | 122 => ⟨S2000x64, .f32⟩
  | 123 => ⟨S2000x64, .f32⟩
  | 124 => ⟨S2000x64, .f32⟩
  | 125 => ⟨S2000x64, .f32⟩
  | 126 => ⟨S2000x64, .f32⟩
  | 127 => ⟨S2000x64, .f32⟩
  | _ => ⟨S2000x3, .i32⟩

abbrev hbmTy0_1 (i : Nat) : BufTy := match i % 128 with
  | 0 => ⟨S2000x64, .f32⟩
  | 1 => ⟨S2000x64, .f32⟩
  | 2 => ⟨S2000x64, .f32⟩
  | 3 => ⟨S2000x64, .f32⟩
  | 4 => ⟨S2000x64, .f32⟩
  | 5 => ⟨S2000x64, .f32⟩
  | 6 => ⟨S2000x64x1, .f32⟩
  | 7 => ⟨S2000x64x1, .f32⟩
  | 8 => ⟨S2000x64x1, .f32⟩
  | 9 => ⟨S2000x64x1, .f32⟩
  | 10 => ⟨S2000x64x4, .f32⟩
  | 11 => ⟨S2000x64x5, .f32⟩
  | 12 => ⟨S2000x320x1, .f32⟩
  | 13 => ⟨S2000x64x1, .f32⟩
  | 14 => ⟨S2000x64x4, .f32⟩
  | 15 => ⟨S2000x64x4, .f32⟩
  | 16 => ⟨S_, .f32⟩
  | 17 => ⟨S2000x64, .f32⟩
  | 18 => ⟨S2000x64x1, .f32⟩
  | 19 => ⟨S_, .f32⟩
  | 20 => ⟨S_, .f32⟩
  | 21 => ⟨S_, .f32⟩
  | 22 => ⟨S2000x64x1, .f32⟩
  | 23 => ⟨S2000x64x1, .f32⟩
  | 24 => ⟨S_, .f32⟩
  | 25 => ⟨S2000x64x1, .f32⟩
  | 26 => ⟨S2000x64x1, .f32⟩
  | 27 => ⟨S_, .f32⟩
  | 28 => ⟨S2000x64x1, .f32⟩
  | 29 => ⟨S2000x64x1, .f32⟩
  | 30 => ⟨S2000x64x1, .f32⟩
  | 31 => ⟨S2000x64x4, .f32⟩
  | 32 => ⟨S_, .f32⟩
  | 33 => ⟨S2000x64, .f32⟩
  | 34 => ⟨S2000x64x1, .f32⟩
  | 35 => ⟨S2000x64x1, .f32⟩
  | 36 => ⟨S2000x64x1, .f32⟩
  | 37 => ⟨S2000x64x1, .f32⟩
  | 38 => ⟨S_, .f32⟩
  | 39 => ⟨S2000x64x1, .f32⟩
  | 40 => ⟨S2000x64x1, .f32⟩
  | 41 => ⟨S2000x64x1, .f32⟩
  | 42 => ⟨S_, .f32⟩
  | 43 => ⟨S2000x64x1, .f32⟩
  | 44 => ⟨S2000x64x1, .f32⟩
  | 45 => ⟨S2000x64x1, .f32⟩
  | 46 => ⟨S2000x64x1, .f32⟩
  | 47 => ⟨S2000x64x4, .f32⟩
  | 48 => ⟨S2000x64x4, .f32⟩
  | 49 => ⟨S2000x64x4, .f32⟩
  | 50 => ⟨S2000x64x5, .f32⟩
  | 51 => ⟨S2000x320x1, .f32⟩
  | 52 => ⟨S2000x320x2, .f32⟩
  | 53 => ⟨S_, .f32⟩
  | 54 => ⟨S2000x1x320, .f32⟩
  | 55 => ⟨S2000x1x320, .f32⟩
  | 56 => ⟨S2000x1x2, .f32⟩
  | 57 => ⟨S_, .f32⟩
  | 58 => ⟨S2000x1, .f32⟩
  | 59 => ⟨S_, .f32⟩
  | 60 => ⟨S2000x1, .f32⟩
  | 61 => ⟨S2000x1, .f32⟩
  | 62 => ⟨S2000x1x1, .f32⟩
  | 63 => ⟨S2000x1x2, .f32⟩
  | 64 => ⟨S2000x1x2, .f32⟩
  | 65 => ⟨S2000x1x2, .f32⟩
  | 66 => ⟨S_, .f32⟩
  | 67 => ⟨S2000x1, .f32⟩
  | 68 => ⟨S2000x1x1, .f32⟩
  | 69 => ⟨S2000x1x2, .f32⟩
  | 70 => ⟨S2000x1x2, .f32⟩
  | 71 => ⟨S2000x320x2, .f32⟩
  | 72 => ⟨S2000x320x2, .f32⟩
  | 73 => ⟨S_, .f32⟩
  | 74 => ⟨S2000x320, .f32⟩
  | 75 => ⟨S2000x320, .f32⟩
  | 76 => ⟨S2000x320, .f32⟩
  | 77 => ⟨S2000x320, .f32⟩
  | 78 => ⟨S2000x320, .f32⟩
  | 79 => ⟨S2000x320, .f32⟩
  | 80 => ⟨S2000x320, .f32⟩
  | 81 => ⟨S2000x640, .f32⟩
  | 82 => ⟨S2000x640, .bf16⟩
  | 83 => ⟨S2000x80000, .f32⟩
  | 84 => ⟨S2000x320, .f32⟩
  | 85 => ⟨S2000x320, .f32⟩
  | 86 => ⟨S2000x320, .f32⟩
  | 87 => ⟨S2000x320, .f32⟩
  | 88 => ⟨S2000x320, .f32⟩
  | 89 => ⟨S2000x320, .f32⟩
  | 90 => ⟨S2000x320, .f32⟩
  | 91 => ⟨S2000x320, .f32⟩
  | 92 => ⟨S2000x320, .f32⟩
  | 93 => ⟨S2000x320, .f32⟩
  | 94 => ⟨S2000x320, .f32⟩
  | 95 => ⟨S2000x320, .f32⟩
  | 96 => ⟨S2000x320, .f32⟩
  | 97 => ⟨S_, .f32⟩
  | 98 => ⟨S2000x320, .f32⟩
  | 99 => ⟨S2000x320, .f32⟩
  | 100 => ⟨S2000x64x4, .f32⟩
  | 101 => ⟨S_, .f32⟩
  | 102 => ⟨S2000x64, .f32⟩
  | 103 => ⟨S2000x64, .f32⟩
  | 104 => ⟨S2000x64x4, .f32⟩
  | 105 => ⟨S_, .f32⟩
  | 106 => ⟨S2000x64, .f32⟩
  | 107 => ⟨S2000x64, .f32⟩
  | _ => ⟨S2000x3, .i32⟩

abbrev hbmTy (i : Nat) : BufTy := match i / 128 with
  | 0 => hbmTy0_0 i
  | 1 => hbmTy0_1 i
  | _ => ⟨S2000x3, .i32⟩

abbrev bufTy : (tb : Table) → Fin (tcTables nBuf tb) → BufTy
  | .hbm, ⟨i, _⟩ => hbmTy i
  | .local _ .vmem, ⟨0, _⟩ => ⟨S2000x640, .bf16⟩
  | .local _ .vmem, ⟨1, _⟩ => ⟨S1280x640, .f32⟩
  | .local _ .vmem, ⟨2, _⟩ => ⟨S1280x640, .f32⟩
  | .local _ .vmem, ⟨3, _⟩ => ⟨S2000x1280, .f32⟩
  | .local _ .vmem, ⟨4, _⟩ => ⟨S2000x1280, .f32⟩
  | _, _ => ⟨S2000x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_7 : Ref sig .tc := ⟨.hbm, 55, rfl⟩
abbrev main_v41 : Ref sig .tc := ⟨.hbm, 56, rfl⟩
abbrev main_v42 : Ref sig .tc := ⟨.hbm, 57, rfl⟩
abbrev main_c_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_9 : Ref sig .tc := ⟨.hbm, 64, rfl⟩
abbrev main_v48 : Ref sig .tc := ⟨.hbm, 65, rfl⟩
abbrev main_v49 : Ref sig .tc := ⟨.hbm, 66, rfl⟩
abbrev main_c_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst : Ref sig .tc := ⟨.hbm, 79, rfl⟩
abbrev main_v61 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_cst_12 : Ref sig .tc := ⟨.hbm, 144, rfl⟩
abbrev main_v124 : Ref sig .tc := ⟨.hbm, 145, rfl⟩
abbrev main_v125 : Ref sig .tc := ⟨.hbm, 146, rfl⟩
abbrev main_cst_13 : Ref sig .tc := ⟨.hbm, 147, rfl⟩
abbrev main_cst_14 : Ref sig .tc := ⟨.hbm, 148, rfl⟩
abbrev main_call0_v0 : Ref sig .tc := ⟨.hbm, 149, rfl⟩
abbrev main_call0_v1 : Ref sig .tc := ⟨.hbm, 150, rfl⟩
abbrev main_call0_v2 : Ref sig .tc := ⟨.hbm, 151, rfl⟩
abbrev main_call0_v3 : Ref sig .tc := ⟨.hbm, 152, rfl⟩
abbrev main_call0_v4 : Ref sig .tc := ⟨.hbm, 153, rfl⟩
abbrev main_v126 : Ref sig .tc := ⟨.hbm, 154, rfl⟩
abbrev main_cst_15 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_cst_16 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_cst_17 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_cst_18 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_cst_19 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_cst_20 : Ref sig .tc := ⟨.hbm, 185, rfl⟩
abbrev main_v152 : Ref sig .tc := ⟨.hbm, 186, rfl⟩
abbrev main_cst_21 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_cst_22 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_cst_23 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_cst_24 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_cst_25 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_cst_26 : Ref sig .tc := ⟨.hbm, 233, rfl⟩
abbrev main_v194 : Ref sig .tc := ⟨.hbm, 234, rfl⟩
abbrev main_v195 : Ref sig .tc := ⟨.hbm, 235, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![63], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2000x640 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2000x3_S2000x1_0_0 : S2000x3.Slices ![0, 0] S2000x1
  shapeCasts_S2000x1_S2000 : S2000x1.ShapeCasts S2000
  slices_S2000x3_S2000x1_0_1 : S2000x3.Slices ![0, 1] S2000x1
  slices_S2000x3_S2000x1_0_2 : S2000x3.Slices ![0, 2] S2000x1
  bcast_S_S2000 : S_.BroadcastsInDim S2000 (![] : Fin 0 → Fin S2000.rank)
  bcast_S2000_S2000x1_0 : S2000.BroadcastsInDim S2000x1 (![0] : Fin 1 → Fin S2000x1.rank)
  slices_S2000x128x5_S2000x64x5_0_0_0 : S2000x128x5.Slices ![0, 0, 0] S2000x64x5
  slices_S2000x128x5_S2000x64x5_0_64_0 : S2000x128x5.Slices ![0, 64, 0] S2000x64x5
  shapeCasts_S2000x64x5_S2000x320 : S2000x64x5.ShapeCasts S2000x320
  slices_S2000x2x320_S2000x1x320_0_0_0 : S2000x2x320.Slices ![0, 0, 0] S2000x1x320
  shapeCasts_S2000x1x320_S2000x320 : S2000x1x320.ShapeCasts S2000x320
  slices_S2000x2x320_S2000x1x320_0_1_0 : S2000x2x320.Slices ![0, 1, 0] S2000x1x320
  shapeCasts_S80000x128x5_S80000x640 : S80000x128x5.ShapeCasts S80000x640
  reducesTo_S2000x64x4_S2000x64_d2 : S2000x64x4.ReducesTo [2] S2000x64
  h_S_ : 0 < S_.numel
  bcast_S2000x64_S2000x64x1_0_1 : S2000x64.BroadcastsInDim S2000x64x1 (![0, 1] : Fin 2 → Fin S2000x64x1.rank)
  bcast_S_S2000x64x1 : S_.BroadcastsInDim S2000x64x1 (![] : Fin 0 → Fin S2000x64x1.rank)
  bcast_S2000x64x1_S2000x64x4_0_1_2 : S2000x64x1.BroadcastsInDim S2000x64x4 (![0, 1, 2] : Fin 3 → Fin S2000x64x4.rank)
  slices_S2000x64x5_S2000x64x1_0_0_0 : S2000x64x5.Slices ![0, 0, 0] S2000x64x1
  slices_S2000x64x5_S2000x64x4_0_0_1 : S2000x64x5.Slices ![0, 0, 1] S2000x64x4
  slices_S2000x64x4_S2000x64x1_0_0_0 : S2000x64x4.Slices ![0, 0, 0] S2000x64x1
  shapeCasts_S2000x64x1_S2000x64 : S2000x64x1.ShapeCasts S2000x64
  slices_S2000x64x4_S2000x64x1_0_0_1 : S2000x64x4.Slices ![0, 0, 1] S2000x64x1
  slices_S2000x64x4_S2000x64x1_0_0_2 : S2000x64x4.Slices ![0, 0, 2] S2000x64x1
  slices_S2000x64x4_S2000x64x1_0_0_3 : S2000x64x4.Slices ![0, 0, 3] S2000x64x1
  concatenates_S2000x64x1_S2000x64x1_S2000x64x1_S2000x64x1_S2000x64x4_d2 : Shape.Concatenates [S2000x64x1, S2000x64x1, S2000x64x1, S2000x64x1] S2000x64x4 2
  concatenates_S2000x64x1_S2000x64x4_S2000x64x5_d2 : Shape.Concatenates [S2000x64x1, S2000x64x4] S2000x64x5 2
  shapeCasts_S2000x64x5_S2000x320x1 : S2000x64x5.ShapeCasts S2000x320x1
  concatenates_S2000x320x1_S2000x320x1_S2000x320x2_d2 : Shape.Concatenates [S2000x320x1, S2000x320x1] S2000x320x2 2
  bcast_S_S2000x1x320 : S_.BroadcastsInDim S2000x1x320 (![] : Fin 0 → Fin S2000x1x320.rank)
  reducesTo_S2000x1x2_S2000x1_d2 : S2000x1x2.ReducesTo [2] S2000x1
  bcast_S_S2000x1 : S_.BroadcastsInDim S2000x1 (![] : Fin 0 → Fin S2000x1.rank)
  bcast_S2000x1_S2000x1x1_0_1 : S2000x1.BroadcastsInDim S2000x1x1 (![0, 1] : Fin 2 → Fin S2000x1x1.rank)
  bcast_S2000x1x1_S2000x1x2_0_1_2 : S2000x1x1.BroadcastsInDim S2000x1x2 (![0, 1, 2] : Fin 3 → Fin S2000x1x2.rank)
  bcast_S2000x1x2_S2000x320x2_0_1_2 : S2000x1x2.BroadcastsInDim S2000x320x2 (![0, 1, 2] : Fin 3 → Fin S2000x320x2.rank)
  reducesTo_S2000x320x2_S2000x320_d2 : S2000x320x2.ReducesTo [2] S2000x320
  concatenates_S2000x320_S2000x320_S2000x640_d1 : Shape.Concatenates [S2000x320, S2000x320] S2000x640 1
  bitsLt_bf16_f32 : FTy.bits .bf16 < FTy.bits .f32
  inb_S2000x640_S2000x640_0_0 : ∀ a, (![0, 0] : Fin 2 → Nat) a + S2000x640.size a ≤ S2000x640.size a
  h_S2000x640 : 0 < S2000x640.numel
  shapeCasts_S2000x640_S2000x640 : S2000x640.ShapeCasts S2000x640
  inb_S1280x640_S1280x640_0_0 : ∀ a, (![0, 0] : Fin 2 → Nat) a + S1280x640.size a ≤ S1280x640.size a
  h_S1280x640 : 0 < S1280x640.numel
  shapeCasts_S1280x640_S1280x640 : S1280x640.ShapeCasts S1280x640
  inb_S2000x1280_S2000x1280_0_0 : ∀ a, (![0, 0] : Fin 2 → Nat) a + S2000x1280.size a ≤ S2000x1280.size a
  h_S2000x1280 : 0 < S2000x1280.numel
  bcast_S_S2000x320 : S_.BroadcastsInDim S2000x320 (![] : Fin 0 → Fin S2000x320.rank)
  gather_S80000x128x5_S2000x1_S2000x128x5_12_0_n_n_0_1_11285_wf : GatherDims.WF S80000x128x5 S2000x1 S2000x128x5 [1, 2] [0] [] [0] [] 1 ![1, 128, 5]
  gather_S500x64x4_S2000x1_S2000x64x4_12_0_n_n_0_1_1644_wf : GatherDims.WF S500x64x4 S2000x1 S2000x64x4 [1, 2] [0] [] [0] [] 1 ![1, 64, 4]
  gather_S500x1x320_S2000x1_S2000x1x320_12_0_n_n_0_1_11320_wf : GatherDims.WF S500x1x320 S2000x1 S2000x1x320 [1, 2] [0] [] [0] [] 1 ![1, 1, 320]
  gather_S500x2x320_S2000x1_S2000x2x320_12_0_n_n_0_1_12320_wf : GatherDims.WF S500x2x320 S2000x1 S2000x2x320 [1, 2] [0] [] [0] [] 1 ![1, 2, 320]
  dot_S2000x1x320_S2000x320x2_S2000x1x2_2_1_1_2_0_0_wf : DotDims.WF S2000x1x320 S2000x320x2 S2000x1x2 [2] [1] [1] [2] [0] [0]
  dot_S2000x640_S1280x640_S2000x1280_1_1_0_0_n_n_wf : DotDims.WF S2000x640 S1280x640 S2000x1280 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2000x640.size a ≤ S2000x640.size a
  hwx0_0 : ∀ i : grid0.Coords, EltTy.bits .bf16 = 32 ∨ (Rect.block (s := S2000x640) S2000x640.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1280x640.size a < S80000x640.size a
  hwx0_1 : ∀ i : grid0.Coords, EltTy.bits .f32 = 32 ∨ (Rect.unit (s := S80000x640) (fun a => cc0_transform_1 i a * S1280x640.size a) (fun a => (Pipeline.Clip.of (cc0_transform_1 i a) (S1280x640.size a) (S80000x640.size a)).extent (S1280x640.size a)) fun a => Pipeline.Clip.inb (Pipeline.Clip.ok_of (hstart0_1 i a))).WholeWords (EltTy.packing .f32)
  hwxs0_1 : ∀ i : grid0.Coords, EltTy.bits .f32 = 32 ∨ (Rect.unit (s := S1280x640) (fun _ => 0) (fun a => (Pipeline.Clip.of (cc0_transform_1 i a) (S1280x640.size a) (S80000x640.size a)).extent (S1280x640.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2000x1280.size a < S2000x80000.size a
  hwx0_2 : ∀ i : grid0.Coords, EltTy.bits .f32 = 32 ∨ (Rect.unit (s := S2000x80000) (fun a => cc0_transform_2 i a * S2000x1280.size a) (fun a => (Pipeline.Clip.of (cc0_transform_2 i a) (S2000x1280.size a) (S2000x80000.size a)).extent (S2000x1280.size a)) fun a => Pipeline.Clip.inb (Pipeline.Clip.ok_of (hstart0_2 i a))).WholeWords (EltTy.packing .f32)
  hwxs0_2 : ∀ i : grid0.Coords, EltTy.bits .f32 = 32 ∨ (Rect.unit (s := S2000x1280) (fun _ => 0) (fun a => (Pipeline.Clip.of (cc0_transform_2 i a) (S2000x1280.size a) (S2000x80000.size a)).extent (S2000x1280.size a)) fun a => (Nat.zero_add _).trans_le (Pipeline.Clip.extent_le (Pipeline.Clip.ok_of (hstart0_2 i a)))).WholeWords (EltTy.packing .f32)

variable [Facts₀]

def gather_S80000x128x5_S2000x1_S2000x128x5_12_0_n_n_0_1_11285 : GatherDims S80000x128x5 S2000x1 S2000x128x5 where
  offsetDims := [1, 2]
  collapsedSliceDims := [0]
  operandBatchingDims := []
  startIndicesBatchingDims := []
  startIndexMap := [0]
  indexVectorDim := 1
  sliceSizes := ![1, 128, 5]
  wf := gather_S80000x128x5_S2000x1_S2000x128x5_12_0_n_n_0_1_11285_wf
def gather_S500x64x4_S2000x1_S2000x64x4_12_0_n_n_0_1_1644 : GatherDims S500x64x4 S2000x1 S2000x64x4 where
  offsetDims := [1, 2]
  collapsedSliceDims := [0]
  operandBatchingDims := []
  startIndicesBatchingDims := []
  startIndexMap := [0]
  indexVectorDim := 1
  sliceSizes := ![1, 64, 4]
  wf := gather_S500x64x4_S2000x1_S2000x64x4_12_0_n_n_0_1_1644_wf
def gather_S500x1x320_S2000x1_S2000x1x320_12_0_n_n_0_1_11320 : GatherDims S500x1x320 S2000x1 S2000x1x320 where
  offsetDims := [1, 2]
  collapsedSliceDims := [0]
  operandBatchingDims := []
  startIndicesBatchingDims := []
  startIndexMap := [0]
  indexVectorDim := 1
  sliceSizes := ![1, 1, 320]
  wf := gather_S500x1x320_S2000x1_S2000x1x320_12_0_n_n_0_1_11320_wf
def gather_S500x2x320_S2000x1_S2000x2x320_12_0_n_n_0_1_12320 : GatherDims S500x2x320 S2000x1 S2000x2x320 where
  offsetDims := [1, 2]
  collapsedSliceDims := [0]
  operandBatchingDims := []
  startIndicesBatchingDims := []
  startIndexMap := [0]
  indexVectorDim := 1
  sliceSizes := ![1, 2, 320]
  wf := gather_S500x2x320_S2000x1_S2000x2x320_12_0_n_n_0_1_12320_wf
def dot_S2000x1x320_S2000x320x2_S2000x1x2_2_1_1_2_0_0 : DotDims S2000x1x320 S2000x320x2 S2000x1x2 where
  lhsContracting := [2]
  rhsContracting := [1]
  lhsNonContracting := [1]
  rhsNonContracting := [2]
  lhsBatch := [0]
  rhsBatch := [0]
  wf := dot_S2000x1x320_S2000x320x2_S2000x1x2_2_1_1_2_0_0_wf
def dot_S2000x640_S1280x640_S2000x1280_1_1_0_0_n_n : DotDims S2000x640 S1280x640 S2000x1280 where
  lhsContracting := [1]
  rhsContracting := [1]
  lhsNonContracting := [0]
  rhsNonContracting := [0]
  lhsBatch := []
  rhsBatch := []
  wf := dot_S2000x640_S1280x640_S2000x1280_1_1_0_0_n_n_wf

abbrev win0_0 : Pipeline.Window sig grid0 :=
  Pipeline.Window.ofSpec (Memref.whole main_v173) S2000x640.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v59) S1280x640.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v174) S2000x1280.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2000x3 : Shape := ⟨2, ![2000, 3]⟩
abbrev S80000x128x5 : Shape := ⟨3, ![80000, 128, 5]⟩
abbrev S500x64x4 : Shape := ⟨3, ![500, 64, 4]⟩
abbrev S500x1x320 : Shape := ⟨3, ![500, 1, 320]⟩
abbrev S500x2x320 : Shape := ⟨3, ![500, 2, 320]⟩
abbrev S2000x1 : Shape := ⟨2, ![2000, 1]⟩
abbrev S2000 : Shape := ⟨1, ![2000]⟩
abbrev S_ : Shape := ⟨0, ![]⟩
abbrev S2000x128x5 : Shape := ⟨3, ![2000, 128, 5]⟩
abbrev S2000x64x5 : Shape := ⟨3, ![2000, 64, 5]⟩
abbrev S2000x320 : Shape := ⟨2, ![2000, 320]⟩
abbrev S2000x64x4 : Shape := ⟨3, ![2000, 64, 4]⟩
abbrev S2000x1x320 : Shape := ⟨3, ![2000, 1, 320]⟩
abbrev S2000x2x320 : Shape := ⟨3, ![2000, 2, 320]⟩
abbrev S80000x64x5 : Shape := ⟨3, ![80000, 64, 5]⟩
abbrev S80000x320 : Shape := ⟨2, ![80000, 320]⟩
abbrev S2000x64 : Shape := ⟨2, ![2000, 64]⟩
abbrev S2000x64x1 : Shape := ⟨3, ![2000, 64, 1]⟩
abbrev S2000x320x1 : Shape := ⟨3, ![2000, 320, 1]⟩
abbrev S2000x320x2 : Shape := ⟨3, ![2000, 320, 2]⟩
abbrev S2000x1x2 : Shape := ⟨3, ![2000, 1, 2]⟩
abbrev S2000x1x1 : Shape := ⟨3, ![2000, 1, 1]⟩
abbrev S320x80000 : Shape := ⟨2, ![320, 80000]⟩
abbrev S2000x80000 : Shape := ⟨2, ![2000, 80000]⟩

abbrev nBuf : Space → Nat
  | .hbm => 241
  | .vmem => 0
  | .smem => 0
  | _ => 0

abbrev hbmTy0_0 (i : Nat) : BufTy := match i % 128 with
  | 0 => ⟨S2000x3, .i32⟩
  | 1 => ⟨S80000x128x5, .f32⟩
  | 2 => ⟨S500x64x4, .f32⟩
  | 3 => ⟨S500x64x4, .f32⟩
  | 4 => ⟨S500x1x320, .f32⟩
  | 5 => ⟨S500x2x320, .f32⟩
  | 6 => ⟨S2000x1, .i32⟩
  | 7 => ⟨S2000, .i32⟩
  | 8 => ⟨S2000x1, .i32⟩
  | 9 => ⟨S2000, .i32⟩
  | 10 => ⟨S2000x1, .i32⟩
  | 11 => ⟨S2000, .i32⟩
  | 12 => ⟨S_, .i32⟩
  | 13 => ⟨S2000, .i32⟩
  | 14 => ⟨S2000, .i1⟩
  | 15 => ⟨S_, .i32⟩
  | 16 => ⟨S2000, .i32⟩
  | 17 => ⟨S2000, .i32⟩
  | 18 => ⟨S2000, .i32⟩
  | 19 => ⟨S2000x1, .i32⟩
  | 20 => ⟨S2000x128x5, .f32⟩
  | 21 => ⟨S_, .i32⟩
  | 22 => ⟨S2000, .i32⟩
  | 23 => ⟨S2000, .i1⟩
  | 24 => ⟨S_, .i32⟩
  | 25 => ⟨S2000, .i32⟩
  | 26 => ⟨S2000, .i32⟩
  | 27 => ⟨S2000, .i32⟩
  | 28 => ⟨S2000x1, .i32⟩
  | 29 => ⟨S2000x128x5, .f32⟩
  | 30 => ⟨S2000x64x5, .f32⟩
  | 31 => ⟨S2000x64x5, .f32⟩
  | 32 => ⟨S2000x320, .f32⟩
  | 33 => ⟨S2000x64x5, .f32⟩
  | 34 => ⟨S2000x320, .f32⟩
  | 35 => ⟨S2000x64x5, .f32⟩
  | 36 => ⟨S2000x320, .f32⟩
  | 37 => ⟨S_, .i32⟩
  | 38 => ⟨S2000, .i32⟩
  | 39 => ⟨S2000, .i1⟩
  | 40 => ⟨S_, .i32⟩
  | 41 => ⟨S2000, .i32⟩
  | 42 => ⟨S2000, .i32⟩
  | 43 => ⟨S2000, .i32⟩
  | 44 => ⟨S2000x1, .i32⟩
  | 45 => ⟨S2000x64x4, .f32⟩
  | 46 => ⟨S_, .i32⟩
  | 47 => ⟨S2000, .i32⟩
  | 48 => ⟨S2000, .i1⟩
  | 49 => ⟨S_, .i32⟩
  | 50 => ⟨S2000, .i32⟩
  | 51 => ⟨S2000, .i32⟩
  | 52 => ⟨S2000, .i32⟩
  | 53 => ⟨S2000x1, .i32⟩
  | 54 => ⟨S2000x64x4, .f32⟩
  | 55 => ⟨S_, .i32⟩
  | 56 => ⟨S2000, .i32⟩
  | 57 => ⟨S2000, .i1⟩
  | 58 => ⟨S_, .i32⟩
  | 59 => ⟨S2000, .i32⟩
  | 60 => ⟨S2000, .i32⟩
  | 61 => ⟨S2000, .i32⟩
  | 62 => ⟨S2000x1, .i32⟩
  | 63 => ⟨S2000x1x320, .f32⟩
  | 64 => ⟨S_, .i32⟩
  | 65 => ⟨S2000, .i32⟩
  | 66 => ⟨S2000, .i1⟩
  | 67 => ⟨S_, .i32⟩
  | 68 => ⟨S2000, .i32⟩
  | 69 => ⟨S2000, .i32⟩
  | 70 => ⟨S2000, .i32⟩
  | 71 => ⟨S2000x1, .i32⟩
  | 72 => ⟨S2000x2x320, .f32⟩
  | 73 => ⟨S2000x1x320, .f32⟩
  | 74 => ⟨S2000x320, .f32⟩
  | 75 => ⟨S2000x1x320, .f32⟩
  | 76 => ⟨S2000x320, .f32⟩
  | 77 => ⟨S80000x64x5, .f32⟩
  | 78 => ⟨S80000x320, .f32⟩
  | 79 => ⟨S80000x64x5, .f32⟩
  | 80 => ⟨S80000x320, .f32⟩
  | 81 => ⟨S2000x64x4, .f32⟩
  | 82 => ⟨S_, .f32⟩
  | 83 => ⟨S2000x64, .f32⟩
  | 84 => ⟨S2000x64x1, .f32⟩
  | 85 => ⟨S_, .f32⟩
  | 86 => ⟨S2000x64x1, .f32⟩
  | 87 => ⟨S2000x64x1, .f32⟩
  | 88 => ⟨S2000x64x1, .f32⟩
  | 89 => ⟨S2000x64x4, .f32⟩
  | 90 => ⟨S2000x64x4, .f32⟩
  | 91 => ⟨S2000x64x1, .f32⟩
  | 92 => ⟨S2000x64x4, .f32⟩
  | 93 => ⟨S2000x64x1, .f32⟩
  | 94 => ⟨S2000x64, .f32⟩
  | 95 => ⟨S2000x64x1, .f32⟩
  | 96 => ⟨S2000x64, .f32⟩
  | 97 => ⟨S2000x64x1, .f32⟩
  | 98 => ⟨S2000x64, .f32⟩
  | 99 => ⟨S2000x64x1, .f32⟩
  | 100 => ⟨S2000x64, .f32⟩
  | 101 => ⟨S2000x64x1, .f32⟩
  | 102 => ⟨S2000x64, .f32⟩
  | 103 => ⟨S2000x64x1, .f32⟩
  | 104 => ⟨S2000x64, .f32⟩
  | 105 => ⟨S2000x64x1, .f32⟩
  | 106 => ⟨S2000x64, .f32⟩
  | 107 => ⟨S2000x64x1, .f32⟩
  | 108 => ⟨S2000x64, .f32⟩
  | 109 => ⟨S2000x64, .f32⟩
  | 110 => ⟨S2000x64, .f32⟩
  | 111 => ⟨S2000x64, .f32⟩
  | 112 => ⟨S2000x64, .f32⟩
  | 113 => ⟨S2000x64, .f32⟩
  | 114 => ⟨S2000x64, .f32⟩
  | 115 => ⟨S2000x64, .f32⟩
  | 116 => ⟨S2000x64, .f32⟩
  | 117 => ⟨S2000x64, .f32⟩
  | 118 => ⟨S2000x64, .f32⟩
  | 119 => ⟨S2000x64, .f32⟩
  | 120 => ⟨S2000x64, .f32⟩
  | 121 => ⟨S2000x64, .f32⟩
  | 122 => ⟨S2000x64, .f32⟩
  | 123 => ⟨S2000x64, .f32⟩
  | 124 => ⟨S2000x64, .f32⟩
  | 125 => ⟨S2000x64, .f32⟩
  | 126 => ⟨S2000x64, .f32⟩
  | 127 => ⟨S2000x64, .f32⟩
  | _ => ⟨S2000x3, .i32⟩

abbrev hbmTy0_1 (i : Nat) : BufTy := match i % 128 with
  | 0 => ⟨S2000x64, .f32⟩
  | 1 => ⟨S2000x64, .f32⟩
  | 2 => ⟨S2000x64, .f32⟩
  | 3 => ⟨S2000x64, .f32⟩
  | 4 => ⟨S2000x64, .f32⟩
  | 5 => ⟨S2000x64, .f32⟩
  | 6 => ⟨S2000x64, .f32⟩
  | 7 => ⟨S2000x64, .f32⟩
  | 8 => ⟨S2000x64, .f32⟩
  | 9 => ⟨S2000x64x1, .f32⟩
  | 10 => ⟨S2000x64x1, .f32⟩
  | 11 => ⟨S2000x64x1, .f32⟩
  | 12 => ⟨S2000x64x1, .f32⟩
  | 13 => ⟨S2000x64x4, .f32⟩
  | 14 => ⟨S2000x64x5, .f32⟩
  | 15 => ⟨S2000x320x1, .f32⟩
  | 16 => ⟨S2000x64x1, .f32⟩
  | 17 => ⟨S2000x64x4, .f32⟩
  | 18 => ⟨S2000x64x4, .f32⟩
  | 19 => ⟨S_, .f32⟩
  | 20 => ⟨S2000x64, .f32⟩
  | 21 => ⟨S2000x64x1, .f32⟩
  | 22 => ⟨S_, .f32⟩
  | 23 => ⟨S_, .f32⟩
  | 24 => ⟨S_, .f32⟩
  | 25 => ⟨S2000x64x1, .f32⟩
  | 26 => ⟨S2000x64x1, .f32⟩
  | 27 => ⟨S_, .f32⟩
  | 28 => ⟨S2000x64x1, .f32⟩
  | 29 => ⟨S2000x64x1, .f32⟩
  | 30 => ⟨S_, .f32⟩
  | 31 => ⟨S2000x64x1, .f32⟩
  | 32 => ⟨S2000x64x1, .f32⟩
  | 33 => ⟨S2000x64x1, .f32⟩
  | 34 => ⟨S2000x64x4, .f32⟩
  | 35 => ⟨S_, .f32⟩
  | 36 => ⟨S2000x64, .f32⟩
  | 37 => ⟨S2000x64x1, .f32⟩
  | 38 => ⟨S2000x64x1, .f32⟩
  | 39 => ⟨S2000x64x1, .f32⟩
  | 40 => ⟨S2000x64x1, .f32⟩
  | 41 => ⟨S_, .f32⟩
  | 42 => ⟨S2000x64x1, .f32⟩
  | 43 => ⟨S2000x64x1, .f32⟩
  | 44 => ⟨S2000x64x1, .f32⟩
  | 45 => ⟨S_, .f32⟩
  | 46 => ⟨S2000x64x1, .f32⟩
  | 47 => ⟨S2000x64x1, .f32⟩
  | 48 => ⟨S2000x64x1, .f32⟩
  | 49 => ⟨S2000x64x1, .f32⟩
  | 50 => ⟨S2000x64x4, .f32⟩
  | 51 => ⟨S2000x64x4, .f32⟩
  | 52 => ⟨S2000x64x4, .f32⟩
  | 53 => ⟨S2000x64x5, .f32⟩
  | 54 => ⟨S2000x320x1, .f32⟩
  | 55 => ⟨S2000x320x2, .f32⟩
  | 56 => ⟨S_, .f32⟩
  | 57 => ⟨S2000x1x320, .f32⟩
  | 58 => ⟨S2000x1x320, .f32⟩
  | 59 => ⟨S2000x1x2, .f32⟩
  | 60 => ⟨S_, .f32⟩
  | 61 => ⟨S2000x1, .f32⟩
  | 62 => ⟨S_, .f32⟩
  | 63 => ⟨S2000x1, .f32⟩
  | 64 => ⟨S2000x1, .f32⟩
  | 65 => ⟨S2000x1x1, .f32⟩
  | 66 => ⟨S2000x1x2, .f32⟩
  | 67 => ⟨S2000x1x2, .f32⟩
  | 68 => ⟨S2000x1x2, .f32⟩
  | 69 => ⟨S_, .f32⟩
  | 70 => ⟨S2000x1, .f32⟩
  | 71 => ⟨S2000x1x1, .f32⟩
  | 72 => ⟨S2000x1x2, .f32⟩
  | 73 => ⟨S2000x1x2, .f32⟩
  | 74 => ⟨S2000x320x2, .f32⟩
  | 75 => ⟨S2000x320x2, .f32⟩
  | 76 => ⟨S_, .f32⟩
  | 77 => ⟨S2000x320, .f32⟩
  | 78 => ⟨S2000x320, .f32⟩
  | 79 => ⟨S2000x320, .f32⟩
  | 80 => ⟨S2000x320, .f32⟩
  | 81 => ⟨S320x80000, .f32⟩
  | 82 => ⟨S2000x80000, .f32⟩
  | 83 => ⟨S2000x320, .f32⟩
  | 84 => ⟨S2000x320, .f32⟩
  | 85 => ⟨S2000x320, .f32⟩
  | 86 => ⟨S320x80000, .f32⟩
  | 87 => ⟨S2000x80000, .f32⟩
  | 88 => ⟨S2000x80000, .f32⟩
  | 89 => ⟨S2000x320, .f32⟩
  | 90 => ⟨S2000x320, .f32⟩
  | 91 => ⟨S2000x320, .f32⟩
  | 92 => ⟨S2000x320, .f32⟩
  | 93 => ⟨S2000x320, .f32⟩
  | 94 => ⟨S2000x320, .f32⟩
  | 95 => ⟨S2000x320, .f32⟩
  | 96 => ⟨S2000x320, .f32⟩
  | 97 => ⟨S2000x320, .f32⟩
  | 98 => ⟨S2000x320, .f32⟩
  | 99 => ⟨S2000x320, .f32⟩
  | 100 => ⟨S2000x320, .f32⟩
  | 101 => ⟨S2000x320, .f32⟩
  | 102 => ⟨S_, .f32⟩
  | 103 => ⟨S2000x320, .f32⟩
  | 104 => ⟨S2000x320, .f32⟩
  | 105 => ⟨S2000x64x4, .f32⟩
  | 106 => ⟨S_, .f32⟩
  | 107 => ⟨S2000x64, .f32⟩
  | 108 => ⟨S2000x64, .f32⟩
  | 109 => ⟨S2000x64x4, .f32⟩
  | 110 => ⟨S_, .f32⟩
  | 111 => ⟨S2000x64, .f32⟩
  | 112 => ⟨S2000x64, .f32⟩
  | _ => ⟨S2000x3, .i32⟩

abbrev hbmTy (i : Nat) : BufTy := match i / 128 with
  | 0 => hbmTy0_0 i
  | 1 => hbmTy0_1 i
  | _ => ⟨S2000x3, .i32⟩

abbrev bufTy : (tb : Table) → Fin (tcTables nBuf tb) → BufTy
  | .hbm, ⟨i, _⟩ => hbmTy i
  | _, _ => ⟨S2000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_7 : Ref sig .tc := ⟨.hbm, 55, rfl⟩
abbrev main_v41 : Ref sig .tc := ⟨.hbm, 56, rfl⟩
abbrev main_v42 : Ref sig .tc := ⟨.hbm, 57, rfl⟩
abbrev main_c_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_9 : Ref sig .tc := ⟨.hbm, 64, rfl⟩
abbrev main_v48 : Ref sig .tc := ⟨.hbm, 65, rfl⟩
abbrev main_v49 : Ref sig .tc := ⟨.hbm, 66, rfl⟩
abbrev main_c_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst : Ref sig .tc := ⟨.hbm, 82, rfl⟩
abbrev main_v64 : Ref sig .tc := ⟨.hbm, 83, rfl⟩
abbrev main_v65 : Ref sig .tc := ⟨.hbm, 84, rfl⟩
abbrev main_cst_11 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_cst_12 : Ref sig .tc := ⟨.hbm, 147, rfl⟩
abbrev main_v127 : Ref sig .tc := ⟨.hbm, 148, rfl⟩
abbrev main_v128 : Ref sig .tc := ⟨.hbm, 149, rfl⟩
abbrev main_cst_13 : Ref sig .tc := ⟨.hbm, 150, rfl⟩
abbrev main_cst_14 : Ref sig .tc := ⟨.hbm, 151, rfl⟩
abbrev main_call0_v0 : Ref sig .tc := ⟨.hbm, 152, rfl⟩
abbrev main_call0_v1 : Ref sig .tc := ⟨.hbm, 153, rfl⟩
abbrev main_call0_v2 : Ref sig .tc := ⟨.hbm, 154, rfl⟩
abbrev main_call0_v3 : Ref sig .tc := ⟨.hbm, 155, rfl⟩
abbrev main_call0_v4 : Ref sig .tc := ⟨.hbm, 156, rfl⟩
abbrev main_v129 : Ref sig .tc := ⟨.hbm, 157, rfl⟩
abbrev main_cst_15 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_cst_16 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_17 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_cst_18 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_cst_19 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_cst_20 : Ref sig .tc := ⟨.hbm, 188, rfl⟩
abbrev main_v155 : Ref sig .tc := ⟨.hbm, 189, rfl⟩
abbrev main_cst_21 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_cst_22 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_cst_23 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_cst_24 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_cst_25 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_cst_26 : Ref sig .tc := ⟨.hbm, 238, rfl⟩
abbrev main_v199 : Ref sig .tc := ⟨.hbm, 239, rfl⟩
abbrev main_v200 : Ref sig .tc := ⟨.hbm, 240, rfl⟩

abbrev nD : Nat := 1
abbrev τ : Topo := Topo.v7x

variable {F : FTy → Type} [FloatOps F]

class Facts₀ : Prop where
  slices_S2000x3_S2000x1_0_0 : S2000x3.Slices ![0, 0] S2000x1
  shapeCasts_S2000x1_S2000 : S2000x1.ShapeCasts S2000
  slices_S2000x3_S2000x1_0_1 : S2000x3.Slices ![0, 1] S2000x1
  slices_S2000x3_S2000x1_0_2 : S2000x3.Slices ![0, 2] S2000x1
  bcast_S_S2000 : S_.BroadcastsInDim S2000 (![] : Fin 0 → Fin S2000.rank)
  bcast_S2000_S2000x1_0 : S2000.BroadcastsInDim S2000x1 (![0] : Fin 1 → Fin S2000x1.rank)
  slices_S2000x128x5_S2000x64x5_0_0_0 : S2000x128x5.Slices ![0, 0, 0] S2000x64x5
  slices_S2000x128x5_S2000x64x5_0_64_0 : S2000x128x5.Slices ![0, 64, 0] S2000x64x5
  shapeCasts_S2000x64x5_S2000x320 : S2000x64x5.ShapeCasts S2000x320
  slices_S2000x2x320_S2000x1x320_0_0_0 : S2000x2x320.Slices ![0, 0, 0] S2000x1x320
  shapeCasts_S2000x1x320_S2000x320 : S2000x1x320.ShapeCasts S2000x320
  slices_S2000x2x320_S2000x1x320_0_1_0 : S2000x2x320.Slices ![0, 1, 0] S2000x1x320
  slices_S80000x128x5_S80000x64x5_0_0_0 : S80000x128x5.Slices ![0, 0, 0] S80000x64x5
  shapeCasts_S80000x64x5_S80000x320 : S80000x64x5.ShapeCasts S80000x320
  slices_S80000x128x5_S80000x64x5_0_64_0 : S80000x128x5.Slices ![0, 64, 0] S80000x64x5
  reducesTo_S2000x64x4_S2000x64_d2 : S2000x64x4.ReducesTo [2] S2000x64
  h_S_ : 0 < S_.numel
  bcast_S2000x64_S2000x64x1_0_1 : S2000x64.BroadcastsInDim S2000x64x1 (![0, 1] : Fin 2 → Fin S2000x64x1.rank)
  bcast_S_S2000x64x1 : S_.BroadcastsInDim S2000x64x1 (![] : Fin 0 → Fin S2000x64x1.rank)
  bcast_S2000x64x1_S2000x64x4_0_1_2 : S2000x64x1.BroadcastsInDim S2000x64x4 (![0, 1, 2] : Fin 3 → Fin S2000x64x4.rank)
  slices_S2000x64x5_S2000x64x1_0_0_0 : S2000x64x5.Slices ![0, 0, 0] S2000x64x1
  slices_S2000x64x5_S2000x64x4_0_0_1 : S2000x64x5.Slices ![0, 0, 1] S2000x64x4
  slices_S2000x64x4_S2000x64x1_0_0_0 : S2000x64x4.Slices ![0, 0, 0] S2000x64x1
  shapeCasts_S2000x64x1_S2000x64 : S2000x64x1.ShapeCasts S2000x64
  slices_S2000x64x4_S2000x64x1_0_0_1 : S2000x64x4.Slices ![0, 0, 1] S2000x64x1
  slices_S2000x64x4_S2000x64x1_0_0_2 : S2000x64x4.Slices ![0, 0, 2] S2000x64x1
  slices_S2000x64x4_S2000x64x1_0_0_3 : S2000x64x4.Slices ![0, 0, 3] S2000x64x1
  concatenates_S2000x64x1_S2000x64x1_S2000x64x1_S2000x64x1_S2000x64x4_d2 : Shape.Concatenates [S2000x64x1, S2000x64x1, S2000x64x1, S2000x64x1] S2000x64x4 2
  concatenates_S2000x64x1_S2000x64x4_S2000x64x5_d2 : Shape.Concatenates [S2000x64x1, S2000x64x4] S2000x64x5 2
  shapeCasts_S2000x64x5_S2000x320x1 : S2000x64x5.ShapeCasts S2000x320x1
  concatenates_S2000x320x1_S2000x320x1_S2000x320x2_d2 : Shape.Concatenates [S2000x320x1, S2000x320x1] S2000x320x2 2
  bcast_S_S2000x1x320 : S_.BroadcastsInDim S2000x1x320 (![] : Fin 0 → Fin S2000x1x320.rank)
  reducesTo_S2000x1x2_S2000x1_d2 : S2000x1x2.ReducesTo [2] S2000x1
  bcast_S_S2000x1 : S_.BroadcastsInDim S2000x1 (![] : Fin 0 → Fin S2000x1.rank)
  bcast_S2000x1_S2000x1x1_0_1 : S2000x1.BroadcastsInDim S2000x1x1 (![0, 1] : Fin 2 → Fin S2000x1x1.rank)
  bcast_S2000x1x1_S2000x1x2_0_1_2 : S2000x1x1.BroadcastsInDim S2000x1x2 (![0, 1, 2] : Fin 3 → Fin S2000x1x2.rank)
  bcast_S2000x1x2_S2000x320x2_0_1_2 : S2000x1x2.BroadcastsInDim S2000x320x2 (![0, 1, 2] : Fin 3 → Fin S2000x320x2.rank)
  reducesTo_S2000x320x2_S2000x320_d2 : S2000x320x2.ReducesTo [2] S2000x320
  transposes_S80000x320_S320x80000_1_0 : S80000x320.Transposes [1, 0] S320x80000
  bcast_S_S2000x320 : S_.BroadcastsInDim S2000x320 (![] : Fin 0 → Fin S2000x320.rank)
  gather_S80000x128x5_S2000x1_S2000x128x5_12_0_n_n_0_1_11285_wf : GatherDims.WF S80000x128x5 S2000x1 S2000x128x5 [1, 2] [0] [] [0] [] 1 ![1, 128, 5]
  gather_S500x64x4_S2000x1_S2000x64x4_12_0_n_n_0_1_1644_wf : GatherDims.WF S500x64x4 S2000x1 S2000x64x4 [1, 2] [0] [] [0] [] 1 ![1, 64, 4]
  gather_S500x1x320_S2000x1_S2000x1x320_12_0_n_n_0_1_11320_wf : GatherDims.WF S500x1x320 S2000x1 S2000x1x320 [1, 2] [0] [] [0] [] 1 ![1, 1, 320]
  gather_S500x2x320_S2000x1_S2000x2x320_12_0_n_n_0_1_12320_wf : GatherDims.WF S500x2x320 S2000x1 S2000x2x320 [1, 2] [0] [] [0] [] 1 ![1, 2, 320]
  dot_S2000x1x320_S2000x320x2_S2000x1x2_2_1_1_2_0_0_wf : DotDims.WF S2000x1x320 S2000x320x2 S2000x1x2 [2] [1] [1] [2] [0] [0]
  dot_S2000x320_S320x80000_S2000x80000_1_0_0_1_n_n_wf : DotDims.WF S2000x320 S320x80000 S2000x80000 [1] [0] [0] [1] [] []

variable [Facts₀]

def gather_S80000x128x5_S2000x1_S2000x128x5_12_0_n_n_0_1_11285 : GatherDims S80000x128x5 S2000x1 S2000x128x5 where
  offsetDims := [1, 2]
  collapsedSliceDims := [0]
  operandBatchingDims := []
  startIndicesBatchingDims := []
  startIndexMap := [0]
  indexVectorDim := 1
  sliceSizes := ![1, 128, 5]
  wf := gather_S80000x128x5_S2000x1_S2000x128x5_12_0_n_n_0_1_11285_wf
def gather_S500x64x4_S2000x1_S2000x64x4_12_0_n_n_0_1_1644 : GatherDims S500x64x4 S2000x1 S2000x64x4 where
  offsetDims := [1, 2]
  collapsedSliceDims := [0]
  operandBatchingDims := []
  startIndicesBatchingDims := []
  startIndexMap := [0]
  indexVectorDim := 1
  sliceSizes := ![1, 64, 4]
  wf := gather_S500x64x4_S2000x1_S2000x64x4_12_0_n_n_0_1_1644_wf
def gather_S500x1x320_S2000x1_S2000x1x320_12_0_n_n_0_1_11320 : GatherDims S500x1x320 S2000x1 S2000x1x320 where
  offsetDims := [1, 2]
  collapsedSliceDims := [0]
  operandBatchingDims := []
  startIndicesBatchingDims := []
  startIndexMap := [0]
  indexVectorDim := 1
  sliceSizes := ![1, 1, 320]
  wf := gather_S500x1x320_S2000x1_S2000x1x320_12_0_n_n_0_1_11320_wf
def gather_S500x2x320_S2000x1_S2000x2x320_12_0_n_n_0_1_12320 : GatherDims S500x2x320 S2000x1 S2000x2x320 where
  offsetDims := [1, 2]
  collapsedSliceDims := [0]
  operandBatchingDims := []
  startIndicesBatchingDims := []
  startIndexMap := [0]
  indexVectorDim := 1
  sliceSizes := ![1, 2, 320]
  wf := gather_S500x2x320_S2000x1_S2000x2x320_12_0_n_n_0_1_12320_wf
def dot_S2000x1x320_S2000x320x2_S2000x1x2_2_1_1_2_0_0 : DotDims S2000x1x320 S2000x320x2 S2000x1x2 where
  lhsContracting := [2]
  rhsContracting := [1]
  lhsNonContracting := [1]
  rhsNonContracting := [2]
  lhsBatch := [0]
  rhsBatch := [0]
  wf := dot_S2000x1x320_S2000x320x2_S2000x1x2_2_1_1_2_0_0_wf
def dot_S2000x320_S320x80000_S2000x80000_1_0_0_1_n_n : DotDims S2000x320 S320x80000 S2000x80000 where
  lhsContracting := [1]
  rhsContracting := [0]
  lhsNonContracting := [0]
  rhsNonContracting := [1]
  lhsBatch := []
  rhsBatch := []
  wf := dot_S2000x320_S320x80000_S2000x80000_1_0_0_1_n_n_wf

class Facts : Prop extends Facts₀ where

variable [Facts]
-- ==== Proof.KernelHost.lean ====
import proofs.«103698_j86337432584674_2_alg».proof.Proof.Gen.Kernel.Launch
import proofs.«103698_j86337432584674_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
  The host side of the program around its one pipelined region: three stretches of host operations run before the
  region (the gathers, the rotation and the boost, the softmax blend, the two factors of the score product), one
  stretch after it (the five regularisation outputs). Here: the buffer contents when the region is entered, that
  the later stretch touches neither a scoped buffer nor an array of the pipeline, and that no host operation ever
  writes an argument array.
-/

set_option maxRecDepth 16384

noncomputable section

namespace Cert.Kernel.Host

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffer contents when the region is entered: after the three stretches of host operations before it. -/
abbrev V0 (c : Dev nD) : Valuation τ sig (Elt F) := StableHlo.after (List.flatten [hostOps0, hostOps0_1, hostOps0_2]) (fun b => m (c, b))
/-- The same, read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the earlier stretches, the region, the later stretch: it reduces to the region continued by the later
    stretch, at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The later stretch touches the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- No operation of the later stretch writes one of the pipeline's three arrays. -/
theorem hostOps1_keeps (w : Fin 3) : (hostOps1 : List (HloOp τ sig (Elt F))).Forall fun op => Proc.devRef .tc (Pipeline.arrRef spec0 w) ∉ op.writes := by
  fin_cases w <;> (simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]; repeat' apply And.intro) <;> exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  · exact (List.forall_iff_forall_mem.mp (hostOps1_keeps w)) op hop

set_option maxHeartbeats 8000000 in
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 8000000 in
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 8000000 in
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 8000000 in
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 8000000 in
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 8000000 in
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- Window `w`'s block at point `t`, read off its array as the region finds it: the part of the block inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Host

end
-- ==== Proof.LibWholeStore.lean ====
/-
  One store through the whole buffer, read back.

  A buffer seen through any view of shape `S`, after a single unmasked store through the rectangle that starts at
  offset zero on every axis and has the shape's own extents, reads back as that store's payload, whatever it held
  before: the rectangle's index set is all of `S`, so the store's one piece covers every index, and the canonical
  contents of a covering list of one piece is the piece's payload.
-/
import Idealize.ShloMosaic.Lib.Pipeline.FrameBody
import Idealize.ShloMosaic.Lib.Pipeline.Value

noncomputable section

namespace Idealize.ShloMosaic.View

variable {Val : EltTy → Type} [∀ e, Nonempty (Val e)] {S : Shape} {e : EltTy}

/-- After one store of `w` through the whole-shape rectangle at zero offsets, the view reads `w`. -/
theorem read_writes_whole_store {sig : RefSig} {κ : Kind} {sp : Space} (v : View sig κ sp S e) (f : v.ty.Contents Val)
    {off : Fin S.rank → Nat} (h : off = fun _ => 0) (inb : ∀ a, off a + S.size a ≤ S.size a) (w : S.Idx → Val e) :
    v.read Val (v.writes Val f [(⟨Rect.unit off S.size inb, w⟩ : Piece Val S e)]) = w :=
  (read_writes_eq_canon v f _ (fun y => ⟨_, List.mem_singleton_self _, mem_set_unit_zero h inb y⟩)).trans
    (canon_unit_zero h inb w)

end Idealize.ShloMosaic.View

end
-- ==== Proof.KernelBody.lean ====
import proofs.«103698_j86337432584674_2_alg».proof.Proof.Gen.Kernel.Launch
import proofs.«103698_j86337432584674_2_alg».proof.Proof.Gen.Kernel.Skeleton
import proofs.«103698_j86337432584674_2_alg».proof.Proof.Gen.Kernel.Points
import proofs.«103698_j86337432584674_2_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic

/-!
  The kernel body at one grid point, on whole staging buffers: it loads the left factor (2000 × 640) and one
  tile of 1280 rows of the right factor (1280 × 640), and stores, over the whole result tile (2000 × 1280), the
  product of the left factor with the transposed tile. Whatever the result tile held before is overwritten; the
  two input tiles are left as they were.
-/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- One grid point: from the two input tiles at contents `x0`, `x1` and the result tile at anything, the body ends with the
    inputs unchanged and the result tile holding the product tile `k0_pay1 x0 x1`. -/
theorem sound_kernel (c : Dev nD) (E : Set ℕ) (i : grid0.Coords)
    (arg1 : Memref sig .tc .vmem S2000x640 .bf16) (harg1 : arg1.IsWhole)
    (arg2 : Memref sig .tc .vmem S1280x640 .f32) (harg2 : arg2.IsWhole)
    (arg3 : Memref sig .tc .vmem S2000x1280 .f32) (harg3 : arg3.IsWhole)
    (x0 : Vec F S2000x640 .bf16) (x1 : Vec F S1280x640 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__matmul_kernel i arg1 harg1 arg2 harg2 arg3 harg3) K := by
  have hz : (![0, 0] : Fin 2 → Nat) = fun _ => 0 := funext fun a => by fin_cases a <;> rfl
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_whole_store _ _ hz _ _).trans ?_
  simp only [View.readAt_eq_ld, View.ld_unit_zero (S := S2000x640) hz, View.ld_unit_zero (S := S1280x640) hz]

end Cert.Kernel.Body

end
-- ==== Proof.KernelFrame.lean ====
import proofs.«103698_j86337432584674_2_alg».proof.Proof.KernelHost
import proofs.«103698_j86337432584674_2_alg».proof.Proof.KernelBody

/-!
  The frame of the program read at any float instance: it runs to the end, faults nowhere, and its six argument
  arrays end as they were launched. The pipelined region is run tile by tile: the left factor's tile is the whole
  array, fetched once; the right factor's tile is 1280 rows, the last one overhanging the 80000-row array by half,
  so that only its 640 rows inside the array are fetched and the buffer's other rows hold words nothing names; the
  result tile, 1280 columns, overhangs the 80000-column result in the same way and only its part inside the array is
  written back. Nothing is said here of what the result holds: for the frame the result window's contents are forgotten.
-/

set_option maxRecDepth 16384

noncomputable section

namespace Cert.Kernel.Frame

open Cert.Kernel Cert.Kernel.Gen Cert.Kernel.Host Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result window is forgotten. -/
def forgets0 : Fin 3 → Bool := fun w => w.val == 2

/-- The proof data of the pipeline on core `c`: the arrays as the region finds them; after the body the left factor's
    buffer holds the whole left factor, the right factor's buffer its tile on the rows inside the array (zero words
    elsewhere: nothing reads them), the result's buffer is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => Scalar.ofBits .f32 0#32) (iblk m c 1 t) := by dsimp only [dats]

/-- The left factor's buffer holds the whole left factor at every point, though it is fetched at the first only. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- The right factor's buffer, fetched at every point, holds its tile on the rows inside the array and what it held
    elsewhere. -/
theorem before0_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ X, owns (c : Thread nD τ) (st0_2 t) fullShare X))

/-- The body at any point: both input buffers are handed back as found, the result's at whatever the body stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, Window.cut_fill]
  iintro ⟨HΦ, Ho, ⟨%d0, H0⟩, ⟨%d1, H1⟩, ⟨%d2, H2⟩⟩
  iapply (sound_kernel c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexists d1; iexact H1
  iexists _; iexact H2

theorem body_obligation (c : Dev nD) : BodyObligationLoose (dats (F := F) m 0 c) (defs₀ (F := F)) Variants.none () Set.univ forgets0 := fun t => by
  rw [bigSep_W0, bigSep_W0]
  exact sound_body m c t

/-- The buffers the later stretch of host operations writes. -/
def tailWrites : Finset (Ref sig .tc) :=
  {main_v175, main_v176, main_v177, main_v178, main_v179, main_v180, main_v181, main_v182, main_v183, main_v184, main_v185,
   main_v186, main_v187, main_cst_24, main_v188, main_v189, main_v190, main_cst_25, main_v191, main_v192, main_v193,
   main_cst_26, main_v194, main_v195}

theorem hostOps1_writes : (hostOps1 : List (HloOp τ sig (Elt F))).Forall fun op =>
    ∀ b : Ref sig .tc, Proc.devRef .tc b ∈ op.writes → b ∈ tailWrites := by
  simp only [hostOps1, List.Forall, StableHlo.nullary_writes, StableHlo.unary_writes, StableHlo.binary_writes, StableHlo.reshape_writes, Finset.mem_singleton]
  repeat' apply And.intro
  all_goals (intro b hb; obtain rfl := Proc.devRef_injective _ hb; decide)

theorem sfx_writes : ∀ ops ∈ ([hostOps1] : List (List (HloOp τ sig (Elt F)))), ∀ op ∈ ops,
    ∀ b : Ref sig .tc, Proc.devRef .tc b ∈ op.writes → b ∈ tailWrites := by
  intro ops hops op hop
  simp only [List.mem_cons, List.mem_nil_iff, or_false] at hops
  rcases hops with rfl
  · exact (List.forall_iff_forall_mem.mp hostOps1_writes) op hop

set_option backward.isDefEq.respectTransparency.types false in
/-- Every weakly fair execution ends; the pipeline's input arrays end as the region found them, and every unscoped buffer
    that is neither an array of the pipeline nor written by the later stretch ends as the region found it. -/
theorem run_main : θ_run defs (onTc (τ := τ) (main (F := F))) (s₀ m ρ)
    (Pipeline.RDat.FramePostR (cfgs 0) (fun c => (dats m 0 c).toRForget forgets0) tailWrites (V m)) :=
  Pipeline.RDat.θ_run_frame_around_T cfgs (0 : Fin 1) launch0 defs₀ Variants.none (fun c => (dats m 0 c).toRForget forgets0) tailWrites m ρ main
    (hbody := fun c => (body_obligation m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

/-- The frame: no host operation before the region writes an argument, the region and the later stretch leave it alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    ((h c).2 main_arg0 (Finset.mem_sdiff.mpr ⟨Pipeline.mem_restRefs_of main_arg0 (by decide) (by decide), by decide⟩)).trans (V_main_arg0 m c),
    ((h c).2 main_arg1 (Finset.mem_sdiff.mpr ⟨Pipeline.mem_restRefs_of main_arg1 (by decide) (by decide), by decide⟩)).trans (V_main_arg1 m c),
    ((h c).2 main_arg2 (Finset.mem_sdiff.mpr ⟨Pipeline.mem_restRefs_of main_arg2 (by decide) (by decide), by decide⟩)).trans (V_main_arg2 m c),
    ((h c).2 main_arg3 (Finset.mem_sdiff.mpr ⟨Pipeline.mem_restRefs_of main_arg3 (by decide) (by decide), by decide⟩)).trans (V_main_arg3 m c),
    ((h c).2 main_arg4 (Finset.mem_sdiff.mpr ⟨Pipeline.mem_restRefs_of main_arg4 (by decide) (by decide), by decide⟩)).trans (V_main_arg4 m c),
    ((h c).2 main_arg5 (Finset.mem_sdiff.mpr ⟨Pipeline.mem_restRefs_of main_arg5 (by decide) (by decide), by decide⟩)).trans (V_main_arg5 m c)⟩)
    (run_main m ρ)

end Cert.Kernel.Frame

end
-- ==== Proof.KernelIdealHost.lean ====
import proofs.«103698_j86337432584674_2_alg».proof.Proof.Gen.KernelIdeal.Launch
import proofs.«103698_j86337432584674_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
  The host side of the program around its one pipelined region: three stretches of host operations run before the
  region (the gathers, the rotation and the boost, the softmax blend, the two factors of the score product), one
  stretch after it (the five regularisation outputs). Here: the buffer contents when the region is entered, that
  the later stretch touches neither a scoped buffer nor an array of the pipeline, and that no host operation ever
  writes an argument array.
-/

set_option maxRecDepth 16384

noncomputable section

namespace Cert.KernelIdeal.Host

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffer contents when the region is entered: after the three stretches of host operations before it. -/
abbrev V0 (c : Dev nD) : Valuation τ sig (Elt F) := StableHlo.after (List.flatten [hostOps0, hostOps0_1, hostOps0_2]) (fun b => m (c, b))
/-- The same, read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the earlier stretches, the region, the later stretch: it reduces to the region continued by the later
    stretch, at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The later stretch touches the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- No operation of the later stretch writes one of the pipeline's three arrays. -/
theorem hostOps1_keeps (w : Fin 3) : (hostOps1 : List (HloOp τ sig (Elt F))).Forall fun op => Proc.devRef .tc (Pipeline.arrRef spec0 w) ∉ op.writes := by
  fin_cases w <;> (simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]; repeat' apply And.intro) <;> exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  · exact (List.forall_iff_forall_mem.mp (hostOps1_keeps w)) op hop

set_option maxHeartbeats 8000000 in
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 8000000 in
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 8000000 in
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 8000000 in
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 8000000 in
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 8000000 in
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- Window `w`'s block at point `t`, read off its array as the region finds it: the part of the block inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Host

end
-- ==== Proof.KernelIdealBody.lean ====
import proofs.«103698_j86337432584674_2_alg».proof.Proof.Gen.KernelIdeal.Launch
import proofs.«103698_j86337432584674_2_alg».proof.Proof.Gen.KernelIdeal.Skeleton
import proofs.«103698_j86337432584674_2_alg».proof.Proof.Gen.KernelIdeal.Points
import proofs.«103698_j86337432584674_2_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic

/-!
  The kernel body at one grid point, on whole staging buffers: it loads the left factor (2000 × 640) and one
  tile of 1280 rows of the right factor (1280 × 640), and stores, over the whole result tile (2000 × 1280), the
  product of the left factor with the transposed tile. Whatever the result tile held before is overwritten; the
  two input tiles are left as they were.
-/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- One grid point: from the two input tiles at contents `x0`, `x1` and the result tile at anything, the body ends with the
    inputs unchanged and the result tile holding the product tile `k0_pay1 x0 x1`. -/
theorem sound_kernel (c : Dev nD) (E : Set ℕ) (i : grid0.Coords)
    (arg1 : Memref sig .tc .vmem S2000x640 .bf16) (harg1 : arg1.IsWhole)
    (arg2 : Memref sig .tc .vmem S1280x640 .f32) (harg2 : arg2.IsWhole)
    (arg3 : Memref sig .tc .vmem S2000x1280 .f32) (harg3 : arg3.IsWhole)
    (x0 : Vec F S2000x640 .bf16) (x1 : Vec F S1280x640 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__matmul_kernel i arg1 harg1 arg2 harg2 arg3 harg3) K := by
  have hz : (![0, 0] : Fin 2 → Nat) = fun _ => 0 := funext fun a => by fin_cases a <;> rfl
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_whole_store _ _ hz _ _).trans ?_
  simp only [View.readAt_eq_ld, View.ld_unit_zero (S := S2000x640) hz, View.ld_unit_zero (S := S1280x640) hz]

end Cert.KernelIdeal.Body

end
-- ==== Proof.KernelIdealTile.lean ====
import proofs.«103698_j86337432584674_2_alg».proof.Proof.Gen.KernelIdeal.Skeleton
import Idealize.ShloMosaic.Lib.Pipeline.Value
import Idealize.ShloMosaic.Lib.ValueIdx
import Idealize.ShloMosaic.PureOps.Ideal.Laws

/-!
  The product tile read at an entry, on the extended reals. The body's one payload multiplies the left factor
  (2000 × 640, rounded to bf16 before the region: no change on the extended reals) with the transposed tile of the
  right factor (1280 × 640, rounded to bf16 in the body: no change either), into a zero accumulator. Entry (p, q) of
  the product tile is therefore the plain sum over the 640 joint coordinates of left(p, k) · right(q, k).
-/

noncomputable section

namespace Cert.KernelIdeal.Tile

open Cert.KernelIdeal Cert.KernelIdeal.Gen Idealize.ShloMosaic Idealize.ShloMosaic.ValueIdx

/-- The product's dimension record: both operands contracted along their second axis. -/
abbrev D := dot_S2000x640_S1280x640_S2000x1280_1_1_0_0_n_n

theorem lhs_row (j : S2000x1280.Idx) (q : D.contr.Idx) : (D.lhsIdx j q 0).val = (j 0).val := by
  unfold DotDims.lhsIdx
  rw [dif_neg (show ¬(0 : Fin S2000x640.rank) ∈ D.lhsBatch by decide), dif_pos (show (0 : Fin S2000x640.rank) ∈ D.lhsNonContracting by decide)]
  rfl
theorem lhs_col (j : S2000x1280.Idx) (q : D.contr.Idx) : (D.lhsIdx j q 1).val = (q ⟨0, by decide⟩).val :=
  D.lhsIdx_val_of_single rfl j q
theorem rhs_row (j : S2000x1280.Idx) (q : D.contr.Idx) : (D.rhsIdx j q 0).val = (j 1).val := by
  unfold DotDims.rhsIdx
  rw [dif_neg (show ¬(0 : Fin S1280x640.rank) ∈ D.rhsBatch by decide), dif_pos (show (0 : Fin S1280x640.rank) ∈ D.rhsNonContracting by decide)]
  rfl
theorem rhs_col (j : S2000x1280.Idx) (q : D.contr.Idx) : (D.rhsIdx j q 1).val = (q ⟨0, by decide⟩).val :=
  D.rhsIdx_val_of_single rfl j q

/-- Entry (p, q) of the product tile: the sum over the joint coordinate of left(p, k) · right(q, k). -/
theorem tile_apply (x0 : FVec Ideal S2000x640 .bf16) (x1 : FVec Ideal S1280x640 .f32) (p : Fin 2000) (q : Fin 1280) :
    k0_pay1 (F := Ideal) x0 x1 (ix2 p q) = ∑ k : Fin 640, x0 (ix2 p k) * x1 (ix2 q k) := by
  unfold k0_pay1
  rw [shapeCast_self, shapeCast_self]
  refine (Ideal.matmul_constant_zero_apply D none x0 (truncf .bf16 x1 bitsLt_bf16_f32) (ix2 p q)).trans ?_
  rw [← Equiv.sum_comp (contrEquiv1 D 640 rfl rfl).symm]
  refine Finset.sum_congr rfl fun k _ => ?_
  have hk := contrEquiv1_symm_val D 640 rfl rfl k
  have el : D.lhsIdx (ix2 p q) ((contrEquiv1 D 640 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 640 rfl rfl).symm k) = ix2 q k := funext fun a => Fin.ext (by
    match a with
    | ⟨0, _⟩ => exact rhs_row _ _
    | ⟨1, _⟩ => exact (rhs_col _ _).trans hk)
  rw [el, er]
  rfl

end Cert.KernelIdeal.Tile

end
-- ==== Proof.KernelIdealScores.lean ====
import proofs.«103698_j86337432584674_2_alg».proof.KernelIdeal
import Idealize.ShloMosaic.Lib.ValueIdx

/-!
  The score table as one function of its two factors, on the extended reals: entry (b, n) is the sum over the 640
  joint coordinates k of left(b, k) · right(n, k) — the left factor the 2000 × 640 table of query vectors (the two
  320-wide halves side by side), the right factor the 80000 × 640 table of entity vectors.
-/

noncomputable section

namespace Cert.KernelIdeal.Scores

open Cert.KernelIdeal Idealize.ShloMosaic Idealize.ShloMosaic.ValueIdx

/-- Entry (b, n) of the score table: Σₖ left(b, k) · right(n, k), k over the 640 joint coordinates. -/
def scores (ab : FVec Ideal S2000x640 .bf16) (tt : FVec Ideal S80000x640 .f32) : FVec Ideal S2000x80000 .f32 :=
  fun i => ∑ k : Fin 640, ab (ix2 (⟨(i 0).val, idx2_lt0 i⟩ : Fin 2000) k) * tt (ix2 (⟨(i 1).val, idx2_lt1 i⟩ : Fin 80000) k)

theorem scores_apply (ab : FVec Ideal S2000x640 .bf16) (tt : FVec Ideal S80000x640 .f32) (b : Fin 2000) (n : Fin 80000) :
    scores ab tt (ix2 b n) = ∑ k : Fin 640, ab (ix2 b k) * tt (ix2 n k) := rfl

end Cert.KernelIdeal.Scores

end
-- ==== Proof.KernelIdealFrame.lean ====
import proofs.«103698_j86337432584674_2_alg».proof.Proof.KernelIdealHost
import proofs.«103698_j86337432584674_2_alg».proof.Proof.KernelIdealBody
import proofs.«103698_j86337432584674_2_alg».proof.Proof.KernelIdealTile
import proofs.«103698_j86337432584674_2_alg».proof.Proof.KernelIdealScores

/-!
  The run of the program read on the extended reals, with its score table named. The pipelined region is run tile
  by tile over its 63 points: the left factor's tile is the whole 2000 × 640 array, fetched once; the right factor's
  tile at point t is rows 1280·t … 1280·t + 1279 of the 80000 × 640 array, the last tile overhanging the array by
  half, so that only its 640 rows inside the array are fetched; the result's tile at point t is columns
  1280·t … 1280·t + 1279 of the 2000 × 80000 result, overhanging in the same way, and only its columns inside the
  array are written back. A column of the result tile that lies inside the array is computed from a row of the right
  tile that lies inside the array, so what the overhanging rows hold never reaches the result: after the region the
  result array is the score table of the two factors, entry (b, n) = Σₖ left(b, k) · right(n, k).
-/

set_option maxRecDepth 16384

noncomputable section

namespace Cert.KernelIdeal.Frame

open Cert.KernelIdeal Cert.KernelIdeal.Gen Cert.KernelIdeal.Host Cert.KernelIdeal.Body Cert.KernelIdeal.Tile Cert.KernelIdeal.Scores
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The score table of the two factors as the region finds them: what the result array is shown to end at. -/
def G (c : Dev nD) : Buf (Elt Ideal) ((c : Thread nD τ).loc main_v174) :=
  scores (V m c main_v173 : S2000x640.Idx → EReal) (V m c main_v59 : S80000x640.Idx → EReal)

/-- The proof data of the pipeline on core c: the arrays as the region finds them; after the body the left factor's
    buffer holds the whole left factor, the right factor's buffer its tile on the rows inside the array, the result's
    buffer the score table's tile on the columns inside the array (zero words elsewhere: nothing reads them). -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits (F := Ideal) .f32 0#32) (iblk m c 1 t)
    | ⟨2, _⟩ => win0_2.fill (grid0.coords t) (fun _ => Scalar.ofBits (F := Ideal) .f32 0#32) ((win0_2.blk t).view.read (Elt Ideal) (G m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => Scalar.ofBits (F := Ideal) .f32 0#32) (iblk m c 1 t) := by dsimp only [dats]
theorem after0_2 (c : Dev nD) (t : Fin cfg0.N) :
    (dats m 0 c).after 2 t = win0_2.fill (grid0.coords t) (fun _ => Scalar.ofBits (F := Ideal) .f32 0#32)
      ((win0_2.blk t).view.read (Elt Ideal) (G m c)) := by dsimp only [dats]

/-- The left factor's buffer holds the whole left factor at every point, though it is fetched at the first only. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- The right factor's buffer, fetched at every point, holds its tile on the rows inside the array and what it held
    elsewhere. -/
theorem before0_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]; try rfl

/-- Where each window's tile sits at each point and how it is cut at the array's end, over the 63 points at once: the
    right factor's tile at point t starts at row 1280·t, the result's at column 1280·t, the left factor's is the whole
    array; the right tile is cut to as many rows as the result tile to columns, which end where the array does. -/
theorem grid_facts : ∀ t : Fin grid0.N,
    win0_0.index t 0 = 0 ∧ win0_0.index t 1 = 0
    ∧ win0_1.index t 0 = t.val ∧ win0_1.index t 1 = 0
    ∧ win0_2.index t 0 = 0 ∧ win0_2.index t 1 = t.val
    ∧ win0_1.xsize (grid0.coords t) 0 = win0_2.xsize (grid0.coords t) 1
    ∧ win0_1.xsize (grid0.coords t) 1 = 640
    ∧ win0_2.xsize (grid0.coords t) 0 = 2000
    ∧ t.val * 1280 + win0_2.xsize (grid0.coords t) 1 = min 80000 ((t.val + 1) * 1280) := by decide +kernel

/-- An entry of the left factor's tile is the entry of the left factor at the same place. -/
theorem read_left (t : Fin cfg0.N) (A : S2000x640.Idx → EReal) (b : Fin 2000) (k : Fin 640) :
    (win0_0.blk t).view.read (Elt Ideal) A (ix2 b k) = A (ix2 b k) := by
  obtain ⟨h00, h01, -⟩ := grid_facts t
  rw [View.read_apply]
  show A _ = A _
  congr 1
  funext a
  apply Fin.ext
  match a with
  | ⟨0, _⟩ => show win0_0.index t 0 * 2000 + 1 * b.val = b.val; rw [h00]; omega
  | ⟨1, _⟩ => show win0_0.index t 1 * 640 + 1 * k.val = k.val; rw [h01]; omega

/-- Entry (r, k) of the right factor's tile at point t, r inside the array, is entry (1280·t + r, k) of the right factor. -/
theorem read_right (t : Fin cfg0.N) (T : S80000x640.Idx → EReal) (z : (win0_1.xblock (grid0.coords t)).Idx)
    (n : Fin 80000) (k : Fin 640) (hn : n.val = t.val * 1280 + (z 0).val) (hk : k.val = (z 1).val) :
    (win0_1.blk t).view.read (Elt Ideal) T z = T (ix2 n k) := by
  obtain ⟨-, -, h10, h11, -⟩ := grid_facts t
  rw [View.read_apply]
  show T _ = T _
  congr 1
  funext a
  apply Fin.ext
  match a with
  | ⟨0, _⟩ => show win0_1.index t 0 * 1280 + 1 * (z 0).val = n.val; rw [h10, hn]; omega
  | ⟨1, _⟩ => show win0_1.index t 1 * 640 + 1 * (z 1).val = k.val; rw [h11, hk]; omega

/-- Entry (b, r) of the result's tile at point t, r inside the array, is entry (b, 1280·t + r) of the result. -/
theorem read_result (t : Fin cfg0.N) (R : S2000x80000.Idx → EReal) (y : (win0_2.xblock (grid0.coords t)).Idx)
    (b : Fin 2000) (n : Fin 80000) (hb : b.val = (y 0).val) (hn : n.val = t.val * 1280 + (y 1).val) :
    (win0_2.blk t).view.read (Elt Ideal) R y = R (ix2 b n) := by
  obtain ⟨-, -, -, -, h20, h21, -⟩ := grid_facts t
  rw [View.read_apply]
  show R _ = R _
  congr 1
  funext a
  apply Fin.ext
  match a with
  | ⟨0, _⟩ => show win0_2.index t 0 * 2000 + 1 * (y 0).val = b.val; rw [h20, hb]; omega
  | ⟨1, _⟩ => show win0_2.index t 1 * 1280 + 1 * (y 1).val = n.val; rw [h21, hn]; omega

/-- The product tile on the columns inside the array is the score table's tile: a column of the result tile inside the
    array is computed from a row of the right tile inside the array, where the buffer holds the right factor's row. -/
theorem tile_value (c : Dev nD) (t : Fin cfg0.N) (d1 : S1280x640.Idx → Elt Ideal .f32) :
    win0_2.cut (grid0.coords t) (k0_pay1 (F := Ideal) (iblk m c 0 t) (win0_1.fill (grid0.coords t) d1 (iblk m c 1 t)))
      = (win0_2.blk t).view.read (Elt Ideal) (G m c) := by
  obtain ⟨-, -, -, -, -, -, hx, hx1, hx2, hend⟩ := grid_facts t
  funext y
  have hy0 : (y 0).val < 2000 := hx2 ▸ (y 0).isLt
  have hy1 : (y 1).val < win0_2.xsize (grid0.coords t) 1 := (y 1).isLt
  have hy1' : (y 1).val < 1280 := Nat.lt_of_lt_of_le hy1 (win0_2.xsize_le _ 1)
  have hn : t.val * 1280 + (y 1).val < 80000 := by omega
  -- the entry's row of the left factor, its column within the tile, and its column of the result
  obtain ⟨p, hp⟩ : ∃ p : Fin 2000, p.val = (y 0).val := ⟨⟨_, hy0⟩, rfl⟩
  obtain ⟨q, hq⟩ : ∃ q : Fin 1280, q.val = (y 1).val := ⟨⟨_, hy1'⟩, rfl⟩
  obtain ⟨n, hnv⟩ : ∃ n : Fin 80000, n.val = t.val * 1280 + (y 1).val := ⟨⟨_, hn⟩, rfl⟩
  have e1 : win0_2.xinj (grid0.coords t) y = ix2 p q := funext fun a => Fin.ext (by
    match a with
    | ⟨0, _⟩ => exact hp.symm
    | ⟨1, _⟩ => exact hq.symm)
  show k0_pay1 (F := Ideal) (iblk m c 0 t) (win0_1.fill (grid0.coords t) d1 (iblk m c 1 t)) (win0_2.xinj (grid0.coords t) y) = _
  rw [e1, tile_apply, read_result t (G m c) y p n hp hnv]
  unfold G
  rw [scores_apply]
  refine Finset.sum_congr rfl fun k _ => ?_
  -- row q of the right tile lies inside the array: the buffer holds the right factor's row there
  have hq' : q.val < win0_1.xsize (grid0.coords t) 0 := by rw [hx, hq]; exact hy1
  have hk' : k.val < win0_1.xsize (grid0.coords t) 1 := by rw [hx1]; exact k.isLt
  have hz : ∀ a, ((ix2 q k : S1280x640.Idx) a).val < win0_1.xsize (grid0.coords t) a := fun a => by
    match a with
    | ⟨0, _⟩ => exact hq'
    | ⟨1, _⟩ => exact hk'
  have ez : win0_1.xinj (grid0.coords t) (fun a => ⟨((ix2 q k : S1280x640.Idx) a).val, hz a⟩) = ix2 q k := rfl
  rw [← ez, Window.fill_xinj]
  unfold iblk
  rw [read_left t _ p k, read_right t _ _ n k (by rw [hnv, ← hq]; rfl) rfl]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ d, owns (c : Thread nD τ) (st0_2 t) fullShare
        (win0_2.fill (grid0.coords t) d (win0_2.cut (grid0.coords t) ((dats m 0 c).after 2 t)))))

/-- The body at any point: both input buffers are handed back as found, the result's at the product tile, which on the
    columns inside the array is the score table's tile. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, Window.cut_fill, Window.cut_fill]
  iintro ⟨HΦ, Ho, ⟨%d0, H0⟩, ⟨%d1, H1⟩, ⟨%d2, H2⟩⟩
  iapply (sound_kernel c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexists d1; iexact H1
  iexists (k0_pay1 (F := Ideal) (iblk m c 0 t) (win0_1.fill (grid0.coords t) d1 (iblk m c 1 t)))
  rw [← tile_value m c t d1, Window.fill_cut]
  iexact H2

theorem body_obligation (c : Dev nD) : BodyObligationLoose (dats m 0 c) (defs₀ (F := Ideal)) Variants.none () Set.univ := fun t => by
  rw [bigSep_W0, bigSep_W0]
  exact sound_body m c t

set_option backward.isDefEq.respectTransparency.types false in
/-- Every weakly fair execution ends; each array of the pipeline ends at what the proof data compute for it, and every
    other unscoped buffer as the later stretch of host operations leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- After the region the result array is the score table of the two factors: every point writes back its tile of the
    table, and column n of the result lies in the tile of point n / 1280. -/
theorem final_scores (c : Dev nD) : (dats m 0 c).arrAt 2 cfg0.N = G m c :=
  (dats m 0 c).arrAt_eq_of_cover 2 (G m c)
    (fun t _ => by
      show win0_2.cut (grid0.coords t) ((dats m 0 c).after 2 t) = _
      rw [after0_2, Window.cut_fill])
    (fun i => by
      have h0 : (i 0 : Nat) < 2000 := (i 0).isLt
      have h1 : (i 1 : Nat) < 80000 := (i 1).isLt
      obtain ⟨t, ht⟩ : ∃ t : Fin cfg0.N, t.val = (i 1 : Nat) / 1280 :=
        ⟨⟨(i 1 : Nat) / 1280, by show _ < grid0.N; rw [N_0]; omega⟩, rfl⟩
      refine ⟨t, flush0_2 t, ?_⟩
      obtain ⟨-, -, -, -, h20, h21, -, -, hx2, hend⟩ := grid_facts t
      show i ∈ ((View.whole main_v174).slice (win0_2.rect t)).set
      rw [View.set_slice_whole, Rect.mem_set_unit]
      intro a
      match a with
      | ⟨0, _⟩ =>
        show win0_2.index t 0 * 2000 ≤ (i 0 : Nat) ∧ (i 0 : Nat) < win0_2.index t 0 * 2000 + win0_2.xsize (grid0.coords t) 0
        rw [h20, hx2]; omega
      | ⟨1, _⟩ =>
        show win0_2.index t 1 * 1280 ≤ (i 1 : Nat) ∧ (i 1 : Nat) < win0_2.index t 1 * 1280 + win0_2.xsize (grid0.coords t) 1
        rw [h21]; omega)

/-- The frame: no host operation before the region writes an argument, the region and the later stretch leave it alone. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c)⟩)
    (run_main m ρ)

/-- What a buffer holds at the end: the later stretch of host operations run on the region-entry contents with the
    pipeline's three arrays at what the region leaves them. -/
theorem tail_eq (c : Dev nD) (b : Ref sig .tc) :
    Pipeline.afterTail₀ cfgs (dats m) 0 (V0 m) [hostOps1] c b
      = StableHlo.after hostOps1 (Pipeline.withArrays spec0 c (V0 m c) fun w => (dats m 0 c).arrAt w cfg0.N) (Proc.devRef .tc b) := by
  unfold Pipeline.afterTail₀
  simp only [List.flatten_cons, List.flatten_nil, List.append_nil]

end Cert.KernelIdeal.Frame

end
-- ==== Proof.LibSsaLine.lean ====
import Idealize.ShloMosaic.Lib.StableHlo.Run

/-!
  Reading a straight line of host operations ONE operation at a time.

  A line in single-assignment form — every operation writes one buffer of its own, and no operation writes a buffer that an
  earlier operation read or wrote — leaves, in the buffer of each operation, that operation's function of what the WHOLE line
  leaves in its operands. So the contents after the line satisfy one small equation per operation, and a deep result is read
  by chaining those equations, never by composing the whole line into one term.
-/

noncomputable section

namespace Idealize.ShloMosaic.StableHlo.SsaLine

open Idealize.ShloMosaic Idealize.ShloMosaic.StableHlo

variable {τ : Topo} {sig : RefSig} {Val : EltTy → Type}

/-- The buffers the operations of a line write, in order: operation `k` writes exactly the `k`-th buffer listed. -/
def WritesAre (ops : List (HloOp τ sig Val)) (outs : List (Ref sig .tc)) : Prop :=
  List.Forall₂ (fun op y => op.writes = {Proc.devRef .tc y}) ops outs

/-- A buffer that is not listed is written by no operation of the line. -/
theorem not_written {post : List (HloOp τ sig Val)} {outs : List (Ref sig .tc)} (h : WritesAre post outs) {b : Ref sig .tc}
    (hb : b ∉ outs) : ∀ op ∈ post, Proc.devRef (τ := τ) .tc b ∉ op.writes := by
  induction h with
  | nil => intro op hop; cases hop
  | @cons op0 y0 l1 l2 hw _ ih =>
    intro op hop
    rcases List.mem_cons.mp hop with rfl | hop
    · rw [hw, Finset.mem_singleton]
      exact devRef_ne_of_ne fun e => hb (e ▸ List.mem_cons_self)
    · exact ih (fun h' => hb (List.mem_cons_of_mem _ h')) op hop

/-- Two stretches run one after the other. -/
theorem after_app (l₁ l₂ : List (HloOp τ sig Val)) (V : Valuation τ sig Val) : after (l₁ ++ l₂) V = after l₂ (after l₁ V) := by
  induction l₁ generalizing V with
  | nil => rfl
  | cons op l ih => rw [List.cons_append, after_cons, after_cons, ih]

/-- A buffer no later operation writes holds, after the whole line, what the operation at the cut left in it. -/
theorem after_cut (pre post : List (HloOp τ sig Val)) (op : HloOp τ sig Val) (V : Valuation τ sig Val) (b : DevRef τ sig)
    (h : ∀ op' ∈ post, b ∉ op'.writes) : after (pre ++ op :: post) V b = op.result (after pre V) b := by
  rw [after_app, after_cons, after_of_forall_not_mem _ _ h]

/-- An operand of the operation at the cut — another buffer than its result, written by no later operation — holds after the
    whole line what it held when the operation ran. -/
theorem operand_cut (pre post : List (HloOp τ sig Val)) (op : HloOp τ sig Val) (V : Valuation τ sig Val)
    {outs : List (Ref sig .tc)} (hw : WritesAre post outs) {y a : Ref sig .tc} (hop : op.writes = {Proc.devRef .tc y})
    (ha : a ∉ outs) (hay : a ≠ y) :
    after (pre ++ op :: post) V (Proc.devRef .tc a) = after pre V (Proc.devRef .tc a) := by
  rw [after_cut pre post op V _ (not_written hw ha), HloOp.result_of_not_mem]
  rw [hop, Finset.mem_singleton]
  exact devRef_ne_of_ne hay

/-- A buffer no operation of the line writes holds what it held before the line. -/
theorem input_at {ops : List (HloOp τ sig Val)} {outs : List (Ref sig .tc)} (hw : WritesAre ops outs) {a : Ref sig .tc}
    (ha : a ∉ outs) (V : Valuation τ sig Val) : after ops V (Proc.devRef .tc a) = V (Proc.devRef .tc a) :=
  after_of_forall_not_mem ops V (not_written hw ha)

section At

variable {ops : List (HloOp τ sig Val)} {outs : List (Ref sig .tc)} (hw : WritesAre ops outs) (j : Nat)

include hw

/-- A constant at position `j`. -/
theorem nullary_at (y : Ref sig .tc) (v : y.ty.Contents Val) (hy)
    (hsplit : ops.take j ++ nullary y v hy :: ops.drop (j + 1) = ops) (hy' : y ∉ outs.drop (j + 1)) (V : Valuation τ sig Val) :
    after ops V (Proc.devRef .tc y) = v := by
  have e1 := after_cut (ops.take j) (ops.drop (j + 1)) (nullary y v hy) V _ (not_written (List.forall₂_drop (j + 1) hw) hy')
  rw [hsplit] at e1
  rw [e1, nullary_result]

/-- A one-operand operation at position `j`. -/
theorem unary_at (x y : Ref sig .tc) (f : x.ty.Contents Val → y.ty.Contents Val) (hx hy)
    (hsplit : ops.take j ++ unary x y f hx hy :: ops.drop (j + 1) = ops)
    (hy' : y ∉ outs.drop (j + 1)) (hx' : x ∉ outs.drop (j + 1)) (hxy : x ≠ y) (V : Valuation τ sig Val) :
    after ops V (Proc.devRef .tc y) = f (after ops V (Proc.devRef .tc x)) := by
  have hp := List.forall₂_drop (j + 1) hw
  have e1 := after_cut (ops.take j) (ops.drop (j + 1)) (unary x y f hx hy) V _ (not_written hp hy')
  have e2 := operand_cut (ops.take j) (ops.drop (j + 1)) (unary x y f hx hy) V hp (unary_writes ..) hx' hxy
  rw [hsplit] at e1 e2
  rw [e1, e2, unary_result]

/-- A reshape at position `j`. -/
theorem reshape_at (x y : Ref sig .tc) (he : x.ty.elt = y.ty.elt) (hn : x.ty.shape.ShapeCasts y.ty.shape) (hx hy)
    (hsplit : ops.take j ++ reshape x y he hn hx hy :: ops.drop (j + 1) = ops)
    (hy' : y ∉ outs.drop (j + 1)) (hx' : x ∉ outs.drop (j + 1)) (hxy : x ≠ y) (V : Valuation τ sig Val) :
    after ops V (Proc.devRef .tc y) = fun i => he ▸ shapeCast y.ty.shape (after ops V (Proc.devRef .tc x)) hn i := by
  have hp := List.forall₂_drop (j + 1) hw
  have e1 := after_cut (ops.take j) (ops.drop (j + 1)) (reshape x y he hn hx hy) V _ (not_written hp hy')
  have e2 := operand_cut (ops.take j) (ops.drop (j + 1)) (reshape x y he hn hx hy) V hp (reshape_writes ..) hx' hxy
  rw [hsplit] at e1 e2
  rw [e1, e2, reshape_result]

/-- A two-operand operation at position `j`. -/
theorem binary_at (a b y : Ref sig .tc) (f : a.ty.Contents Val → b.ty.Contents Val → y.ty.Contents Val) (ha hb hy)
    (hsplit : ops.take j ++ binary a b y f ha hb hy :: ops.drop (j + 1) = ops)
    (hy' : y ∉ outs.drop (j + 1)) (ha' : a ∉ outs.drop (j + 1)) (hb' : b ∉ outs.drop (j + 1)) (hay : a ≠ y) (hby : b ≠ y)
    (V : Valuation τ sig Val) :
    after ops V (Proc.devRef .tc y) = f (after ops V (Proc.devRef .tc a)) (after ops V (Proc.devRef .tc b)) := by
  have hp := List.forall₂_drop (j + 1) hw
  have e1 := after_cut (ops.take j) (ops.drop (j + 1)) (binary a b y f ha hb hy) V _ (not_written hp hy')
  have e2 := operand_cut (ops.take j) (ops.drop (j + 1)) (binary a b y f ha hb hy) V hp (binary_writes ..) ha' hay
  have e3 := operand_cut (ops.take j) (ops.drop (j + 1)) (binary a b y f ha hb hy) V hp (binary_writes ..) hb' hby
  rw [hsplit] at e1 e2 e3
  rw [e1, e2, e3, binary_result]

/-- A three-operand operation at position `j`. -/
theorem ternary_at (c a b y : Ref sig .tc) (f : c.ty.Contents Val → a.ty.Contents Val → b.ty.Contents Val → y.ty.Contents Val)
    (hc ha hb hy) (hsplit : ops.take j ++ ternary c a b y f hc ha hb hy :: ops.drop (j + 1) = ops)
    (hy' : y ∉ outs.drop (j + 1)) (hc' : c ∉ outs.drop (j + 1)) (ha' : a ∉ outs.drop (j + 1)) (hb' : b ∉ outs.drop (j + 1))
    (hcy : c ≠ y) (hay : a ≠ y) (hby : b ≠ y) (V : Valuation τ sig Val) :
    after ops V (Proc.devRef .tc y)
      = f (after ops V (Proc.devRef .tc c)) (after ops V (Proc.devRef .tc a)) (after ops V (Proc.devRef .tc b)) := by
  have hp := List.forall₂_drop (j + 1) hw
  have e1 := after_cut (ops.take j) (ops.drop (j + 1)) (ternary c a b y f hc ha hb hy) V _ (not_written hp hy')
  have e2 := operand_cut (ops.take j) (ops.drop (j + 1)) (ternary c a b y f hc ha hb hy) V hp (ternary_writes ..) hc' hcy
  have e3 := operand_cut (ops.take j) (ops.drop (j + 1)) (ternary c a b y f hc ha hb hy) V hp (ternary_writes ..) ha' hay
  have e4 := operand_cut (ops.take j) (ops.drop (j + 1)) (ternary c a b y f hc ha hb hy) V hp (ternary_writes ..) hb' hby
  rw [hsplit] at e1 e2 e3 e4
  rw [e1, e2, e3, e4, ternary_result]

/-- An operation of four listed operands (a join of four pieces) at position `j`. -/
theorem nary4_at (x a b c y : Ref sig .tc)
    (f : ((k : Fin 4) → ((![x, a, b, c] : Fin 4 → Ref sig .tc) k).ty.Contents Val) → y.ty.Contents Val) (hxs hy)
    (hsplit : ops.take j ++ nary ![x, a, b, c] y f hxs hy :: ops.drop (j + 1) = ops)
    (hy' : y ∉ outs.drop (j + 1)) (hx' : x ∉ outs.drop (j + 1)) (ha' : a ∉ outs.drop (j + 1)) (hb' : b ∉ outs.drop (j + 1))
    (hc' : c ∉ outs.drop (j + 1)) (hxy : x ≠ y) (hay : a ≠ y) (hby : b ≠ y) (hcy : c ≠ y) (V : Valuation τ sig Val) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun i => i.elim0))))) := by
  have hp := List.forall₂_drop (j + 1) hw
  have e1 := after_cut (ops.take j) (ops.drop (j + 1)) (nary ![x, a, b, c] y f hxs hy) V _ (not_written hp hy')
  have e2 := operand_cut (ops.take j) (ops.drop (j + 1)) (nary ![x, a, b, c] y f hxs hy) V hp (nary_writes ..) hx' hxy
  have e3 := operand_cut (ops.take j) (ops.drop (j + 1)) (nary ![x, a, b, c] y f hxs hy) V hp (nary_writes ..) ha' hay
  have e4 := operand_cut (ops.take j) (ops.drop (j + 1)) (nary ![x, a, b, c] y f hxs hy) V hp (nary_writes ..) hb' hby
  have e5 := operand_cut (ops.take j) (ops.drop (j + 1)) (nary ![x, a, b, c] y f hxs hy) V hp (nary_writes ..) hc' hcy
  rw [hsplit] at e1 e2 e3 e4 e5
  rw [e1, e2, e3, e4, e5, nary4_result]

end At

end Idealize.ShloMosaic.StableHlo.SsaLine

end
-- ==== Proof.KernelIdealLine.lean ====
/- The kernel program's host operations before and after its region, operation by operation.
   One line per host operation: the buffer it writes, read after the whole line, is the reference's stage function of the
   argument arrays — from the operation's own equation (Proof/LibSsaLine.lean) and the lines of its operands. -/
import proofs.«103698_j86337432584674_2_alg».proof.Proof.Gen.KernelIdeal.Launch
import proofs.«103698_j86337432584674_2_alg».proof.Proof.RefRead
import proofs.«103698_j86337432584674_2_alg».proof.Proof.LibSsaLine

set_option maxRecDepth 16384

noncomputable section

namespace Cert.KernelIdeal.Line

open Cert.KernelIdeal Cert.KernelIdeal.Gen Idealize.ShloMosaic Idealize.ShloMosaic.TcCoe Idealize.SL.Sem Idealize.ShloMosaic.StableHlo

variable {F : FTy → Type} [FloatOps F]

/-- The host operations before the region, as one line. -/
abbrev kops : List (HloOp τ sig (Elt F)) := List.flatten [hostOps0, hostOps0_1, hostOps0_2]

/-- The buffers the line writes, in order. -/
abbrev kouts : List (Ref sig .tc) :=
  [main_v0, main_v1, main_v2, main_v3, main_v4, main_v5, main_c, main_v6, main_v7, main_c_0, main_v8, main_v9, main_v10, main_v11, main_v12, main_c_1, main_v13, main_v14, main_c_2, main_v15, main_v16, main_v17, main_v18, main_v19, main_v20, main_v21, main_v22, main_v23, main_v24, main_v25, main_v26, main_c_3, main_v27, main_v28, main_c_4, main_v29, main_v30, main_v31, main_v32, main_v33, main_c_5, main_v34, main_v35, main_c_6, main_v36, main_v37, main_v38, main_v39, main_v40, main_c_7, main_v41, main_v42, main_c_8, main_v43, main_v44, main_v45, main_v46, main_v47, main_c_9, main_v48, main_v49, main_c_10, main_v50, main_v51, main_v52, main_v53, main_v54, main_v55, main_v56, main_v57, main_v58, main_v59, main_v60, main_cst, main_v61, main_v62, main_cst_11, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_cst_12, main_v124, main_v125, main_cst_13, main_cst_14, main_call0_v0, main_call0_v1, main_call0_v2, main_call0_v3, main_call0_v4, main_v126, main_cst_15, main_v127, main_v128, main_v129, main_v130, main_cst_16, main_v131, main_v132, main_v133, main_v134, main_v135, main_cst_17, main_v136, main_v137, main_v138, main_cst_18, main_v139, main_v140, main_v141, main_v142, main_v143, main_v144, main_v145, main_v146, main_v147, main_v148, main_cst_19, main_v149, main_v150, main_v151, main_cst_20, main_v152, main_cst_21, main_v153, main_v154, main_v155, main_v156, main_v157, main_v158, main_cst_22, main_v159, main_v160, main_v161, main_v162, main_v163, main_v164, main_cst_23, main_v165, main_v166, main_v167, main_v168, main_v169, main_v170, main_v171, main_v172, main_v173]

set_option maxHeartbeats 4000000 in
theorem writes_kops : SsaLine.WritesAre (kops : List (HloOp τ sig (Elt F))) kouts :=
  List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.nil

section
variable (V : Valuation τ sig (Elt F))
variable (x0 : (⟨Cert.ReferenceIdeal.S2000x3, .i32⟩ : BufTy).Contents (Elt F))
variable (x1 : (⟨Cert.ReferenceIdeal.S80000x128x5, .f32⟩ : BufTy).Contents (Elt F))
variable (x2 : (⟨Cert.ReferenceIdeal.S500x64x4, .f32⟩ : BufTy).Contents (Elt F))
variable (x3 : (⟨Cert.ReferenceIdeal.S500x64x4, .f32⟩ : BufTy).Contents (Elt F))
variable (x4 : (⟨Cert.ReferenceIdeal.S500x1x320, .f32⟩ : BufTy).Contents (Elt F))
variable (x5 : (⟨Cert.ReferenceIdeal.S500x2x320, .f32⟩ : BufTy).Contents (Elt F))
variable (h0 : V (Proc.devRef .tc main_arg0) = x0)
variable (h1 : V (Proc.devRef .tc main_arg1) = x1)
variable (h2 : V (Proc.devRef .tc main_arg2) = x2)
variable (h3 : V (Proc.devRef .tc main_arg3) = x3)
variable (h4 : V (Proc.devRef .tc main_arg4) = x4)
variable (h5 : V (Proc.devRef .tc main_arg5) = x5)
include h0 h1 h2 h3 h4 h5

theorem k_main_arg0 : StableHlo.after (kops : List (HloOp τ sig (Elt F))) V (Proc.devRef .tc main_arg0) = x0 :=
  (SsaLine.input_at writes_kops (by decide) V).trans h0
theorem k_main_arg1 : StableHlo.after (kops : List (HloOp τ sig (Elt F))) V (Proc.devRef .tc main_arg1) = x1 :=
  (SsaLine.input_at writes_kops (by decide) V).trans h1
theorem k_main_arg2 : StableHlo.after (kops : List (HloOp τ sig (Elt F))) V (Proc.devRef .tc main_arg2) = x2 :=
  (SsaLine.input_at writes_kops (by decide) V).trans h2
theorem k_main_arg3 : StableHlo.after (kops : List (HloOp τ sig (Elt F))) V (Proc.devRef .tc main_arg3) = x3 :=
  (SsaLine.input_at writes_kops (by decide) V).trans h3
theorem k_main_arg4 : StableHlo.after (kops : List (HloOp τ sig (Elt F))) V (Proc.devRef .tc main_arg4) = x4 :=
  (SsaLine.input_at writes_kops (by decide) V).trans h4
theorem k_main_arg5 : StableHlo.after (kops : List (HloOp τ sig (Elt F))) V (Proc.devRef .tc main_arg5) = x5 :=
  (SsaLine.input_at writes_kops (by decide) V).trans h5
theorem k_main_v0 : StableHlo.after (kops : List (HloOp τ sig (Elt F))) V (Proc.devRef .tc main_v0) = Cert.ReferenceIdeal.ReadP.val_main_v0 (F := F) x0 := by
  rw [SsaLine.unary_at writes_kops 0 main_arg0 main_v0 _ _ _ rfl (by decide) (by decide) (by decide) V, k_main_arg0 V x0 x1 x2 x3 x4 x5 h0 h1 h2 h3 h4 h5]; rfl
theorem k_main_v1 : StableHlo.after (kops : List (HloOp τ sig (Elt F))) V (Proc.devRef .tc main_v1) = Cert.ReferenceIdeal.ReadP.val_main_v1 (F := F) x0 := by
  rw [SsaLine.reshape_at writes_kops 1 main_v0 main_v1 _ _ _ _ rfl (by decide) (by decide) (by decide) V, k_main_v0 V x0 x1 x2 x3 x4 x5 h0 h1 h2 h3 h4 h5]; rfl
theorem k_main_v2 : StableHlo.after (kops : List (HloOp τ sig (Elt F))) V (Proc.devRef .tc main_v2) = Cert.ReferenceIdeal.ReadP.val_main_v2 (F := F) x0 := by
  rw [SsaLine.unary_at writes_kops 2 main_arg0 main_v2 _ _ _ rfl (by decide) (by decide) (by decide) V, k_main_arg0 V x0 x1 x2 x3 x4 x5 h0 h1 h2 h3 h4 h5]; rfl
theorem k_main_v3 : StableHlo.after (kops : List (HloOp τ sig (Elt F))) V (Proc.devRef .tc main_v3) = Cert.ReferenceIdeal.ReadP.val_main_v3 (F := F) x0 := by
  rw [SsaLine.reshape_at writes_kops 3 main_v2 main_v3 _ _ _ _ rfl (by decide) (by decide) (by decide) V, k_main_v2 V x0 x1 x2 x3 x4 x5 h0 h1 h2 h3 h4 h5]; rfl
theorem k_main_v4 : StableHlo.after (kops : List (HloOp τ sig (Elt F))) V (Proc.devRef .tc main_v4) = Cert.ReferenceIdeal.ReadP.val_main_v4 (F := F) x0 := by
  rw [SsaLine.unary_at writes_kops 4 main_arg0 main_v4 _ _ _ rfl (by decide) (by decide) (by decide) V, k_main_arg0 V x0 x1 x2 x3 x4 x5 h0 h1 h2 h3 h4 h5]; rfl
theorem k_main_v5 : StableHlo.after (kops : List (HloOp τ sig (Elt F))) V (Proc.devRef .tc main_v5) = Cert.ReferenceIdeal.ReadP.val_main_v5 (F := F) x0 := by
  rw [SsaLine.reshape_at writes_kops 5 main_v4 main_v5 _ _ _ _ rfl (by decide) (by decide) (by decide) V, k_main_v4 V x0 x1 x2 x3 x4 x5 h0 h1 h2 h3 h4 h5]; rfl
theorem k_main_c : StableHlo.after (kops : List (HloOp τ sig (Elt F))) V (Proc.devRef .tc main_c) = Cert.ReferenceIdeal.ReadP.val_main_c (F := F) := by
  rw [SsaLine.nullary_at writes_kops 6 main_c _ _ rfl (by decide) V]; rfl
theorem k_main_v6 : StableHlo.after (kops : List (HloOp τ sig (Elt F))) V (Proc.devRef .tc main_v6) = Cert.ReferenceIdeal.ReadP.val_main_v6 (F := F) := by
  rw [SsaLine.unary_at writes_kops 7 main_c main_v6 _ _ _ rfl (by decide) (by decide) (by decide) V, k_main_c V x0 x1 x2 x3 x4 x5 h0 h1 h2 h3 h4 h5]; rfl
theorem k_main_v7 : StableHlo.after (kops : List (HloOp τ sig (Elt F))) V (Proc.devRef .tc main_v7) = Cert.ReferenceIdeal.ReadP.val_main_v7 (F := F) x0 := by
  rw [SsaLine.binary_at writes_kops 8 main_v1 main_v6 main_v7 _ _ _ _ rfl (by decide) (by decide) (by decide) (by decide) (by decide) V, k_main_v1 V x0 x1 x2 x3 x4 x5 h0 h1 h2 h3 h4 h5, k_main_v6 V x0 x1 x2 x3 x4 x5 h0 h1 h2 h3 h4 h5]; rfl
theorem k_main_c_0 : StableHlo.after (kops : List (HloOp τ sig (Elt F))) V (Proc.devRef .tc main_c_0) = Cert.ReferenceIdeal.ReadP.val_main_c_0 (F := F) := by
  rw [SsaLine.nullary_at writes_kops 9 main_c_0 _ _ rfl (by decide) V]; rfl
theorem k_main_v8 : StableHlo.after (kops : List (HloOp τ sig (Elt F))) V (Proc.devRef .tc main_v8) = Cert.ReferenceIdeal.ReadP.val_main_v8 (F := F) := by
  rw [SsaLine.unary_at writes_kops 10 main_c_0 main_v8 _ _ _ rfl (by decide) (by decide) (by decide) V, k_main_c_0 V x0 x1 x2 x3 x4 x5 h0 h1 h2 h3 h4 h5]; rfl
theorem k_main_v9 : StableHlo.after (kops : List (HloOp τ sig (Elt F))) V (Proc.devRef .tc main_v9) = Cert.ReferenceIdeal.ReadP.val_main_v9 (F := F) x0 := by
  rw [SsaLine.binary_at writes_kops 11 main_v1 main_v8 main_v9 _ _ _ _ rfl (by decide) (by decide) (by decide) (by decide) (by decide) V, k_main_v1 V x0 x1 x2 x3 x4 x5 h0 h1 h2 h3 h4 h5, k_main_v8 V x0 x1 x2 x3 x4 x5 h0 h1 h2 h3 h4 h5]; rfl
theorem k_main_v10 : StableHlo.after (kops : List (HloOp τ sig (Elt F))) V (Proc.devRef .tc main_v10) = Cert.ReferenceIdeal.ReadP.val_main_v10 (F := F) x0 := by
  rw [SsaLine.ternary_at writes_kops 12 main_v7 main_v9 main_v1 main_v10 _ _ _ _ _ rfl (by decide) (by decide) (by decide) (by decide) (by decide) (by decide) (by decide) V, k_main_v7 V x0 x1 x2 x3 x4 x5 h0 h1 h2 h3 h4 h5, k_main_v9 V x0 x1 x2 x3 x4 x5 h0 h1 h2 h3 h4 h5, k_main_v1 V x0 x1 x2 x3 x4 x5 h0 h1 h2 h3 h4 h5]; rfl
theorem k_main_v11 : StableHlo.after (kops : List (HloOp τ sig (Elt F))) V (Proc.devRef .tc main_v11) = Cert.ReferenceIdeal.ReadP.val_main_v11 (F := F) x0 := by
  rw [SsaLine.unary_at writes_kops 13 main_v10 main_v11 _ _ _ rfl (by decide) (by decide) (by decide) V, k_main_v10 V x0 x1 x2 x3 x4 x5 h0 h1 h2 h3 h4 h5]; rfl
theorem k_main_v12 : StableHlo.after (kops : List (HloOp τ sig (Elt F))) V (Proc.devRef .tc main_v12) = Cert.ReferenceIdeal.ReadP.val_main_v12 (F := F) x0 x1 := by
  rw [SsaLine.binary_at writes_kops 14 main_arg1 main_v11 main_v12 _ _ _ _ rfl (by decide) (by decide) (by decide) (by decide) (by decide) V, k_main_arg1 V x0 x1 x2 x3 x4 x5 h0 h1 h2 h3 h4 h5, k_main_v11 V x0 x1 x2 x3 x4 x5 h0 h1 h2 h3 h4 h5]; rfl
theorem k_main_c_1 : StableHlo.after (kops : List (HloOp τ sig (Elt F))) V (Proc.devRef .tc main_c_1) = Cert.ReferenceIdeal.ReadP.val_main_c_1 (F := F) := by
  rw [SsaLine.nullary_at writes_kops 15 main_c_1 _ _ rfl (by decide) V]; rfl
theorem k_main_v13 : StableHlo.after (kops : List (HloOp τ sig (Elt F))) V (Proc.devRef .tc main_v13) = Cert.ReferenceIdeal.ReadP.val_main_v13 (F := F) := by
  rw [SsaLine.unary_at writes_kops 16 main_c_1 main_v13 _ _ _ rfl (by decide) (by decide) (by decide) V, k_main_c_1 V x0 x1 x2 x3 x4 x5 h0 h1 h2 h3 h4 h5]; rfl
theorem k_main_v14 : StableHlo.after (kops : List (HloOp τ sig (Elt F))) V (Proc.devRef .tc main_v14) = Cert.ReferenceIdeal.ReadP.val_main_v14 (F := F) x0 := by
  rw [SsaLine.binary_at writes_kops 17 main_v5 main_v13 main_v14 _ _ _ _ rfl (by decide) (by decide) (by decide) (by decide) (by decide) V, k_main_v5 V x0 x1 x2 x3 x4 x5 h0 h1 h2 h3 h4 h5, k_main_v13 V x0 x1 x2 x3 x4 x5 h0 h1 h2 h3 h4 h5]; rfl
theorem k_main_c_2 : StableHlo.after (kops : List (HloOp τ sig (Elt F))) V (Proc.devRef .tc main_c_2) = Cert.ReferenceIdeal.ReadP.val_main_c_2 (F := F) := by
  rw [SsaLine.nullary_at writes_kops 18 main_c_2 _ _ rfl (by decide) V]; rfl
theorem k_main_v15 : StableHlo.after (kops : List (HloOp τ sig (Elt F))) V (Proc.devRef .tc main_v15) = Cert.ReferenceIdeal.ReadP.val_main_v15 (F := F) := by
  rw [SsaLine.unary_at writes_kops 19 main_c_2 main_v15 _ _ _ rfl (by decide) (by decide) (by decide) V, k_main_c_2 V x0 x1 x2 x3 x4 x5 h0 h1 h2 h3 h4 h5]; rfl
theorem k_main_v16 : StableHlo.after (kops : List (HloOp τ sig (Elt F))) V (Proc.devRef .tc main_v16) = Cert.ReferenceIdeal.ReadP.val_main_v16 (F := F) x0 := by
  rw [SsaLine.binary_at writes_kops 20 main_v5 main_v15 main_v16 _ _ _ _ rfl (by decide) (by decide) (by decide) (by decide) (by decide) V, k_main_v5 V x0 x1 x2 x3 x4 x5 h0 h1 h2 h3 h4 h5, k_main_v15 V x0 x1 x2 x3 x4 x5 h0 h1 h2 h3 h4 h5]; rfl
theorem k_main_v17 : StableHlo.after (kops : List (HloOp τ sig (Elt F))) V (Proc.devRef .tc main_v17) = Cert.ReferenceIdeal.ReadP.val_main_v17 (F := F) x0 := by
  rw [SsaLine.ternary_at writes_kops 21 main_v14 main_v16 main_v5 main_v17 _ _ _ _ _ rfl (by decide) (by decide) (by decide) (by decide) (by decide) (by decide) (by decide) V, k_main_v14 V x0 x1 x2 x3 x4 x5 h0 h1 h2 h3 h4 h5, k_main_v16 V x0 x1 x2 x3 x4 x5 h0 h1 h2 h3 h4 h5, k_main_v5 V x0 x1 x2 x3 x4 x5 h0 h1 h2 h3 h4 h5]; rfl
theorem k_main_v18 : StableHlo.after (kops : List (HloOp τ sig (Elt F))) V (Proc.devRef .tc main_v18) = Cert.ReferenceIdeal.ReadP.val_main_v18 (F := F) x0 := by
  rw [SsaLine.unary_at writes_kops 22 main_v17 main_v18 _ _ _ rfl (by decide) (by decide) (by decide) V, k_main_v17 V x0 x1 x2 x3 x4 x5 h0 h1 h2 h3 h4 h5]; rfl
theorem k_main_v19 : StableHlo.after (kops : List (HloOp τ sig (Elt F))) V (Proc.devRef .tc main_v19) = Cert.ReferenceIdeal.ReadP.val_main_v19 (F := F) x0 x1 := by
  rw [SsaLine.binary_at writes_kops 23 main_arg1 main_v18 main_v19 _ _ _ _ rfl (by decide) (by decide) (by decide) (by decide) (by decide) V, k_main_arg1 V x0 x1 x2 x3 x4 x5 h0 h1 h2 h3 h4 h5, k_main_v18 V x0 x1 x2 x3 x4 x5 h0 h1 h2 h3 h4 h5]; rfl
theorem k_main_v20 : StableHlo.after (kops : List (HloOp τ sig (Elt F))) V (Proc.devRef .tc main_v20) = Cert.ReferenceIdeal.ReadP.val_main_v20 (F := F) x0 x1 := by
  rw [SsaLine.unary_at writes_kops 24 main_v12 main_v20 _ _ _ rfl (by decide) (by decide) (by decide) V, k_main_v12 V x0 x1 x2 x3 x4 x5 h0 h1 h2 h3 h4 h5]; rfl
theorem k_main_v21 : StableHlo.after (kops : List (HloOp τ sig (Elt F))) V (Proc.devRef .tc main_v21) = Cert.ReferenceIdeal.ReadP.val_main_v21 (F := F) x0 x1 := by
  rw [SsaLine.unary_at writes_kops 25 main_v12 main_v21 _ _ _ rfl (by decide) (by decide) (by decide) V, k_main_v12 V x0 x1 x2 x3 x4 x5 h0 h1 h2 h3 h4 h5]; rfl
theorem k_main_v22 : StableHlo.after (kops : List (HloOp τ sig (Elt F))) V (Proc.devRef .tc main_v22) = Cert.ReferenceIdeal.ReadP.val_main_v22 (F := F) x0 x1 := by
  rw [SsaLine.reshape_at writes_kops 26 main_v21 main_v22 _ _ _ _ rfl (by decide) (by decide) (by decide) V, k_main_v21 V x0 x1 x2 x3 x4 x5 h0 h1 h2 h3 h4 h5]; rfl
theorem k_main_v23 : StableHlo.after (kops : List (HloOp τ sig (Elt F))) V (Proc.devRef .tc main_v23) = Cert.ReferenceIdeal.ReadP.val_main_v23 (F := F) x0 x1 := by
  rw [SsaLine.unary_at writes_kops 27 main_v19 main_v23 _ _ _ rfl (by decide) (by decide) (by decide) V, k_main_v19 V x0 x1 x2 x3 x4 x5 h0 h1 h2 h3 h4 h5]; rfl
theorem k_main_v24 : StableHlo.after (kops : List (HloOp τ sig (Elt F))) V (Proc.devRef .tc main_v24) = Cert.ReferenceIdeal.ReadP.val_main_v24 (F := F) x0 x1 := by
  rw [SsaLine.reshape_at writes_kops 28 main_v23 main_v24 _ _ _ _ rfl (by decide) (by decide) (by decide) V, k_main_v23 V x0 x1 x2 x3 x4 x5 h0 h1 h2 h3 h4 h5]; rfl
theorem k_main_v25 : StableHlo.after (kops : List (HloOp τ sig (Elt F))) V (Proc.devRef .tc main_v25) = Cert.ReferenceIdeal.ReadP.val_main_v25 (F := F) x0 x1 := by
  rw [SsaLine.unary_at writes_kops 29 main_v19 main_v25 _ _ _ rfl (by decide) (by decide) (by decide) V, k_main_v19 V x0 x1 x2 x3 x4 x5 h0 h1 h2 h3 h4 h5]; rfl
theorem k_main_v26 : StableHlo.after (kops : List (HloOp τ sig (Elt F))) V (Proc.devRef .tc main_v26) = Cert.ReferenceIdeal.ReadP.val_main_v26 (F := F) x0 x1 := by
  rw [SsaLine.reshape_at writes_kops 30 main_v25 main_v26 _ _ _ _ rfl (by decide) (by decide) (by decide) V, k_main_v25 V x0 x1 x2 x3 x4 x5 h0 h1 h2 h3 h4 h5]; rfl
theorem k_main_c_3 : StableHlo.after (kops : List (HloOp τ sig (Elt F))) V (Proc.devRef .tc main_c_3) = Cert.ReferenceIdeal.ReadP.val_main_c_3 (F := F) := by
  rw [SsaLine.nullary_at writes_kops 31 main_c_3 _ _ rfl (by decide) V]; rfl
theorem k_main_v27 : StableHlo.after (kops : List (HloOp τ sig (Elt F))) V (Proc.devRef .tc main_v27) = Cert.ReferenceIdeal.ReadP.val_main_v27 (F := F) := by
  rw [SsaLine.unary_at writes_kops 32 main_c_3 main_v27 _ _ _ rfl (by decide) (by decide) (by decide) V, k_main_c_3 V x0 x1 x2 x3 x4 x5 h0 h1 h2 h3 h4 h5]; rfl
theorem k_main_v28 : StableHlo.after (kops : List (HloOp τ sig (Elt F))) V (Proc.devRef .tc main_v28) = Cert.ReferenceIdeal.ReadP.val_main_v28 (F := F) x0 := by
  rw [SsaLine.binary_at writes_kops 33 main_v3 main_v27 main_v28 _ _ _ _ rfl (by decide) (by decide) (by decide) (by decide) (by decide) V, k_main_v3 V x0 x1 x2 x3 x4 x5 h0 h1 h2 h3 h4 h5, k_main_v27 V x0 x1 x2 x3 x4 x5 h0 h1 h2 h3 h4 h5]; rfl
theorem k_main_c_4 : StableHlo.after (kops : List (HloOp τ sig (Elt F))) V (Proc.devRef .tc main_c_4) = Cert.ReferenceIdeal.ReadP.val_main_c_4 (F := F) := by
  rw [SsaLine.nullary_at writes_kops 34 main_c_4 _ _ rfl (by decide) V]; rfl
theorem k_main_v29 : StableHlo.after (kops : List (HloOp τ sig (Elt F))) V (Proc.devRef .tc main_v29) = Cert.ReferenceIdeal.ReadP.val_main_v29 (F := F) := by
  rw [SsaLine.unary_at writes_kops 35 main_c_4 main_v29 _ _ _ rfl (by decide) (by decide) (by decide) V, k_main_c_4 V x0 x1 x2 x3 x4 x5 h0 h1 h2 h3 h4 h5]; rfl
theorem k_main_v30 : StableHlo.after (kops : List (HloOp τ sig (Elt F))) V (Proc.devRef .tc main_v30) = Cert.ReferenceIdeal.ReadP.val_main_v30 (F := F) x0 := by
  rw [SsaLine.binary_at writes_kops 36 main_v3 main_v29 main_v30 _ _ _ _ rfl (by decide) (by decide) (by decide) (by decide) (by decide) V, k_main_v3 V x0 x1 x2 x3 x4 x5 h0 h1 h2 h3 h4 h5, k_main_v29 V x0 x1 x2 x3 x4 x5 h0 h1 h2 h3 h4 h5]; rfl
theorem k_main_v31 : StableHlo.after (kops : List (HloOp τ sig (Elt F))) V (Proc.devRef .tc main_v31) = Cert.ReferenceIdeal.ReadP.val_main_v31 (F := F) x0 := by
  rw [SsaLine.ternary_at writes_kops 37 main_v28 main_v30 main_v3 main_v31 _ _ _ _ _ rfl (by decide) (by decide) (by decide) (by decide) (by decide) (by decide) (by decide) V, k_main_v28 V x0 x1 x2 x3 x4 x5 h0 h1 h2 h3 h4 h5, k_main_v30 V x0 x1 x2 x3 x4 x5 h0 h1 h2 h3 h4 h5, k_main_v3 V x0 x1 x2 x3 x4 x5 h0 h1 h2 h3 h4 h5]; rfl
theorem k_main_v32 : StableHlo.after (kops : List (HloOp τ sig (Elt F))) V (Proc.devRef .tc main_v32) = Cert.ReferenceIdeal.ReadP.val_main_v32 (F := F) x0 := by
  rw [SsaLine.unary_at writes_kops 38 main_v31 main_v32 _ _ _ rfl (by decide) (by decide) (by decide) V, k_main_v31 V x0 x1 x2 x3 x4 x5 h0 h1 h2 h3 h4 h5]; rfl
theorem k_main_v33 : StableHlo.after (kops : List (HloOp τ sig (Elt F))) V (Proc.devRef .tc main_v33) = Cert.ReferenceIdeal.ReadP.val_main_v33 (F := F) x0 x2 := by
  rw [SsaLine.binary_at writes_kops 39 main_arg2 main_v32 main_v33 _ _ _ _ rfl (by decide) (by decide) (by decide) (by decide) (by decide) V, k_main_arg2 V x0 x1 x2 x3 x4 x5 h0 h1 h2 h3 h4 h5, k_main_v32 V x0 x1 x2 x3 x4 x5 h0 h1 h2 h3 h4 h5]; rfl
theorem k_main_c_5 : StableHlo.after (kops : List (HloOp τ sig (Elt F))) V (Proc.devRef .tc main_c_5) = Cert.ReferenceIdeal.ReadP.val_main_c_5 (F := F) := by
  rw [SsaLine.nullary_at writes_kops 40 main_c_5 _ _ rfl (by decide) V]; rfl
theorem k_main_v34 : StableHlo.after (kops : List (HloOp τ sig (Elt F))) V (Proc.devRef .tc main_v34) = Cert.ReferenceIdeal.ReadP.val_main_v34 (F := F) := by
  rw [SsaLine.unary_at writes_kops 41 main_c_5 main_v34 _ _ _ rfl (by decide) (by decide) (by decide) V, k_main_c_5 V x0 x1 x2 x3 x4 x5 h0 h1 h2 h3 h4 h5]; rfl
theorem k_main_v35 : StableHlo.after (kops : List (HloOp τ sig (Elt F))) V (Proc.devRef .tc main_v35) = Cert.ReferenceIdeal.ReadP.val_main_v35 (F := F) x0 := by
  rw [SsaLine.binary_at writes_kops 42 main_v3 main_v34 main_v35 _ _ _ _ rfl (by decide) (by decide) (by decide) (by decide) (by decide) V, k_main_v3 V x0 x1 x2 x3 x4 x5 h0 h1 h2 h3 h4 h5, k_main_v34 V x0 x1 x2 x3 x4 x5 h0 h1 h2 h3 h4 h5]; rfl
theorem k_main_c_6 : StableHlo.after (kops : List (HloOp τ sig (Elt F))) V (Proc.devRef .tc main_c_6) = Cert.ReferenceIdeal.ReadP.val_main_c_6 (F := F) := by
  rw [SsaLine.nullary_at writes_kops 43 main_c_6 _ _ rfl (by decide) V]; rfl
theorem k_main_v36 : StableHlo.after (kops : List (HloOp τ sig (Elt F))) V (Proc.devRef .tc main_v36) = Cert.ReferenceIdeal.ReadP.val_main_v36 (F := F) := by
  rw [SsaLine.unary_at writes_kops 44 main_c_6 main_v36 _ _ _ rfl (by decide) (by decide) (by decide) V, k_main_c_6 V x0 x1 x2 x3 x4 x5 h0 h1 h2 h3 h4 h5]; rfl
theorem k_main_v37 : StableHlo.after (kops : List (HloOp τ sig (Elt F))) V (Proc.devRef .tc main_v37) = Cert.ReferenceIdeal.ReadP.val_main_v37 (F := F) x0 := by
  rw [SsaLine.binary_at writes_kops 45 main_v3 main_v36 main_v37 _ _ _ _ rfl (by decide) (by decide) (by decide) (by decide) (by decide) V, k_main_v3 V x0 x1 x2 x3 x4 x5 h0 h1 h2 h3 h4 h5, k_main_v36 V x0 x1 x2 x3 x4 x5 h0 h1 h2 h3 h4 h5]; rfl
theorem k_main_v38 : StableHlo.after (kops : List (HloOp τ sig (Elt F))) V (Proc.devRef .tc main_v38) = Cert.ReferenceIdeal.ReadP.val_main_v38 (F := F) x0 := by
  rw [SsaLine.ternary_at writes_kops 46 main_v35 main_v37 main_v3 main_v38 _ _ _ _ _ rfl (by decide) (by decide) (by decide) (by decide) (by decide) (by decide) (by decide) V, k_main_v35 V x0 x1 x2 x3 x4 x5 h0 h1 h2 h3 h4 h5, k_main_v37 V x0 x1 x2 x3 x4 x5 h0 h1 h2 h3 h4 h5, k_main_v3 V x0 x1 x2 x3 x4 x5 h0 h1 h2 h3 h4 h5]; rfl
theorem k_main_v39 : StableHlo.after (kops : List (HloOp τ sig (Elt F))) V (Proc.devRef .tc main_v39) = Cert.ReferenceIdeal.ReadP.val_main_v39 (F := F) x0 := by
  rw [SsaLine.unary_at writes_kops 47 main_v38 main_v39 _ _ _ rfl (by decide) (by decide) (by decide) V, k_main_v38 V x0 x1 x2 x3 x4 x5 h0 h1 h2 h3 h4 h5]; rfl
theorem k_main_v40 : StableHlo.after (kops : List (HloOp τ sig (Elt F))) V (Proc.devRef .tc main_v40) = Cert.ReferenceIdeal.ReadP.val_main_v40 (F := F) x0 x3 := by
  rw [SsaLine.binary_at writes_kops 48 main_arg3 main_v39 main_v40 _ _ _ _ rfl (by decide) (by decide) (by decide) (by decide) (by decide) V, k_main_arg3 V x0 x1 x2 x3 x4 x5 h0 h1 h2 h3 h4 h5, k_main_v39 V x0 x1 x2 x3 x4 x5 h0 h1 h2 h3 h4 h5]; rfl
theorem k_main_c_7 : StableHlo.after (kops : List (HloOp τ sig (Elt F))) V (Proc.devRef .tc main_c_7) = Cert.ReferenceIdeal.ReadP.val_main_c_7 (F := F) := by
  rw [SsaLine.nullary_at writes_kops 49 main_c_7 _ _ rfl (by decide) V]; rfl
theorem k_main_v41 : StableHlo.after (kops : List (HloOp τ sig (Elt F))) V (Proc.devRef .tc main_v41) = Cert.ReferenceIdeal.ReadP.val_main_v41 (F := F) := by
  rw [SsaLine.unary_at writes_kops 50 main_c_7 main_v41 _ _ _ rfl (by decide) (by decide) (by decide) V, k_main_c_7 V x0 x1 x2 x3 x4 x5 h0 h1 h2 h3 h4 h5]; rfl
theorem k_main_v42 : StableHlo.after (kops : List (HloOp τ sig (Elt F))) V (Proc.devRef .tc main_v42) = Cert.ReferenceIdeal.ReadP.val_main_v42 (F := F) x0 := by
  rw [SsaLine.binary_at writes_kops 51 main_v3 main_v41 main_v42 _ _ _ _ rfl (by decide) (by decide) (by decide) (by decide) (by decide) V, k_main_v3 V x0 x1 x2 x3 x4 x5 h0 h1 h2 h3 h4 h5, k_main_v41 V x0 x1 x2 x3 x4 x5 h0 h1 h2 h3 h4 h5]; rfl
theorem k_main_c_8 : StableHlo.after (kops : List (HloOp τ sig (Elt F))) V (Proc.devRef .tc main_c_8) = Cert.ReferenceIdeal.ReadP.val_main_c_8 (F := F) := by
  rw [SsaLine.nullary_at writes_kops 52 main_c_8 _ _ rfl (by decide) V]; rfl
theorem k_main_v43 : StableHlo.after (kops : List (HloOp τ sig (Elt F))) V (Proc.devRef .tc main_v43) = Cert.ReferenceIdeal.ReadP.val_main_v43 (F := F) := by
  rw [SsaLine.unary_at writes_kops 53 main_c_8 main_v43 _ _ _ rfl (by decide) (by decide) (by decide) V, k_main_c_8 V x0 x1 x2 x3 x4 x5 h0 h1 h2 h3 h4 h5]; rfl
theorem k_main_v44 : StableHlo.after (kops : List (HloOp τ sig (Elt F))) V (Proc.devRef .tc main_v44) = Cert.ReferenceIdeal.ReadP.val_main_v44 (F := F) x0 := by
  rw [SsaLine.binary_at writes_kops 54 main_v3 main_v43 main_v44 _ _ _ _ rfl (by decide) (by decide) (by decide) (by decide) (by decide) V, k_main_v3 V x0 x1 x2 x3 x4 x5 h0 h1 h2 h3 h4 h5, k_main_v43 V x0 x1 x2 x3 x4 x5 h0 h1 h2 h3 h4 h5]; rfl
theorem k_main_v45 : StableHlo.after (kops : List (HloOp τ sig (Elt F))) V (Proc.devRef .tc main_v45) = Cert.ReferenceIdeal.ReadP.val_main_v45 (F := F) x0 := by
  rw [SsaLine.ternary_at writes_kops 55 main_v42 main_v44 main_v3 main_v45 _ _ _ _ _ rfl (by decide) (by decide) (by decide) (by decide) (by decide) (by decide) (by decide) V, k_main_v42 V x0 x1 x2 x3 x4 x5 h0 h1 h2 h3 h4 h5, k_main_v44 V x0 x1 x2 x3 x4 x5 h0 h1 h2 h3 h4 h5, k_main_v3 V x0 x1 x2 x3 x4 x5 h0 h1 h2 h3 h4 h5]; rfl
theorem k_main_v46 : StableHlo.after (kops : List (HloOp τ sig (Elt F))) V (Proc.devRef .tc main_v46) = Cert.ReferenceIdeal.ReadP.val_main_v46 (F := F) x0 := by
  rw [SsaLine.unary_at writes_kops 56 main_v45 main_v46 _ _ _ rfl (by decide) (by decide) (by decide) V, k_main_v45 V x0 x1 x2 x3 x4 x5 h0 h1 h2 h3 h4 h5]; rfl
theorem k_main_v47 : StableHlo.after (kops : List (HloOp τ sig (Elt F))) V (Proc.devRef .tc main_v47) = Cert.ReferenceIdeal.ReadP.val_main_v47 (F := F) x0 x4 := by
  rw [SsaLine.binary_at writes_kops 57 main_arg4 main_v46 main_v47 _ _ _ _ rfl (by decide) (by decide) (by decide) (by decide) (by decide) V, k_main_arg4 V x0 x1 x2 x3 x4 x5 h0 h1 h2 h3 h4 h5, k_main_v46 V x0 x1 x2 x3 x4 x5 h0 h1 h2 h3 h4 h5]; rfl
theorem k_main_c_9 : StableHlo.after (kops : List (HloOp τ sig (Elt F))) V (Proc.devRef .tc main_c_9) = Cert.ReferenceIdeal.ReadP.val_main_c_9 (F := F) := by
  rw [SsaLine.nullary_at writes_kops 58 main_c_9 _ _ rfl (by decide) V]; rfl
theorem k_main_v48 : StableHlo.after (kops : List (HloOp τ sig (Elt F))) V (Proc.devRef .tc main_v48) = Cert.ReferenceIdeal.ReadP.val_main_v48 (F := F) := by
  rw [SsaLine.unary_at writes_kops 59 main_c_9 main_v48 _ _ _ rfl (by decide) (by decide) (by decide) V, k_main_c_9 V x0 x1 x2 x3 x4 x5 h0 h1 h2 h3 h4 h5]; rfl
theorem k_main_v49 : StableHlo.after (kops : List (HloOp τ sig (Elt F))) V (Proc.devRef .tc main_v49) = Cert.ReferenceIdeal.ReadP.val_main_v49 (F := F) x0 := by
  rw [SsaLine.binary_at writes_kops 60 main_v3 main_v48 main_v49 _ _ _ _ rfl (by decide) (by decide) (by decide) (by decide) (by decide) V, k_main_v3 V x0 x1 x2 x3 x4 x5 h0 h1 h2 h3 h4 h5, k_main_v48 V x0 x1 x2 x3 x4 x5 h0 h1 h2 h3 h4 h5]; rfl
theorem k_main_c_10 : StableHlo.after (kops : List (HloOp τ sig (Elt F))) V (Proc.devRef .tc main_c_10) = Cert.ReferenceIdeal.ReadP.val_main_c_10 (F := F) := by
  rw [SsaLine.nullary_at writes_kops 61 main_c_10 _ _ rfl (by decide) V]; rfl
theorem k_main_v50 : StableHlo.after (kops : List (HloOp τ sig (Elt F))) V (Proc.devRef .tc main_v50) = Cert.ReferenceIdeal.ReadP.val_main_v50 (F := F) := by
  rw [SsaLine.unary_at writes_kops 62 main_c_10 main_v50 _ _ _ rfl (by decide) (by decide) (by decide) V, k_main_c_10 V x0 x1 x2 x3 x4 x5 h0 h1 h2 h3 h4 h5]; rfl
theorem k_main_v51 : StableHlo.after (kops : List (HloOp τ sig (Elt F))) V (Proc.devRef .tc main_v51) = Cert.ReferenceIdeal.ReadP.val_main_v51 (F := F) x0 := by
  rw [SsaLine.binary_at writes_kops 63 main_v3 main_v50 main_v51 _ _ _ _ rfl (by decide) (by decide) (by decide) (by decide) (by decide) V, k_main_v3 V x0 x1 x2 x3 x4 x5 h0 h1 h2 h3 h4 h5, k_main_v50 V x0 x1 x2 x3 x4 x5 h0 h1 h2 h3 h4 h5]; rfl
theorem k_main_v52 : StableHlo.after (kops : List (HloOp τ sig (Elt F))) V (Proc.devRef .tc main_v52) = Cert.ReferenceIdeal.ReadP.val_main_v52 (F := F) x0 := by
  rw [SsaLine.ternary_at writes_kops 64 main_v49 main_v51 main_v3 main_v52 _ _ _ _ _ rfl (by decide) (by decide) (by decide) (by decide) (by decide) (by decide) (by decide) V, k_main_v49 V x0 x1 x2 x3 x4 x5 h0 h1 h2 h3 h4 h5, k_main_v51 V x0 x1 x2 x3 x4 x5 h0 h1 h2 h3 h4 h5, k_main_v3 V x0 x1 x2 x3 x4 x5 h0 h1 h2 h3 h4 h5]; rfl
theorem k_main_v53 : StableHlo.after (kops : List (HloOp τ sig (Elt F))) V (Proc.devRef .tc main_v53) = Cert.ReferenceIdeal.ReadP.val_main_v53 (F := F) x0 := by
  rw [SsaLine.unary_at writes_kops 65 main_v52 main_v53 _ _ _ rfl (by decide) (by decide) (by decide) V, k_main_v52 V x0 x1 x2 x3 x4 x5 h0 h1 h2 h3 h4 h5]; rfl
theorem k_main_v54 : StableHlo.after (kops : List (HloOp τ sig (Elt F))) V (Proc.devRef .tc main_v54) = Cert.ReferenceIdeal.ReadP.val_main_v54 (F := F) x0 x5 := by
  rw [SsaLine.binary_at writes_kops 66 main_arg5 main_v53 main_v54 _ _ _ _ rfl (by decide) (by decide) (by decide) (by decide) (by decide) V, k_main_arg5 V x0 x1 x2 x3 x4 x5 h0 h1 h2 h3 h4 h5, k_main_v53 V x0 x1 x2 x3 x4 x5 h0 h1 h2 h3 h4 h5]; rfl
theorem k_main_v55 : StableHlo.after (kops : List (HloOp τ sig (Elt F))) V (Proc.devRef .tc main_v55) = Cert.ReferenceIdeal.ReadP.val_main_v55 (F := F) x0 x5 := by
  rw [SsaLine.unary_at writes_kops 67 main_v54 main_v55 _ _ _ rfl (by decide) (by decide) (by decide) V, k_main_v54 V x0 x1 x2 x3 x4 x5 h0 h1 h2 h3 h4 h5]; rfl
theorem k_main_v56 : StableHlo.after (kops : List (HloOp τ sig (Elt F))) V (Proc.devRef .tc main_v56) = Cert.ReferenceIdeal.ReadP.val_main_v56 (F := F) x0 x5 := by
  rw [SsaLine.reshape_at writes_kops 68 main_v55 main_v56 _ _ _ _ rfl (by decide) (by decide) (by decide) V, k_main_v55 V x0 x1 x2 x3 x4 x5 h0 h1 h2 h3 h4 h5]; rfl
theorem k_main_v57 : StableHlo.after (kops : List (HloOp τ sig (Elt F))) V (Proc.devRef .tc main_v57) = Cert.ReferenceIdeal.ReadP.val_main_v57 (F := F) x0 x5 := by
  rw [SsaLine.unary_at writes_kops 69 main_v54 main_v57 _ _ _ rfl (by decide) (by decide) (by decide) V, k_main_v54 V x0 x1 x2 x3 x4 x5 h0 h1 h2 h3 h4 h5]; rfl
theorem k_main_v58 : StableHlo.after (kops : List (HloOp τ sig (Elt F))) V (Proc.devRef .tc main_v58) = Cert.ReferenceIdeal.ReadP.val_main_v58 (F := F) x0 x5 := by
  rw [SsaLine.reshape_at writes_kops 70 main_v57 main_v58 _ _ _ _ rfl (by decide) (by decide) (by decide) V, k_main_v57 V x0 x1 x2 x3 x4 x5 h0 h1 h2 h3 h4 h5]; rfl
theorem at_main_v59 : StableHlo.after (kops : List (HloOp τ sig (Elt F))) V (Proc.devRef .tc main_v59) = shapeCast _ (StableHlo.after (kops : List (HloOp τ sig (Elt F))) V (Proc.devRef .tc main_arg1)) shapeCasts_S80000x128x5_S80000x640 := by
  rw [SsaLine.reshape_at writes_kops 71 main_arg1 main_v59 _ _ _ _ rfl (by decide) (by decide) (by decide) V]; rfl
theorem k_main_v60 : StableHlo.after (kops : List (HloOp τ sig (Elt F))) V (Proc.devRef .tc main_v60) = Cert.ReferenceIdeal.ReadP.val_main_v63 (F := F) x0 x2 := by
  rw [SsaLine.binary_at writes_kops 72 main_v33 main_v33 main_v60 _ _ _ _ rfl (by decide) (by decide) (by decide) (by decide) (by decide) V, k_main_v33 V x0 x1 x2 x3 x4 x5 h0 h1 h2 h3 h4 h5]; rfl
theorem k_main_cst : StableHlo.after (kops : List (HloOp τ sig (Elt F))) V (Proc.devRef .tc main_cst) = Cert.ReferenceIdeal.ReadP.val_main_cst (F := F) := by
  rw [SsaLine.nullary_at writes_kops 73 main_cst _ _ rfl (by decide) V]; rfl
theorem k_main_v61 : StableHlo.after (kops : List (HloOp τ sig (Elt F))) V (Proc.devRef .tc main_v61) = Cert.ReferenceIdeal.ReadP.val_main_v64 (F := F) x0 x2 := by
  rw [SsaLine.binary_at writes_kops 74 main_v60 main_cst main_v61 _ _ _ _ rfl (by decide) (by decide) (by decide) (by decide) (by decide) V, k_main_v60 V x0 x1 x2 x3 x4 x5 h0 h1 h2 h3 h4 h5, k_main_cst V x0 x1 x2 x3 x4 x5 h0 h1 h2 h3 h4 h5]; rfl
theorem k_main_v62 : StableHlo.after (kops : List (HloOp τ sig (Elt F))) V (Proc.devRef .tc main_v62) = Cert.ReferenceIdeal.ReadP.val_main_v65 (F := F) x0 x2 := by
  rw [SsaLine.unary_at writes_kops 75 main_v61 main_v62 _ _ _ rfl (by decide) (by decide) (by decide) V, k_main_v61 V x0 x1 x2 x3 x4 x5 h0 h1 h2 h3 h4 h5]; rfl
theorem k_main_cst_11 : StableHlo.after (kops : List (HloOp τ sig (Elt F))) V (Proc.devRef .tc main_cst_11) = Cert.ReferenceIdeal.ReadP.val_main_cst_11 (F := F) := by
  rw [SsaLine.nullary_at writes_kops 76 main_cst_11 _ _ rfl (by decide) V]; rfl
theorem k_main_v63 : StableHlo.after (kops : List (HloOp τ sig (Elt F))) V (Proc.devRef .tc main_v63) = Cert.ReferenceIdeal.ReadP.val_main_v66 (F := F) := by
  rw [SsaLine.unary_at writes_kops 77 main_cst_11 main_v63 _ _ _ rfl (by decide) (by decide) (by decide) V, k_main_cst_11 V x0 x1 x2 x3 x4 x5 h0 h1 h2 h3 h4 h5]; rfl
theorem k_main_v64 : StableHlo.after (kops : List (HloOp τ sig (Elt F))) V (Proc.devRef .tc main_v64) = Cert.ReferenceIdeal.ReadP.val_main_v67 (F := F) x0 x2 := by
  rw [SsaLine.binary_at writes_kops 78 main_v62 main_v63 main_v64 _ _ _ _ rfl (by decide) (by decide) (by decide) (by decide) (by decide) V, k_main_v62 V x0 x1 x2 x3 x4 x5 h0 h1 h2 h3 h4 h5, k_main_v63 V x0 x1 x2 x3 x4 x5 h0 h1 h2 h3 h4 h5]; rfl
theorem k_main_v65 : StableHlo.after (kops : List (HloOp τ sig (Elt F))) V (Proc.devRef .tc main_v65) = Cert.ReferenceIdeal.ReadP.val_main_v68 (F := F) x0 x2 := by
  rw [SsaLine.unary_at writes_kops 79 main_v64 main_v65 _ _ _ rfl (by decide) (by decide) (by decide) V, k_main_v64 V x0 x1 x2 x3 x4 x5 h0 h1 h2 h3 h4 h5]; rfl
theorem k_main_v66 : StableHlo.after (kops : List (HloOp τ sig (Elt F))) V (Proc.devRef .tc main_v66) = Cert.ReferenceIdeal.ReadP.val_main_v69 (F := F) x0 x2 := by
  rw [SsaLine.unary_at writes_kops 80 main_v65 main_v66 _ _ _ rfl (by decide) (by decide) (by decide) V, k_main_v65 V x0 x1 x2 x3 x4 x5 h0 h1 h2 h3 h4 h5]; rfl
theorem k_main_v67 : StableHlo.after (kops : List (HloOp τ sig (Elt F))) V (Proc.devRef .tc main_v67) = Cert.ReferenceIdeal.ReadP.val_main_v70 (F := F) x0 x2 := by
  rw [SsaLine.binary_at writes_kops 81 main_v33 main_v66 main_v67 _ _ _ _ rfl (by decide) (by decide) (by decide) (by decide) (by decide) V, k_main_v33 V x0 x1 x2 x3 x4 x5 h0 h1 h2 h3 h4 h5, k_main_v66 V x0 x1 x2 x3 x4 x5 h0 h1 h2 h3 h4 h5]; rfl
theorem k_main_v68 : StableHlo.after (kops : List (HloOp τ sig (Elt F))) V (Proc.devRef .tc main_v68) = Cert.ReferenceIdeal.ReadP.val_main_v71 (F := F) x0 x1 := by
  rw [SsaLine.unary_at writes_kops 82 main_v20 main_v68 _ _ _ rfl (by decide) (by decide) (by decide) V, k_main_v20 V x0 x1 x2 x3 x4 x5 h0 h1 h2 h3 h4 h5]; rfl
theorem k_main_v69 : StableHlo.after (kops : List (HloOp τ sig (Elt F))) V (Proc.devRef .tc main_v69) = Cert.ReferenceIdeal.ReadP.val_main_v72 (F := F) x0 x1 := by
  rw [SsaLine.unary_at writes_kops 83 main_v20 main_v69 _ _ _ rfl (by decide) (by decide) (by decide) V, k_main_v20 V x0 x1 x2 x3 x4 x5 h0 h1 h2 h3 h4 h5]; rfl
theorem k_main_v70 : StableHlo.after (kops : List (HloOp τ sig (Elt F))) V (Proc.devRef .tc main_v70) = Cert.ReferenceIdeal.ReadP.val_main_v73 (F := F) x0 x2 := by
  rw [SsaLine.unary_at writes_kops 84 main_v67 main_v70 _ _ _ rfl (by decide) (by decide) (by decide) V, k_main_v67 V x0 x1 x2 x3 x4 x5 h0 h1 h2 h3 h4 h5]; rfl
theorem k_main_v71 : StableHlo.after (kops : List (HloOp τ sig (Elt F))) V (Proc.devRef .tc main_v71) = Cert.ReferenceIdeal.ReadP.val_main_v74 (F := F) x0 x2 := by
  rw [SsaLine.reshape_at writes_kops 85 main_v70 main_v71 _ _ _ _ rfl (by decide) (by decide) (by decide) V, k_main_v70 V x0 x1 x2 x3 x4 x5 h0 h1 h2 h3 h4 h5]; rfl
theorem k_main_v72 : StableHlo.after (kops : List (HloOp τ sig (Elt F))) V (Proc.devRef .tc main_v72) = Cert.ReferenceIdeal.ReadP.val_main_v75 (F := F) x0 x2 := by
  rw [SsaLine.unary_at writes_kops 86 main_v67 main_v72 _ _ _ rfl (by decide) (by decide) (by decide) V, k_main_v67 V x0 x1 x2 x3 x4 x5 h0 h1 h2 h3 h4 h5]; rfl
theorem k_main_v73 : StableHlo.after (kops : List (HloOp τ sig (Elt F))) V (Proc.devRef .tc main_v73) = Cert.ReferenceIdeal.ReadP.val_main_v76 (F := F) x0 x2 := by
  rw [SsaLine.reshape_at writes_kops 87 main_v72 main_v73 _ _ _ _ rfl (by decide) (by decide) (by decide) V, k_main_v72 V x0 x1 x2 x3 x4 x5 h0 h1 h2 h3 h4 h5]; rfl
theorem k_main_v74 : StableHlo.after (kops : List (HloOp τ sig (Elt F))) V (Proc.devRef .tc main_v74) = Cert.ReferenceIdeal.ReadP.val_main_v77 (F := F) x0 x2 := by
  rw [SsaLine.unary_at writes_kops 88 main_v67 main_v74 _ _ _ rfl (by decide) (by decide) (by decide) V, k_main_v67 V x0 x1 x2 x3 x4 x5 h0 h1 h2 h3 h4 h5]; rfl
theorem k_main_v75 : StableHlo.after (kops : List (HloOp τ sig (Elt F))) V (Proc.devRef .tc main_v75) = Cert.ReferenceIdeal.ReadP.val_main_v78 (F := F) x0 x2 := by
  rw [SsaLine.reshape_at writes_kops 89 main_v74 main_v75 _ _ _ _ rfl (by decide) (by decide) (by decide) V, k_main_v74 V x0 x1 x2 x3 x4 x5 h0 h1 h2 h3 h4 h5]; rfl
theorem k_main_v76 : StableHlo.after (kops : List (HloOp τ sig (Elt F))) V (Proc.devRef .tc main_v76) = Cert.ReferenceIdeal.ReadP.val_main_v79 (F := F) x0 x2 := by
  rw [SsaLine.unary_at writes_kops 90 main_v67 main_v76 _ _ _ rfl (by decide) (by decide) (by decide) V, k_main_v67 V x0 x1 x2 x3 x4 x5 h0 h1 h2 h3 h4 h5]; rfl
theorem k_main_v77 : StableHlo.after (kops : List (HloOp τ sig (Elt F))) V (Proc.devRef .tc main_v77) = Cert.ReferenceIdeal.ReadP.val_main_v80 (F := F) x0 x2 := by
  rw [SsaLine.reshape_at writes_kops 91 main_v76 main_v77 _ _ _ _ rfl (by decide) (by decide) (by decide) V, k_main_v76 V x0 x1 x2 x3 x4 x5 h0 h1 h2 h3 h4 h5]; rfl
theorem k_main_v78 : StableHlo.after (kops : List (HloOp τ sig (Elt F))) V (Proc.devRef .tc main_v78) = Cert.ReferenceIdeal.ReadP.val_main_v81 (F := F) x0 x1 := by
  rw [SsaLine.unary_at writes_kops 92 main_v69 main_v78 _ _ _ rfl (by decide) (by decide) (by decide) V, k_main_v69 V x0 x1 x2 x3 x4 x5 h0 h1 h2 h3 h4 h5]; rfl
theorem k_main_v79 : StableHlo.after (kops : List (HloOp τ sig (Elt F))) V (Proc.devRef .tc main_v79) = Cert.ReferenceIdeal.ReadP.val_main_v82 (F := F) x0 x1 := by
  rw [SsaLine.reshape_at writes_kops 93 main_v78 main_v79 _ _ _ _ rfl (by decide) (by decide) (by decide) V, k_main_v78 V x0 x1 x2 x3 x4 x5 h0 h1 h2 h3 h4 h5]; rfl
theorem k_main_v80 : StableHlo.after (kops : List (HloOp τ sig (Elt F))) V (Proc.devRef .tc main_v80) = Cert.ReferenceIdeal.ReadP.val_main_v83 (F := F) x0 x1 := by
  rw [SsaLine.unary_at writes_kops 94 main_v69 main_v80 _ _ _ rfl (by decide) (by decide) (by decide) V, k_main_v69 V x0 x1 x2 x3 x4 x5 h0 h1 h2 h3 h4 h5]; rfl
theorem k_main_v81 : StableHlo.after (kops : List (HloOp τ sig (Elt F))) V (Proc.devRef .tc main_v81) = Cert.ReferenceIdeal.ReadP.val_main_v84 (F := F) x0 x1 := by
  rw [SsaLine.reshape_at writes_kops 95 main_v80 main_v81 _ _ _ _ rfl (by decide) (by decide) (by decide) V, k_main_v80 V x0 x1 x2 x3 x4 x5 h0 h1 h2 h3 h4 h5]; rfl
theorem k_main_v82 : StableHlo.after (kops : List (HloOp τ sig (Elt F))) V (Proc.devRef .tc main_v82) = Cert.ReferenceIdeal.ReadP.val_main_v85 (F := F) x0 x1 := by
  rw [SsaLine.unary_at writes_kops 96 main_v69 main_v82 _ _ _ rfl (by decide) (by decide) (by decide) V, k_main_v69 V x0 x1 x2 x3 x4 x5 h0 h1 h2 h3 h4 h5]; rfl
theorem k_main_v83 : StableHlo.after (kops : List (HloOp τ sig (Elt F))) V (Proc.devRef .tc main_v83) = Cert.ReferenceIdeal.ReadP.val_main_v86 (F := F) x0 x1 := by
  rw [SsaLine.reshape_at writes_kops 97 main_v82 main_v83 _ _ _ _ rfl (by decide) (by decide) (by decide) V, k_main_v82 V x0 x1 x2 x3 x4 x5 h0 h1 h2 h3 h4 h5]; rfl
theorem k_main_v84 : StableHlo.after (kops : List (HloOp τ sig (Elt F))) V (Proc.devRef .tc main_v84) = Cert.ReferenceIdeal.ReadP.val_main_v87 (F := F) x0 x1 := by
  rw [SsaLine.unary_at writes_kops 98 main_v69 main_v84 _ _ _ rfl (by decide) (by decide) (by decide) V, k_main_v69 V x0 x1 x2 x3 x4 x5 h0 h1 h2 h3 h4 h5]; rfl
theorem k_main_v85 : StableHlo.after (kops : List (HloOp τ sig (Elt F))) V (Proc.devRef .tc main_v85) = Cert.ReferenceIdeal.ReadP.val_main_v88 (F := F) x0 x1 := by
  rw [SsaLine.reshape_at writes_kops 99 main_v84 main_v85 _ _ _ _ rfl (by decide) (by decide) (by decide) V, k_main_v84 V x0 x1 x2 x3 x4 x5 h0 h1 h2 h3 h4 h5]; rfl
theorem k_main_v86 : StableHlo.after (kops : List (HloOp τ sig (Elt F))) V (Proc.devRef .tc main_v86) = Cert.ReferenceIdeal.ReadP.val_main_v89 (F := F) x0 x1 x2 := by
  rw [SsaLine.binary_at writes_kops 100 main_v71 main_v79 main_v86 _ _ _ _ rfl (by decide) (by decide) (by decide) (by decide) (by decide) V, k_main_v71 V x0 x1 x2 x3 x4 x5 h0 h1 h2 h3 h4 h5, k_main_v79 V x0 x1 x2 x3 x4 x5 h0 h1 h2 h3 h4 h5]; rfl
theorem k_main_v87 : StableHlo.after (kops : List (HloOp τ sig (Elt F))) V (Proc.devRef .tc main_v87) = Cert.ReferenceIdeal.ReadP.val_main_v90 (F := F) x0 x1 x2 := by
  rw [SsaLine.binary_at writes_kops 101 main_v73 main_v81 main_v87 _ _ _ _ rfl (by decide) (by decide) (by decide) (by decide) (by decide) V, k_main_v73 V x0 x1 x2 x3 x4 x5 h0 h1 h2 h3 h4 h5, k_main_v81 V x0 x1 x2 x3 x4 x5 h0 h1 h2 h3 h4 h5]; rfl
theorem k_main_v88 : StableHlo.after (kops : List (HloOp τ sig (Elt F))) V (Proc.devRef .tc main_v88) = Cert.ReferenceIdeal.ReadP.val_main_v91 (F := F) x0 x1 x2 := by
  rw [SsaLine.binary_at writes_kops 102 main_v86 main_v87 main_v88 _ _ _ _ rfl (by decide) (by decide) (by decide) (by decide) (by decide) V, k_main_v86 V x0 x1 x2 x3 x4 x5 h0 h1 h2 h3 h4 h5, k_main_v87 V x0 x1 x2 x3 x4 x5 h0 h1 h2 h3 h4 h5]; rfl
theorem k_main_v89 : StableHlo.after (kops : List (HloOp τ sig (Elt F))) V (Proc.devRef .tc main_v89) = Cert.ReferenceIdeal.ReadP.val_main_v92 (F := F) x0 x1 x2 := by
  rw [SsaLine.binary_at writes_kops 103 main_v75 main_v83 main_v89 _ _ _ _ rfl (by decide) (by decide) (by decide) (by decide) (by decide) V, k_main_v75 V x0 x1 x2 x3 x4 x5 h0 h1 h2 h3 h4 h5, k_main_v83 V x0 x1 x2 x3 x4 x5 h0 h1 h2 h3 h4 h5]; rfl
theorem k_main_v90 : StableHlo.after (kops : List (HloOp τ sig (Elt F))) V (Proc.devRef .tc main_v90) = Cert.ReferenceIdeal.ReadP.val_main_v93 (F := F) x0 x1 x2 := by
  rw [SsaLine.binary_at writes_kops 104 main_v88 main_v89 main_v90 _ _ _ _ rfl (by decide) (by decide) (by decide) (by decide) (by decide) V, k_main_v88 V x0 x1 x2 x3 x4 x5 h0 h1 h2 h3 h4 h5, k_main_v89 V x0 x1 x2 x3 x4 x5 h0 h1 h2 h3 h4 h5]; rfl
theorem k_main_v91 : StableHlo.after (kops : List (HloOp τ sig (Elt F))) V (Proc.devRef .tc main_v91) = Cert.ReferenceIdeal.ReadP.val_main_v94 (F := F) x0 x1 x2 := by
  rw [SsaLine.binary_at writes_kops 105 main_v77 main_v85 main_v91 _ _ _ _ rfl (by decide) (by decide) (by decide) (by decide) (by decide) V, k_main_v77 V x0 x1 x2 x3 x4 x5 h0 h1 h2 h3 h4 h5, k_main_v85 V x0 x1 x2 x3 x4 x5 h0 h1 h2 h3 h4 h5]; rfl
theorem k_main_v92 : StableHlo.after (kops : List (HloOp τ sig (Elt F))) V (Proc.devRef .tc main_v92) = Cert.ReferenceIdeal.ReadP.val_main_v95 (F := F) x0 x1 x2 := by
  rw [SsaLine.binary_at writes_kops 106 main_v90 main_v91 main_v92 _ _ _ _ rfl (by decide) (by decide) (by decide) (by decide) (by decide) V, k_main_v90 V x0 x1 x2 x3 x4 x5 h0 h1 h2 h3 h4 h5, k_main_v91 V x0 x1 x2 x3 x4 x5 h0 h1 h2 h3 h4 h5]; rfl
theorem k_main_v93 : StableHlo.after (kops : List (HloOp τ sig (Elt F))) V (Proc.devRef .tc main_v93) = Cert.ReferenceIdeal.ReadP.val_main_v96 (F := F) x0 x1 x2 := by
  rw [SsaLine.binary_at writes_kops 107 main_v71 main_v81 main_v93 _ _ _ _ rfl (by decide) (by decide) (by decide) (by decide) (by decide) V, k_main_v71 V x0 x1 x2 x3 x4 x5 h0 h1 h2 h3 h4 h5, k_main_v81 V x0 x1 x2 x3 x4 x5 h0 h1 h2 h3 h4 h5]; rfl
theorem k_main_v94 : StableHlo.after (kops : List (HloOp τ sig (Elt F))) V (Proc.devRef .tc main_v94) = Cert.ReferenceIdeal.ReadP.val_main_v97 (F := F) x0 x1 x2 := by
  rw [SsaLine.binary_at writes_kops 108 main_v73 main_v79 main_v94 _ _ _ _ rfl (by decide) (by decide) (by decide) (by decide) (by decide) V, k_main_v73 V x0 x1 x2 x3 x4 x5 h0 h1 h2 h3 h4 h5, k_main_v79 V x0 x1 x2 x3 x4 x5 h0 h1 h2 h3 h4 h5]; rfl
theorem k_main_v95 : StableHlo.after (kops : List (HloOp τ sig (Elt F))) V (Proc.devRef .tc main_v95) = Cert.ReferenceIdeal.ReadP.val_main_v98 (F := F) x0 x1 x2 := by
  rw [SsaLine.binary_at writes_kops 109 main_v93 main_v94 main_v95 _ _ _ _ rfl (by decide) (by decide) (by decide) (by decide) (by decide) V, k_main_v93 V x0 x1 x2 x3 x4 x5 h0 h1 h2 h3 h4 h5, k_main_v94 V x0 x1 x2 x3 x4 x5 h0 h1 h2 h3 h4 h5]; rfl
theorem k_main_v96 : StableHlo.after (kops : List (HloOp τ sig (Elt F))) V (Proc.devRef .tc main_v96) = Cert.ReferenceIdeal.ReadP.val_main_v99 (F := F) x0 x1 x2 := by
  rw [SsaLine.binary_at writes_kops 110 main_v75 main_v85 main_v96 _ _ _ _ rfl (by decide) (by decide) (by decide) (by decide) (by decide) V, k_main_v75 V x0 x1 x2 x3 x4 x5 h0 h1 h2 h3 h4 h5, k_main_v85 V x0 x1 x2 x3 x4 x5 h0 h1 h2 h3 h4 h5]; rfl
theorem k_main_v97 : StableHlo.after (kops : List (HloOp τ sig (Elt F))) V (Proc.devRef .tc main_v97) = Cert.ReferenceIdeal.ReadP.val_main_v100 (F := F) x0 x1 x2 := by
  rw [SsaLine.binary_at writes_kops 111 main_v95 main_v96 main_v97 _ _ _ _ rfl (by decide) (by decide) (by decide) (by decide) (by decide) V, k_main_v95 V x0 x1 x2 x3 x4 x5 h0 h1 h2 h3 h4 h5, k_main_v96 V x0 x1 x2 x3 x4 x5 h0 h1 h2 h3 h4 h5]; rfl
theorem k_main_v98 : StableHlo.after (kops : List (HloOp τ sig (Elt F))) V (Proc.devRef .tc main_v98) = Cert.ReferenceIdeal.ReadP.val_main_v101 (F := F) x0 x1 x2 := by
  rw [SsaLine.binary_at writes_kops 112 main_v77 main_v83 main_v98 _ _ _ _ rfl (by decide) (by decide) (by decide) (by decide) (by decide) V, k_main_v77 V x0 x1 x2 x3 x4 x5 h0 h1 h2 h3 h4 h5, k_main_v83 V x0 x1 x2 x3 x4 x5 h0 h1 h2 h3 h4 h5]; rfl
theorem k_main_v99 : StableHlo.after (kops : List (HloOp τ sig (Elt F))) V (Proc.devRef .tc main_v99) = Cert.ReferenceIdeal.ReadP.val_main_v102 (F := F) x0 x1 x2 := by
  rw [SsaLine.binary_at writes_kops 113 main_v97 main_v98 main_v99 _ _ _ _ rfl (by decide) (by decide) (by decide) (by decide) (by decide) V, k_main_v97 V x0 x1 x2 x3 x4 x5 h0 h1 h2 h3 h4 h5, k_main_v98 V x0 x1 x2 x3 x4 x5 h0 h1 h2 h3 h4 h5]; rfl
theorem k_main_v100 : StableHlo.after (kops : List (HloOp τ sig (Elt F))) V (Proc.devRef .tc main_v100) = Cert.ReferenceIdeal.ReadP.val_main_v103 (F := F) x0 x1 x2 := by
  rw [SsaLine.binary_at writes_kops 114 main_v71 main_v83 main_v100 _ _ _ _ rfl (by decide) (by decide) (by decide) (by decide) (by decide) V, k_main_v71 V x0 x1 x2 x3 x4 x5 h0 h1 h2 h3 h4 h5, k_main_v83 V x0 x1 x2 x3 x4 x5 h0 h1 h2 h3 h4 h5]; rfl
theorem k_main_v101 : StableHlo.after (kops : List (HloOp τ sig (Elt F))) V (Proc.devRef .tc main_v101) = Cert.ReferenceIdeal.ReadP.val_main_v104 (F := F) x0 x1 x2 := by
  rw [SsaLine.binary_at writes_kops 115 main_v73 main_v85 main_v101 _ _ _ _ rfl (by decide) (by decide) (by decide) (by decide) (by decide) V, k_main_v73 V x0 x1 x2 x3 x4 x5 h0 h1 h2 h3 h4 h5, k_main_v85 V x0 x1 x2 x3 x4 x5 h0 h1 h2 h3 h4 h5]; rfl
theorem k_main_v102 : StableHlo.after (kops : List (HloOp τ sig (Elt F))) V (Proc.devRef .tc main_v102) = Cert.ReferenceIdeal.ReadP.val_main_v105 (F := F) x0 x1 x2 := by
  rw [SsaLine.binary_at writes_kops 116 main_v100 main_v101 main_v102 _ _ _ _ rfl (by decide) (by decide) (by decide) (by decide) (by decide) V, k_main_v100 V x0 x1 x2 x3 x4 x5 h0 h1 h2 h3 h4 h5, k_main_v101 V x0 x1 x2 x3 x4 x5 h0 h1 h2 h3 h4 h5]; rfl
theorem k_main_v103 : StableHlo.after (kops : List (HloOp τ sig (Elt F))) V (Proc.devRef .tc main_v103) = Cert.ReferenceIdeal.ReadP.val_main_v106 (F := F) x0 x1 x2 := by
  rw [SsaLine.binary_at writes_kops 117 main_v75 main_v79 main_v103 _ _ _ _ rfl (by decide) (by decide) (by decide) (by decide) (by decide) V, k_main_v75 V x0 x1 x2 x3 x4 x5 h0 h1 h2 h3 h4 h5, k_main_v79 V x0 x1 x2 x3 x4 x5 h0 h1 h2 h3 h4 h5]; rfl
theorem k_main_v104 : StableHlo.after (kops : List (HloOp τ sig (Elt F))) V (Proc.devRef .tc main_v104) = Cert.ReferenceIdeal.ReadP.val_main_v107 (F := F) x0 x1 x2 := by
  rw [SsaLine.binary_at writes_kops 118 main_v102 main_v103 main_v104 _ _ _ _ rfl (by decide) (by decide) (by decide) (by decide) (by decide) V, k_main_v102 V x0 x1 x2 x3 x4 x5 h0 h1 h2 h3 h4 h5, k_main_v103 V x0 x1 x2 x3 x4 x5 h0 h1 h2 h3 h4 h5]; rfl
theorem k_main_v105 : StableHlo.after (kops : List (HloOp τ sig (Elt F))) V (Proc.devRef .tc main_v105) = Cert.ReferenceIdeal.ReadP.val_main_v108 (F := F) x0 x1 x2 := by
  rw [SsaLine.binary_at writes_kops 119 main_v77 main_v81 main_v105 _ _ _ _ rfl (by decide) (by decide) (by decide) (by decide) (by decide) V, k_main_v77 V x0 x1 x2 x3 x4 x5 h0 h1 h2 h3 h4 h5, k_main_v81 V x0 x1 x2 x3 x4 x5 h0 h1 h2 h3 h4 h5]; rfl
theorem k_main_v106 : StableHlo.after (kops : List (HloOp τ sig (Elt F))) V (Proc.devRef .tc main_v106) = Cert.ReferenceIdeal.ReadP.val_main_v109 (F := F) x0 x1 x2 := by
  rw [SsaLine.binary_at writes_kops 120 main_v104 main_v105 main_v106 _ _ _ _ rfl (by decide) (by decide) (by decide) (by decide) (by decide) V, k_main_v104 V x0 x1 x2 x3 x4 x5 h0 h1 h2 h3 h4 h5, k_main_v105 V x0 x1 x2 x3 x4 x5 h0 h1 h2 h3 h4 h5]; rfl
theorem k_main_v107 : StableHlo.after (kops : List (HloOp τ sig (Elt F))) V (Proc.devRef .tc main_v107) = Cert.ReferenceIdeal.ReadP.val_main_v110 (F := F) x0 x1 x2 := by
  rw [SsaLine.binary_at writes_kops 121 main_v71 main_v85 main_v107 _ _ _ _ rfl (by decide) (by decide) (by decide) (by decide) (by decide) V, k_main_v71 V x0 x1 x2 x3 x4 x5 h0 h1 h2 h3 h4 h5, k_main_v85 V x0 x1 x2 x3 x4 x5 h0 h1 h2 h3 h4 h5]; rfl
theorem k_main_v108 : StableHlo.after (kops : List (HloOp τ sig (Elt F))) V (Proc.devRef .tc main_v108) = Cert.ReferenceIdeal.ReadP.val_main_v111 (F := F) x0 x1 x2 := by
  rw [SsaLine.binary_at writes_kops 122 main_v73 main_v83 main_v108 _ _ _ _ rfl (by decide) (by decide) (by decide) (by decide) (by decide) V, k_main_v73 V x0 x1 x2 x3 x4 x5 h0 h1 h2 h3 h4 h5, k_main_v83 V x0 x1 x2 x3 x4 x5 h0 h1 h2 h3 h4 h5]; rfl
theorem k_main_v109 : StableHlo.after (kops : List (HloOp τ sig (Elt F))) V (Proc.devRef .tc main_v109) = Cert.ReferenceIdeal.ReadP.val_main_v112 (F := F) x0 x1 x2 := by
  rw [SsaLine.binary_at writes_kops 123 main_v107 main_v108 main_v109 _ _ _ _ rfl (by decide) (by decide) (by decide) (by decide) (by decide) V, k_main_v107 V x0 x1 x2 x3 x4 x5 h0 h1 h2 h3 h4 h5, k_main_v108 V x0 x1 x2 x3 x4 x5 h0 h1 h2 h3 h4 h5]; rfl
theorem k_main_v110 : StableHlo.after (kops : List (HloOp τ sig (Elt F))) V (Proc.devRef .tc main_v110) = Cert.ReferenceIdeal.ReadP.val_main_v113 (F := F) x0 x1 x2 := by
  rw [SsaLine.binary_at writes_kops 124 main_v75 main_v81 main_v110 _ _ _ _ rfl (by decide) (by decide) (by decide) (by decide) (by decide) V, k_main_v75 V x0 x1 x2 x3 x4 x5 h0 h1 h2 h3 h4 h5, k_main_v81 V x0 x1 x2 x3 x4 x5 h0 h1 h2 h3 h4 h5]; rfl
theorem k_main_v111 : StableHlo.after (kops : List (HloOp τ sig (Elt F))) V (Proc.devRef .tc main_v111) = Cert.ReferenceIdeal.ReadP.val_main_v114 (F := F) x0 x1 x2 := by
  rw [SsaLine.binary_at writes_kops 125 main_v109 main_v110 main_v111 _ _ _ _ rfl (by decide) (by decide) (by decide) (by decide) (by decide) V, k_main_v109 V x0 x1 x2 x3 x4 x5 h0 h1 h2 h3 h4 h5, k_main_v110 V x0 x1 x2 x3 x4 x5 h0 h1 h2 h3 h4 h5]; rfl
theorem k_main_v112 : StableHlo.after (kops : List (HloOp τ sig (Elt F))) V (Proc.devRef .tc main_v112) = Cert.ReferenceIdeal.ReadP.val_main_v115 (F := F) x0 x1 x2 := by
  rw [SsaLine.binary_at writes_kops 126 main_v77 main_v79 main_v112 _ _ _ _ rfl (by decide) (by decide) (by decide) (by decide) (by decide) V, k_main_v77 V x0 x1 x2 x3 x4 x5 h0 h1 h2 h3 h4 h5, k_main_v79 V x0 x1 x2 x3 x4 x5 h0 h1 h2 h3 h4 h5]; rfl
theorem k_main_v113 : StableHlo.after (kops : List (HloOp τ sig (Elt F))) V (Proc.devRef .tc main_v113) = Cert.ReferenceIdeal.ReadP.val_main_v116 (F := F) x0 x1 x2 := by
  rw [SsaLine.binary_at writes_kops 127 main_v111 main_v112 main_v113 _ _ _ _ rfl (by decide) (by decide) (by decide) (by decide) (by decide) V, k_main_v111 V x0 x1 x2 x3 x4 x5 h0 h1 h2 h3 h4 h5, k_main_v112 V x0 x1 x2 x3 x4 x5 h0 h1 h2 h3 h4 h5]; rfl
theorem k_main_v114 : StableHlo.after (kops : List (HloOp τ sig (Elt F))) V (Proc.devRef .tc main_v114) = Cert.ReferenceIdeal.ReadP.val_main_v117 (F := F) x0 x1 x2 := by
  rw [SsaLine.unary_at writes_kops 128 main_v92 main_v114 _ _ _ rfl (by decide) (by decide) (by decide) V, k_main_v92 V x0 x1 x2 x3 x4 x5 h0 h1 h2 h3 h4 h5]; rfl
theorem k_main_v115 : StableHlo.after (kops : List (HloOp τ sig (Elt F))) V (Proc.devRef .tc main_v115) = Cert.ReferenceIdeal.ReadP.val_main_v118 (F := F) x0 x1 x2 := by
  rw [SsaLine.unary_at writes_kops 129 main_v99 main_v115 _ _ _ rfl (by decide) (by decide) (by decide) V, k_main_v99 V x0 x1 x2 x3 x4 x5 h0 h1 h2 h3 h4 h5]; rfl
theorem k_main_v116 : StableHlo.after (kops : List (HloOp τ sig (Elt F))) V (Proc.devRef .tc main_v116) = Cert.ReferenceIdeal.ReadP.val_main_v119 (F := F) x0 x1 x2 := by
  rw [SsaLine.unary_at writes_kops 130 main_v106 main_v116 _ _ _ rfl (by decide) (by decide) (by decide) V, k_main_v106 V x0 x1 x2 x3 x4 x5 h0 h1 h2 h3 h4 h5]; rfl
theorem k_main_v117 : StableHlo.after (kops : List (HloOp τ sig (Elt F))) V (Proc.devRef .tc main_v117) = Cert.ReferenceIdeal.ReadP.val_main_v120 (F := F) x0 x1 x2 := by
  rw [SsaLine.unary_at writes_kops 131 main_v113 main_v117 _ _ _ rfl (by decide) (by decide) (by decide) V, k_main_v113 V x0 x1 x2 x3 x4 x5 h0 h1 h2 h3 h4 h5]; rfl
theorem k_main_v118 : StableHlo.after (kops : List (HloOp τ sig (Elt F))) V (Proc.devRef .tc main_v118) = Cert.ReferenceIdeal.ReadP.val_main_v121 (F := F) x0 x1 x2 := by
  rw [SsaLine.nary4_at writes_kops 132 main_v114 main_v115 main_v116 main_v117 main_v118 _ _ _ rfl (by decide) (by decide) (by decide) (by decide) (by decide) (by decide) (by decide) (by decide) (by decide) V, k_main_v114 V x0 x1 x2 x3 x4 x5 h0 h1 h2 h3 h4 h5, k_main_v115 V x0 x1 x2 x3 x4 x5 h0 h1 h2 h3 h4 h5, k_main_v116 V x0 x1 x2 x3 x4 x5 h0 h1 h2 h3 h4 h5, k_main_v117 V x0 x1 x2 x3 x4 x5 h0 h1 h2 h3 h4 h5]; rfl
theorem k_main_v119 : StableHlo.after (kops : List (HloOp τ sig (Elt F))) V (Proc.devRef .tc main_v119) = Cert.ReferenceIdeal.ReadP.val_main_v122 (F := F) x0 x1 x2 := by
  rw [SsaLine.binary_at writes_kops 133 main_v68 main_v118 main_v119 _ _ _ _ rfl (by decide) (by decide) (by decide) (by decide) (by decide) V, k_main_v68 V x0 x1 x2 x3 x4 x5 h0 h1 h2 h3 h4 h5, k_main_v118 V x0 x1 x2 x3 x4 x5 h0 h1 h2 h3 h4 h5]; rfl
theorem k_main_v120 : StableHlo.after (kops : List (HloOp τ sig (Elt F))) V (Proc.devRef .tc main_v120) = Cert.ReferenceIdeal.ReadP.val_main_v123 (F := F) x0 x1 x2 := by
  rw [SsaLine.reshape_at writes_kops 134 main_v119 main_v120 _ _ _ _ rfl (by decide) (by decide) (by decide) V, k_main_v119 V x0 x1 x2 x3 x4 x5 h0 h1 h2 h3 h4 h5]; rfl
theorem k_main_v121 : StableHlo.after (kops : List (HloOp τ sig (Elt F))) V (Proc.devRef .tc main_v121) = Cert.ReferenceIdeal.ReadP.val_main_v124 (F := F) x0 x1 := by
  rw [SsaLine.unary_at writes_kops 135 main_v20 main_v121 _ _ _ rfl (by decide) (by decide) (by decide) V, k_main_v20 V x0 x1 x2 x3 x4 x5 h0 h1 h2 h3 h4 h5]; rfl
theorem k_main_v122 : StableHlo.after (kops : List (HloOp τ sig (Elt F))) V (Proc.devRef .tc main_v122) = Cert.ReferenceIdeal.ReadP.val_main_v125 (F := F) x0 x1 := by
  rw [SsaLine.unary_at writes_kops 136 main_v20 main_v122 _ _ _ rfl (by decide) (by decide) (by decide) V, k_main_v20 V x0 x1 x2 x3 x4 x5 h0 h1 h2 h3 h4 h5]; rfl
theorem k_main_v123 : StableHlo.after (kops : List (HloOp τ sig (Elt F))) V (Proc.devRef .tc main_v123) = Cert.ReferenceIdeal.ReadP.val_main_v126 (F := F) x0 x3 := by
  rw [SsaLine.binary_at writes_kops 137 main_v40 main_v40 main_v123 _ _ _ _ rfl (by decide) (by decide) (by decide) (by decide) (by decide) V, k_main_v40 V x0 x1 x2 x3 x4 x5 h0 h1 h2 h3 h4 h5]; rfl
theorem k_main_cst_12 : StableHlo.after (kops : List (HloOp τ sig (Elt F))) V (Proc.devRef .tc main_cst_12) = Cert.ReferenceIdeal.ReadP.val_main_cst_12 (F := F) := by
  rw [SsaLine.nullary_at writes_kops 138 main_cst_12 _ _ rfl (by decide) V]; rfl
theorem k_main_v124 : StableHlo.after (kops : List (HloOp τ sig (Elt F))) V (Proc.devRef .tc main_v124) = Cert.ReferenceIdeal.ReadP.val_main_v127 (F := F) x0 x3 := by
  rw [SsaLine.binary_at writes_kops 139 main_v123 main_cst_12 main_v124 _ _ _ _ rfl (by decide) (by decide) (by decide) (by decide) (by decide) V, k_main_v123 V x0 x1 x2 x3 x4 x5 h0 h1 h2 h3 h4 h5, k_main_cst_12 V x0 x1 x2 x3 x4 x5 h0 h1 h2 h3 h4 h5]; rfl
theorem k_main_v125 : StableHlo.after (kops : List (HloOp τ sig (Elt F))) V (Proc.devRef .tc main_v125) = Cert.ReferenceIdeal.ReadP.val_main_v128 (F := F) x0 x3 := by
  rw [SsaLine.unary_at writes_kops 140 main_v124 main_v125 _ _ _ rfl (by decide) (by decide) (by decide) V, k_main_v124 V x0 x1 x2 x3 x4 x5 h0 h1 h2 h3 h4 h5]; rfl
theorem k_main_cst_13 : StableHlo.after (kops : List (HloOp τ sig (Elt F))) V (Proc.devRef .tc main_cst_13) = Cert.ReferenceIdeal.ReadP.val_main_cst_13 (F := F) := by
  rw [SsaLine.nullary_at writes_kops 141 main_cst_13 _ _ rfl (by decide) V]; rfl
theorem k_main_cst_14 : StableHlo.after (kops : List (HloOp τ sig (Elt F))) V (Proc.devRef .tc main_cst_14) = Cert.ReferenceIdeal.ReadP.val_main_cst_14 (F := F) := by
  rw [SsaLine.nullary_at writes_kops 142 main_cst_14 _ _ rfl (by decide) V]; rfl
theorem k_main_call0_v0 : StableHlo.after (kops : List (HloOp τ sig (Elt F))) V (Proc.devRef .tc main_call0_v0) = Cert.ReferenceIdeal.ReadP.val_main_call0_v0 (F := F) := by
  rw [SsaLine.unary_at writes_kops 143 main_cst_13 main_call0_v0 _ _ _ rfl (by decide) (by decide) (by decide) V, k_main_cst_13 V x0 x1 x2 x3 x4 x5 h0 h1 h2 h3 h4 h5]; rfl
theorem k_main_call0_v1 : StableHlo.after (kops : List (HloOp τ sig (Elt F))) V (Proc.devRef .tc main_call0_v1) = Cert.ReferenceIdeal.ReadP.val_main_call0_v1 (F := F) := by
  rw [SsaLine.unary_at writes_kops 144 main_call0_v0 main_call0_v1 _ _ _ rfl (by decide) (by decide) (by decide) V, k_main_call0_v0 V x0 x1 x2 x3 x4 x5 h0 h1 h2 h3 h4 h5]; rfl
theorem k_main_call0_v2 : StableHlo.after (kops : List (HloOp τ sig (Elt F))) V (Proc.devRef .tc main_call0_v2) = Cert.ReferenceIdeal.ReadP.val_main_call0_v2 (F := F) x0 x3 := by
  rw [SsaLine.binary_at writes_kops 145 main_call0_v1 main_v125 main_call0_v2 _ _ _ _ rfl (by decide) (by decide) (by decide) (by decide) (by decide) V, k_main_call0_v1 V x0 x1 x2 x3 x4 x5 h0 h1 h2 h3 h4 h5, k_main_v125 V x0 x1 x2 x3 x4 x5 h0 h1 h2 h3 h4 h5]; rfl
theorem k_main_call0_v3 : StableHlo.after (kops : List (HloOp τ sig (Elt F))) V (Proc.devRef .tc main_call0_v3) = Cert.ReferenceIdeal.ReadP.val_main_call0_v3 (F := F) := by
  rw [SsaLine.unary_at writes_kops 146 main_cst_14 main_call0_v3 _ _ _ rfl (by decide) (by decide) (by decide) V, k_main_cst_14 V x0 x1 x2 x3 x4 x5 h0 h1 h2 h3 h4 h5]; rfl
theorem k_main_call0_v4 : StableHlo.after (kops : List (HloOp τ sig (Elt F))) V (Proc.devRef .tc main_call0_v4) = Cert.ReferenceIdeal.ReadP.val_main_call0_v4 (F := F) := by
  rw [SsaLine.unary_at writes_kops 147 main_call0_v3 main_call0_v4 _ _ _ rfl (by decide) (by decide) (by decide) V, k_main_call0_v3 V x0 x1 x2 x3 x4 x5 h0 h1 h2 h3 h4 h5]; rfl
theorem k_main_v126 : StableHlo.after (kops : List (HloOp τ sig (Elt F))) V (Proc.devRef .tc main_v126) = Cert.ReferenceIdeal.ReadP.val_main_v129 (F := F) x0 x3 := by
  rw [SsaLine.binary_at writes_kops 148 main_call0_v4 main_call0_v2 main_v126 _ _ _ _ rfl (by decide) (by decide) (by decide) (by decide) (by decide) V, k_main_call0_v4 V x0 x1 x2 x3 x4 x5 h0 h1 h2 h3 h4 h5, k_main_call0_v2 V x0 x1 x2 x3 x4 x5 h0 h1 h2 h3 h4 h5]; rfl
theorem k_main_cst_15 : StableHlo.after (kops : List (HloOp τ sig (Elt F))) V (Proc.devRef .tc main_cst_15) = Cert.ReferenceIdeal.ReadP.val_main_cst_15 (F := F) := by
  rw [SsaLine.nullary_at writes_kops 149 main_cst_15 _ _ rfl (by decide) V]; rfl
theorem k_main_v127 : StableHlo.after (kops : List (HloOp τ sig (Elt F))) V (Proc.devRef .tc main_v127) = Cert.ReferenceIdeal.ReadP.val_main_v130 (F := F) := by
  rw [SsaLine.unary_at writes_kops 150 main_cst_15 main_v127 _ _ _ rfl (by decide) (by decide) (by decide) V, k_main_cst_15 V x0 x1 x2 x3 x4 x5 h0 h1 h2 h3 h4 h5]; rfl
theorem k_main_v128 : StableHlo.after (kops : List (HloOp τ sig (Elt F))) V (Proc.devRef .tc main_v128) = Cert.ReferenceIdeal.ReadP.val_main_v131 (F := F) x0 x3 := by
  rw [SsaLine.binary_at writes_kops 151 main_v127 main_v126 main_v128 _ _ _ _ rfl (by decide) (by decide) (by decide) (by decide) (by decide) V, k_main_v127 V x0 x1 x2 x3 x4 x5 h0 h1 h2 h3 h4 h5, k_main_v126 V x0 x1 x2 x3 x4 x5 h0 h1 h2 h3 h4 h5]; rfl
theorem k_main_v129 : StableHlo.after (kops : List (HloOp τ sig (Elt F))) V (Proc.devRef .tc main_v129) = Cert.ReferenceIdeal.ReadP.val_main_v132 (F := F) x0 x3 := by
  rw [SsaLine.unary_at writes_kops 152 main_v128 main_v129 _ _ _ rfl (by decide) (by decide) (by decide) V, k_main_v128 V x0 x1 x2 x3 x4 x5 h0 h1 h2 h3 h4 h5]; rfl
theorem k_main_v130 : StableHlo.after (kops : List (HloOp τ sig (Elt F))) V (Proc.devRef .tc main_v130) = Cert.ReferenceIdeal.ReadP.val_main_v133 (F := F) x0 x1 x3 := by
  rw [SsaLine.binary_at writes_kops 153 main_v40 main_v122 main_v130 _ _ _ _ rfl (by decide) (by decide) (by decide) (by decide) (by decide) V, k_main_v40 V x0 x1 x2 x3 x4 x5 h0 h1 h2 h3 h4 h5, k_main_v122 V x0 x1 x2 x3 x4 x5 h0 h1 h2 h3 h4 h5]; rfl
theorem k_main_cst_16 : StableHlo.after (kops : List (HloOp τ sig (Elt F))) V (Proc.devRef .tc main_cst_16) = Cert.ReferenceIdeal.ReadP.val_main_cst_16 (F := F) := by
  rw [SsaLine.nullary_at writes_kops 154 main_cst_16 _ _ rfl (by decide) V]; rfl
theorem k_main_v131 : StableHlo.after (kops : List (HloOp τ sig (Elt F))) V (Proc.devRef .tc main_v131) = Cert.ReferenceIdeal.ReadP.val_main_v134 (F := F) x0 x1 x3 := by
  rw [SsaLine.binary_at writes_kops 155 main_v130 main_cst_16 main_v131 _ _ _ _ rfl (by decide) (by decide) (by decide) (by decide) (by decide) V, k_main_v130 V x0 x1 x2 x3 x4 x5 h0 h1 h2 h3 h4 h5, k_main_cst_16 V x0 x1 x2 x3 x4 x5 h0 h1 h2 h3 h4 h5]; rfl
theorem k_main_v132 : StableHlo.after (kops : List (HloOp τ sig (Elt F))) V (Proc.devRef .tc main_v132) = Cert.ReferenceIdeal.ReadP.val_main_v135 (F := F) x0 x1 x3 := by
  rw [SsaLine.unary_at writes_kops 156 main_v131 main_v132 _ _ _ rfl (by decide) (by decide) (by decide) V, k_main_v131 V x0 x1 x2 x3 x4 x5 h0 h1 h2 h3 h4 h5]; rfl
theorem k_main_v133 : StableHlo.after (kops : List (HloOp τ sig (Elt F))) V (Proc.devRef .tc main_v133) = Cert.ReferenceIdeal.ReadP.val_main_v136 (F := F) x0 x1 x3 := by
  rw [SsaLine.binary_at writes_kops 157 main_v121 main_v132 main_v133 _ _ _ _ rfl (by decide) (by decide) (by decide) (by decide) (by decide) V, k_main_v121 V x0 x1 x2 x3 x4 x5 h0 h1 h2 h3 h4 h5, k_main_v132 V x0 x1 x2 x3 x4 x5 h0 h1 h2 h3 h4 h5]; rfl
theorem k_main_v134 : StableHlo.after (kops : List (HloOp τ sig (Elt F))) V (Proc.devRef .tc main_v134) = Cert.ReferenceIdeal.ReadP.val_main_v137 (F := F) x0 x1 x3 := by
  rw [SsaLine.binary_at writes_kops 158 main_v129 main_v133 main_v134 _ _ _ _ rfl (by decide) (by decide) (by decide) (by decide) (by decide) V, k_main_v129 V x0 x1 x2 x3 x4 x5 h0 h1 h2 h3 h4 h5, k_main_v133 V x0 x1 x2 x3 x4 x5 h0 h1 h2 h3 h4 h5]; rfl
theorem k_main_v135 : StableHlo.after (kops : List (HloOp τ sig (Elt F))) V (Proc.devRef .tc main_v135) = Cert.ReferenceIdeal.ReadP.val_main_v138 (F := F) x0 x1 x3 := by
  rw [SsaLine.binary_at writes_kops 159 main_v129 main_v121 main_v135 _ _ _ _ rfl (by decide) (by decide) (by decide) (by decide) (by decide) V, k_main_v129 V x0 x1 x2 x3 x4 x5 h0 h1 h2 h3 h4 h5, k_main_v121 V x0 x1 x2 x3 x4 x5 h0 h1 h2 h3 h4 h5]; rfl
theorem k_main_cst_17 : StableHlo.after (kops : List (HloOp τ sig (Elt F))) V (Proc.devRef .tc main_cst_17) = Cert.ReferenceIdeal.ReadP.val_main_cst_17 (F := F) := by
  rw [SsaLine.nullary_at writes_kops 160 main_cst_17 _ _ rfl (by decide) V]; rfl
theorem k_main_v136 : StableHlo.after (kops : List (HloOp τ sig (Elt F))) V (Proc.devRef .tc main_v136) = Cert.ReferenceIdeal.ReadP.val_main_v139 (F := F) := by
  rw [SsaLine.unary_at writes_kops 161 main_cst_17 main_v136 _ _ _ rfl (by decide) (by decide) (by decide) V, k_main_cst_17 V x0 x1 x2 x3 x4 x5 h0 h1 h2 h3 h4 h5]; rfl
theorem k_main_v137 : StableHlo.after (kops : List (HloOp τ sig (Elt F))) V (Proc.devRef .tc main_v137) = Cert.ReferenceIdeal.ReadP.val_main_v140 (F := F) x0 x3 := by
  rw [SsaLine.binary_at writes_kops 162 main_v129 main_v136 main_v137 _ _ _ _ rfl (by decide) (by decide) (by decide) (by decide) (by decide) V, k_main_v129 V x0 x1 x2 x3 x4 x5 h0 h1 h2 h3 h4 h5, k_main_v136 V x0 x1 x2 x3 x4 x5 h0 h1 h2 h3 h4 h5]; rfl
theorem k_main_v138 : StableHlo.after (kops : List (HloOp τ sig (Elt F))) V (Proc.devRef .tc main_v138) = Cert.ReferenceIdeal.ReadP.val_main_v141 (F := F) x0 x1 x3 := by
  rw [SsaLine.binary_at writes_kops 163 main_v137 main_v132 main_v138 _ _ _ _ rfl (by decide) (by decide) (by decide) (by decide) (by decide) V, k_main_v137 V x0 x1 x2 x3 x4 x5 h0 h1 h2 h3 h4 h5, k_main_v132 V x0 x1 x2 x3 x4 x5 h0 h1 h2 h3 h4 h5]; rfl
theorem k_main_cst_18 : StableHlo.after (kops : List (HloOp τ sig (Elt F))) V (Proc.devRef .tc main_cst_18) = Cert.ReferenceIdeal.ReadP.val_main_cst_18 (F := F) := by
  rw [SsaLine.nullary_at writes_kops 164 main_cst_18 _ _ rfl (by decide) V]; rfl
theorem k_main_v139 : StableHlo.after (kops : List (HloOp τ sig (Elt F))) V (Proc.devRef .tc main_v139) = Cert.ReferenceIdeal.ReadP.val_main_v142 (F := F) := by
  rw [SsaLine.unary_at writes_kops 165 main_cst_18 main_v139 _ _ _ rfl (by decide) (by decide) (by decide) V, k_main_cst_18 V x0 x1 x2 x3 x4 x5 h0 h1 h2 h3 h4 h5]; rfl
theorem k_main_v140 : StableHlo.after (kops : List (HloOp τ sig (Elt F))) V (Proc.devRef .tc main_v140) = Cert.ReferenceIdeal.ReadP.val_main_v143 (F := F) x0 x3 := by
  rw [SsaLine.binary_at writes_kops 166 main_v126 main_v139 main_v140 _ _ _ _ rfl (by decide) (by decide) (by decide) (by decide) (by decide) V, k_main_v126 V x0 x1 x2 x3 x4 x5 h0 h1 h2 h3 h4 h5, k_main_v139 V x0 x1 x2 x3 x4 x5 h0 h1 h2 h3 h4 h5]; rfl
theorem k_main_v141 : StableHlo.after (kops : List (HloOp τ sig (Elt F))) V (Proc.devRef .tc main_v141) = Cert.ReferenceIdeal.ReadP.val_main_v144 (F := F) x0 x1 x3 := by
  rw [SsaLine.binary_at writes_kops 167 main_v138 main_v140 main_v141 _ _ _ _ rfl (by decide) (by decide) (by decide) (by decide) (by decide) V, k_main_v138 V x0 x1 x2 x3 x4 x5 h0 h1 h2 h3 h4 h5, k_main_v140 V x0 x1 x2 x3 x4 x5 h0 h1 h2 h3 h4 h5]; rfl
theorem k_main_v142 : StableHlo.after (kops : List (HloOp τ sig (Elt F))) V (Proc.devRef .tc main_v142) = Cert.ReferenceIdeal.ReadP.val_main_v145 (F := F) x0 x1 x3 := by
  rw [SsaLine.binary_at writes_kops 168 main_v135 main_v141 main_v142 _ _ _ _ rfl (by decide) (by decide) (by decide) (by decide) (by decide) V, k_main_v135 V x0 x1 x2 x3 x4 x5 h0 h1 h2 h3 h4 h5, k_main_v141 V x0 x1 x2 x3 x4 x5 h0 h1 h2 h3 h4 h5]; rfl
theorem k_main_v143 : StableHlo.after (kops : List (HloOp τ sig (Elt F))) V (Proc.devRef .tc main_v143) = Cert.ReferenceIdeal.ReadP.val_main_v146 (F := F) x0 x1 x3 := by
  rw [SsaLine.unary_at writes_kops 169 main_v142 main_v143 _ _ _ rfl (by decide) (by decide) (by decide) V, k_main_v142 V x0 x1 x2 x3 x4 x5 h0 h1 h2 h3 h4 h5]; rfl
theorem k_main_v144 : StableHlo.after (kops : List (HloOp τ sig (Elt F))) V (Proc.devRef .tc main_v144) = Cert.ReferenceIdeal.ReadP.val_main_v147 (F := F) x0 x1 x3 := by
  rw [SsaLine.binary_at writes_kops 170 main_v143 main_v40 main_v144 _ _ _ _ rfl (by decide) (by decide) (by decide) (by decide) (by decide) V, k_main_v143 V x0 x1 x2 x3 x4 x5 h0 h1 h2 h3 h4 h5, k_main_v40 V x0 x1 x2 x3 x4 x5 h0 h1 h2 h3 h4 h5]; rfl
theorem k_main_v145 : StableHlo.after (kops : List (HloOp τ sig (Elt F))) V (Proc.devRef .tc main_v145) = Cert.ReferenceIdeal.ReadP.val_main_v148 (F := F) x0 x1 x3 := by
  rw [SsaLine.binary_at writes_kops 171 main_v122 main_v144 main_v145 _ _ _ _ rfl (by decide) (by decide) (by decide) (by decide) (by decide) V, k_main_v122 V x0 x1 x2 x3 x4 x5 h0 h1 h2 h3 h4 h5, k_main_v144 V x0 x1 x2 x3 x4 x5 h0 h1 h2 h3 h4 h5]; rfl
theorem k_main_v146 : StableHlo.after (kops : List (HloOp τ sig (Elt F))) V (Proc.devRef .tc main_v146) = Cert.ReferenceIdeal.ReadP.val_main_v149 (F := F) x0 x1 x3 := by
  rw [SsaLine.binary_at writes_kops 172 main_v134 main_v145 main_v146 _ _ _ _ rfl (by decide) (by decide) (by decide) (by decide) (by decide) V, k_main_v134 V x0 x1 x2 x3 x4 x5 h0 h1 h2 h3 h4 h5, k_main_v145 V x0 x1 x2 x3 x4 x5 h0 h1 h2 h3 h4 h5]; rfl
theorem k_main_v147 : StableHlo.after (kops : List (HloOp τ sig (Elt F))) V (Proc.devRef .tc main_v147) = Cert.ReferenceIdeal.ReadP.val_main_v150 (F := F) x0 x1 x3 := by
  rw [SsaLine.reshape_at writes_kops 173 main_v146 main_v147 _ _ _ _ rfl (by decide) (by decide) (by decide) V, k_main_v146 V x0 x1 x2 x3 x4 x5 h0 h1 h2 h3 h4 h5]; rfl
theorem k_main_v148 : StableHlo.after (kops : List (HloOp τ sig (Elt F))) V (Proc.devRef .tc main_v148) = Cert.ReferenceIdeal.ReadP.val_main_v151 (F := F) x0 x1 x2 x3 := by
  rw [SsaLine.binary_at writes_kops 174 main_v120 main_v147 main_v148 _ _ _ _ rfl (by decide) (by decide) (by decide) (by decide) (by decide) V, k_main_v120 V x0 x1 x2 x3 x4 x5 h0 h1 h2 h3 h4 h5, k_main_v147 V x0 x1 x2 x3 x4 x5 h0 h1 h2 h3 h4 h5]; rfl
theorem k_main_cst_19 : StableHlo.after (kops : List (HloOp τ sig (Elt F))) V (Proc.devRef .tc main_cst_19) = Cert.ReferenceIdeal.ReadP.val_main_cst_19 (F := F) := by
  rw [SsaLine.nullary_at writes_kops 175 main_cst_19 _ _ rfl (by decide) V]; rfl
theorem k_main_v149 : StableHlo.after (kops : List (HloOp τ sig (Elt F))) V (Proc.devRef .tc main_v149) = Cert.ReferenceIdeal.ReadP.val_main_v152 (F := F) := by
  rw [SsaLine.unary_at writes_kops 176 main_cst_19 main_v149 _ _ _ rfl (by decide) (by decide) (by decide) V, k_main_cst_19 V x0 x1 x2 x3 x4 x5 h0 h1 h2 h3 h4 h5]; rfl
theorem k_main_v150 : StableHlo.after (kops : List (HloOp τ sig (Elt F))) V (Proc.devRef .tc main_v150) = Cert.ReferenceIdeal.ReadP.val_main_v153 (F := F) x0 x4 := by
  rw [SsaLine.binary_at writes_kops 177 main_v47 main_v149 main_v150 _ _ _ _ rfl (by decide) (by decide) (by decide) (by decide) (by decide) V, k_main_v47 V x0 x1 x2 x3 x4 x5 h0 h1 h2 h3 h4 h5, k_main_v149 V x0 x1 x2 x3 x4 x5 h0 h1 h2 h3 h4 h5]; rfl
theorem k_main_v151 : StableHlo.after (kops : List (HloOp τ sig (Elt F))) V (Proc.devRef .tc main_v151) = Cert.ReferenceIdeal.ReadP.val_main_v154 (F := F) x0 x1 x2 x3 x4 := by
  rw [SsaLine.binary_at writes_kops 178 main_v150 main_v148 main_v151 _ _ _ _ rfl (by decide) (by decide) (by decide) (by decide) (by decide) V, k_main_v150 V x0 x1 x2 x3 x4 x5 h0 h1 h2 h3 h4 h5, k_main_v148 V x0 x1 x2 x3 x4 x5 h0 h1 h2 h3 h4 h5]; rfl
theorem k_main_cst_20 : StableHlo.after (kops : List (HloOp τ sig (Elt F))) V (Proc.devRef .tc main_cst_20) = Cert.ReferenceIdeal.ReadP.val_main_cst_20 (F := F) := by
  rw [SsaLine.nullary_at writes_kops 179 main_cst_20 _ _ rfl (by decide) V]; rfl
theorem k_main_v152 : StableHlo.after (kops : List (HloOp τ sig (Elt F))) V (Proc.devRef .tc main_v152) = Cert.ReferenceIdeal.ReadP.val_main_v155 (F := F) x0 x1 x2 x3 x4 := by
  rw [SsaLine.binary_at writes_kops 180 main_v151 main_cst_20 main_v152 _ _ _ _ rfl (by decide) (by decide) (by decide) (by decide) (by decide) V, k_main_v151 V x0 x1 x2 x3 x4 x5 h0 h1 h2 h3 h4 h5, k_main_cst_20 V x0 x1 x2 x3 x4 x5 h0 h1 h2 h3 h4 h5]; rfl
theorem k_main_cst_21 : StableHlo.after (kops : List (HloOp τ sig (Elt F))) V (Proc.devRef .tc main_cst_21) = Cert.ReferenceIdeal.ReadP.val_main_cst_21 (F := F) := by
  rw [SsaLine.nullary_at writes_kops 181 main_cst_21 _ _ rfl (by decide) V]; rfl
theorem k_main_v153 : StableHlo.after (kops : List (HloOp τ sig (Elt F))) V (Proc.devRef .tc main_v153) = Cert.ReferenceIdeal.ReadP.val_main_v156 (F := F) := by
  rw [SsaLine.unary_at writes_kops 182 main_cst_21 main_v153 _ _ _ rfl (by decide) (by decide) (by decide) V, k_main_cst_21 V x0 x1 x2 x3 x4 x5 h0 h1 h2 h3 h4 h5]; rfl
theorem k_main_v154 : StableHlo.after (kops : List (HloOp τ sig (Elt F))) V (Proc.devRef .tc main_v154) = Cert.ReferenceIdeal.ReadP.val_main_v157 (F := F) x0 x1 x2 x3 x4 := by
  rw [SsaLine.binary_at writes_kops 183 main_v153 main_v152 main_v154 _ _ _ _ rfl (by decide) (by decide) (by decide) (by decide) (by decide) V, k_main_v153 V x0 x1 x2 x3 x4 x5 h0 h1 h2 h3 h4 h5, k_main_v152 V x0 x1 x2 x3 x4 x5 h0 h1 h2 h3 h4 h5]; rfl
theorem k_main_v155 : StableHlo.after (kops : List (HloOp τ sig (Elt F))) V (Proc.devRef .tc main_v155) = Cert.ReferenceIdeal.ReadP.val_main_v158 (F := F) x0 x1 x2 x3 x4 := by
  rw [SsaLine.unary_at writes_kops 184 main_v154 main_v155 _ _ _ rfl (by decide) (by decide) (by decide) V, k_main_v154 V x0 x1 x2 x3 x4 x5 h0 h1 h2 h3 h4 h5]; rfl
theorem k_main_v156 : StableHlo.after (kops : List (HloOp τ sig (Elt F))) V (Proc.devRef .tc main_v156) = Cert.ReferenceIdeal.ReadP.val_main_v159 (F := F) x0 x1 x2 x3 x4 := by
  rw [SsaLine.unary_at writes_kops 185 main_v155 main_v156 _ _ _ rfl (by decide) (by decide) (by decide) V, k_main_v155 V x0 x1 x2 x3 x4 x5 h0 h1 h2 h3 h4 h5]; rfl
theorem k_main_v157 : StableHlo.after (kops : List (HloOp τ sig (Elt F))) V (Proc.devRef .tc main_v157) = Cert.ReferenceIdeal.ReadP.val_main_v160 (F := F) x0 x1 x2 x3 x4 := by
  rw [SsaLine.binary_at writes_kops 186 main_v151 main_v156 main_v157 _ _ _ _ rfl (by decide) (by decide) (by decide) (by decide) (by decide) V, k_main_v151 V x0 x1 x2 x3 x4 x5 h0 h1 h2 h3 h4 h5, k_main_v156 V x0 x1 x2 x3 x4 x5 h0 h1 h2 h3 h4 h5]; rfl
theorem k_main_v158 : StableHlo.after (kops : List (HloOp τ sig (Elt F))) V (Proc.devRef .tc main_v158) = Cert.ReferenceIdeal.ReadP.val_main_v161 (F := F) x0 x1 x2 x3 x4 := by
  rw [SsaLine.unary_at writes_kops 187 main_v157 main_v158 _ _ _ rfl (by decide) (by decide) (by decide) V, k_main_v157 V x0 x1 x2 x3 x4 x5 h0 h1 h2 h3 h4 h5]; rfl
theorem k_main_cst_22 : StableHlo.after (kops : List (HloOp τ sig (Elt F))) V (Proc.devRef .tc main_cst_22) = Cert.ReferenceIdeal.ReadP.val_main_cst_22 (F := F) := by
  rw [SsaLine.nullary_at writes_kops 188 main_cst_22 _ _ rfl (by decide) V]; rfl
theorem k_main_v159 : StableHlo.after (kops : List (HloOp τ sig (Elt F))) V (Proc.devRef .tc main_v159) = Cert.ReferenceIdeal.ReadP.val_main_v162 (F := F) x0 x1 x2 x3 x4 := by
  rw [SsaLine.binary_at writes_kops 189 main_v158 main_cst_22 main_v159 _ _ _ _ rfl (by decide) (by decide) (by decide) (by decide) (by decide) V, k_main_v158 V x0 x1 x2 x3 x4 x5 h0 h1 h2 h3 h4 h5, k_main_cst_22 V x0 x1 x2 x3 x4 x5 h0 h1 h2 h3 h4 h5]; rfl
theorem k_main_v160 : StableHlo.after (kops : List (HloOp τ sig (Elt F))) V (Proc.devRef .tc main_v160) = Cert.ReferenceIdeal.ReadP.val_main_v163 (F := F) x0 x1 x2 x3 x4 := by
  rw [SsaLine.unary_at writes_kops 190 main_v159 main_v160 _ _ _ rfl (by decide) (by decide) (by decide) V, k_main_v159 V x0 x1 x2 x3 x4 x5 h0 h1 h2 h3 h4 h5]; rfl
theorem k_main_v161 : StableHlo.after (kops : List (HloOp τ sig (Elt F))) V (Proc.devRef .tc main_v161) = Cert.ReferenceIdeal.ReadP.val_main_v164 (F := F) x0 x1 x2 x3 x4 := by
  rw [SsaLine.unary_at writes_kops 191 main_v160 main_v161 _ _ _ rfl (by decide) (by decide) (by decide) V, k_main_v160 V x0 x1 x2 x3 x4 x5 h0 h1 h2 h3 h4 h5]; rfl
theorem k_main_v162 : StableHlo.after (kops : List (HloOp τ sig (Elt F))) V (Proc.devRef .tc main_v162) = Cert.ReferenceIdeal.ReadP.val_main_v165 (F := F) x0 x1 x2 x3 x4 := by
  rw [SsaLine.binary_at writes_kops 192 main_v158 main_v161 main_v162 _ _ _ _ rfl (by decide) (by decide) (by decide) (by decide) (by decide) V, k_main_v158 V x0 x1 x2 x3 x4 x5 h0 h1 h2 h3 h4 h5, k_main_v161 V x0 x1 x2 x3 x4 x5 h0 h1 h2 h3 h4 h5]; rfl
theorem k_main_v163 : StableHlo.after (kops : List (HloOp τ sig (Elt F))) V (Proc.devRef .tc main_v163) = Cert.ReferenceIdeal.ReadP.val_main_v166 (F := F) x0 x1 x2 x3 x4 := by
  rw [SsaLine.unary_at writes_kops 193 main_v162 main_v163 _ _ _ rfl (by decide) (by decide) (by decide) V, k_main_v162 V x0 x1 x2 x3 x4 x5 h0 h1 h2 h3 h4 h5]; rfl
theorem k_main_v164 : StableHlo.after (kops : List (HloOp τ sig (Elt F))) V (Proc.devRef .tc main_v164) = Cert.ReferenceIdeal.ReadP.val_main_v167 (F := F) x0 x1 x2 x3 x4 := by
  rw [SsaLine.binary_at writes_kops 194 main_v148 main_v163 main_v164 _ _ _ _ rfl (by decide) (by decide) (by decide) (by decide) (by decide) V, k_main_v148 V x0 x1 x2 x3 x4 x5 h0 h1 h2 h3 h4 h5, k_main_v163 V x0 x1 x2 x3 x4 x5 h0 h1 h2 h3 h4 h5]; rfl
theorem k_main_cst_23 : StableHlo.after (kops : List (HloOp τ sig (Elt F))) V (Proc.devRef .tc main_cst_23) = Cert.ReferenceIdeal.ReadP.val_main_cst_23 (F := F) := by
  rw [SsaLine.nullary_at writes_kops 195 main_cst_23 _ _ rfl (by decide) V]; rfl
theorem k_main_v165 : StableHlo.after (kops : List (HloOp τ sig (Elt F))) V (Proc.devRef .tc main_v165) = Cert.ReferenceIdeal.ReadP.val_main_v168 (F := F) x0 x1 x2 x3 x4 := by
  rw [SsaLine.binary_at writes_kops 196 main_v164 main_cst_23 main_v165 _ _ _ _ rfl (by decide) (by decide) (by decide) (by decide) (by decide) V, k_main_v164 V x0 x1 x2 x3 x4 x5 h0 h1 h2 h3 h4 h5, k_main_cst_23 V x0 x1 x2 x3 x4 x5 h0 h1 h2 h3 h4 h5]; rfl
theorem k_main_v166 : StableHlo.after (kops : List (HloOp τ sig (Elt F))) V (Proc.devRef .tc main_v166) = Cert.ReferenceIdeal.ReadP.val_main_v169 (F := F) x0 x1 x2 x3 x4 x5 := by
  rw [SsaLine.binary_at writes_kops 197 main_v165 main_v56 main_v166 _ _ _ _ rfl (by decide) (by decide) (by decide) (by decide) (by decide) V, k_main_v165 V x0 x1 x2 x3 x4 x5 h0 h1 h2 h3 h4 h5, k_main_v56 V x0 x1 x2 x3 x4 x5 h0 h1 h2 h3 h4 h5]; rfl
theorem k_main_v167 : StableHlo.after (kops : List (HloOp τ sig (Elt F))) V (Proc.devRef .tc main_v167) = Cert.ReferenceIdeal.ReadP.val_main_v170 (F := F) x0 x1 x5 := by
  rw [SsaLine.binary_at writes_kops 198 main_v22 main_v58 main_v167 _ _ _ _ rfl (by decide) (by decide) (by decide) (by decide) (by decide) V, k_main_v22 V x0 x1 x2 x3 x4 x5 h0 h1 h2 h3 h4 h5, k_main_v58 V x0 x1 x2 x3 x4 x5 h0 h1 h2 h3 h4 h5]; rfl
theorem k_main_v168 : StableHlo.after (kops : List (HloOp τ sig (Elt F))) V (Proc.devRef .tc main_v168) = Cert.ReferenceIdeal.ReadP.val_main_v171 (F := F) x0 x1 x2 x3 x4 x5 := by
  rw [SsaLine.binary_at writes_kops 199 main_v166 main_v167 main_v168 _ _ _ _ rfl (by decide) (by decide) (by decide) (by decide) (by decide) V, k_main_v166 V x0 x1 x2 x3 x4 x5 h0 h1 h2 h3 h4 h5, k_main_v167 V x0 x1 x2 x3 x4 x5 h0 h1 h2 h3 h4 h5]; rfl
theorem k_main_v169 : StableHlo.after (kops : List (HloOp τ sig (Elt F))) V (Proc.devRef .tc main_v169) = Cert.ReferenceIdeal.ReadP.val_main_v174 (F := F) x0 x1 x2 x3 x4 x5 := by
  rw [SsaLine.binary_at writes_kops 200 main_v165 main_v58 main_v169 _ _ _ _ rfl (by decide) (by decide) (by decide) (by decide) (by decide) V, k_main_v165 V x0 x1 x2 x3 x4 x5 h0 h1 h2 h3 h4 h5, k_main_v58 V x0 x1 x2 x3 x4 x5 h0 h1 h2 h3 h4 h5]; rfl
theorem k_main_v170 : StableHlo.after (kops : List (HloOp τ sig (Elt F))) V (Proc.devRef .tc main_v170) = Cert.ReferenceIdeal.ReadP.val_main_v175 (F := F) x0 x1 x5 := by
  rw [SsaLine.binary_at writes_kops 201 main_v22 main_v56 main_v170 _ _ _ _ rfl (by decide) (by decide) (by decide) (by decide) (by decide) V, k_main_v22 V x0 x1 x2 x3 x4 x5 h0 h1 h2 h3 h4 h5, k_main_v56 V x0 x1 x2 x3 x4 x5 h0 h1 h2 h3 h4 h5]; rfl
theorem k_main_v171 : StableHlo.after (kops : List (HloOp τ sig (Elt F))) V (Proc.devRef .tc main_v171) = Cert.ReferenceIdeal.ReadP.val_main_v176 (F := F) x0 x1 x2 x3 x4 x5 := by
  rw [SsaLine.binary_at writes_kops 202 main_v169 main_v170 main_v171 _ _ _ _ rfl (by decide) (by decide) (by decide) (by decide) (by decide) V, k_main_v169 V x0 x1 x2 x3 x4 x5 h0 h1 h2 h3 h4 h5, k_main_v170 V x0 x1 x2 x3 x4 x5 h0 h1 h2 h3 h4 h5]; rfl
theorem at_main_v172 : StableHlo.after (kops : List (HloOp τ sig (Elt F))) V (Proc.devRef .tc main_v172) = ((fun a b => concatenate S2000x640 1 [⟨S2000x320, a⟩, ⟨S2000x320, b⟩] concatenates_S2000x320_S2000x320_S2000x640_d1) : (⟨S2000x320, .f32⟩ : BufTy).Contents (Elt F) → (⟨S2000x320, .f32⟩ : BufTy).Contents (Elt F) → (⟨S2000x640, .f32⟩ : BufTy).Contents (Elt F)) (StableHlo.after (kops : List (HloOp τ sig (Elt F))) V (Proc.devRef .tc main_v168)) (StableHlo.after (kops : List (HloOp τ sig (Elt F))) V (Proc.devRef .tc main_v171)) := by
  rw [SsaLine.binary_at writes_kops 203 main_v168 main_v171 main_v172 _ _ _ _ rfl (by decide) (by decide) (by decide) (by decide) (by decide) V]
theorem at_main_v173 : StableHlo.after (kops : List (HloOp τ sig (Elt F))) V (Proc.devRef .tc main_v173) = ((truncf .bf16 · bitsLt_bf16_f32) : (⟨S2000x640, .f32⟩ : BufTy).Contents (Elt F) → (⟨S2000x640, .bf16⟩ : BufTy).Contents (Elt F)) (StableHlo.after (kops : List (HloOp τ sig (Elt F))) V (Proc.devRef .tc main_v172)) := by
  rw [SsaLine.unary_at writes_kops 204 main_v172 main_v173 _ _ _ rfl (by decide) (by decide) (by decide) V]

end

/-- The buffers the later stretch writes, in order. -/
abbrev touts : List (Ref sig .tc) :=
  [main_v175, main_v176, main_v177, main_v178, main_v179, main_v180, main_v181, main_v182, main_v183, main_v184, main_v185, main_v186, main_v187, main_cst_24, main_v188, main_v189, main_v190, main_cst_25, main_v191, main_v192, main_v193, main_cst_26, main_v194, main_v195]

theorem writes_tail : SsaLine.WritesAre (hostOps1 : List (HloOp τ sig (Elt F))) touts :=
  List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.nil

section
variable (V : Valuation τ sig (Elt F))
variable (x0 : (⟨Cert.ReferenceIdeal.S2000x3, .i32⟩ : BufTy).Contents (Elt F))
variable (x1 : (⟨Cert.ReferenceIdeal.S80000x128x5, .f32⟩ : BufTy).Contents (Elt F))
variable (x2 : (⟨Cert.ReferenceIdeal.S500x64x4, .f32⟩ : BufTy).Contents (Elt F))
variable (x3 : (⟨Cert.ReferenceIdeal.S500x64x4, .f32⟩ : BufTy).Contents (Elt F))
variable (x5 : (⟨Cert.ReferenceIdeal.S500x2x320, .f32⟩ : BufTy).Contents (Elt F))
variable (hin_main_v20 : V (Proc.devRef .tc main_v20) = Cert.ReferenceIdeal.ReadP.val_main_v20 (F := F) x0 x1)
variable (hin_main_v22 : V (Proc.devRef .tc main_v22) = Cert.ReferenceIdeal.ReadP.val_main_v22 (F := F) x0 x1)
variable (hin_main_v56 : V (Proc.devRef .tc main_v56) = Cert.ReferenceIdeal.ReadP.val_main_v56 (F := F) x0 x5)
variable (hin_main_v58 : V (Proc.devRef .tc main_v58) = Cert.ReferenceIdeal.ReadP.val_main_v58 (F := F) x0 x5)
variable (hin_main_v24 : V (Proc.devRef .tc main_v24) = Cert.ReferenceIdeal.ReadP.val_main_v24 (F := F) x0 x1)
variable (hin_main_v26 : V (Proc.devRef .tc main_v26) = Cert.ReferenceIdeal.ReadP.val_main_v26 (F := F) x0 x1)
variable (hin_main_v33 : V (Proc.devRef .tc main_v33) = Cert.ReferenceIdeal.ReadP.val_main_v33 (F := F) x0 x2)
variable (hin_main_v40 : V (Proc.devRef .tc main_v40) = Cert.ReferenceIdeal.ReadP.val_main_v40 (F := F) x0 x3)
include hin_main_v20 hin_main_v22 hin_main_v56 hin_main_v58 hin_main_v24 hin_main_v26 hin_main_v33 hin_main_v40

theorem t_main_v20 : StableHlo.after (hostOps1 : List (HloOp τ sig (Elt F))) V (Proc.devRef .tc main_v20) = Cert.ReferenceIdeal.ReadP.val_main_v20 (F := F) x0 x1 :=
  (SsaLine.input_at writes_tail (by decide) V).trans hin_main_v20
theorem t_main_v22 : StableHlo.after (hostOps1 : List (HloOp τ sig (Elt F))) V (Proc.devRef .tc main_v22) = Cert.ReferenceIdeal.ReadP.val_main_v22 (F := F) x0 x1 :=
  (SsaLine.input_at writes_tail (by decide) V).trans hin_main_v22
theorem t_main_v56 : StableHlo.after (hostOps1 : List (HloOp τ sig (Elt F))) V (Proc.devRef .tc main_v56) = Cert.ReferenceIdeal.ReadP.val_main_v56 (F := F) x0 x5 :=
  (SsaLine.input_at writes_tail (by decide) V).trans hin_main_v56
theorem t_main_v58 : StableHlo.after (hostOps1 : List (HloOp τ sig (Elt F))) V (Proc.devRef .tc main_v58) = Cert.ReferenceIdeal.ReadP.val_main_v58 (F := F) x0 x5 :=
  (SsaLine.input_at writes_tail (by decide) V).trans hin_main_v58
theorem t_main_v24 : StableHlo.after (hostOps1 : List (HloOp τ sig (Elt F))) V (Proc.devRef .tc main_v24) = Cert.ReferenceIdeal.ReadP.val_main_v24 (F := F) x0 x1 :=
  (SsaLine.input_at writes_tail (by decide) V).trans hin_main_v24
theorem t_main_v26 : StableHlo.after (hostOps1 : List (HloOp τ sig (Elt F))) V (Proc.devRef .tc main_v26) = Cert.ReferenceIdeal.ReadP.val_main_v26 (F := F) x0 x1 :=
  (SsaLine.input_at writes_tail (by decide) V).trans hin_main_v26
theorem t_main_v33 : StableHlo.after (hostOps1 : List (HloOp τ sig (Elt F))) V (Proc.devRef .tc main_v33) = Cert.ReferenceIdeal.ReadP.val_main_v33 (F := F) x0 x2 :=
  (SsaLine.input_at writes_tail (by decide) V).trans hin_main_v33
theorem t_main_v40 : StableHlo.after (hostOps1 : List (HloOp τ sig (Elt F))) V (Proc.devRef .tc main_v40) = Cert.ReferenceIdeal.ReadP.val_main_v40 (F := F) x0 x3 :=
  (SsaLine.input_at writes_tail (by decide) V).trans hin_main_v40
theorem t_main_v175 : StableHlo.after (hostOps1 : List (HloOp τ sig (Elt F))) V (Proc.devRef .tc main_v175) = Cert.ReferenceIdeal.ReadP.val_main_v180 (F := F) x0 x1 := by
  rw [SsaLine.reshape_at writes_tail 0 main_v20 main_v175 _ _ _ _ rfl (by decide) (by decide) (by decide) V, t_main_v20 V x0 x1 x2 x3 x5 hin_main_v20 hin_main_v22 hin_main_v56 hin_main_v58 hin_main_v24 hin_main_v26 hin_main_v33 hin_main_v40]; rfl
theorem t_main_v176 : StableHlo.after (hostOps1 : List (HloOp τ sig (Elt F))) V (Proc.devRef .tc main_v176) = Cert.ReferenceIdeal.ReadP.val_main_v181 (F := F) x0 x1 := by
  rw [SsaLine.binary_at writes_tail 1 main_v175 main_v175 main_v176 _ _ _ _ rfl (by decide) (by decide) (by decide) (by decide) (by decide) V, t_main_v175 V x0 x1 x2 x3 x5 hin_main_v20 hin_main_v22 hin_main_v56 hin_main_v58 hin_main_v24 hin_main_v26 hin_main_v33 hin_main_v40]; rfl
theorem t_main_v177 : StableHlo.after (hostOps1 : List (HloOp τ sig (Elt F))) V (Proc.devRef .tc main_v177) = Cert.ReferenceIdeal.ReadP.val_main_v182 (F := F) x0 x1 := by
  rw [SsaLine.binary_at writes_tail 2 main_v22 main_v22 main_v177 _ _ _ _ rfl (by decide) (by decide) (by decide) (by decide) (by decide) V, t_main_v22 V x0 x1 x2 x3 x5 hin_main_v20 hin_main_v22 hin_main_v56 hin_main_v58 hin_main_v24 hin_main_v26 hin_main_v33 hin_main_v40]; rfl
theorem t_main_v178 : StableHlo.after (hostOps1 : List (HloOp τ sig (Elt F))) V (Proc.devRef .tc main_v178) = Cert.ReferenceIdeal.ReadP.val_main_v183 (F := F) x0 x1 := by
  rw [SsaLine.binary_at writes_tail 3 main_v176 main_v177 main_v178 _ _ _ _ rfl (by decide) (by decide) (by decide) (by decide) (by decide) V, t_main_v176 V x0 x1 x2 x3 x5 hin_main_v20 hin_main_v22 hin_main_v56 hin_main_v58 hin_main_v24 hin_main_v26 hin_main_v33 hin_main_v40, t_main_v177 V x0 x1 x2 x3 x5 hin_main_v20 hin_main_v22 hin_main_v56 hin_main_v58 hin_main_v24 hin_main_v26 hin_main_v33 hin_main_v40]; rfl
theorem t_main_v179 : StableHlo.after (hostOps1 : List (HloOp τ sig (Elt F))) V (Proc.devRef .tc main_v179) = Cert.ReferenceIdeal.ReadP.val_main_v184 (F := F) x0 x1 := by
  rw [SsaLine.unary_at writes_tail 4 main_v178 main_v179 _ _ _ rfl (by decide) (by decide) (by decide) V, t_main_v178 V x0 x1 x2 x3 x5 hin_main_v20 hin_main_v22 hin_main_v56 hin_main_v58 hin_main_v24 hin_main_v26 hin_main_v33 hin_main_v40]; rfl
theorem t_main_v180 : StableHlo.after (hostOps1 : List (HloOp τ sig (Elt F))) V (Proc.devRef .tc main_v180) = Cert.ReferenceIdeal.ReadP.val_main_v185 (F := F) x0 x5 := by
  rw [SsaLine.binary_at writes_tail 5 main_v56 main_v56 main_v180 _ _ _ _ rfl (by decide) (by decide) (by decide) (by decide) (by decide) V, t_main_v56 V x0 x1 x2 x3 x5 hin_main_v20 hin_main_v22 hin_main_v56 hin_main_v58 hin_main_v24 hin_main_v26 hin_main_v33 hin_main_v40]; rfl
theorem t_main_v181 : StableHlo.after (hostOps1 : List (HloOp τ sig (Elt F))) V (Proc.devRef .tc main_v181) = Cert.ReferenceIdeal.ReadP.val_main_v186 (F := F) x0 x5 := by
  rw [SsaLine.binary_at writes_tail 6 main_v58 main_v58 main_v181 _ _ _ _ rfl (by decide) (by decide) (by decide) (by decide) (by decide) V, t_main_v58 V x0 x1 x2 x3 x5 hin_main_v20 hin_main_v22 hin_main_v56 hin_main_v58 hin_main_v24 hin_main_v26 hin_main_v33 hin_main_v40]; rfl
theorem t_main_v182 : StableHlo.after (hostOps1 : List (HloOp τ sig (Elt F))) V (Proc.devRef .tc main_v182) = Cert.ReferenceIdeal.ReadP.val_main_v187 (F := F) x0 x5 := by
  rw [SsaLine.binary_at writes_tail 7 main_v180 main_v181 main_v182 _ _ _ _ rfl (by decide) (by decide) (by decide) (by decide) (by decide) V, t_main_v180 V x0 x1 x2 x3 x5 hin_main_v20 hin_main_v22 hin_main_v56 hin_main_v58 hin_main_v24 hin_main_v26 hin_main_v33 hin_main_v40, t_main_v181 V x0 x1 x2 x3 x5 hin_main_v20 hin_main_v22 hin_main_v56 hin_main_v58 hin_main_v24 hin_main_v26 hin_main_v33 hin_main_v40]; rfl
theorem t_main_v183 : StableHlo.after (hostOps1 : List (HloOp τ sig (Elt F))) V (Proc.devRef .tc main_v183) = Cert.ReferenceIdeal.ReadP.val_main_v188 (F := F) x0 x5 := by
  rw [SsaLine.unary_at writes_tail 8 main_v182 main_v183 _ _ _ rfl (by decide) (by decide) (by decide) V, t_main_v182 V x0 x1 x2 x3 x5 hin_main_v20 hin_main_v22 hin_main_v56 hin_main_v58 hin_main_v24 hin_main_v26 hin_main_v33 hin_main_v40]; rfl
theorem t_main_v184 : StableHlo.after (hostOps1 : List (HloOp τ sig (Elt F))) V (Proc.devRef .tc main_v184) = Cert.ReferenceIdeal.ReadP.val_main_v189 (F := F) x0 x1 := by
  rw [SsaLine.binary_at writes_tail 9 main_v24 main_v24 main_v184 _ _ _ _ rfl (by decide) (by decide) (by decide) (by decide) (by decide) V, t_main_v24 V x0 x1 x2 x3 x5 hin_main_v20 hin_main_v22 hin_main_v56 hin_main_v58 hin_main_v24 hin_main_v26 hin_main_v33 hin_main_v40]; rfl
theorem t_main_v185 : StableHlo.after (hostOps1 : List (HloOp τ sig (Elt F))) V (Proc.devRef .tc main_v185) = Cert.ReferenceIdeal.ReadP.val_main_v190 (F := F) x0 x1 := by
  rw [SsaLine.binary_at writes_tail 10 main_v26 main_v26 main_v185 _ _ _ _ rfl (by decide) (by decide) (by decide) (by decide) (by decide) V, t_main_v26 V x0 x1 x2 x3 x5 hin_main_v20 hin_main_v22 hin_main_v56 hin_main_v58 hin_main_v24 hin_main_v26 hin_main_v33 hin_main_v40]; rfl
theorem t_main_v186 : StableHlo.after (hostOps1 : List (HloOp τ sig (Elt F))) V (Proc.devRef .tc main_v186) = Cert.ReferenceIdeal.ReadP.val_main_v191 (F := F) x0 x1 := by
  rw [SsaLine.binary_at writes_tail 11 main_v184 main_v185 main_v186 _ _ _ _ rfl (by decide) (by decide) (by decide) (by decide) (by decide) V, t_main_v184 V x0 x1 x2 x3 x5 hin_main_v20 hin_main_v22 hin_main_v56 hin_main_v58 hin_main_v24 hin_main_v26 hin_main_v33 hin_main_v40, t_main_v185 V x0 x1 x2 x3 x5 hin_main_v20 hin_main_v22 hin_main_v56 hin_main_v58 hin_main_v24 hin_main_v26 hin_main_v33 hin_main_v40]; rfl
theorem t_main_v187 : StableHlo.after (hostOps1 : List (HloOp τ sig (Elt F))) V (Proc.devRef .tc main_v187) = Cert.ReferenceIdeal.ReadP.val_main_v192 (F := F) x0 x1 := by
  rw [SsaLine.unary_at writes_tail 12 main_v186 main_v187 _ _ _ rfl (by decide) (by decide) (by decide) V, t_main_v186 V x0 x1 x2 x3 x5 hin_main_v20 hin_main_v22 hin_main_v56 hin_main_v58 hin_main_v24 hin_main_v26 hin_main_v33 hin_main_v40]; rfl
theorem t_main_cst_24 : StableHlo.after (hostOps1 : List (HloOp τ sig (Elt F))) V (Proc.devRef .tc main_cst_24) = Cert.ReferenceIdeal.ReadP.val_main_cst_24 (F := F) := by
  rw [SsaLine.nullary_at writes_tail 13 main_cst_24 _ _ rfl (by decide) V]; rfl
theorem t_main_v188 : StableHlo.after (hostOps1 : List (HloOp τ sig (Elt F))) V (Proc.devRef .tc main_v188) = Cert.ReferenceIdeal.ReadP.val_main_v193 (F := F) := by
  rw [SsaLine.unary_at writes_tail 14 main_cst_24 main_v188 _ _ _ rfl (by decide) (by decide) (by decide) V, t_main_cst_24 V x0 x1 x2 x3 x5 hin_main_v20 hin_main_v22 hin_main_v56 hin_main_v58 hin_main_v24 hin_main_v26 hin_main_v33 hin_main_v40]; rfl
theorem t_main_v189 : StableHlo.after (hostOps1 : List (HloOp τ sig (Elt F))) V (Proc.devRef .tc main_v189) = Cert.ReferenceIdeal.ReadP.val_main_v194 (F := F) x0 x1 := by
  rw [SsaLine.binary_at writes_tail 15 main_v187 main_v188 main_v189 _ _ _ _ rfl (by decide) (by decide) (by decide) (by decide) (by decide) V, t_main_v187 V x0 x1 x2 x3 x5 hin_main_v20 hin_main_v22 hin_main_v56 hin_main_v58 hin_main_v24 hin_main_v26 hin_main_v33 hin_main_v40, t_main_v188 V x0 x1 x2 x3 x5 hin_main_v20 hin_main_v22 hin_main_v56 hin_main_v58 hin_main_v24 hin_main_v26 hin_main_v33 hin_main_v40]; rfl
theorem t_main_v190 : StableHlo.after (hostOps1 : List (HloOp τ sig (Elt F))) V (Proc.devRef .tc main_v190) = Cert.ReferenceIdeal.ReadP.val_main_v195 (F := F) x0 x2 := by
  rw [SsaLine.binary_at writes_tail 16 main_v33 main_v33 main_v190 _ _ _ _ rfl (by decide) (by decide) (by decide) (by decide) (by decide) V, t_main_v33 V x0 x1 x2 x3 x5 hin_main_v20 hin_main_v22 hin_main_v56 hin_main_v58 hin_main_v24 hin_main_v26 hin_main_v33 hin_main_v40]; rfl
theorem t_main_cst_25 : StableHlo.after (hostOps1 : List (HloOp τ sig (Elt F))) V (Proc.devRef .tc main_cst_25) = Cert.ReferenceIdeal.ReadP.val_main_cst_25 (F := F) := by
  rw [SsaLine.nullary_at writes_tail 17 main_cst_25 _ _ rfl (by decide) V]; rfl
theorem t_main_v191 : StableHlo.after (hostOps1 : List (HloOp τ sig (Elt F))) V (Proc.devRef .tc main_v191) = Cert.ReferenceIdeal.ReadP.val_main_v196 (F := F) x0 x2 := by
  rw [SsaLine.binary_at writes_tail 18 main_v190 main_cst_25 main_v191 _ _ _ _ rfl (by decide) (by decide) (by decide) (by decide) (by decide) V, t_main_v190 V x0 x1 x2 x3 x5 hin_main_v20 hin_main_v22 hin_main_v56 hin_main_v58 hin_main_v24 hin_main_v26 hin_main_v33 hin_main_v40, t_main_cst_25 V x0 x1 x2 x3 x5 hin_main_v20 hin_main_v22 hin_main_v56 hin_main_v58 hin_main_v24 hin_main_v26 hin_main_v33 hin_main_v40]; rfl
theorem t_main_v192 : StableHlo.after (hostOps1 : List (HloOp τ sig (Elt F))) V (Proc.devRef .tc main_v192) = Cert.ReferenceIdeal.ReadP.val_main_v197 (F := F) x0 x2 := by
  rw [SsaLine.unary_at writes_tail 19 main_v191 main_v192 _ _ _ rfl (by decide) (by decide) (by decide) V, t_main_v191 V x0 x1 x2 x3 x5 hin_main_v20 hin_main_v22 hin_main_v56 hin_main_v58 hin_main_v24 hin_main_v26 hin_main_v33 hin_main_v40]; rfl
theorem t_main_v193 : StableHlo.after (hostOps1 : List (HloOp τ sig (Elt F))) V (Proc.devRef .tc main_v193) = Cert.ReferenceIdeal.ReadP.val_main_v198 (F := F) x0 x3 := by
  rw [SsaLine.binary_at writes_tail 20 main_v40 main_v40 main_v193 _ _ _ _ rfl (by decide) (by decide) (by decide) (by decide) (by decide) V, t_main_v40 V x0 x1 x2 x3 x5 hin_main_v20 hin_main_v22 hin_main_v56 hin_main_v58 hin_main_v24 hin_main_v26 hin_main_v33 hin_main_v40]; rfl
theorem t_main_cst_26 : StableHlo.after (hostOps1 : List (HloOp τ sig (Elt F))) V (Proc.devRef .tc main_cst_26) = Cert.ReferenceIdeal.ReadP.val_main_cst_26 (F := F) := by
  rw [SsaLine.nullary_at writes_tail 21 main_cst_26 _ _ rfl (by decide) V]; rfl
theorem t_main_v194 : StableHlo.after (hostOps1 : List (HloOp τ sig (Elt F))) V (Proc.devRef .tc main_v194) = Cert.ReferenceIdeal.ReadP.val_main_v199 (F := F) x0 x3 := by
  rw [SsaLine.binary_at writes_tail 22 main_v193 main_cst_26 main_v194 _ _ _ _ rfl (by decide) (by decide) (by decide) (by decide) (by decide) V, t_main_v193 V x0 x1 x2 x3 x5 hin_main_v20 hin_main_v22 hin_main_v56 hin_main_v58 hin_main_v24 hin_main_v26 hin_main_v33 hin_main_v40, t_main_cst_26 V x0 x1 x2 x3 x5 hin_main_v20 hin_main_v22 hin_main_v56 hin_main_v58 hin_main_v24 hin_main_v26 hin_main_v33 hin_main_v40]; rfl
theorem t_main_v195 : StableHlo.after (hostOps1 : List (HloOp τ sig (Elt F))) V (Proc.devRef .tc main_v195) = Cert.ReferenceIdeal.ReadP.val_main_v200 (F := F) x0 x3 := by
  rw [SsaLine.unary_at writes_tail 23 main_v194 main_v195 _ _ _ rfl (by decide) (by decide) (by decide) V, t_main_v194 V x0 x1 x2 x3 x5 hin_main_v20 hin_main_v22 hin_main_v56 hin_main_v58 hin_main_v24 hin_main_v26 hin_main_v33 hin_main_v40]; rfl

end

end Cert.KernelIdeal.Line

end
-- ==== Proof.ScoreBridge.lean ====
import proofs.«103698_j86337432584674_2_alg».proof.Proof.RefRead
import proofs.«103698_j86337432584674_2_alg».proof.Proof.KernelIdealScores
import proofs.«103698_j86337432584674_2_alg».proof.Proof.Gen.KernelIdeal
import proofs.«103698_j86337432584674_2_alg».proof.Proof.Gen.ReferenceIdeal
import Idealize.ShloMosaic.Lib.Pipeline.Value
import Idealize.ShloMosaic.Lib.ValueIdx
import Idealize.ShloMosaic.PureOps.Ideal.Laws

/-!
  One equation on the extended reals. The score table is entry by entry a sum of products. Computed in one pass it is
  the sum over the 640 joint coordinates k of left(b, k) · right(n, k), where the left factor is the two 320-wide
  query tables A and Bc side by side and the right factor is the 80000 × 128 × 5 entity table read row-major as
  80000 × 640. Computed in two passes it is Σₖ A(b, k) · re(n, k) + Σₖ Bc(b, k) · im(n, k), k over 320 coordinates,
  where re reads the first 64 of the 128 middle positions row-major as 320 and im the last 64.

  Row-major, coordinate k < 320 of the joint 640 is middle position k / 5 and last position k % 5, and coordinate
  320 + k is middle position 64 + k / 5 and last position k % 5. A sum over 640 indices is the sum over the first 320
  plus the sum over the last 320 in any commutative monoid, so the two computations agree with no hypothesis on the
  entries.
-/

noncomputable section

namespace Cert.Proof.ScoreBridge

open Cert.ReferenceIdeal.ReadP Idealize.ShloMosaic Idealize.ShloMosaic.ValueIdx

/-- A sum over 640 indices is the sum over the first 320 plus the sum over the last 320. -/
theorem sum_640_split {M : Type*} [AddCommMonoid M] (f : Fin 640 → M) :
    ∑ k : Fin 640, f k
      = ∑ k : Fin 320, f ⟨k.val, by have := k.isLt; omega⟩ + ∑ k : Fin 320, f ⟨320 + k.val, by have := k.isLt; omega⟩ :=
  Fin.sum_univ_add (a := 320) (b := 320) f

/-! ## The entity table at a joint coordinate -/

/-- Middle position and last position of joint coordinate k < 320 in the first half. -/
abbrev eLo (n : Fin 80000) (k : Fin 320) : (⟨3, ![80000, 128, 5]⟩ : Shape).Idx :=
  ix3 n (⟨k.val / 5, by have := k.isLt; omega⟩ : Fin 128) (⟨k.val % 5, by omega⟩ : Fin 5)

/-- Middle position and last position of joint coordinate 320 + k in the second half. -/
abbrev eHi (n : Fin 80000) (k : Fin 320) : (⟨3, ![80000, 128, 5]⟩ : Shape).Idx :=
  ix3 n (⟨64 + k.val / 5, by have := k.isLt; omega⟩ : Fin 128) (⟨k.val % 5, by omega⟩ : Fin 5)

/-- The entity table read row-major as 80000 × 640, at a joint coordinate below 320. -/
theorem joint_lo {α : Type} (x : (⟨3, ![80000, 128, 5]⟩ : Shape).Idx → α)
    (h : (⟨3, ![80000, 128, 5]⟩ : Shape).ShapeCasts ⟨2, ![80000, 640]⟩) (n : Fin 80000) (k : Fin 320) :
    shapeCast ⟨2, ![80000, 640]⟩ x h (ix2 n (⟨k.val, by have := k.isLt; omega⟩ : Fin 640)) = x (eLo n k) := by
  refine shapeCast_apply x h _ _ ?_
  rewrite [Shape.rowMajor_val_three, Shape.rowMajor_val_two]
  have hk := k.isLt
  show (n.val * 128 + k.val / 5) * 5 + k.val % 5 = n.val * 640 + k.val
  omega

/-- The entity table read row-major as 80000 × 640, at a joint coordinate from 320 on. -/
theorem joint_hi {α : Type} (x : (⟨3, ![80000, 128, 5]⟩ : Shape).Idx → α)
    (h : (⟨3, ![80000, 128, 5]⟩ : Shape).ShapeCasts ⟨2, ![80000, 640]⟩) (n : Fin 80000) (k : Fin 320) :
    shapeCast ⟨2, ![80000, 640]⟩ x h (ix2 n (⟨320 + k.val, by have := k.isLt; omega⟩ : Fin 640)) = x (eHi n k) := by
  refine shapeCast_apply x h _ _ ?_
  rewrite [Shape.rowMajor_val_three, Shape.rowMajor_val_two]
  have hk := k.isLt
  show (n.val * 128 + (64 + k.val / 5)) * 5 + k.val % 5 = n.val * 640 + (320 + k.val)
  omega

/-! ## The query tables side by side at a joint coordinate -/

/-- The two query tables side by side, at a joint coordinate below 320: the first table. -/
theorem cat_lo {α : Type} (A Bc : (⟨2, ![2000, 320]⟩ : Shape).Idx → α)
    (h : Shape.Concatenates [(⟨2, ![2000, 320]⟩ : Shape), ⟨2, ![2000, 320]⟩] ⟨2, ![2000, 640]⟩ 1) (b : Fin 2000) (k : Fin 320) :
    concatenate ⟨2, ![2000, 640]⟩ 1 [⟨⟨2, ![2000, 320]⟩, A⟩, ⟨⟨2, ![2000, 320]⟩, Bc⟩] h
      (ix2 b (⟨k.val, by have := k.isLt; omega⟩ : Fin 640)) = A (ix2 b k) :=
  concatenate_pair_apply_left 1 A Bc h _ rfl _ (fun c => by
    match c with
    | ⟨0, _⟩ => rfl
    | ⟨1, _⟩ => rfl)

/-- The two query tables side by side, at a joint coordinate from 320 on: the second table. -/
theorem cat_hi {α : Type} (A Bc : (⟨2, ![2000, 320]⟩ : Shape).Idx → α)
    (h : Shape.Concatenates [(⟨2, ![2000, 320]⟩ : Shape), ⟨2, ![2000, 320]⟩] ⟨2, ![2000, 640]⟩ 1) (b : Fin 2000) (k : Fin 320) :
    concatenate ⟨2, ![2000, 640]⟩ 1 [⟨⟨2, ![2000, 320]⟩, A⟩, ⟨⟨2, ![2000, 320]⟩, Bc⟩] h
      (ix2 b (⟨320 + k.val, by have := k.isLt; omega⟩ : Fin 640)) = Bc (ix2 b k) :=
  concatenate_pair_apply_right 1 A Bc h _ rfl rfl _
    (fun c hc => by
      match c with
      | ⟨0, _⟩ => rfl
      | ⟨1, _⟩ => exact absurd rfl hc)
    (by show k.val + 320 = 320 + k.val; omega)

/-! ## The two halves of the entity table, as the two-pass computation reads them -/

/-- The first 64 middle positions read row-major as 80000 × 320 and transposed, at (k, n): the entity table at the
    first half's joint coordinate k. -/
theorem re_apply (x1 : (⟨Cert.ReferenceIdeal.S80000x128x5, .f32⟩ : BufTy).Contents (Elt Ideal))
    (b : Fin 2000) (n : Fin 80000) (k : Fin 320) :
    val_main_v172 (F := Ideal) x1 (ridx_main_v173 (ix2 b n) k) = x1 (eLo n k) := by
  rw [val_main_v172_apply, val_main_v60_apply, val_main_v59_apply]
  refine congrArg x1 (funext fun a => Fin.ext ?_)
  have hk := k.isLt
  match a with
  | ⟨0, _⟩ => show (n.val * 320 + k.val) / 320 = n.val; omega
  | ⟨1, _⟩ => show (n.val * 320 + k.val) / 5 % 64 = k.val / 5; omega
  | ⟨2, _⟩ => show (n.val * 320 + k.val) % 5 = k.val % 5; omega

/-- The last 64 middle positions read row-major as 80000 × 320 and transposed, at (k, n): the entity table at the
    second half's joint coordinate 320 + k. -/
theorem im_apply (x1 : (⟨Cert.ReferenceIdeal.S80000x128x5, .f32⟩ : BufTy).Contents (Elt Ideal))
    (b : Fin 2000) (n : Fin 80000) (k : Fin 320) :
    val_main_v177 (F := Ideal) x1 (ridx_main_v178 (ix2 b n) k) = x1 (eHi n k) := by
  rw [val_main_v177_apply, val_main_v62_apply, val_main_v61_apply]
  refine congrArg x1 (funext fun a => Fin.ext ?_)
  have hk := k.isLt
  match a with
  | ⟨0, _⟩ => show (n.val * 320 + k.val) / 320 = n.val; omega
  | ⟨1, _⟩ => show 64 + (n.val * 320 + k.val) / 5 % 64 = 64 + k.val / 5; omega
  | ⟨2, _⟩ => show (n.val * 320 + k.val) % 5 = k.val % 5; omega

/-- Row b, column k of a query table, as the first product reads it. -/
theorem lidx173 (b : Fin 2000) (n : Fin 80000) (k : Fin 320) : lidx_main_v173 (ix2 b n) k = ix2 b k := by
  funext a; match a with | ⟨0, _⟩ => rfl | ⟨1, _⟩ => rfl

/-- Row b, column k of a query table, as the second product reads it. -/
theorem lidx178 (b : Fin 2000) (n : Fin 80000) (k : Fin 320) : lidx_main_v178 (ix2 b n) k = ix2 b k := by
  funext a; match a with | ⟨0, _⟩ => rfl | ⟨1, _⟩ => rfl

/-! ## One product over 640 is the sum of two products over 320 -/

/-- For any two query tables A and Bc: the one-pass score table of (A | Bc) against the entity table read as
    80000 × 640 is, entry by entry, the first product over 320 plus the second product over 320. -/
theorem scores_bridge_gen (A Bc : FVec Ideal Cert.KernelIdeal.S2000x320 .f32)
    (x1 : (⟨Cert.ReferenceIdeal.S80000x128x5, .f32⟩ : BufTy).Contents (Elt Ideal))
    (hcat : Shape.Concatenates [Cert.KernelIdeal.S2000x320, Cert.KernelIdeal.S2000x320] Cert.KernelIdeal.S2000x640 1)
    (hbits : FTy.bits .bf16 < FTy.bits .f32)
    (hcast : Cert.KernelIdeal.S80000x128x5.ShapeCasts Cert.KernelIdeal.S80000x640) :
    Cert.KernelIdeal.Scores.scores
      (truncf .bf16 (concatenate Cert.KernelIdeal.S2000x640 1 [⟨Cert.KernelIdeal.S2000x320, A⟩, ⟨Cert.KernelIdeal.S2000x320, Bc⟩] hcat) hbits)
      (shapeCast Cert.KernelIdeal.S80000x640 x1 hcast)
    = fun i => (∑ k : Fin 320, A (lidx_main_v173 i k) * val_main_v172 (F := Ideal) x1 (ridx_main_v173 i k))
        + (∑ k : Fin 320, Bc (lidx_main_v178 i k) * val_main_v177 (F := Ideal) x1 (ridx_main_v178 i k)) := by
  funext i
  obtain ⟨b, n, rfl⟩ : ∃ (b : Fin 2000) (n : Fin 80000), i = ix2 b n := ⟨i 0, i 1, eq_ix2 i⟩
  rw [Cert.KernelIdeal.Scores.scores_apply, sum_640_split]
  congr 1
  · refine Finset.sum_congr rfl fun k _ => ?_
    rw [truncf_apply, cat_lo, joint_lo, re_apply, lidx173]
  · refine Finset.sum_congr rfl fun k _ => ?_
    rw [truncf_apply, cat_hi, joint_hi, im_apply, lidx178]

/-- The kernel's score table — one product over the 640 joint coordinates of the two query tables side by side
    against the entity table read as 80000 × 640 — is the reference's: the sum of its two products over 320. -/
theorem scores_bridge (x0 : (⟨Cert.ReferenceIdeal.S2000x3, .i32⟩ : BufTy).Contents (Elt Ideal))
    (x1 : (⟨Cert.ReferenceIdeal.S80000x128x5, .f32⟩ : BufTy).Contents (Elt Ideal))
    (x2 x3 : (⟨Cert.ReferenceIdeal.S500x64x4, .f32⟩ : BufTy).Contents (Elt Ideal))
    (x4 : (⟨Cert.ReferenceIdeal.S500x1x320, .f32⟩ : BufTy).Contents (Elt Ideal))
    (x5 : (⟨Cert.ReferenceIdeal.S500x2x320, .f32⟩ : BufTy).Contents (Elt Ideal)) :
    Cert.KernelIdeal.Scores.scores
      (truncf .bf16 (concatenate Cert.KernelIdeal.S2000x640 1 [⟨Cert.KernelIdeal.S2000x320, val_main_v171 (F := Ideal) x0 x1 x2 x3 x4 x5⟩, ⟨Cert.KernelIdeal.S2000x320, val_main_v176 (F := Ideal) x0 x1 x2 x3 x4 x5⟩] Cert.KernelIdeal.Facts₀.concatenates_S2000x320_S2000x320_S2000x640_d1) Cert.KernelIdeal.Facts₀.bitsLt_bf16_f32)
      (shapeCast Cert.KernelIdeal.S80000x640 x1 Cert.KernelIdeal.Facts₀.shapeCasts_S80000x128x5_S80000x640)
    = val_main_v179 (F := Ideal) x0 x1 x2 x3 x4 x5 := by
  have h179 : val_main_v179 (F := Ideal) x0 x1 x2 x3 x4 x5
      = fun i => (∑ k : Fin 320, val_main_v171 (F := Ideal) x0 x1 x2 x3 x4 x5 (lidx_main_v173 i k) * val_main_v172 (F := Ideal) x1 (ridx_main_v173 i k))
          + (∑ k : Fin 320, val_main_v176 (F := Ideal) x0 x1 x2 x3 x4 x5 (lidx_main_v178 i k) * val_main_v177 (F := Ideal) x1 (ridx_main_v178 i k)) := by
    funext i
    rw [val_main_v179_apply, val_main_v173_apply, val_main_v178_apply]
    rfl
  rw [h179]
  generalize val_main_v171 (F := Ideal) x0 x1 x2 x3 x4 x5 = A
  generalize val_main_v176 (F := Ideal) x0 x1 x2 x3 x4 x5 = Bc
  exact scores_bridge_gen A Bc x1 _ _ _

end Cert.Proof.ScoreBridge

end
-- ==== Proof.KernelIdealValue.lean ====
import proofs.«103698_j86337432584674_2_alg».proof.Proof.KernelIdealFrame
import proofs.«103698_j86337432584674_2_alg».proof.Proof.KernelIdealLine
import proofs.«103698_j86337432584674_2_alg».proof.Proof.ScoreBridge

/-!
  The run of the program read on the extended reals, with all six results named as functions of the six argument
  arrays. The score table the region leaves is the product of the two factors the earlier host operations build:
  the left factor is the two 320-wide query tables side by side, the right factor the entity table read row-major
  as 80000 × 640; entry by entry that one product over 640 joint coordinates is the sum of the two products over
  320 coordinates. The five regularisation outputs are computed by the later host operations from buffers the
  earlier ones wrote and the region does not touch; each is the same function of the arguments as in the two-pass
  computation. The six arguments end as launched.
-/

set_option maxRecDepth 16384

noncomputable section

namespace Cert.KernelIdeal.Value2

open Cert.KernelIdeal Cert.KernelIdeal.Gen Cert.KernelIdeal.Host Cert.KernelIdeal.Frame Cert.KernelIdeal.Line
open Cert.ReferenceIdeal.ReadP (val_main_v20 val_main_v22 val_main_v24 val_main_v26 val_main_v33 val_main_v40 val_main_v56 val_main_v58
  val_main_v171 val_main_v176 val_main_v179 val_main_v184 val_main_v188 val_main_v194 val_main_v197 val_main_v200)
open Idealize.ShloMosaic Idealize.ShloMosaic.TcCoe
open Idealize.SL Idealize.SL.Sem
open Idealize.ShloMosaic.Rounds

variable (m : (ℓ : Loc nD τ sig) → Buf (Elt Ideal) ℓ) (ρ : Dev nD → PrngReg)

/-- The six argument arrays on core c, as launched. -/
abbrev a0 (c : Dev nD) : (⟨Cert.ReferenceIdeal.S2000x3, .i32⟩ : BufTy).Contents (Elt Ideal) := m ((c.tc : Thread nD τ).loc main_arg0)
abbrev a1 (c : Dev nD) : (⟨Cert.ReferenceIdeal.S80000x128x5, .f32⟩ : BufTy).Contents (Elt Ideal) := m ((c.tc : Thread nD τ).loc main_arg1)
abbrev a2 (c : Dev nD) : (⟨Cert.ReferenceIdeal.S500x64x4, .f32⟩ : BufTy).Contents (Elt Ideal) := m ((c.tc : Thread nD τ).loc main_arg2)
abbrev a3 (c : Dev nD) : (⟨Cert.ReferenceIdeal.S500x64x4, .f32⟩ : BufTy).Contents (Elt Ideal) := m ((c.tc : Thread nD τ).loc main_arg3)
abbrev a4 (c : Dev nD) : (⟨Cert.ReferenceIdeal.S500x1x320, .f32⟩ : BufTy).Contents (Elt Ideal) := m ((c.tc : Thread nD τ).loc main_arg4)
abbrev a5 (c : Dev nD) : (⟨Cert.ReferenceIdeal.S500x2x320, .f32⟩ : BufTy).Contents (Elt Ideal) := m ((c.tc : Thread nD τ).loc main_arg5)

/-! ## The score table -/

/-- The left factor as the region finds it: the two query tables side by side. -/
theorem left_eq (c : Dev nD) : V m c main_v173
    = truncf (F := Ideal) .bf16 (concatenate S2000x640 1 [⟨S2000x320, val_main_v171 (F := Ideal) (a0 m c) (a1 m c) (a2 m c) (a3 m c) (a4 m c) (a5 m c)⟩,
        ⟨S2000x320, val_main_v176 (F := Ideal) (a0 m c) (a1 m c) (a2 m c) (a3 m c) (a4 m c) (a5 m c)⟩] concatenates_S2000x320_S2000x320_S2000x640_d1) bitsLt_bf16_f32 := by
  show StableHlo.after kops (fun b => m (c, b)) (Proc.devRef .tc main_v173) = _
  rw [at_main_v173 (fun b => m (c, b)) (a0 m c) (a1 m c) (a2 m c) (a3 m c) (a4 m c) (a5 m c) rfl rfl rfl rfl rfl rfl,
    at_main_v172 (fun b => m (c, b)) (a0 m c) (a1 m c) (a2 m c) (a3 m c) (a4 m c) (a5 m c) rfl rfl rfl rfl rfl rfl,
    k_main_v168 (fun b => m (c, b)) (a0 m c) (a1 m c) (a2 m c) (a3 m c) (a4 m c) (a5 m c) rfl rfl rfl rfl rfl rfl,
    k_main_v171 (fun b => m (c, b)) (a0 m c) (a1 m c) (a2 m c) (a3 m c) (a4 m c) (a5 m c) rfl rfl rfl rfl rfl rfl]

/-- The right factor as the region finds it: the entity table read row-major as 80000 × 640. -/
theorem right_eq (c : Dev nD) : V m c main_v59 = shapeCast S80000x640 (a1 m c) shapeCasts_S80000x128x5_S80000x640 := by
  show StableHlo.after kops (fun b => m (c, b)) (Proc.devRef .tc main_v59) = _
  rw [at_main_v59 (fun b => m (c, b)) (a0 m c) (a1 m c) (a2 m c) (a3 m c) (a4 m c) (a5 m c) rfl rfl rfl rfl rfl rfl,
    k_main_arg1 (fun b => m (c, b)) (a0 m c) (a1 m c) (a2 m c) (a3 m c) (a4 m c) (a5 m c) rfl rfl rfl rfl rfl rfl]

/-- The score table of the two factors is the two-pass score table of the arguments. -/
theorem G_eq (c : Dev nD) : G m c = val_main_v179 (F := Ideal) (a0 m c) (a1 m c) (a2 m c) (a3 m c) (a4 m c) (a5 m c) := by
  unfold G
  rw [left_eq m c, right_eq m c]
  exact Cert.Proof.ScoreBridge.scores_bridge (a0 m c) (a1 m c) (a2 m c) (a3 m c) (a4 m c) (a5 m c)

/-! ## The later stretch of host operations -/

/-- Core c's buffer contents when the later stretch starts: the region-entry contents with the pipeline's three arrays
    at what the region leaves them. -/
abbrev W (c : Dev nD) : Valuation τ sig (Elt Ideal) :=
  Pipeline.withArrays spec0 c (V0 m c) fun w => (dats m 0 c).arrAt w cfg0.N

theorem hin_main_v20 (c : Dev nD) : W m c (Proc.devRef .tc main_v20) = val_main_v20 (F := Ideal) (a0 m c) (a1 m c) :=
  (Pipeline.withArrays_of_ne spec0 c (V0 m c) _ main_v20 (by exact (by decide : ∀ w, Pipeline.arrRef spec0 w ≠ main_v20))).trans
    (k_main_v20 (fun b => m (c, b)) (a0 m c) (a1 m c) (a2 m c) (a3 m c) (a4 m c) (a5 m c) rfl rfl rfl rfl rfl rfl)
theorem hin_main_v22 (c : Dev nD) : W m c (Proc.devRef .tc main_v22) = val_main_v22 (F := Ideal) (a0 m c) (a1 m c) :=
  (Pipeline.withArrays_of_ne spec0 c (V0 m c) _ main_v22 (by exact (by decide : ∀ w, Pipeline.arrRef spec0 w ≠ main_v22))).trans
    (k_main_v22 (fun b => m (c, b)) (a0 m c) (a1 m c) (a2 m c) (a3 m c) (a4 m c) (a5 m c) rfl rfl rfl rfl rfl rfl)
theorem hin_main_v56 (c : Dev nD) : W m c (Proc.devRef .tc main_v56) = val_main_v56 (F := Ideal) (a0 m c) (a5 m c) :=
  (Pipeline.withArrays_of_ne spec0 c (V0 m c) _ main_v56 (by exact (by decide : ∀ w, Pipeline.arrRef spec0 w ≠ main_v56))).trans
    (k_main_v56 (fun b => m (c, b)) (a0 m c) (a1 m c) (a2 m c) (a3 m c) (a4 m c) (a5 m c) rfl rfl rfl rfl rfl rfl)
theorem hin_main_v58 (c : Dev nD) : W m c (Proc.devRef .tc main_v58) = val_main_v58 (F := Ideal) (a0 m c) (a5 m c) :=
  (Pipeline.withArrays_of_ne spec0 c (V0 m c) _ main_v58 (by exact (by decide : ∀ w, Pipeline.arrRef spec0 w ≠ main_v58))).trans
    (k_main_v58 (fun b => m (c, b)) (a0 m c) (a1 m c) (a2 m c) (a3 m c) (a4 m c) (a5 m c) rfl rfl rfl rfl rfl rfl)
theorem hin_main_v24 (c : Dev nD) : W m c (Proc.devRef .tc main_v24) = val_main_v24 (F := Ideal) (a0 m c) (a1 m c) :=
  (Pipeline.withArrays_of_ne spec0 c (V0 m c) _ main_v24 (by exact (by decide : ∀ w, Pipeline.arrRef spec0 w ≠ main_v24))).trans
    (k_main_v24 (fun b => m (c, b)) (a0 m c) (a1 m c) (a2 m c) (a3 m c) (a4 m c) (a5 m c) rfl rfl rfl rfl rfl rfl)
theorem hin_main_v26 (c : Dev nD) : W m c (Proc.devRef .tc main_v26) = val_main_v26 (F := Ideal) (a0 m c) (a1 m c) :=
  (Pipeline.withArrays_of_ne spec0 c (V0 m c) _ main_v26 (by exact (by decide : ∀ w, Pipeline.arrRef spec0 w ≠ main_v26))).trans
    (k_main_v26 (fun b => m (c, b)) (a0 m c) (a1 m c) (a2 m c) (a3 m c) (a4 m c) (a5 m c) rfl rfl rfl rfl rfl rfl)
theorem hin_main_v33 (c : Dev nD) : W m c (Proc.devRef .tc main_v33) = val_main_v33 (F := Ideal) (a0 m c) (a2 m c) :=
  (Pipeline.withArrays_of_ne spec0 c (V0 m c) _ main_v33 (by exact (by decide : ∀ w, Pipeline.arrRef spec0 w ≠ main_v33))).trans
    (k_main_v33 (fun b => m (c, b)) (a0 m c) (a1 m c) (a2 m c) (a3 m c) (a4 m c) (a5 m c) rfl rfl rfl rfl rfl rfl)
theorem hin_main_v40 (c : Dev nD) : W m c (Proc.devRef .tc main_v40) = val_main_v40 (F := Ideal) (a0 m c) (a3 m c) :=
  (Pipeline.withArrays_of_ne spec0 c (V0 m c) _ main_v40 (by exact (by decide : ∀ w, Pipeline.arrRef spec0 w ≠ main_v40))).trans
    (k_main_v40 (fun b => m (c, b)) (a0 m c) (a1 m c) (a2 m c) (a3 m c) (a4 m c) (a5 m c) rfl rfl rfl rfl rfl rfl)

theorem tail_main_v179 (c : Dev nD) :
    Pipeline.afterTail₀ cfgs (dats m) 0 (V0 m) [hostOps1] c main_v179 = val_main_v184 (F := Ideal) (a0 m c) (a1 m c) :=
  (tail_eq m c main_v179).trans (t_main_v179 (W m c) (a0 m c) (a1 m c) (a2 m c) (a3 m c) (a5 m c) (hin_main_v20 m c) (hin_main_v22 m c) (hin_main_v56 m c) (hin_main_v58 m c) (hin_main_v24 m c) (hin_main_v26 m c) (hin_main_v33 m c) (hin_main_v40 m c))
theorem tail_main_v183 (c : Dev nD) :
    Pipeline.afterTail₀ cfgs (dats m) 0 (V0 m) [hostOps1] c main_v183 = val_main_v188 (F := Ideal) (a0 m c) (a5 m c) :=
  (tail_eq m c main_v183).trans (t_main_v183 (W m c) (a0 m c) (a1 m c) (a2 m c) (a3 m c) (a5 m c) (hin_main_v20 m c) (hin_main_v22 m c) (hin_main_v56 m c) (hin_main_v58 m c) (hin_main_v24 m c) (hin_main_v26 m c) (hin_main_v33 m c) (hin_main_v40 m c))
theorem tail_main_v189 (c : Dev nD) :
    Pipeline.afterTail₀ cfgs (dats m) 0 (V0 m) [hostOps1] c main_v189 = val_main_v194 (F := Ideal) (a0 m c) (a1 m c) :=
  (tail_eq m c main_v189).trans (t_main_v189 (W m c) (a0 m c) (a1 m c) (a2 m c) (a3 m c) (a5 m c) (hin_main_v20 m c) (hin_main_v22 m c) (hin_main_v56 m c) (hin_main_v58 m c) (hin_main_v24 m c) (hin_main_v26 m c) (hin_main_v33 m c) (hin_main_v40 m c))
theorem tail_main_v192 (c : Dev nD) :
    Pipeline.afterTail₀ cfgs (dats m) 0 (V0 m) [hostOps1] c main_v192 = val_main_v197 (F := Ideal) (a0 m c) (a2 m c) :=
  (tail_eq m c main_v192).trans (t_main_v192 (W m c) (a0 m c) (a1 m c) (a2 m c) (a3 m c) (a5 m c) (hin_main_v20 m c) (hin_main_v22 m c) (hin_main_v56 m c) (hin_main_v58 m c) (hin_main_v24 m c) (hin_main_v26 m c) (hin_main_v33 m c) (hin_main_v40 m c))
theorem tail_main_v195 (c : Dev nD) :
    Pipeline.afterTail₀ cfgs (dats m) 0 (V0 m) [hostOps1] c main_v195 = val_main_v200 (F := Ideal) (a0 m c) (a3 m c) :=
  (tail_eq m c main_v195).trans (t_main_v195 (W m c) (a0 m c) (a1 m c) (a2 m c) (a3 m c) (a5 m c) (hin_main_v20 m c) (hin_main_v22 m c) (hin_main_v56 m c) (hin_main_v58 m c) (hin_main_v24 m c) (hin_main_v26 m c) (hin_main_v33 m c) (hin_main_v40 m c))

/-! ## The run -/

/-- Every weakly fair execution ends with the result array at the two-pass score table of the arguments, each of the
    five later results at its function of the arguments, and the six arguments as launched. -/
theorem kernel_run : θ_run defs (onTc (τ := τ) (main (F := Ideal))) ⟨m, fun _ => 0, ρ⟩ (fun r => ∀ c : Dev nD,
      r.2.mem ((c.tc : Thread nD τ).loc main_v174) = val_main_v179 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v179) = val_main_v184 (F := Ideal) (m ((c.tc : Thread nD τ).loc main_arg0)) (m ((c.tc : Thread nD τ).loc main_arg1))
      ∧ r.2.mem ((c.tc : Thread nD τ).loc main_v183) = val_main_v188 (F := Ideal) (m ((c.tc : Thread nD τ).loc main_arg0)) (m ((c.tc : Thread nD τ).loc main_arg5))
      ∧ r.2.mem ((c.tc : Thread nD τ).loc main_v189) = val_main_v194 (F := Ideal) (m ((c.tc : Thread nD τ).loc main_arg0)) (m ((c.tc : Thread nD τ).loc main_arg1))
      ∧ r.2.mem ((c.tc : Thread nD τ).loc main_v192) = val_main_v197 (F := Ideal) (m ((c.tc : Thread nD τ).loc main_arg0)) (m ((c.tc : Thread nD τ).loc main_arg2))
      ∧ r.2.mem ((c.tc : Thread nD τ).loc main_v195) = val_main_v200 (F := Ideal) (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (((h c).1 2).trans (final_scores m c)).trans (G_eq m c),
    ((h c).2 main_v179 (Pipeline.mem_restRefs_of main_v179 (by decide) (by decide))).trans (tail_main_v179 m c),
    ((h c).2 main_v183 (Pipeline.mem_restRefs_of main_v183 (by decide) (by decide))).trans (tail_main_v183 m c),
    ((h c).2 main_v189 (Pipeline.mem_restRefs_of main_v189 (by decide) (by decide))).trans (tail_main_v189 m c),
    ((h c).2 main_v192 (Pipeline.mem_restRefs_of main_v192 (by decide) (by decide))).trans (tail_main_v192 m c),
    ((h c).2 main_v195 (Pipeline.mem_restRefs_of main_v195 (by decide) (by decide))).trans (tail_main_v195 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c)⟩)
    (run_main m ρ)

end Cert.KernelIdeal.Value2

end
-- ==== Proof.RefLine.lean ====
/- The reference's @main, operation by operation.
   One line per host operation: the buffer it writes, read after the whole line, is the reference's stage function of the
   argument arrays — from the operation's own equation (Proof/LibSsaLine.lean) and the lines of its operands. -/
import proofs.«103698_j86337432584674_2_alg».proof.Proof.RefOps
import proofs.«103698_j86337432584674_2_alg».proof.Proof.RefRead
import proofs.«103698_j86337432584674_2_alg».proof.Proof.LibSsaLine

set_option maxRecDepth 16384

noncomputable section

namespace Cert.ReferenceIdeal.Line

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The buffers the line writes, in order. -/
abbrev outs : List (Ref sig .tc) :=
  [main_v0, main_v1, main_v2, main_v3, main_v4, main_v5, main_c, main_v6, main_v7, main_c_0, main_v8, main_v9, main_v10, main_v11, main_v12, main_c_1, main_v13, main_v14, main_c_2, main_v15, main_v16, main_v17, main_v18, main_v19, main_v20, main_v21, main_v22, main_v23, main_v24, main_v25, main_v26, main_c_3, main_v27, main_v28, main_c_4, main_v29, main_v30, main_v31, main_v32, main_v33, main_c_5, main_v34, main_v35, main_c_6, main_v36, main_v37, main_v38, main_v39, main_v40, main_c_7, main_v41, main_v42, main_c_8, main_v43, main_v44, main_v45, main_v46, main_v47, main_c_9, main_v48, main_v49, main_c_10, main_v50, main_v51, main_v52, main_v53, main_v54, main_v55, main_v56, main_v57, main_v58, main_v59, main_v60, main_v61, main_v62, main_v63, main_cst, main_v64, main_v65, main_cst_11, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_cst_12, main_v127, main_v128, main_cst_13, main_cst_14, main_call0_v0, main_call0_v1, main_call0_v2, main_call0_v3, main_call0_v4, main_v129, main_cst_15, main_v130, main_v131, main_v132, main_v133, main_cst_16, main_v134, main_v135, main_v136, main_v137, main_v138, main_cst_17, main_v139, main_v140, main_v141, main_cst_18, main_v142, main_v143, main_v144, main_v145, main_v146, main_v147, main_v148, main_v149, main_v150, main_v151, main_cst_19, main_v152, main_v153, main_v154, main_cst_20, main_v155, main_cst_21, main_v156, main_v157, main_v158, main_v159, main_v160, main_v161, main_cst_22, main_v162, main_v163, main_v164, main_v165, main_v166, main_v167, main_cst_23, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_cst_24, main_v193, main_v194, main_v195, main_cst_25, main_v196, main_v197, main_v198, main_cst_26, main_v199, main_v200]

set_option maxHeartbeats 4000000 in
theorem writes_ops : SsaLine.WritesAre (ops : List (HloOp τ sig (Elt F))) outs :=
  List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.nil

section
variable (V : Valuation τ sig (Elt F))
variable (x0 : (⟨Cert.ReferenceIdeal.S2000x3, .i32⟩ : BufTy).Contents (Elt F))
variable (x1 : (⟨Cert.ReferenceIdeal.S80000x128x5, .f32⟩ : BufTy).Contents (Elt F))
variable (x2 : (⟨Cert.ReferenceIdeal.S500x64x4, .f32⟩ : BufTy).Contents (Elt F))
variable (x3 : (⟨Cert.ReferenceIdeal.S500x64x4, .f32⟩ : BufTy).Contents (Elt F))
variable (x4 : (⟨Cert.ReferenceIdeal.S500x1x320, .f32⟩ : BufTy).Contents (Elt F))
variable (x5 : (⟨Cert.ReferenceIdeal.S500x2x320, .f32⟩ : BufTy).Contents (Elt F))
variable (h0 : V (Proc.devRef .tc main_arg0) = x0)
variable (h1 : V (Proc.devRef .tc main_arg1) = x1)
variable (h2 : V (Proc.devRef .tc main_arg2) = x2)
variable (h3 : V (Proc.devRef .tc main_arg3) = x3)
variable (h4 : V (Proc.devRef .tc main_arg4) = x4)
variable (h5 : V (Proc.devRef .tc main_arg5) = x5)
include h0 h1 h2 h3 h4 h5

theorem r_main_arg0 : StableHlo.after (ops : List (HloOp τ sig (Elt F))) V (Proc.devRef .tc main_arg0) = x0 :=
  (SsaLine.input_at writes_ops (by decide) V).trans h0
theorem r_main_arg1 : StableHlo.after (ops : List (HloOp τ sig (Elt F))) V (Proc.devRef .tc main_arg1) = x1 :=
  (SsaLine.input_at writes_ops (by decide) V).trans h1
theorem r_main_arg2 : StableHlo.after (ops : List (HloOp τ sig (Elt F))) V (Proc.devRef .tc main_arg2) = x2 :=
  (SsaLine.input_at writes_ops (by decide) V).trans h2
theorem r_main_arg3 : StableHlo.after (ops : List (HloOp τ sig (Elt F))) V (Proc.devRef .tc main_arg3) = x3 :=
  (SsaLine.input_at writes_ops (by decide) V).trans h3
theorem r_main_arg4 : StableHlo.after (ops : List (HloOp τ sig (Elt F))) V (Proc.devRef .tc main_arg4) = x4 :=
  (SsaLine.input_at writes_ops (by decide) V).trans h4
theorem r_main_arg5 : StableHlo.after (ops : List (HloOp τ sig (Elt F))) V (Proc.devRef .tc main_arg5) = x5 :=
  (SsaLine.input_at writes_ops (by decide) V).trans h5
theorem r_main_v0 : StableHlo.after (ops : List (HloOp τ sig (Elt F))) V (Proc.devRef .tc main_v0) = Cert.ReferenceIdeal.ReadP.val_main_v0 (F := F) x0 := by
  rw [SsaLine.unary_at writes_ops 0 main_arg0 main_v0 _ _ _ rfl (by decide) (by decide) (by decide) V, r_main_arg0 V x0 x1 x2 x3 x4 x5 h0 h1 h2 h3 h4 h5]; rfl
theorem r_main_v1 : StableHlo.after (ops : List (HloOp τ sig (Elt F))) V (Proc.devRef .tc main_v1) = Cert.ReferenceIdeal.ReadP.val_main_v1 (F := F) x0 := by
  rw [SsaLine.reshape_at writes_ops 1 main_v0 main_v1 _ _ _ _ rfl (by decide) (by decide) (by decide) V, r_main_v0 V x0 x1 x2 x3 x4 x5 h0 h1 h2 h3 h4 h5]; rfl
theorem r_main_v2 : StableHlo.after (ops : List (HloOp τ sig (Elt F))) V (Proc.devRef .tc main_v2) = Cert.ReferenceIdeal.ReadP.val_main_v2 (F := F) x0 := by
  rw [SsaLine.unary_at writes_ops 2 main_arg0 main_v2 _ _ _ rfl (by decide) (by decide) (by decide) V, r_main_arg0 V x0 x1 x2 x3 x4 x5 h0 h1 h2 h3 h4 h5]; rfl
theorem r_main_v3 : StableHlo.after (ops : List (HloOp τ sig (Elt F))) V (Proc.devRef .tc main_v3) = Cert.ReferenceIdeal.ReadP.val_main_v3 (F := F) x0 := by
  rw [SsaLine.reshape_at writes_ops 3 main_v2 main_v3 _ _ _ _ rfl (by decide) (by decide) (by decide) V, r_main_v2 V x0 x1 x2 x3 x4 x5 h0 h1 h2 h3 h4 h5]; rfl
theorem r_main_v4 : StableHlo.after (ops : List (HloOp τ sig (Elt F))) V (Proc.devRef .tc main_v4) = Cert.ReferenceIdeal.ReadP.val_main_v4 (F := F) x0 := by
  rw [SsaLine.unary_at writes_ops 4 main_arg0 main_v4 _ _ _ rfl (by decide) (by decide) (by decide) V, r_main_arg0 V x0 x1 x2 x3 x4 x5 h0 h1 h2 h3 h4 h5]; rfl
theorem r_main_v5 : StableHlo.after (ops : List (HloOp τ sig (Elt F))) V (Proc.devRef .tc main_v5) = Cert.ReferenceIdeal.ReadP.val_main_v5 (F := F) x0 := by
  rw [SsaLine.reshape_at writes_ops 5 main_v4 main_v5 _ _ _ _ rfl (by decide) (by decide) (by decide) V, r_main_v4 V x0 x1 x2 x3 x4 x5 h0 h1 h2 h3 h4 h5]; rfl
theorem r_main_c : StableHlo.after (ops : List (HloOp τ sig (Elt F))) V (Proc.devRef .tc main_c) = Cert.ReferenceIdeal.ReadP.val_main_c (F := F) := by
  rw [SsaLine.nullary_at writes_ops 6 main_c _ _ rfl (by decide) V]; rfl
theorem r_main_v6 : StableHlo.after (ops : List (HloOp τ sig (Elt F))) V (Proc.devRef .tc main_v6) = Cert.ReferenceIdeal.ReadP.val_main_v6 (F := F) := by
  rw [SsaLine.unary_at writes_ops 7 main_c main_v6 _ _ _ rfl (by decide) (by decide) (by decide) V, r_main_c V x0 x1 x2 x3 x4 x5 h0 h1 h2 h3 h4 h5]; rfl
theorem r_main_v7 : StableHlo.after (ops : List (HloOp τ sig (Elt F))) V (Proc.devRef .tc main_v7) = Cert.ReferenceIdeal.ReadP.val_main_v7 (F := F) x0 := by
  rw [SsaLine.binary_at writes_ops 8 main_v1 main_v6 main_v7 _ _ _ _ rfl (by decide) (by decide) (by decide) (by decide) (by decide) V, r_main_v1 V x0 x1 x2 x3 x4 x5 h0 h1 h2 h3 h4 h5, r_main_v6 V x0 x1 x2 x3 x4 x5 h0 h1 h2 h3 h4 h5]; rfl
theorem r_main_c_0 : StableHlo.after (ops : List (HloOp τ sig (Elt F))) V (Proc.devRef .tc main_c_0) = Cert.ReferenceIdeal.ReadP.val_main_c_0 (F := F) := by
  rw [SsaLine.nullary_at writes_ops 9 main_c_0 _ _ rfl (by decide) V]; rfl
theorem r_main_v8 : StableHlo.after (ops : List (HloOp τ sig (Elt F))) V (Proc.devRef .tc main_v8) = Cert.ReferenceIdeal.ReadP.val_main_v8 (F := F) := by
  rw [SsaLine.unary_at writes_ops 10 main_c_0 main_v8 _ _ _ rfl (by decide) (by decide) (by decide) V, r_main_c_0 V x0 x1 x2 x3 x4 x5 h0 h1 h2 h3 h4 h5]; rfl
theorem r_main_v9 : StableHlo.after (ops : List (HloOp τ sig (Elt F))) V (Proc.devRef .tc main_v9) = Cert.ReferenceIdeal.ReadP.val_main_v9 (F := F) x0 := by
  rw [SsaLine.binary_at writes_ops 11 main_v1 main_v8 main_v9 _ _ _ _ rfl (by decide) (by decide) (by decide) (by decide) (by decide) V, r_main_v1 V x0 x1 x2 x3 x4 x5 h0 h1 h2 h3 h4 h5, r_main_v8 V x0 x1 x2 x3 x4 x5 h0 h1 h2 h3 h4 h5]; rfl
theorem r_main_v10 : StableHlo.after (ops : List (HloOp τ sig (Elt F))) V (Proc.devRef .tc main_v10) = Cert.ReferenceIdeal.ReadP.val_main_v10 (F := F) x0 := by
  rw [SsaLine.ternary_at writes_ops 12 main_v7 main_v9 main_v1 main_v10 _ _ _ _ _ rfl (by decide) (by decide) (by decide) (by decide) (by decide) (by decide) (by decide) V, r_main_v7 V x0 x1 x2 x3 x4 x5 h0 h1 h2 h3 h4 h5, r_main_v9 V x0 x1 x2 x3 x4 x5 h0 h1 h2 h3 h4 h5, r_main_v1 V x0 x1 x2 x3 x4 x5 h0 h1 h2 h3 h4 h5]; rfl
theorem r_main_v11 : StableHlo.after (ops : List (HloOp τ sig (Elt F))) V (Proc.devRef .tc main_v11) = Cert.ReferenceIdeal.ReadP.val_main_v11 (F := F) x0 := by
  rw [SsaLine.unary_at writes_ops 13 main_v10 main_v11 _ _ _ rfl (by decide) (by decide) (by decide) V, r_main_v10 V x0 x1 x2 x3 x4 x5 h0 h1 h2 h3 h4 h5]; rfl
theorem r_main_v12 : StableHlo.after (ops : List (HloOp τ sig (Elt F))) V (Proc.devRef .tc main_v12) = Cert.ReferenceIdeal.ReadP.val_main_v12 (F := F) x0 x1 := by
  rw [SsaLine.binary_at writes_ops 14 main_arg1 main_v11 main_v12 _ _ _ _ rfl (by decide) (by decide) (by decide) (by decide) (by decide) V, r_main_arg1 V x0 x1 x2 x3 x4 x5 h0 h1 h2 h3 h4 h5, r_main_v11 V x0 x1 x2 x3 x4 x5 h0 h1 h2 h3 h4 h5]; rfl
theorem r_main_c_1 : StableHlo.after (ops : List (HloOp τ sig (Elt F))) V (Proc.devRef .tc main_c_1) = Cert.ReferenceIdeal.ReadP.val_main_c_1 (F := F) := by
  rw [SsaLine.nullary_at writes_ops 15 main_c_1 _ _ rfl (by decide) V]; rfl
theorem r_main_v13 : StableHlo.after (ops : List (HloOp τ sig (Elt F))) V (Proc.devRef .tc main_v13) = Cert.ReferenceIdeal.ReadP.val_main_v13 (F := F) := by
  rw [SsaLine.unary_at writes_ops 16 main_c_1 main_v13 _ _ _ rfl (by decide) (by decide) (by decide) V, r_main_c_1 V x0 x1 x2 x3 x4 x5 h0 h1 h2 h3 h4 h5]; rfl
theorem r_main_v14 : StableHlo.after (ops : List (HloOp τ sig (Elt F))) V (Proc.devRef .tc main_v14) = Cert.ReferenceIdeal.ReadP.val_main_v14 (F := F) x0 := by
  rw [SsaLine.binary_at writes_ops 17 main_v5 main_v13 main_v14 _ _ _ _ rfl (by decide) (by decide) (by decide) (by decide) (by decide) V, r_main_v5 V x0 x1 x2 x3 x4 x5 h0 h1 h2 h3 h4 h5, r_main_v13 V x0 x1 x2 x3 x4 x5 h0 h1 h2 h3 h4 h5]; rfl
theorem r_main_c_2 : StableHlo.after (ops : List (HloOp τ sig (Elt F))) V (Proc.devRef .tc main_c_2) = Cert.ReferenceIdeal.ReadP.val_main_c_2 (F := F) := by
  rw [SsaLine.nullary_at writes_ops 18 main_c_2 _ _ rfl (by decide) V]; rfl
theorem r_main_v15 : StableHlo.after (ops : List (HloOp τ sig (Elt F))) V (Proc.devRef .tc main_v15) = Cert.ReferenceIdeal.ReadP.val_main_v15 (F := F) := by
  rw [SsaLine.unary_at writes_ops 19 main_c_2 main_v15 _ _ _ rfl (by decide) (by decide) (by decide) V, r_main_c_2 V x0 x1 x2 x3 x4 x5 h0 h1 h2 h3 h4 h5]; rfl
theorem r_main_v16 : StableHlo.after (ops : List (HloOp τ sig (Elt F))) V (Proc.devRef .tc main_v16) = Cert.ReferenceIdeal.ReadP.val_main_v16 (F := F) x0 := by
  rw [SsaLine.binary_at writes_ops 20 main_v5 main_v15 main_v16 _ _ _ _ rfl (by decide) (by decide) (by decide) (by decide) (by decide) V, r_main_v5 V x0 x1 x2 x3 x4 x5 h0 h1 h2 h3 h4 h5, r_main_v15 V x0 x1 x2 x3 x4 x5 h0 h1 h2 h3 h4 h5]; rfl
theorem r_main_v17 : StableHlo.after (ops : List (HloOp τ sig (Elt F))) V (Proc.devRef .tc main_v17) = Cert.ReferenceIdeal.ReadP.val_main_v17 (F := F) x0 := by
  rw [SsaLine.ternary_at writes_ops 21 main_v14 main_v16 main_v5 main_v17 _ _ _ _ _ rfl (by decide) (by decide) (by decide) (by decide) (by decide) (by decide) (by decide) V, r_main_v14 V x0 x1 x2 x3 x4 x5 h0 h1 h2 h3 h4 h5, r_main_v16 V x0 x1 x2 x3 x4 x5 h0 h1 h2 h3 h4 h5, r_main_v5 V x0 x1 x2 x3 x4 x5 h0 h1 h2 h3 h4 h5]; rfl
theorem r_main_v18 : StableHlo.after (ops : List (HloOp τ sig (Elt F))) V (Proc.devRef .tc main_v18) = Cert.ReferenceIdeal.ReadP.val_main_v18 (F := F) x0 := by
  rw [SsaLine.unary_at writes_ops 22 main_v17 main_v18 _ _ _ rfl (by decide) (by decide) (by decide) V, r_main_v17 V x0 x1 x2 x3 x4 x5 h0 h1 h2 h3 h4 h5]; rfl
theorem r_main_v19 : StableHlo.after (ops : List (HloOp τ sig (Elt F))) V (Proc.devRef .tc main_v19) = Cert.ReferenceIdeal.ReadP.val_main_v19 (F := F) x0 x1 := by
  rw [SsaLine.binary_at writes_ops 23 main_arg1 main_v18 main_v19 _ _ _ _ rfl (by decide) (by decide) (by decide) (by decide) (by decide) V, r_main_arg1 V x0 x1 x2 x3 x4 x5 h0 h1 h2 h3 h4 h5, r_main_v18 V x0 x1 x2 x3 x4 x5 h0 h1 h2 h3 h4 h5]; rfl
theorem r_main_v20 : StableHlo.after (ops : List (HloOp τ sig (Elt F))) V (Proc.devRef .tc main_v20) = Cert.ReferenceIdeal.ReadP.val_main_v20 (F := F) x0 x1 := by
  rw [SsaLine.unary_at writes_ops 24 main_v12 main_v20 _ _ _ rfl (by decide) (by decide) (by decide) V, r_main_v12 V x0 x1 x2 x3 x4 x5 h0 h1 h2 h3 h4 h5]; rfl
theorem r_main_v21 : StableHlo.after (ops : List (HloOp τ sig (Elt F))) V (Proc.devRef .tc main_v21) = Cert.ReferenceIdeal.ReadP.val_main_v21 (F := F) x0 x1 := by
  rw [SsaLine.unary_at writes_ops 25 main_v12 main_v21 _ _ _ rfl (by decide) (by decide) (by decide) V, r_main_v12 V x0 x1 x2 x3 x4 x5 h0 h1 h2 h3 h4 h5]; rfl
theorem r_main_v22 : StableHlo.after (ops : List (HloOp τ sig (Elt F))) V (Proc.devRef .tc main_v22) = Cert.ReferenceIdeal.ReadP.val_main_v22 (F := F) x0 x1 := by
  rw [SsaLine.reshape_at writes_ops 26 main_v21 main_v22 _ _ _ _ rfl (by decide) (by decide) (by decide) V, r_main_v21 V x0 x1 x2 x3 x4 x5 h0 h1 h2 h3 h4 h5]; rfl
theorem r_main_v23 : StableHlo.after (ops : List (HloOp τ sig (Elt F))) V (Proc.devRef .tc main_v23) = Cert.ReferenceIdeal.ReadP.val_main_v23 (F := F) x0 x1 := by
  rw [SsaLine.unary_at writes_ops 27 main_v19 main_v23 _ _ _ rfl (by decide) (by decide) (by decide) V, r_main_v19 V x0 x1 x2 x3 x4 x5 h0 h1 h2 h3 h4 h5]; rfl
theorem r_main_v24 : StableHlo.after (ops : List (HloOp τ sig (Elt F))) V (Proc.devRef .tc main_v24) = Cert.ReferenceIdeal.ReadP.val_main_v24 (F := F) x0 x1 := by
  rw [SsaLine.reshape_at writes_ops 28 main_v23 main_v24 _ _ _ _ rfl (by decide) (by decide) (by decide) V, r_main_v23 V x0 x1 x2 x3 x4 x5 h0 h1 h2 h3 h4 h5]; rfl
theorem r_main_v25 : StableHlo.after (ops : List (HloOp τ sig (Elt F))) V (Proc.devRef .tc main_v25) = Cert.ReferenceIdeal.ReadP.val_main_v25 (F := F) x0 x1 := by
  rw [SsaLine.unary_at writes_ops 29 main_v19 main_v25 _ _ _ rfl (by decide) (by decide) (by decide) V, r_main_v19 V x0 x1 x2 x3 x4 x5 h0 h1 h2 h3 h4 h5]; rfl
theorem r_main_v26 : StableHlo.after (ops : List (HloOp τ sig (Elt F))) V (Proc.devRef .tc main_v26) = Cert.ReferenceIdeal.ReadP.val_main_v26 (F := F) x0 x1 := by
  rw [SsaLine.reshape_at writes_ops 30 main_v25 main_v26 _ _ _ _ rfl (by decide) (by decide) (by decide) V, r_main_v25 V x0 x1 x2 x3 x4 x5 h0 h1 h2 h3 h4 h5]; rfl
theorem r_main_c_3 : StableHlo.after (ops : List (HloOp τ sig (Elt F))) V (Proc.devRef .tc main_c_3) = Cert.ReferenceIdeal.ReadP.val_main_c_3 (F := F) := by
  rw [SsaLine.nullary_at writes_ops 31 main_c_3 _ _ rfl (by decide) V]; rfl
theorem r_main_v27 : StableHlo.after (ops : List (HloOp τ sig (Elt F))) V (Proc.devRef .tc main_v27) = Cert.ReferenceIdeal.ReadP.val_main_v27 (F := F) := by
  rw [SsaLine.unary_at writes_ops 32 main_c_3 main_v27 _ _ _ rfl (by decide) (by decide) (by decide) V, r_main_c_3 V x0 x1 x2 x3 x4 x5 h0 h1 h2 h3 h4 h5]; rfl
theorem r_main_v28 : StableHlo.after (ops : List (HloOp τ sig (Elt F))) V (Proc.devRef .tc main_v28) = Cert.ReferenceIdeal.ReadP.val_main_v28 (F := F) x0 := by
  rw [SsaLine.binary_at writes_ops 33 main_v3 main_v27 main_v28 _ _ _ _ rfl (by decide) (by decide) (by decide) (by decide) (by decide) V, r_main_v3 V x0 x1 x2 x3 x4 x5 h0 h1 h2 h3 h4 h5, r_main_v27 V x0 x1 x2 x3 x4 x5 h0 h1 h2 h3 h4 h5]; rfl
theorem r_main_c_4 : StableHlo.after (ops : List (HloOp τ sig (Elt F))) V (Proc.devRef .tc main_c_4) = Cert.ReferenceIdeal.ReadP.val_main_c_4 (F := F) := by
  rw [SsaLine.nullary_at writes_ops 34 main_c_4 _ _ rfl (by decide) V]; rfl
theorem r_main_v29 : StableHlo.after (ops : List (HloOp τ sig (Elt F))) V (Proc.devRef .tc main_v29) = Cert.ReferenceIdeal.ReadP.val_main_v29 (F := F) := by
  rw [SsaLine.unary_at writes_ops 35 main_c_4 main_v29 _ _ _ rfl (by decide) (by decide) (by decide) V, r_main_c_4 V x0 x1 x2 x3 x4 x5 h0 h1 h2 h3 h4 h5]; rfl
theorem r_main_v30 : StableHlo.after (ops : List (HloOp τ sig (Elt F))) V (Proc.devRef .tc main_v30) = Cert.ReferenceIdeal.ReadP.val_main_v30 (F := F) x0 := by
  rw [SsaLine.binary_at writes_ops 36 main_v3 main_v29 main_v30 _ _ _ _ rfl (by decide) (by decide) (by decide) (by decide) (by decide) V, r_main_v3 V x0 x1 x2 x3 x4 x5 h0 h1 h2 h3 h4 h5, r_main_v29 V x0 x1 x2 x3 x4 x5 h0 h1 h2 h3 h4 h5]; rfl
theorem r_main_v31 : StableHlo.after (ops : List (HloOp τ sig (Elt F))) V (Proc.devRef .tc main_v31) = Cert.ReferenceIdeal.ReadP.val_main_v31 (F := F) x0 := by
  rw [SsaLine.ternary_at writes_ops 37 main_v28 main_v30 main_v3 main_v31 _ _ _ _ _ rfl (by decide) (by decide) (by decide) (by decide) (by decide) (by decide) (by decide) V, r_main_v28 V x0 x1 x2 x3 x4 x5 h0 h1 h2 h3 h4 h5, r_main_v30 V x0 x1 x2 x3 x4 x5 h0 h1 h2 h3 h4 h5, r_main_v3 V x0 x1 x2 x3 x4 x5 h0 h1 h2 h3 h4 h5]; rfl
theorem r_main_v32 : StableHlo.after (ops : List (HloOp τ sig (Elt F))) V (Proc.devRef .tc main_v32) = Cert.ReferenceIdeal.ReadP.val_main_v32 (F := F) x0 := by
  rw [SsaLine.unary_at writes_ops 38 main_v31 main_v32 _ _ _ rfl (by decide) (by decide) (by decide) V, r_main_v31 V x0 x1 x2 x3 x4 x5 h0 h1 h2 h3 h4 h5]; rfl
theorem r_main_v33 : StableHlo.after (ops : List (HloOp τ sig (Elt F))) V (Proc.devRef .tc main_v33) = Cert.ReferenceIdeal.ReadP.val_main_v33 (F := F) x0 x2 := by
  rw [SsaLine.binary_at writes_ops 39 main_arg2 main_v32 main_v33 _ _ _ _ rfl (by decide) (by decide) (by decide) (by decide) (by decide) V, r_main_arg2 V x0 x1 x2 x3 x4 x5 h0 h1 h2 h3 h4 h5, r_main_v32 V x0 x1 x2 x3 x4 x5 h0 h1 h2 h3 h4 h5]; rfl
theorem r_main_c_5 : StableHlo.after (ops : List (HloOp τ sig (Elt F))) V (Proc.devRef .tc main_c_5) = Cert.ReferenceIdeal.ReadP.val_main_c_5 (F := F) := by
  rw [SsaLine.nullary_at writes_ops 40 main_c_5 _ _ rfl (by decide) V]; rfl
theorem r_main_v34 : StableHlo.after (ops : List (HloOp τ sig (Elt F))) V (Proc.devRef .tc main_v34) = Cert.ReferenceIdeal.ReadP.val_main_v34 (F := F) := by
  rw [SsaLine.unary_at writes_ops 41 main_c_5 main_v34 _ _ _ rfl (by decide) (by decide) (by decide) V, r_main_c_5 V x0 x1 x2 x3 x4 x5 h0 h1 h2 h3 h4 h5]; rfl
theorem r_main_v35 : StableHlo.after (ops : List (HloOp τ sig (Elt F))) V (Proc.devRef .tc main_v35) = Cert.ReferenceIdeal.ReadP.val_main_v35 (F := F) x0 := by
  rw [SsaLine.binary_at writes_ops 42 main_v3 main_v34 main_v35 _ _ _ _ rfl (by decide) (by decide) (by decide) (by decide) (by decide) V, r_main_v3 V x0 x1 x2 x3 x4 x5 h0 h1 h2 h3 h4 h5, r_main_v34 V x0 x1 x2 x3 x4 x5 h0 h1 h2 h3 h4 h5]; rfl
theorem r_main_c_6 : StableHlo.after (ops : List (HloOp τ sig (Elt F))) V (Proc.devRef .tc main_c_6) = Cert.ReferenceIdeal.ReadP.val_main_c_6 (F := F) := by
  rw [SsaLine.nullary_at writes_ops 43 main_c_6 _ _ rfl (by decide) V]; rfl
theorem r_main_v36 : StableHlo.after (ops : List (HloOp τ sig (Elt F))) V (Proc.devRef .tc main_v36) = Cert.ReferenceIdeal.ReadP.val_main_v36 (F := F) := by
  rw [SsaLine.unary_at writes_ops 44 main_c_6 main_v36 _ _ _ rfl (by decide) (by decide) (by decide) V, r_main_c_6 V x0 x1 x2 x3 x4 x5 h0 h1 h2 h3 h4 h5]; rfl
theorem r_main_v37 : StableHlo.after (ops : List (HloOp τ sig (Elt F))) V (Proc.devRef .tc main_v37) = Cert.ReferenceIdeal.ReadP.val_main_v37 (F := F) x0 := by
  rw [SsaLine.binary_at writes_ops 45 main_v3 main_v36 main_v37 _ _ _ _ rfl (by decide) (by decide) (by decide) (by decide) (by decide) V, r_main_v3 V x0 x1 x2 x3 x4 x5 h0 h1 h2 h3 h4 h5, r_main_v36 V x0 x1 x2 x3 x4 x5 h0 h1 h2 h3 h4 h5]; rfl
theorem r_main_v38 : StableHlo.after (ops : List (HloOp τ sig (Elt F))) V (Proc.devRef .tc main_v38) = Cert.ReferenceIdeal.ReadP.val_main_v38 (F := F) x0 := by
  rw [SsaLine.ternary_at writes_ops 46 main_v35 main_v37 main_v3 main_v38 _ _ _ _ _ rfl (by decide) (by decide) (by decide) (by decide) (by decide) (by decide) (by decide) V, r_main_v35 V x0 x1 x2 x3 x4 x5 h0 h1 h2 h3 h4 h5, r_main_v37 V x0 x1 x2 x3 x4 x5 h0 h1 h2 h3 h4 h5, r_main_v3 V x0 x1 x2 x3 x4 x5 h0 h1 h2 h3 h4 h5]; rfl
theorem r_main_v39 : StableHlo.after (ops : List (HloOp τ sig (Elt F))) V (Proc.devRef .tc main_v39) = Cert.ReferenceIdeal.ReadP.val_main_v39 (F := F) x0 := by
  rw [SsaLine.unary_at writes_ops 47 main_v38 main_v39 _ _ _ rfl (by decide) (by decide) (by decide) V, r_main_v38 V x0 x1 x2 x3 x4 x5 h0 h1 h2 h3 h4 h5]; rfl
theorem r_main_v40 : StableHlo.after (ops : List (HloOp τ sig (Elt F))) V (Proc.devRef .tc main_v40) = Cert.ReferenceIdeal.ReadP.val_main_v40 (F := F) x0 x3 := by
  rw [SsaLine.binary_at writes_ops 48 main_arg3 main_v39 main_v40 _ _ _ _ rfl (by decide) (by decide) (by decide) (by decide) (by decide) V, r_main_arg3 V x0 x1 x2 x3 x4 x5 h0 h1 h2 h3 h4 h5, r_main_v39 V x0 x1 x2 x3 x4 x5 h0 h1 h2 h3 h4 h5]; rfl
theorem r_main_c_7 : StableHlo.after (ops : List (HloOp τ sig (Elt F))) V (Proc.devRef .tc main_c_7) = Cert.ReferenceIdeal.ReadP.val_main_c_7 (F := F) := by
  rw [SsaLine.nullary_at writes_ops 49 main_c_7 _ _ rfl (by decide) V]; rfl
theorem r_main_v41 : StableHlo.after (ops : List (HloOp τ sig (Elt F))) V (Proc.devRef .tc main_v41) = Cert.ReferenceIdeal.ReadP.val_main_v41 (F := F) := by
  rw [SsaLine.unary_at writes_ops 50 main_c_7 main_v41 _ _ _ rfl (by decide) (by decide) (by decide) V, r_main_c_7 V x0 x1 x2 x3 x4 x5 h0 h1 h2 h3 h4 h5]; rfl
theorem r_main_v42 : StableHlo.after (ops : List (HloOp τ sig (Elt F))) V (Proc.devRef .tc main_v42) = Cert.ReferenceIdeal.ReadP.val_main_v42 (F := F) x0 := by
  rw [SsaLine.binary_at writes_ops 51 main_v3 main_v41 main_v42 _ _ _ _ rfl (by decide) (by decide) (by decide) (by decide) (by decide) V, r_main_v3 V x0 x1 x2 x3 x4 x5 h0 h1 h2 h3 h4 h5, r_main_v41 V x0 x1 x2 x3 x4 x5 h0 h1 h2 h3 h4 h5]; rfl
theorem r_main_c_8 : StableHlo.after (ops : List (HloOp τ sig (Elt F))) V (Proc.devRef .tc main_c_8) = Cert.ReferenceIdeal.ReadP.val_main_c_8 (F := F) := by
  rw [SsaLine.nullary_at writes_ops 52 main_c_8 _ _ rfl (by decide) V]; rfl
theorem r_main_v43 : StableHlo.after (ops : List (HloOp τ sig (Elt F))) V (Proc.devRef .tc main_v43) = Cert.ReferenceIdeal.ReadP.val_main_v43 (F := F) := by
  rw [SsaLine.unary_at writes_ops 53 main_c_8 main_v43 _ _ _ rfl (by decide) (by decide) (by decide) V, r_main_c_8 V x0 x1 x2 x3 x4 x5 h0 h1 h2 h3 h4 h5]; rfl
theorem r_main_v44 : StableHlo.after (ops : List (HloOp τ sig (Elt F))) V (Proc.devRef .tc main_v44) = Cert.ReferenceIdeal.ReadP.val_main_v44 (F := F) x0 := by
  rw [SsaLine.binary_at writes_ops 54 main_v3 main_v43 main_v44 _ _ _ _ rfl (by decide) (by decide) (by decide) (by decide) (by decide) V, r_main_v3 V x0 x1 x2 x3 x4 x5 h0 h1 h2 h3 h4 h5, r_main_v43 V x0 x1 x2 x3 x4 x5 h0 h1 h2 h3 h4 h5]; rfl
theorem r_main_v45 : StableHlo.after (ops : List (HloOp τ sig (Elt F))) V (Proc.devRef .tc main_v45) = Cert.ReferenceIdeal.ReadP.val_main_v45 (F := F) x0 := by
  rw [SsaLine.ternary_at writes_ops 55 main_v42 main_v44 main_v3 main_v45 _ _ _ _ _ rfl (by decide) (by decide) (by decide) (by decide) (by decide) (by decide) (by decide) V, r_main_v42 V x0 x1 x2 x3 x4 x5 h0 h1 h2 h3 h4 h5, r_main_v44 V x0 x1 x2 x3 x4 x5 h0 h1 h2 h3 h4 h5, r_main_v3 V x0 x1 x2 x3 x4 x5 h0 h1 h2 h3 h4 h5]; rfl
theorem r_main_v46 : StableHlo.after (ops : List (HloOp τ sig (Elt F))) V (Proc.devRef .tc main_v46) = Cert.ReferenceIdeal.ReadP.val_main_v46 (F := F) x0 := by
  rw [SsaLine.unary_at writes_ops 56 main_v45 main_v46 _ _ _ rfl (by decide) (by decide) (by decide) V, r_main_v45 V x0 x1 x2 x3 x4 x5 h0 h1 h2 h3 h4 h5]; rfl
theorem r_main_v47 : StableHlo.after (ops : List (HloOp τ sig (Elt F))) V (Proc.devRef .tc main_v47) = Cert.ReferenceIdeal.ReadP.val_main_v47 (F := F) x0 x4 := by
  rw [SsaLine.binary_at writes_ops 57 main_arg4 main_v46 main_v47 _ _ _ _ rfl (by decide) (by decide) (by decide) (by decide) (by decide) V, r_main_arg4 V x0 x1 x2 x3 x4 x5 h0 h1 h2 h3 h4 h5, r_main_v46 V x0 x1 x2 x3 x4 x5 h0 h1 h2 h3 h4 h5]; rfl
theorem r_main_c_9 : StableHlo.after (ops : List (HloOp τ sig (Elt F))) V (Proc.devRef .tc main_c_9) = Cert.ReferenceIdeal.ReadP.val_main_c_9 (F := F) := by
  rw [SsaLine.nullary_at writes_ops 58 main_c_9 _ _ rfl (by decide) V]; rfl
theorem r_main_v48 : StableHlo.after (ops : List (HloOp τ sig (Elt F))) V (Proc.devRef .tc main_v48) = Cert.ReferenceIdeal.ReadP.val_main_v48 (F := F) := by
  rw [SsaLine.unary_at writes_ops 59 main_c_9 main_v48 _ _ _ rfl (by decide) (by decide) (by decide) V, r_main_c_9 V x0 x1 x2 x3 x4 x5 h0 h1 h2 h3 h4 h5]; rfl
theorem r_main_v49 : StableHlo.after (ops : List (HloOp τ sig (Elt F))) V (Proc.devRef .tc main_v49) = Cert.ReferenceIdeal.ReadP.val_main_v49 (F := F) x0 := by
  rw [SsaLine.binary_at writes_ops 60 main_v3 main_v48 main_v49 _ _ _ _ rfl (by decide) (by decide) (by decide) (by decide) (by decide) V, r_main_v3 V x0 x1 x2 x3 x4 x5 h0 h1 h2 h3 h4 h5, r_main_v48 V x0 x1 x2 x3 x4 x5 h0 h1 h2 h3 h4 h5]; rfl
theorem r_main_c_10 : StableHlo.after (ops : List (HloOp τ sig (Elt F))) V (Proc.devRef .tc main_c_10) = Cert.ReferenceIdeal.ReadP.val_main_c_10 (F := F) := by
  rw [SsaLine.nullary_at writes_ops 61 main_c_10 _ _ rfl (by decide) V]; rfl
theorem r_main_v50 : StableHlo.after (ops : List (HloOp τ sig (Elt F))) V (Proc.devRef .tc main_v50) = Cert.ReferenceIdeal.ReadP.val_main_v50 (F := F) := by
  rw [SsaLine.unary_at writes_ops 62 main_c_10 main_v50 _ _ _ rfl (by decide) (by decide) (by decide) V, r_main_c_10 V x0 x1 x2 x3 x4 x5 h0 h1 h2 h3 h4 h5]; rfl
theorem r_main_v51 : StableHlo.after (ops : List (HloOp τ sig (Elt F))) V (Proc.devRef .tc main_v51) = Cert.ReferenceIdeal.ReadP.val_main_v51 (F := F) x0 := by
  rw [SsaLine.binary_at writes_ops 63 main_v3 main_v50 main_v51 _ _ _ _ rfl (by decide) (by decide) (by decide) (by decide) (by decide) V, r_main_v3 V x0 x1 x2 x3 x4 x5 h0 h1 h2 h3 h4 h5, r_main_v50 V x0 x1 x2 x3 x4 x5 h0 h1 h2 h3 h4 h5]; rfl
theorem r_main_v52 : StableHlo.after (ops : List (HloOp τ sig (Elt F))) V (Proc.devRef .tc main_v52) = Cert.ReferenceIdeal.ReadP.val_main_v52 (F := F) x0 := by
  rw [SsaLine.ternary_at writes_ops 64 main_v49 main_v51 main_v3 main_v52 _ _ _ _ _ rfl (by decide) (by decide) (by decide) (by decide) (by decide) (by decide) (by decide) V, r_main_v49 V x0 x1 x2 x3 x4 x5 h0 h1 h2 h3 h4 h5, r_main_v51 V x0 x1 x2 x3 x4 x5 h0 h1 h2 h3 h4 h5, r_main_v3 V x0 x1 x2 x3 x4 x5 h0 h1 h2 h3 h4 h5]; rfl
theorem r_main_v53 : StableHlo.after (ops : List (HloOp τ sig (Elt F))) V (Proc.devRef .tc main_v53) = Cert.ReferenceIdeal.ReadP.val_main_v53 (F := F) x0 := by
  rw [SsaLine.unary_at writes_ops 65 main_v52 main_v53 _ _ _ rfl (by decide) (by decide) (by decide) V, r_main_v52 V x0 x1 x2 x3 x4 x5 h0 h1 h2 h3 h4 h5]; rfl
theorem r_main_v54 : StableHlo.after (ops : List (HloOp τ sig (Elt F))) V (Proc.devRef .tc main_v54) = Cert.ReferenceIdeal.ReadP.val_main_v54 (F := F) x0 x5 := by
  rw [SsaLine.binary_at writes_ops 66 main_arg5 main_v53 main_v54 _ _ _ _ rfl (by decide) (by decide) (by decide) (by decide) (by decide) V, r_main_arg5 V x0 x1 x2 x3 x4 x5 h0 h1 h2 h3 h4 h5, r_main_v53 V x0 x1 x2 x3 x4 x5 h0 h1 h2 h3 h4 h5]; rfl
theorem r_main_v55 : StableHlo.after (ops : List (HloOp τ sig (Elt F))) V (Proc.devRef .tc main_v55) = Cert.ReferenceIdeal.ReadP.val_main_v55 (F := F) x0 x5 := by
  rw [SsaLine.unary_at writes_ops 67 main_v54 main_v55 _ _ _ rfl (by decide) (by decide) (by decide) V, r_main_v54 V x0 x1 x2 x3 x4 x5 h0 h1 h2 h3 h4 h5]; rfl
theorem r_main_v56 : StableHlo.after (ops : List (HloOp τ sig (Elt F))) V (Proc.devRef .tc main_v56) = Cert.ReferenceIdeal.ReadP.val_main_v56 (F := F) x0 x5 := by
  rw [SsaLine.reshape_at writes_ops 68 main_v55 main_v56 _ _ _ _ rfl (by decide) (by decide) (by decide) V, r_main_v55 V x0 x1 x2 x3 x4 x5 h0 h1 h2 h3 h4 h5]; rfl
theorem r_main_v57 : StableHlo.after (ops : List (HloOp τ sig (Elt F))) V (Proc.devRef .tc main_v57) = Cert.ReferenceIdeal.ReadP.val_main_v57 (F := F) x0 x5 := by
  rw [SsaLine.unary_at writes_ops 69 main_v54 main_v57 _ _ _ rfl (by decide) (by decide) (by decide) V, r_main_v54 V x0 x1 x2 x3 x4 x5 h0 h1 h2 h3 h4 h5]; rfl
theorem r_main_v58 : StableHlo.after (ops : List (HloOp τ sig (Elt F))) V (Proc.devRef .tc main_v58) = Cert.ReferenceIdeal.ReadP.val_main_v58 (F := F) x0 x5 := by
  rw [SsaLine.reshape_at writes_ops 70 main_v57 main_v58 _ _ _ _ rfl (by decide) (by decide) (by decide) V, r_main_v57 V x0 x1 x2 x3 x4 x5 h0 h1 h2 h3 h4 h5]; rfl
theorem r_main_v59 : StableHlo.after (ops : List (HloOp τ sig (Elt F))) V (Proc.devRef .tc main_v59) = Cert.ReferenceIdeal.ReadP.val_main_v59 (F := F) x1 := by
  rw [SsaLine.unary_at writes_ops 71 main_arg1 main_v59 _ _ _ rfl (by decide) (by decide) (by decide) V, r_main_arg1 V x0 x1 x2 x3 x4 x5 h0 h1 h2 h3 h4 h5]; rfl
theorem r_main_v60 : StableHlo.after (ops : List (HloOp τ sig (Elt F))) V (Proc.devRef .tc main_v60) = Cert.ReferenceIdeal.ReadP.val_main_v60 (F := F) x1 := by
  rw [SsaLine.reshape_at writes_ops 72 main_v59 main_v60 _ _ _ _ rfl (by decide) (by decide) (by decide) V, r_main_v59 V x0 x1 x2 x3 x4 x5 h0 h1 h2 h3 h4 h5]; rfl
theorem r_main_v61 : StableHlo.after (ops : List (HloOp τ sig (Elt F))) V (Proc.devRef .tc main_v61) = Cert.ReferenceIdeal.ReadP.val_main_v61 (F := F) x1 := by
  rw [SsaLine.unary_at writes_ops 73 main_arg1 main_v61 _ _ _ rfl (by decide) (by decide) (by decide) V, r_main_arg1 V x0 x1 x2 x3 x4 x5 h0 h1 h2 h3 h4 h5]; rfl
theorem r_main_v62 : StableHlo.after (ops : List (HloOp τ sig (Elt F))) V (Proc.devRef .tc main_v62) = Cert.ReferenceIdeal.ReadP.val_main_v62 (F := F) x1 := by
  rw [SsaLine.reshape_at writes_ops 74 main_v61 main_v62 _ _ _ _ rfl (by decide) (by decide) (by decide) V, r_main_v61 V x0 x1 x2 x3 x4 x5 h0 h1 h2 h3 h4 h5]; rfl
theorem r_main_v63 : StableHlo.after (ops : List (HloOp τ sig (Elt F))) V (Proc.devRef .tc main_v63) = Cert.ReferenceIdeal.ReadP.val_main_v63 (F := F) x0 x2 := by
  rw [SsaLine.binary_at writes_ops 75 main_v33 main_v33 main_v63 _ _ _ _ rfl (by decide) (by decide) (by decide) (by decide) (by decide) V, r_main_v33 V x0 x1 x2 x3 x4 x5 h0 h1 h2 h3 h4 h5]; rfl
theorem r_main_cst : StableHlo.after (ops : List (HloOp τ sig (Elt F))) V (Proc.devRef .tc main_cst) = Cert.ReferenceIdeal.ReadP.val_main_cst (F := F) := by
  rw [SsaLine.nullary_at writes_ops 76 main_cst _ _ rfl (by decide) V]; rfl
theorem r_main_v64 : StableHlo.after (ops : List (HloOp τ sig (Elt F))) V (Proc.devRef .tc main_v64) = Cert.ReferenceIdeal.ReadP.val_main_v64 (F := F) x0 x2 := by
  rw [SsaLine.binary_at writes_ops 77 main_v63 main_cst main_v64 _ _ _ _ rfl (by decide) (by decide) (by decide) (by decide) (by decide) V, r_main_v63 V x0 x1 x2 x3 x4 x5 h0 h1 h2 h3 h4 h5, r_main_cst V x0 x1 x2 x3 x4 x5 h0 h1 h2 h3 h4 h5]; rfl
theorem r_main_v65 : StableHlo.after (ops : List (HloOp τ sig (Elt F))) V (Proc.devRef .tc main_v65) = Cert.ReferenceIdeal.ReadP.val_main_v65 (F := F) x0 x2 := by
  rw [SsaLine.unary_at writes_ops 78 main_v64 main_v65 _ _ _ rfl (by decide) (by decide) (by decide) V, r_main_v64 V x0 x1 x2 x3 x4 x5 h0 h1 h2 h3 h4 h5]; rfl
theorem r_main_cst_11 : StableHlo.after (ops : List (HloOp τ sig (Elt F))) V (Proc.devRef .tc main_cst_11) = Cert.ReferenceIdeal.ReadP.val_main_cst_11 (F := F) := by
  rw [SsaLine.nullary_at writes_ops 79 main_cst_11 _ _ rfl (by decide) V]; rfl
theorem r_main_v66 : StableHlo.after (ops : List (HloOp τ sig (Elt F))) V (Proc.devRef .tc main_v66) = Cert.ReferenceIdeal.ReadP.val_main_v66 (F := F) := by
  rw [SsaLine.unary_at writes_ops 80 main_cst_11 main_v66 _ _ _ rfl (by decide) (by decide) (by decide) V, r_main_cst_11 V x0 x1 x2 x3 x4 x5 h0 h1 h2 h3 h4 h5]; rfl
theorem r_main_v67 : StableHlo.after (ops : List (HloOp τ sig (Elt F))) V (Proc.devRef .tc main_v67) = Cert.ReferenceIdeal.ReadP.val_main_v67 (F := F) x0 x2 := by
  rw [SsaLine.binary_at writes_ops 81 main_v65 main_v66 main_v67 _ _ _ _ rfl (by decide) (by decide) (by decide) (by decide) (by decide) V, r_main_v65 V x0 x1 x2 x3 x4 x5 h0 h1 h2 h3 h4 h5, r_main_v66 V x0 x1 x2 x3 x4 x5 h0 h1 h2 h3 h4 h5]; rfl
theorem r_main_v68 : StableHlo.after (ops : List (HloOp τ sig (Elt F))) V (Proc.devRef .tc main_v68) = Cert.ReferenceIdeal.ReadP.val_main_v68 (F := F) x0 x2 := by
  rw [SsaLine.unary_at writes_ops 82 main_v67 main_v68 _ _ _ rfl (by decide) (by decide) (by decide) V, r_main_v67 V x0 x1 x2 x3 x4 x5 h0 h1 h2 h3 h4 h5]; rfl
theorem r_main_v69 : StableHlo.after (ops : List (HloOp τ sig (Elt F))) V (Proc.devRef .tc main_v69) = Cert.ReferenceIdeal.ReadP.val_main_v69 (F := F) x0 x2 := by
  rw [SsaLine.unary_at writes_ops 83 main_v68 main_v69 _ _ _ rfl (by decide) (by decide) (by decide) V, r_main_v68 V x0 x1 x2 x3 x4 x5 h0 h1 h2 h3 h4 h5]; rfl
theorem r_main_v70 : StableHlo.after (ops : List (HloOp τ sig (Elt F))) V (Proc.devRef .tc main_v70) = Cert.ReferenceIdeal.ReadP.val_main_v70 (F := F) x0 x2 := by
  rw [SsaLine.binary_at writes_ops 84 main_v33 main_v69 main_v70 _ _ _ _ rfl (by decide) (by decide) (by decide) (by decide) (by decide) V, r_main_v33 V x0 x1 x2 x3 x4 x5 h0 h1 h2 h3 h4 h5, r_main_v69 V x0 x1 x2 x3 x4 x5 h0 h1 h2 h3 h4 h5]; rfl
theorem r_main_v71 : StableHlo.after (ops : List (HloOp τ sig (Elt F))) V (Proc.devRef .tc main_v71) = Cert.ReferenceIdeal.ReadP.val_main_v71 (F := F) x0 x1 := by
  rw [SsaLine.unary_at writes_ops 85 main_v20 main_v71 _ _ _ rfl (by decide) (by decide) (by decide) V, r_main_v20 V x0 x1 x2 x3 x4 x5 h0 h1 h2 h3 h4 h5]; rfl
theorem r_main_v72 : StableHlo.after (ops : List (HloOp τ sig (Elt F))) V (Proc.devRef .tc main_v72) = Cert.ReferenceIdeal.ReadP.val_main_v72 (F := F) x0 x1 := by
  rw [SsaLine.unary_at writes_ops 86 main_v20 main_v72 _ _ _ rfl (by decide) (by decide) (by decide) V, r_main_v20 V x0 x1 x2 x3 x4 x5 h0 h1 h2 h3 h4 h5]; rfl
theorem r_main_v73 : StableHlo.after (ops : List (HloOp τ sig (Elt F))) V (Proc.devRef .tc main_v73) = Cert.ReferenceIdeal.ReadP.val_main_v73 (F := F) x0 x2 := by
  rw [SsaLine.unary_at writes_ops 87 main_v70 main_v73 _ _ _ rfl (by decide) (by decide) (by decide) V, r_main_v70 V x0 x1 x2 x3 x4 x5 h0 h1 h2 h3 h4 h5]; rfl
theorem r_main_v74 : StableHlo.after (ops : List (HloOp τ sig (Elt F))) V (Proc.devRef .tc main_v74) = Cert.ReferenceIdeal.ReadP.val_main_v74 (F := F) x0 x2 := by
  rw [SsaLine.reshape_at writes_ops 88 main_v73 main_v74 _ _ _ _ rfl (by decide) (by decide) (by decide) V, r_main_v73 V x0 x1 x2 x3 x4 x5 h0 h1 h2 h3 h4 h5]; rfl
theorem r_main_v75 : StableHlo.after (ops : List (HloOp τ sig (Elt F))) V (Proc.devRef .tc main_v75) = Cert.ReferenceIdeal.ReadP.val_main_v75 (F := F) x0 x2 := by
  rw [SsaLine.unary_at writes_ops 89 main_v70 main_v75 _ _ _ rfl (by decide) (by decide) (by decide) V, r_main_v70 V x0 x1 x2 x3 x4 x5 h0 h1 h2 h3 h4 h5]; rfl
theorem r_main_v76 : StableHlo.after (ops : List (HloOp τ sig (Elt F))) V (Proc.devRef .tc main_v76) = Cert.ReferenceIdeal.ReadP.val_main_v76 (F := F) x0 x2 := by
  rw [SsaLine.reshape_at writes_ops 90 main_v75 main_v76 _ _ _ _ rfl (by decide) (by decide) (by decide) V, r_main_v75 V x0 x1 x2 x3 x4 x5 h0 h1 h2 h3 h4 h5]; rfl
theorem r_main_v77 : StableHlo.after (ops : List (HloOp τ sig (Elt F))) V (Proc.devRef .tc main_v77) = Cert.ReferenceIdeal.ReadP.val_main_v77 (F := F) x0 x2 := by
  rw [SsaLine.unary_at writes_ops 91 main_v70 main_v77 _ _ _ rfl (by decide) (by decide) (by decide) V, r_main_v70 V x0 x1 x2 x3 x4 x5 h0 h1 h2 h3 h4 h5]; rfl
theorem r_main_v78 : StableHlo.after (ops : List (HloOp τ sig (Elt F))) V (Proc.devRef .tc main_v78) = Cert.ReferenceIdeal.ReadP.val_main_v78 (F := F) x0 x2 := by
  rw [SsaLine.reshape_at writes_ops 92 main_v77 main_v78 _ _ _ _ rfl (by decide) (by decide) (by decide) V, r_main_v77 V x0 x1 x2 x3 x4 x5 h0 h1 h2 h3 h4 h5]; rfl
theorem r_main_v79 : StableHlo.after (ops : List (HloOp τ sig (Elt F))) V (Proc.devRef .tc main_v79) = Cert.ReferenceIdeal.ReadP.val_main_v79 (F := F) x0 x2 := by
  rw [SsaLine.unary_at writes_ops 93 main_v70 main_v79 _ _ _ rfl (by decide) (by decide) (by decide) V, r_main_v70 V x0 x1 x2 x3 x4 x5 h0 h1 h2 h3 h4 h5]; rfl
theorem r_main_v80 : StableHlo.after (ops : List (HloOp τ sig (Elt F))) V (Proc.devRef .tc main_v80) = Cert.ReferenceIdeal.ReadP.val_main_v80 (F := F) x0 x2 := by
  rw [SsaLine.reshape_at writes_ops 94 main_v79 main_v80 _ _ _ _ rfl (by decide) (by decide) (by decide) V, r_main_v79 V x0 x1 x2 x3 x4 x5 h0 h1 h2 h3 h4 h5]; rfl
theorem r_main_v81 : StableHlo.after (ops : List (HloOp τ sig (Elt F))) V (Proc.devRef .tc main_v81) = Cert.ReferenceIdeal.ReadP.val_main_v81 (F := F) x0 x1 := by
  rw [SsaLine.unary_at writes_ops 95 main_v72 main_v81 _ _ _ rfl (by decide) (by decide) (by decide) V, r_main_v72 V x0 x1 x2 x3 x4 x5 h0 h1 h2 h3 h4 h5]; rfl
theorem r_main_v82 : StableHlo.after (ops : List (HloOp τ sig (Elt F))) V (Proc.devRef .tc main_v82) = Cert.ReferenceIdeal.ReadP.val_main_v82 (F := F) x0 x1 := by
  rw [SsaLine.reshape_at writes_ops 96 main_v81 main_v82 _ _ _ _ rfl (by decide) (by decide) (by decide) V, r_main_v81 V x0 x1 x2 x3 x4 x5 h0 h1 h2 h3 h4 h5]; rfl
theorem r_main_v83 : StableHlo.after (ops : List (HloOp τ sig (Elt F))) V (Proc.devRef .tc main_v83) = Cert.ReferenceIdeal.ReadP.val_main_v83 (F := F) x0 x1 := by
  rw [SsaLine.unary_at writes_ops 97 main_v72 main_v83 _ _ _ rfl (by decide) (by decide) (by decide) V, r_main_v72 V x0 x1 x2 x3 x4 x5 h0 h1 h2 h3 h4 h5]; rfl
theorem r_main_v84 : StableHlo.after (ops : List (HloOp τ sig (Elt F))) V (Proc.devRef .tc main_v84) = Cert.ReferenceIdeal.ReadP.val_main_v84 (F := F) x0 x1 := by
  rw [SsaLine.reshape_at writes_ops 98 main_v83 main_v84 _ _ _ _ rfl (by decide) (by decide) (by decide) V, r_main_v83 V x0 x1 x2 x3 x4 x5 h0 h1 h2 h3 h4 h5]; rfl
theorem r_main_v85 : StableHlo.after (ops : List (HloOp τ sig (Elt F))) V (Proc.devRef .tc main_v85) = Cert.ReferenceIdeal.ReadP.val_main_v85 (F := F) x0 x1 := by
  rw [SsaLine.unary_at writes_ops 99 main_v72 main_v85 _ _ _ rfl (by decide) (by decide) (by decide) V, r_main_v72 V x0 x1 x2 x3 x4 x5 h0 h1 h2 h3 h4 h5]; rfl
theorem r_main_v86 : StableHlo.after (ops : List (HloOp τ sig (Elt F))) V (Proc.devRef .tc main_v86) = Cert.ReferenceIdeal.ReadP.val_main_v86 (F := F) x0 x1 := by
  rw [SsaLine.reshape_at writes_ops 100 main_v85 main_v86 _ _ _ _ rfl (by decide) (by decide) (by decide) V, r_main_v85 V x0 x1 x2 x3 x4 x5 h0 h1 h2 h3 h4 h5]; rfl
theorem r_main_v87 : StableHlo.after (ops : List (HloOp τ sig (Elt F))) V (Proc.devRef .tc main_v87) = Cert.ReferenceIdeal.ReadP.val_main_v87 (F := F) x0 x1 := by
  rw [SsaLine.unary_at writes_ops 101 main_v72 main_v87 _ _ _ rfl (by decide) (by decide) (by decide) V, r_main_v72 V x0 x1 x2 x3 x4 x5 h0 h1 h2 h3 h4 h5]; rfl
theorem r_main_v88 : StableHlo.after (ops : List (HloOp τ sig (Elt F))) V (Proc.devRef .tc main_v88) = Cert.ReferenceIdeal.ReadP.val_main_v88 (F := F) x0 x1 := by
  rw [SsaLine.reshape_at writes_ops 102 main_v87 main_v88 _ _ _ _ rfl (by decide) (by decide) (by decide) V, r_main_v87 V x0 x1 x2 x3 x4 x5 h0 h1 h2 h3 h4 h5]; rfl
theorem r_main_v89 : StableHlo.after (ops : List (HloOp τ sig (Elt F))) V (Proc.devRef .tc main_v89) = Cert.ReferenceIdeal.ReadP.val_main_v89 (F := F) x0 x1 x2 := by
  rw [SsaLine.binary_at writes_ops 103 main_v74 main_v82 main_v89 _ _ _ _ rfl (by decide) (by decide) (by decide) (by decide) (by decide) V, r_main_v74 V x0 x1 x2 x3 x4 x5 h0 h1 h2 h3 h4 h5, r_main_v82 V x0 x1 x2 x3 x4 x5 h0 h1 h2 h3 h4 h5]; rfl
theorem r_main_v90 : StableHlo.after (ops : List (HloOp τ sig (Elt F))) V (Proc.devRef .tc main_v90) = Cert.ReferenceIdeal.ReadP.val_main_v90 (F := F) x0 x1 x2 := by
  rw [SsaLine.binary_at writes_ops 104 main_v76 main_v84 main_v90 _ _ _ _ rfl (by decide) (by decide) (by decide) (by decide) (by decide) V, r_main_v76 V x0 x1 x2 x3 x4 x5 h0 h1 h2 h3 h4 h5, r_main_v84 V x0 x1 x2 x3 x4 x5 h0 h1 h2 h3 h4 h5]; rfl
theorem r_main_v91 : StableHlo.after (ops : List (HloOp τ sig (Elt F))) V (Proc.devRef .tc main_v91) = Cert.ReferenceIdeal.ReadP.val_main_v91 (F := F) x0 x1 x2 := by
  rw [SsaLine.binary_at writes_ops 105 main_v89 main_v90 main_v91 _ _ _ _ rfl (by decide) (by decide) (by decide) (by decide) (by decide) V, r_main_v89 V x0 x1 x2 x3 x4 x5 h0 h1 h2 h3 h4 h5, r_main_v90 V x0 x1 x2 x3 x4 x5 h0 h1 h2 h3 h4 h5]; rfl
theorem r_main_v92 : StableHlo.after (ops : List (HloOp τ sig (Elt F))) V (Proc.devRef .tc main_v92) = Cert.ReferenceIdeal.ReadP.val_main_v92 (F := F) x0 x1 x2 := by
  rw [SsaLine.binary_at writes_ops 106 main_v78 main_v86 main_v92 _ _ _ _ rfl (by decide) (by decide) (by decide) (by decide) (by decide) V, r_main_v78 V x0 x1 x2 x3 x4 x5 h0 h1 h2 h3 h4 h5, r_main_v86 V x0 x1 x2 x3 x4 x5 h0 h1 h2 h3 h4 h5]; rfl
theorem r_main_v93 : StableHlo.after (ops : List (HloOp τ sig (Elt F))) V (Proc.devRef .tc main_v93) = Cert.ReferenceIdeal.ReadP.val_main_v93 (F := F) x0 x1 x2 := by
  rw [SsaLine.binary_at writes_ops 107 main_v91 main_v92 main_v93 _ _ _ _ rfl (by decide) (by decide) (by decide) (by decide) (by decide) V, r_main_v91 V x0 x1 x2 x3 x4 x5 h0 h1 h2 h3 h4 h5, r_main_v92 V x0 x1 x2 x3 x4 x5 h0 h1 h2 h3 h4 h5]; rfl
theorem r_main_v94 : StableHlo.after (ops : List (HloOp τ sig (Elt F))) V (Proc.devRef .tc main_v94) = Cert.ReferenceIdeal.ReadP.val_main_v94 (F := F) x0 x1 x2 := by
  rw [SsaLine.binary_at writes_ops 108 main_v80 main_v88 main_v94 _ _ _ _ rfl (by decide) (by decide) (by decide) (by decide) (by decide) V, r_main_v80 V x0 x1 x2 x3 x4 x5 h0 h1 h2 h3 h4 h5, r_main_v88 V x0 x1 x2 x3 x4 x5 h0 h1 h2 h3 h4 h5]; rfl
theorem r_main_v95 : StableHlo.after (ops : List (HloOp τ sig (Elt F))) V (Proc.devRef .tc main_v95) = Cert.ReferenceIdeal.ReadP.val_main_v95 (F := F) x0 x1 x2 := by
  rw [SsaLine.binary_at writes_ops 109 main_v93 main_v94 main_v95 _ _ _ _ rfl (by decide) (by decide) (by decide) (by decide) (by decide) V, r_main_v93 V x0 x1 x2 x3 x4 x5 h0 h1 h2 h3 h4 h5, r_main_v94 V x0 x1 x2 x3 x4 x5 h0 h1 h2 h3 h4 h5]; rfl
theorem r_main_v96 : StableHlo.after (ops : List (HloOp τ sig (Elt F))) V (Proc.devRef .tc main_v96) = Cert.ReferenceIdeal.ReadP.val_main_v96 (F := F) x0 x1 x2 := by
  rw [SsaLine.binary_at writes_ops 110 main_v74 main_v84 main_v96 _ _ _ _ rfl (by decide) (by decide) (by decide) (by decide) (by decide) V, r_main_v74 V x0 x1 x2 x3 x4 x5 h0 h1 h2 h3 h4 h5, r_main_v84 V x0 x1 x2 x3 x4 x5 h0 h1 h2 h3 h4 h5]; rfl
theorem r_main_v97 : StableHlo.after (ops : List (HloOp τ sig (Elt F))) V (Proc.devRef .tc main_v97) = Cert.ReferenceIdeal.ReadP.val_main_v97 (F := F) x0 x1 x2 := by
  rw [SsaLine.binary_at writes_ops 111 main_v76 main_v82 main_v97 _ _ _ _ rfl (by decide) (by decide) (by decide) (by decide) (by decide) V, r_main_v76 V x0 x1 x2 x3 x4 x5 h0 h1 h2 h3 h4 h5, r_main_v82 V x0 x1 x2 x3 x4 x5 h0 h1 h2 h3 h4 h5]; rfl
theorem r_main_v98 : StableHlo.after (ops : List (HloOp τ sig (Elt F))) V (Proc.devRef .tc main_v98) = Cert.ReferenceIdeal.ReadP.val_main_v98 (F := F) x0 x1 x2 := by
  rw [SsaLine.binary_at writes_ops 112 main_v96 main_v97 main_v98 _ _ _ _ rfl (by decide) (by decide) (by decide) (by decide) (by decide) V, r_main_v96 V x0 x1 x2 x3 x4 x5 h0 h1 h2 h3 h4 h5, r_main_v97 V x0 x1 x2 x3 x4 x5 h0 h1 h2 h3 h4 h5]; rfl
theorem r_main_v99 : StableHlo.after (ops : List (HloOp τ sig (Elt F))) V (Proc.devRef .tc main_v99) = Cert.ReferenceIdeal.ReadP.val_main_v99 (F := F) x0 x1 x2 := by
  rw [SsaLine.binary_at writes_ops 113 main_v78 main_v88 main_v99 _ _ _ _ rfl (by decide) (by decide) (by decide) (by decide) (by decide) V, r_main_v78 V x0 x1 x2 x3 x4 x5 h0 h1 h2 h3 h4 h5, r_main_v88 V x0 x1 x2 x3 x4 x5 h0 h1 h2 h3 h4 h5]; rfl
theorem r_main_v100 : StableHlo.after (ops : List (HloOp τ sig (Elt F))) V (Proc.devRef .tc main_v100) = Cert.ReferenceIdeal.ReadP.val_main_v100 (F := F) x0 x1 x2 := by
  rw [SsaLine.binary_at writes_ops 114 main_v98 main_v99 main_v100 _ _ _ _ rfl (by decide) (by decide) (by decide) (by decide) (by decide) V, r_main_v98 V x0 x1 x2 x3 x4 x5 h0 h1 h2 h3 h4 h5, r_main_v99 V x0 x1 x2 x3 x4 x5 h0 h1 h2 h3 h4 h5]; rfl
theorem r_main_v101 : StableHlo.after (ops : List (HloOp τ sig (Elt F))) V (Proc.devRef .tc main_v101) = Cert.ReferenceIdeal.ReadP.val_main_v101 (F := F) x0 x1 x2 := by
  rw [SsaLine.binary_at writes_ops 115 main_v80 main_v86 main_v101 _ _ _ _ rfl (by decide) (by decide) (by decide) (by decide) (by decide) V, r_main_v80 V x0 x1 x2 x3 x4 x5 h0 h1 h2 h3 h4 h5, r_main_v86 V x0 x1 x2 x3 x4 x5 h0 h1 h2 h3 h4 h5]; rfl
theorem r_main_v102 : StableHlo.after (ops : List (HloOp τ sig (Elt F))) V (Proc.devRef .tc main_v102) = Cert.ReferenceIdeal.ReadP.val_main_v102 (F := F) x0 x1 x2 := by
  rw [SsaLine.binary_at writes_ops 116 main_v100 main_v101 main_v102 _ _ _ _ rfl (by decide) (by decide) (by decide) (by decide) (by decide) V, r_main_v100 V x0 x1 x2 x3 x4 x5 h0 h1 h2 h3 h4 h5, r_main_v101 V x0 x1 x2 x3 x4 x5 h0 h1 h2 h3 h4 h5]; rfl
theorem r_main_v103 : StableHlo.after (ops : List (HloOp τ sig (Elt F))) V (Proc.devRef .tc main_v103) = Cert.ReferenceIdeal.ReadP.val_main_v103 (F := F) x0 x1 x2 := by
  rw [SsaLine.binary_at writes_ops 117 main_v74 main_v86 main_v103 _ _ _ _ rfl (by decide) (by decide) (by decide) (by decide) (by decide) V, r_main_v74 V x0 x1 x2 x3 x4 x5 h0 h1 h2 h3 h4 h5, r_main_v86 V x0 x1 x2 x3 x4 x5 h0 h1 h2 h3 h4 h5]; rfl
theorem r_main_v104 : StableHlo.after (ops : List (HloOp τ sig (Elt F))) V (Proc.devRef .tc main_v104) = Cert.ReferenceIdeal.ReadP.val_main_v104 (F := F) x0 x1 x2 := by
  rw [SsaLine.binary_at writes_ops 118 main_v76 main_v88 main_v104 _ _ _ _ rfl (by decide) (by decide) (by decide) (by decide) (by decide) V, r_main_v76 V x0 x1 x2 x3 x4 x5 h0 h1 h2 h3 h4 h5, r_main_v88 V x0 x1 x2 x3 x4 x5 h0 h1 h2 h3 h4 h5]; rfl
theorem r_main_v105 : StableHlo.after (ops : List (HloOp τ sig (Elt F))) V (Proc.devRef .tc main_v105) = Cert.ReferenceIdeal.ReadP.val_main_v105 (F := F) x0 x1 x2 := by
  rw [SsaLine.binary_at writes_ops 119 main_v103 main_v104 main_v105 _ _ _ _ rfl (by decide) (by decide) (by decide) (by decide) (by decide) V, r_main_v103 V x0 x1 x2 x3 x4 x5 h0 h1 h2 h3 h4 h5, r_main_v104 V x0 x1 x2 x3 x4 x5 h0 h1 h2 h3 h4 h5]; rfl
theorem r_main_v106 : StableHlo.after (ops : List (HloOp τ sig (Elt F))) V (Proc.devRef .tc main_v106) = Cert.ReferenceIdeal.ReadP.val_main_v106 (F := F) x0 x1 x2 := by
  rw [SsaLine.binary_at writes_ops 120 main_v78 main_v82 main_v106 _ _ _ _ rfl (by decide) (by decide) (by decide) (by decide) (by decide) V, r_main_v78 V x0 x1 x2 x3 x4 x5 h0 h1 h2 h3 h4 h5, r_main_v82 V x0 x1 x2 x3 x4 x5 h0 h1 h2 h3 h4 h5]; rfl
theorem r_main_v107 : StableHlo.after (ops : List (HloOp τ sig (Elt F))) V (Proc.devRef .tc main_v107) = Cert.ReferenceIdeal.ReadP.val_main_v107 (F := F) x0 x1 x2 := by
  rw [SsaLine.binary_at writes_ops 121 main_v105 main_v106 main_v107 _ _ _ _ rfl (by decide) (by decide) (by decide) (by decide) (by decide) V, r_main_v105 V x0 x1 x2 x3 x4 x5 h0 h1 h2 h3 h4 h5, r_main_v106 V x0 x1 x2 x3 x4 x5 h0 h1 h2 h3 h4 h5]; rfl
theorem r_main_v108 : StableHlo.after (ops : List (HloOp τ sig (Elt F))) V (Proc.devRef .tc main_v108) = Cert.ReferenceIdeal.ReadP.val_main_v108 (F := F) x0 x1 x2 := by
  rw [SsaLine.binary_at writes_ops 122 main_v80 main_v84 main_v108 _ _ _ _ rfl (by decide) (by decide) (by decide) (by decide) (by decide) V, r_main_v80 V x0 x1 x2 x3 x4 x5 h0 h1 h2 h3 h4 h5, r_main_v84 V x0 x1 x2 x3 x4 x5 h0 h1 h2 h3 h4 h5]; rfl
theorem r_main_v109 : StableHlo.after (ops : List (HloOp τ sig (Elt F))) V (Proc.devRef .tc main_v109) = Cert.ReferenceIdeal.ReadP.val_main_v109 (F := F) x0 x1 x2 := by
  rw [SsaLine.binary_at writes_ops 123 main_v107 main_v108 main_v109 _ _ _ _ rfl (by decide) (by decide) (by decide) (by decide) (by decide) V, r_main_v107 V x0 x1 x2 x3 x4 x5 h0 h1 h2 h3 h4 h5, r_main_v108 V x0 x1 x2 x3 x4 x5 h0 h1 h2 h3 h4 h5]; rfl
theorem r_main_v110 : StableHlo.after (ops : List (HloOp τ sig (Elt F))) V (Proc.devRef .tc main_v110) = Cert.ReferenceIdeal.ReadP.val_main_v110 (F := F) x0 x1 x2 := by
  rw [SsaLine.binary_at writes_ops 124 main_v74 main_v88 main_v110 _ _ _ _ rfl (by decide) (by decide) (by decide) (by decide) (by decide) V, r_main_v74 V x0 x1 x2 x3 x4 x5 h0 h1 h2 h3 h4 h5, r_main_v88 V x0 x1 x2 x3 x4 x5 h0 h1 h2 h3 h4 h5]; rfl
theorem r_main_v111 : StableHlo.after (ops : List (HloOp τ sig (Elt F))) V (Proc.devRef .tc main_v111) = Cert.ReferenceIdeal.ReadP.val_main_v111 (F := F) x0 x1 x2 := by
  rw [SsaLine.binary_at writes_ops 125 main_v76 main_v86 main_v111 _ _ _ _ rfl (by decide) (by decide) (by decide) (by decide) (by decide) V, r_main_v76 V x0 x1 x2 x3 x4 x5 h0 h1 h2 h3 h4 h5, r_main_v86 V x0 x1 x2 x3 x4 x5 h0 h1 h2 h3 h4 h5]; rfl
theorem r_main_v112 : StableHlo.after (ops : List (HloOp τ sig (Elt F))) V (Proc.devRef .tc main_v112) = Cert.ReferenceIdeal.ReadP.val_main_v112 (F := F) x0 x1 x2 := by
  rw [SsaLine.binary_at writes_ops 126 main_v110 main_v111 main_v112 _ _ _ _ rfl (by decide) (by decide) (by decide) (by decide) (by decide) V, r_main_v110 V x0 x1 x2 x3 x4 x5 h0 h1 h2 h3 h4 h5, r_main_v111 V x0 x1 x2 x3 x4 x5 h0 h1 h2 h3 h4 h5]; rfl
theorem r_main_v113 : StableHlo.after (ops : List (HloOp τ sig (Elt F))) V (Proc.devRef .tc main_v113) = Cert.ReferenceIdeal.ReadP.val_main_v113 (F := F) x0 x1 x2 := by
  rw [SsaLine.binary_at writes_ops 127 main_v78 main_v84 main_v113 _ _ _ _ rfl (by decide) (by decide) (by decide) (by decide) (by decide) V, r_main_v78 V x0 x1 x2 x3 x4 x5 h0 h1 h2 h3 h4 h5, r_main_v84 V x0 x1 x2 x3 x4 x5 h0 h1 h2 h3 h4 h5]; rfl
theorem r_main_v114 : StableHlo.after (ops : List (HloOp τ sig (Elt F))) V (Proc.devRef .tc main_v114) = Cert.ReferenceIdeal.ReadP.val_main_v114 (F := F) x0 x1 x2 := by
  rw [SsaLine.binary_at writes_ops 128 main_v112 main_v113 main_v114 _ _ _ _ rfl (by decide) (by decide) (by decide) (by decide) (by decide) V, r_main_v112 V x0 x1 x2 x3 x4 x5 h0 h1 h2 h3 h4 h5, r_main_v113 V x0 x1 x2 x3 x4 x5 h0 h1 h2 h3 h4 h5]; rfl
theorem r_main_v115 : StableHlo.after (ops : List (HloOp τ sig (Elt F))) V (Proc.devRef .tc main_v115) = Cert.ReferenceIdeal.ReadP.val_main_v115 (F := F) x0 x1 x2 := by
  rw [SsaLine.binary_at writes_ops 129 main_v80 main_v82 main_v115 _ _ _ _ rfl (by decide) (by decide) (by decide) (by decide) (by decide) V, r_main_v80 V x0 x1 x2 x3 x4 x5 h0 h1 h2 h3 h4 h5, r_main_v82 V x0 x1 x2 x3 x4 x5 h0 h1 h2 h3 h4 h5]; rfl
theorem r_main_v116 : StableHlo.after (ops : List (HloOp τ sig (Elt F))) V (Proc.devRef .tc main_v116) = Cert.ReferenceIdeal.ReadP.val_main_v116 (F := F) x0 x1 x2 := by
  rw [SsaLine.binary_at writes_ops 130 main_v114 main_v115 main_v116 _ _ _ _ rfl (by decide) (by decide) (by decide) (by decide) (by decide) V, r_main_v114 V x0 x1 x2 x3 x4 x5 h0 h1 h2 h3 h4 h5, r_main_v115 V x0 x1 x2 x3 x4 x5 h0 h1 h2 h3 h4 h5]; rfl
theorem r_main_v117 : StableHlo.after (ops : List (HloOp τ sig (Elt F))) V (Proc.devRef .tc main_v117) = Cert.ReferenceIdeal.ReadP.val_main_v117 (F := F) x0 x1 x2 := by
  rw [SsaLine.unary_at writes_ops 131 main_v95 main_v117 _ _ _ rfl (by decide) (by decide) (by decide) V, r_main_v95 V x0 x1 x2 x3 x4 x5 h0 h1 h2 h3 h4 h5]; rfl
theorem r_main_v118 : StableHlo.after (ops : List (HloOp τ sig (Elt F))) V (Proc.devRef .tc main_v118) = Cert.ReferenceIdeal.ReadP.val_main_v118 (F := F) x0 x1 x2 := by
  rw [SsaLine.unary_at writes_ops 132 main_v102 main_v118 _ _ _ rfl (by decide) (by decide) (by decide) V, r_main_v102 V x0 x1 x2 x3 x4 x5 h0 h1 h2 h3 h4 h5]; rfl
theorem r_main_v119 : StableHlo.after (ops : List (HloOp τ sig (Elt F))) V (Proc.devRef .tc main_v119) = Cert.ReferenceIdeal.ReadP.val_main_v119 (F := F) x0 x1 x2 := by
  rw [SsaLine.unary_at writes_ops 133 main_v109 main_v119 _ _ _ rfl (by decide) (by decide) (by decide) V, r_main_v109 V x0 x1 x2 x3 x4 x5 h0 h1 h2 h3 h4 h5]; rfl
theorem r_main_v120 : StableHlo.after (ops : List (HloOp τ sig (Elt F))) V (Proc.devRef .tc main_v120) = Cert.ReferenceIdeal.ReadP.val_main_v120 (F := F) x0 x1 x2 := by
  rw [SsaLine.unary_at writes_ops 134 main_v116 main_v120 _ _ _ rfl (by decide) (by decide) (by decide) V, r_main_v116 V x0 x1 x2 x3 x4 x5 h0 h1 h2 h3 h4 h5]; rfl
theorem r_main_v121 : StableHlo.after (ops : List (HloOp τ sig (Elt F))) V (Proc.devRef .tc main_v121) = Cert.ReferenceIdeal.ReadP.val_main_v121 (F := F) x0 x1 x2 := by
  rw [SsaLine.nary4_at writes_ops 135 main_v117 main_v118 main_v119 main_v120 main_v121 _ _ _ rfl (by decide) (by decide) (by decide) (by decide) (by decide) (by decide) (by decide) (by decide) (by decide) V, r_main_v117 V x0 x1 x2 x3 x4 x5 h0 h1 h2 h3 h4 h5, r_main_v118 V x0 x1 x2 x3 x4 x5 h0 h1 h2 h3 h4 h5, r_main_v119 V x0 x1 x2 x3 x4 x5 h0 h1 h2 h3 h4 h5, r_main_v120 V x0 x1 x2 x3 x4 x5 h0 h1 h2 h3 h4 h5]; rfl
theorem r_main_v122 : StableHlo.after (ops : List (HloOp τ sig (Elt F))) V (Proc.devRef .tc main_v122) = Cert.ReferenceIdeal.ReadP.val_main_v122 (F := F) x0 x1 x2 := by
  rw [SsaLine.binary_at writes_ops 136 main_v71 main_v121 main_v122 _ _ _ _ rfl (by decide) (by decide) (by decide) (by decide) (by decide) V, r_main_v71 V x0 x1 x2 x3 x4 x5 h0 h1 h2 h3 h4 h5, r_main_v121 V x0 x1 x2 x3 x4 x5 h0 h1 h2 h3 h4 h5]; rfl
theorem r_main_v123 : StableHlo.after (ops : List (HloOp τ sig (Elt F))) V (Proc.devRef .tc main_v123) = Cert.ReferenceIdeal.ReadP.val_main_v123 (F := F) x0 x1 x2 := by
  rw [SsaLine.reshape_at writes_ops 137 main_v122 main_v123 _ _ _ _ rfl (by decide) (by decide) (by decide) V, r_main_v122 V x0 x1 x2 x3 x4 x5 h0 h1 h2 h3 h4 h5]; rfl
theorem r_main_v124 : StableHlo.after (ops : List (HloOp τ sig (Elt F))) V (Proc.devRef .tc main_v124) = Cert.ReferenceIdeal.ReadP.val_main_v124 (F := F) x0 x1 := by
  rw [SsaLine.unary_at writes_ops 138 main_v20 main_v124 _ _ _ rfl (by decide) (by decide) (by decide) V, r_main_v20 V x0 x1 x2 x3 x4 x5 h0 h1 h2 h3 h4 h5]; rfl
theorem r_main_v125 : StableHlo.after (ops : List (HloOp τ sig (Elt F))) V (Proc.devRef .tc main_v125) = Cert.ReferenceIdeal.ReadP.val_main_v125 (F := F) x0 x1 := by
  rw [SsaLine.unary_at writes_ops 139 main_v20 main_v125 _ _ _ rfl (by decide) (by decide) (by decide) V, r_main_v20 V x0 x1 x2 x3 x4 x5 h0 h1 h2 h3 h4 h5]; rfl
theorem r_main_v126 : StableHlo.after (ops : List (HloOp τ sig (Elt F))) V (Proc.devRef .tc main_v126) = Cert.ReferenceIdeal.ReadP.val_main_v126 (F := F) x0 x3 := by
  rw [SsaLine.binary_at writes_ops 140 main_v40 main_v40 main_v126 _ _ _ _ rfl (by decide) (by decide) (by decide) (by decide) (by decide) V, r_main_v40 V x0 x1 x2 x3 x4 x5 h0 h1 h2 h3 h4 h5]; rfl
theorem r_main_cst_12 : StableHlo.after (ops : List (HloOp τ sig (Elt F))) V (Proc.devRef .tc main_cst_12) = Cert.ReferenceIdeal.ReadP.val_main_cst_12 (F := F) := by
  rw [SsaLine.nullary_at writes_ops 141 main_cst_12 _ _ rfl (by decide) V]; rfl
theorem r_main_v127 : StableHlo.after (ops : List (HloOp τ sig (Elt F))) V (Proc.devRef .tc main_v127) = Cert.ReferenceIdeal.ReadP.val_main_v127 (F := F) x0 x3 := by
  rw [SsaLine.binary_at writes_ops 142 main_v126 main_cst_12 main_v127 _ _ _ _ rfl (by decide) (by decide) (by decide) (by decide) (by decide) V, r_main_v126 V x0 x1 x2 x3 x4 x5 h0 h1 h2 h3 h4 h5, r_main_cst_12 V x0 x1 x2 x3 x4 x5 h0 h1 h2 h3 h4 h5]; rfl
theorem r_main_v128 : StableHlo.after (ops : List (HloOp τ sig (Elt F))) V (Proc.devRef .tc main_v128) = Cert.ReferenceIdeal.ReadP.val_main_v128 (F := F) x0 x3 := by
  rw [SsaLine.unary_at writes_ops 143 main_v127 main_v128 _ _ _ rfl (by decide) (by decide) (by decide) V, r_main_v127 V x0 x1 x2 x3 x4 x5 h0 h1 h2 h3 h4 h5]; rfl
theorem r_main_cst_13 : StableHlo.after (ops : List (HloOp τ sig (Elt F))) V (Proc.devRef .tc main_cst_13) = Cert.ReferenceIdeal.ReadP.val_main_cst_13 (F := F) := by
  rw [SsaLine.nullary_at writes_ops 144 main_cst_13 _ _ rfl (by decide) V]; rfl
theorem r_main_cst_14 : StableHlo.after (ops : List (HloOp τ sig (Elt F))) V (Proc.devRef .tc main_cst_14) = Cert.ReferenceIdeal.ReadP.val_main_cst_14 (F := F) := by
  rw [SsaLine.nullary_at writes_ops 145 main_cst_14 _ _ rfl (by decide) V]; rfl
theorem r_main_call0_v0 : StableHlo.after (ops : List (HloOp τ sig (Elt F))) V (Proc.devRef .tc main_call0_v0) = Cert.ReferenceIdeal.ReadP.val_main_call0_v0 (F := F) := by
  rw [SsaLine.unary_at writes_ops 146 main_cst_13 main_call0_v0 _ _ _ rfl (by decide) (by decide) (by decide) V, r_main_cst_13 V x0 x1 x2 x3 x4 x5 h0 h1 h2 h3 h4 h5]; rfl
theorem r_main_call0_v1 : StableHlo.after (ops : List (HloOp τ sig (Elt F))) V (Proc.devRef .tc main_call0_v1) = Cert.ReferenceIdeal.ReadP.val_main_call0_v1 (F := F) := by
  rw [SsaLine.unary_at writes_ops 147 main_call0_v0 main_call0_v1 _ _ _ rfl (by decide) (by decide) (by decide) V, r_main_call0_v0 V x0 x1 x2 x3 x4 x5 h0 h1 h2 h3 h4 h5]; rfl
theorem r_main_call0_v2 : StableHlo.after (ops : List (HloOp τ sig (Elt F))) V (Proc.devRef .tc main_call0_v2) = Cert.ReferenceIdeal.ReadP.val_main_call0_v2 (F := F) x0 x3 := by
  rw [SsaLine.binary_at writes_ops 148 main_call0_v1 main_v128 main_call0_v2 _ _ _ _ rfl (by decide) (by decide) (by decide) (by decide) (by decide) V, r_main_call0_v1 V x0 x1 x2 x3 x4 x5 h0 h1 h2 h3 h4 h5, r_main_v128 V x0 x1 x2 x3 x4 x5 h0 h1 h2 h3 h4 h5]; rfl
theorem r_main_call0_v3 : StableHlo.after (ops : List (HloOp τ sig (Elt F))) V (Proc.devRef .tc main_call0_v3) = Cert.ReferenceIdeal.ReadP.val_main_call0_v3 (F := F) := by
  rw [SsaLine.unary_at writes_ops 149 main_cst_14 main_call0_v3 _ _ _ rfl (by decide) (by decide) (by decide) V, r_main_cst_14 V x0 x1 x2 x3 x4 x5 h0 h1 h2 h3 h4 h5]; rfl
theorem r_main_call0_v4 : StableHlo.after (ops : List (HloOp τ sig (Elt F))) V (Proc.devRef .tc main_call0_v4) = Cert.ReferenceIdeal.ReadP.val_main_call0_v4 (F := F) := by
  rw [SsaLine.unary_at writes_ops 150 main_call0_v3 main_call0_v4 _ _ _ rfl (by decide) (by decide) (by decide) V, r_main_call0_v3 V x0 x1 x2 x3 x4 x5 h0 h1 h2 h3 h4 h5]; rfl
theorem r_main_v129 : StableHlo.after (ops : List (HloOp τ sig (Elt F))) V (Proc.devRef .tc main_v129) = Cert.ReferenceIdeal.ReadP.val_main_v129 (F := F) x0 x3 := by
  rw [SsaLine.binary_at writes_ops 151 main_call0_v4 main_call0_v2 main_v129 _ _ _ _ rfl (by decide) (by decide) (by decide) (by decide) (by decide) V, r_main_call0_v4 V x0 x1 x2 x3 x4 x5 h0 h1 h2 h3 h4 h5, r_main_call0_v2 V x0 x1 x2 x3 x4 x5 h0 h1 h2 h3 h4 h5]; rfl
theorem r_main_cst_15 : StableHlo.after (ops : List (HloOp τ sig (Elt F))) V (Proc.devRef .tc main_cst_15) = Cert.ReferenceIdeal.ReadP.val_main_cst_15 (F := F) := by
  rw [SsaLine.nullary_at writes_ops 152 main_cst_15 _ _ rfl (by decide) V]; rfl
theorem r_main_v130 : StableHlo.after (ops : List (HloOp τ sig (Elt F))) V (Proc.devRef .tc main_v130) = Cert.ReferenceIdeal.ReadP.val_main_v130 (F := F) := by
  rw [SsaLine.unary_at writes_ops 153 main_cst_15 main_v130 _ _ _ rfl (by decide) (by decide) (by decide) V, r_main_cst_15 V x0 x1 x2 x3 x4 x5 h0 h1 h2 h3 h4 h5]; rfl
theorem r_main_v131 : StableHlo.after (ops : List (HloOp τ sig (Elt F))) V (Proc.devRef .tc main_v131) = Cert.ReferenceIdeal.ReadP.val_main_v131 (F := F) x0 x3 := by
  rw [SsaLine.binary_at writes_ops 154 main_v130 main_v129 main_v131 _ _ _ _ rfl (by decide) (by decide) (by decide) (by decide) (by decide) V, r_main_v130 V x0 x1 x2 x3 x4 x5 h0 h1 h2 h3 h4 h5, r_main_v129 V x0 x1 x2 x3 x4 x5 h0 h1 h2 h3 h4 h5]; rfl
theorem r_main_v132 : StableHlo.after (ops : List (HloOp τ sig (Elt F))) V (Proc.devRef .tc main_v132) = Cert.ReferenceIdeal.ReadP.val_main_v132 (F := F) x0 x3 := by
  rw [SsaLine.unary_at writes_ops 155 main_v131 main_v132 _ _ _ rfl (by decide) (by decide) (by decide) V, r_main_v131 V x0 x1 x2 x3 x4 x5 h0 h1 h2 h3 h4 h5]; rfl
theorem r_main_v133 : StableHlo.after (ops : List (HloOp τ sig (Elt F))) V (Proc.devRef .tc main_v133) = Cert.ReferenceIdeal.ReadP.val_main_v133 (F := F) x0 x1 x3 := by
  rw [SsaLine.binary_at writes_ops 156 main_v40 main_v125 main_v133 _ _ _ _ rfl (by decide) (by decide) (by decide) (by decide) (by decide) V, r_main_v40 V x0 x1 x2 x3 x4 x5 h0 h1 h2 h3 h4 h5, r_main_v125 V x0 x1 x2 x3 x4 x5 h0 h1 h2 h3 h4 h5]; rfl
theorem r_main_cst_16 : StableHlo.after (ops : List (HloOp τ sig (Elt F))) V (Proc.devRef .tc main_cst_16) = Cert.ReferenceIdeal.ReadP.val_main_cst_16 (F := F) := by
  rw [SsaLine.nullary_at writes_ops 157 main_cst_16 _ _ rfl (by decide) V]; rfl
theorem r_main_v134 : StableHlo.after (ops : List (HloOp τ sig (Elt F))) V (Proc.devRef .tc main_v134) = Cert.ReferenceIdeal.ReadP.val_main_v134 (F := F) x0 x1 x3 := by
  rw [SsaLine.binary_at writes_ops 158 main_v133 main_cst_16 main_v134 _ _ _ _ rfl (by decide) (by decide) (by decide) (by decide) (by decide) V, r_main_v133 V x0 x1 x2 x3 x4 x5 h0 h1 h2 h3 h4 h5, r_main_cst_16 V x0 x1 x2 x3 x4 x5 h0 h1 h2 h3 h4 h5]; rfl
theorem r_main_v135 : StableHlo.after (ops : List (HloOp τ sig (Elt F))) V (Proc.devRef .tc main_v135) = Cert.ReferenceIdeal.ReadP.val_main_v135 (F := F) x0 x1 x3 := by
  rw [SsaLine.unary_at writes_ops 159 main_v134 main_v135 _ _ _ rfl (by decide) (by decide) (by decide) V, r_main_v134 V x0 x1 x2 x3 x4 x5 h0 h1 h2 h3 h4 h5]; rfl
theorem r_main_v136 : StableHlo.after (ops : List (HloOp τ sig (Elt F))) V (Proc.devRef .tc main_v136) = Cert.ReferenceIdeal.ReadP.val_main_v136 (F := F) x0 x1 x3 := by
  rw [SsaLine.binary_at writes_ops 160 main_v124 main_v135 main_v136 _ _ _ _ rfl (by decide) (by decide) (by decide) (by decide) (by decide) V, r_main_v124 V x0 x1 x2 x3 x4 x5 h0 h1 h2 h3 h4 h5, r_main_v135 V x0 x1 x2 x3 x4 x5 h0 h1 h2 h3 h4 h5]; rfl
theorem r_main_v137 : StableHlo.after (ops : List (HloOp τ sig (Elt F))) V (Proc.devRef .tc main_v137) = Cert.ReferenceIdeal.ReadP.val_main_v137 (F := F) x0 x1 x3 := by
  rw [SsaLine.binary_at writes_ops 161 main_v132 main_v136 main_v137 _ _ _ _ rfl (by decide) (by decide) (by decide) (by decide) (by decide) V, r_main_v132 V x0 x1 x2 x3 x4 x5 h0 h1 h2 h3 h4 h5, r_main_v136 V x0 x1 x2 x3 x4 x5 h0 h1 h2 h3 h4 h5]; rfl
theorem r_main_v138 : StableHlo.after (ops : List (HloOp τ sig (Elt F))) V (Proc.devRef .tc main_v138) = Cert.ReferenceIdeal.ReadP.val_main_v138 (F := F) x0 x1 x3 := by
  rw [SsaLine.binary_at writes_ops 162 main_v132 main_v124 main_v138 _ _ _ _ rfl (by decide) (by decide) (by decide) (by decide) (by decide) V, r_main_v132 V x0 x1 x2 x3 x4 x5 h0 h1 h2 h3 h4 h5, r_main_v124 V x0 x1 x2 x3 x4 x5 h0 h1 h2 h3 h4 h5]; rfl
theorem r_main_cst_17 : StableHlo.after (ops : List (HloOp τ sig (Elt F))) V (Proc.devRef .tc main_cst_17) = Cert.ReferenceIdeal.ReadP.val_main_cst_17 (F := F) := by
  rw [SsaLine.nullary_at writes_ops 163 main_cst_17 _ _ rfl (by decide) V]; rfl
theorem r_main_v139 : StableHlo.after (ops : List (HloOp τ sig (Elt F))) V (Proc.devRef .tc main_v139) = Cert.ReferenceIdeal.ReadP.val_main_v139 (F := F) := by
  rw [SsaLine.unary_at writes_ops 164 main_cst_17 main_v139 _ _ _ rfl (by decide) (by decide) (by decide) V, r_main_cst_17 V x0 x1 x2 x3 x4 x5 h0 h1 h2 h3 h4 h5]; rfl
theorem r_main_v140 : StableHlo.after (ops : List (HloOp τ sig (Elt F))) V (Proc.devRef .tc main_v140) = Cert.ReferenceIdeal.ReadP.val_main_v140 (F := F) x0 x3 := by
  rw [SsaLine.binary_at writes_ops 165 main_v132 main_v139 main_v140 _ _ _ _ rfl (by decide) (by decide) (by decide) (by decide) (by decide) V, r_main_v132 V x0 x1 x2 x3 x4 x5 h0 h1 h2 h3 h4 h5, r_main_v139 V x0 x1 x2 x3 x4 x5 h0 h1 h2 h3 h4 h5]; rfl
theorem r_main_v141 : StableHlo.after (ops : List (HloOp τ sig (Elt F))) V (Proc.devRef .tc main_v141) = Cert.ReferenceIdeal.ReadP.val_main_v141 (F := F) x0 x1 x3 := by
  rw [SsaLine.binary_at writes_ops 166 main_v140 main_v135 main_v141 _ _ _ _ rfl (by decide) (by decide) (by decide) (by decide) (by decide) V, r_main_v140 V x0 x1 x2 x3 x4 x5 h0 h1 h2 h3 h4 h5, r_main_v135 V x0 x1 x2 x3 x4 x5 h0 h1 h2 h3 h4 h5]; rfl
theorem r_main_cst_18 : StableHlo.after (ops : List (HloOp τ sig (Elt F))) V (Proc.devRef .tc main_cst_18) = Cert.ReferenceIdeal.ReadP.val_main_cst_18 (F := F) := by
  rw [SsaLine.nullary_at writes_ops 167 main_cst_18 _ _ rfl (by decide) V]; rfl
theorem r_main_v142 : StableHlo.after (ops : List (HloOp τ sig (Elt F))) V (Proc.devRef .tc main_v142) = Cert.ReferenceIdeal.ReadP.val_main_v142 (F := F) := by
  rw [SsaLine.unary_at writes_ops 168 main_cst_18 main_v142 _ _ _ rfl (by decide) (by decide) (by decide) V, r_main_cst_18 V x0 x1 x2 x3 x4 x5 h0 h1 h2 h3 h4 h5]; rfl
theorem r_main_v143 : StableHlo.after (ops : List (HloOp τ sig (Elt F))) V (Proc.devRef .tc main_v143) = Cert.ReferenceIdeal.ReadP.val_main_v143 (F := F) x0 x3 := by
  rw [SsaLine.binary_at writes_ops 169 main_v129 main_v142 main_v143 _ _ _ _ rfl (by decide) (by decide) (by decide) (by decide) (by decide) V, r_main_v129 V x0 x1 x2 x3 x4 x5 h0 h1 h2 h3 h4 h5, r_main_v142 V x0 x1 x2 x3 x4 x5 h0 h1 h2 h3 h4 h5]; rfl
theorem r_main_v144 : StableHlo.after (ops : List (HloOp τ sig (Elt F))) V (Proc.devRef .tc main_v144) = Cert.ReferenceIdeal.ReadP.val_main_v144 (F := F) x0 x1 x3 := by
  rw [SsaLine.binary_at writes_ops 170 main_v141 main_v143 main_v144 _ _ _ _ rfl (by decide) (by decide) (by decide) (by decide) (by decide) V, r_main_v141 V x0 x1 x2 x3 x4 x5 h0 h1 h2 h3 h4 h5, r_main_v143 V x0 x1 x2 x3 x4 x5 h0 h1 h2 h3 h4 h5]; rfl
theorem r_main_v145 : StableHlo.after (ops : List (HloOp τ sig (Elt F))) V (Proc.devRef .tc main_v145) = Cert.ReferenceIdeal.ReadP.val_main_v145 (F := F) x0 x1 x3 := by
  rw [SsaLine.binary_at writes_ops 171 main_v138 main_v144 main_v145 _ _ _ _ rfl (by decide) (by decide) (by decide) (by decide) (by decide) V, r_main_v138 V x0 x1 x2 x3 x4 x5 h0 h1 h2 h3 h4 h5, r_main_v144 V x0 x1 x2 x3 x4 x5 h0 h1 h2 h3 h4 h5]; rfl
theorem r_main_v146 : StableHlo.after (ops : List (HloOp τ sig (Elt F))) V (Proc.devRef .tc main_v146) = Cert.ReferenceIdeal.ReadP.val_main_v146 (F := F) x0 x1 x3 := by
  rw [SsaLine.unary_at writes_ops 172 main_v145 main_v146 _ _ _ rfl (by decide) (by decide) (by decide) V, r_main_v145 V x0 x1 x2 x3 x4 x5 h0 h1 h2 h3 h4 h5]; rfl
theorem r_main_v147 : StableHlo.after (ops : List (HloOp τ sig (Elt F))) V (Proc.devRef .tc main_v147) = Cert.ReferenceIdeal.ReadP.val_main_v147 (F := F) x0 x1 x3 := by
  rw [SsaLine.binary_at writes_ops 173 main_v146 main_v40 main_v147 _ _ _ _ rfl (by decide) (by decide) (by decide) (by decide) (by decide) V, r_main_v146 V x0 x1 x2 x3 x4 x5 h0 h1 h2 h3 h4 h5, r_main_v40 V x0 x1 x2 x3 x4 x5 h0 h1 h2 h3 h4 h5]; rfl
theorem r_main_v148 : StableHlo.after (ops : List (HloOp τ sig (Elt F))) V (Proc.devRef .tc main_v148) = Cert.ReferenceIdeal.ReadP.val_main_v148 (F := F) x0 x1 x3 := by
  rw [SsaLine.binary_at writes_ops 174 main_v125 main_v147 main_v148 _ _ _ _ rfl (by decide) (by decide) (by decide) (by decide) (by decide) V, r_main_v125 V x0 x1 x2 x3 x4 x5 h0 h1 h2 h3 h4 h5, r_main_v147 V x0 x1 x2 x3 x4 x5 h0 h1 h2 h3 h4 h5]; rfl
theorem r_main_v149 : StableHlo.after (ops : List (HloOp τ sig (Elt F))) V (Proc.devRef .tc main_v149) = Cert.ReferenceIdeal.ReadP.val_main_v149 (F := F) x0 x1 x3 := by
  rw [SsaLine.binary_at writes_ops 175 main_v137 main_v148 main_v149 _ _ _ _ rfl (by decide) (by decide) (by decide) (by decide) (by decide) V, r_main_v137 V x0 x1 x2 x3 x4 x5 h0 h1 h2 h3 h4 h5, r_main_v148 V x0 x1 x2 x3 x4 x5 h0 h1 h2 h3 h4 h5]; rfl
theorem r_main_v150 : StableHlo.after (ops : List (HloOp τ sig (Elt F))) V (Proc.devRef .tc main_v150) = Cert.ReferenceIdeal.ReadP.val_main_v150 (F := F) x0 x1 x3 := by
  rw [SsaLine.reshape_at writes_ops 176 main_v149 main_v150 _ _ _ _ rfl (by decide) (by decide) (by decide) V, r_main_v149 V x0 x1 x2 x3 x4 x5 h0 h1 h2 h3 h4 h5]; rfl
theorem r_main_v151 : StableHlo.after (ops : List (HloOp τ sig (Elt F))) V (Proc.devRef .tc main_v151) = Cert.ReferenceIdeal.ReadP.val_main_v151 (F := F) x0 x1 x2 x3 := by
  rw [SsaLine.binary_at writes_ops 177 main_v123 main_v150 main_v151 _ _ _ _ rfl (by decide) (by decide) (by decide) (by decide) (by decide) V, r_main_v123 V x0 x1 x2 x3 x4 x5 h0 h1 h2 h3 h4 h5, r_main_v150 V x0 x1 x2 x3 x4 x5 h0 h1 h2 h3 h4 h5]; rfl
theorem r_main_cst_19 : StableHlo.after (ops : List (HloOp τ sig (Elt F))) V (Proc.devRef .tc main_cst_19) = Cert.ReferenceIdeal.ReadP.val_main_cst_19 (F := F) := by
  rw [SsaLine.nullary_at writes_ops 178 main_cst_19 _ _ rfl (by decide) V]; rfl
theorem r_main_v152 : StableHlo.after (ops : List (HloOp τ sig (Elt F))) V (Proc.devRef .tc main_v152) = Cert.ReferenceIdeal.ReadP.val_main_v152 (F := F) := by
  rw [SsaLine.unary_at writes_ops 179 main_cst_19 main_v152 _ _ _ rfl (by decide) (by decide) (by decide) V, r_main_cst_19 V x0 x1 x2 x3 x4 x5 h0 h1 h2 h3 h4 h5]; rfl
theorem r_main_v153 : StableHlo.after (ops : List (HloOp τ sig (Elt F))) V (Proc.devRef .tc main_v153) = Cert.ReferenceIdeal.ReadP.val_main_v153 (F := F) x0 x4 := by
  rw [SsaLine.binary_at writes_ops 180 main_v47 main_v152 main_v153 _ _ _ _ rfl (by decide) (by decide) (by decide) (by decide) (by decide) V, r_main_v47 V x0 x1 x2 x3 x4 x5 h0 h1 h2 h3 h4 h5, r_main_v152 V x0 x1 x2 x3 x4 x5 h0 h1 h2 h3 h4 h5]; rfl
theorem r_main_v154 : StableHlo.after (ops : List (HloOp τ sig (Elt F))) V (Proc.devRef .tc main_v154) = Cert.ReferenceIdeal.ReadP.val_main_v154 (F := F) x0 x1 x2 x3 x4 := by
  rw [SsaLine.binary_at writes_ops 181 main_v153 main_v151 main_v154 _ _ _ _ rfl (by decide) (by decide) (by decide) (by decide) (by decide) V, r_main_v153 V x0 x1 x2 x3 x4 x5 h0 h1 h2 h3 h4 h5, r_main_v151 V x0 x1 x2 x3 x4 x5 h0 h1 h2 h3 h4 h5]; rfl
theorem r_main_cst_20 : StableHlo.after (ops : List (HloOp τ sig (Elt F))) V (Proc.devRef .tc main_cst_20) = Cert.ReferenceIdeal.ReadP.val_main_cst_20 (F := F) := by
  rw [SsaLine.nullary_at writes_ops 182 main_cst_20 _ _ rfl (by decide) V]; rfl
theorem r_main_v155 : StableHlo.after (ops : List (HloOp τ sig (Elt F))) V (Proc.devRef .tc main_v155) = Cert.ReferenceIdeal.ReadP.val_main_v155 (F := F) x0 x1 x2 x3 x4 := by
  rw [SsaLine.binary_at writes_ops 183 main_v154 main_cst_20 main_v155 _ _ _ _ rfl (by decide) (by decide) (by decide) (by decide) (by decide) V, r_main_v154 V x0 x1 x2 x3 x4 x5 h0 h1 h2 h3 h4 h5, r_main_cst_20 V x0 x1 x2 x3 x4 x5 h0 h1 h2 h3 h4 h5]; rfl
theorem r_main_cst_21 : StableHlo.after (ops : List (HloOp τ sig (Elt F))) V (Proc.devRef .tc main_cst_21) = Cert.ReferenceIdeal.ReadP.val_main_cst_21 (F := F) := by
  rw [SsaLine.nullary_at writes_ops 184 main_cst_21 _ _ rfl (by decide) V]; rfl
theorem r_main_v156 : StableHlo.after (ops : List (HloOp τ sig (Elt F))) V (Proc.devRef .tc main_v156) = Cert.ReferenceIdeal.ReadP.val_main_v156 (F := F) := by
  rw [SsaLine.unary_at writes_ops 185 main_cst_21 main_v156 _ _ _ rfl (by decide) (by decide) (by decide) V, r_main_cst_21 V x0 x1 x2 x3 x4 x5 h0 h1 h2 h3 h4 h5]; rfl
theorem r_main_v157 : StableHlo.after (ops : List (HloOp τ sig (Elt F))) V (Proc.devRef .tc main_v157) = Cert.ReferenceIdeal.ReadP.val_main_v157 (F := F) x0 x1 x2 x3 x4 := by
  rw [SsaLine.binary_at writes_ops 186 main_v156 main_v155 main_v157 _ _ _ _ rfl (by decide) (by decide) (by decide) (by decide) (by decide) V, r_main_v156 V x0 x1 x2 x3 x4 x5 h0 h1 h2 h3 h4 h5, r_main_v155 V x0 x1 x2 x3 x4 x5 h0 h1 h2 h3 h4 h5]; rfl
theorem r_main_v158 : StableHlo.after (ops : List (HloOp τ sig (Elt F))) V (Proc.devRef .tc main_v158) = Cert.ReferenceIdeal.ReadP.val_main_v158 (F := F) x0 x1 x2 x3 x4 := by
  rw [SsaLine.unary_at writes_ops 187 main_v157 main_v158 _ _ _ rfl (by decide) (by decide) (by decide) V, r_main_v157 V x0 x1 x2 x3 x4 x5 h0 h1 h2 h3 h4 h5]; rfl
theorem r_main_v159 : StableHlo.after (ops : List (HloOp τ sig (Elt F))) V (Proc.devRef .tc main_v159) = Cert.ReferenceIdeal.ReadP.val_main_v159 (F := F) x0 x1 x2 x3 x4 := by
  rw [SsaLine.unary_at writes_ops 188 main_v158 main_v159 _ _ _ rfl (by decide) (by decide) (by decide) V, r_main_v158 V x0 x1 x2 x3 x4 x5 h0 h1 h2 h3 h4 h5]; rfl
theorem r_main_v160 : StableHlo.after (ops : List (HloOp τ sig (Elt F))) V (Proc.devRef .tc main_v160) = Cert.ReferenceIdeal.ReadP.val_main_v160 (F := F) x0 x1 x2 x3 x4 := by
  rw [SsaLine.binary_at writes_ops 189 main_v154 main_v159 main_v160 _ _ _ _ rfl (by decide) (by decide) (by decide) (by decide) (by decide) V, r_main_v154 V x0 x1 x2 x3 x4 x5 h0 h1 h2 h3 h4 h5, r_main_v159 V x0 x1 x2 x3 x4 x5 h0 h1 h2 h3 h4 h5]; rfl
theorem r_main_v161 : StableHlo.after (ops : List (HloOp τ sig (Elt F))) V (Proc.devRef .tc main_v161) = Cert.ReferenceIdeal.ReadP.val_main_v161 (F := F) x0 x1 x2 x3 x4 := by
  rw [SsaLine.unary_at writes_ops 190 main_v160 main_v161 _ _ _ rfl (by decide) (by decide) (by decide) V, r_main_v160 V x0 x1 x2 x3 x4 x5 h0 h1 h2 h3 h4 h5]; rfl
theorem r_main_cst_22 : StableHlo.after (ops : List (HloOp τ sig (Elt F))) V (Proc.devRef .tc main_cst_22) = Cert.ReferenceIdeal.ReadP.val_main_cst_22 (F := F) := by
  rw [SsaLine.nullary_at writes_ops 191 main_cst_22 _ _ rfl (by decide) V]; rfl
theorem r_main_v162 : StableHlo.after (ops : List (HloOp τ sig (Elt F))) V (Proc.devRef .tc main_v162) = Cert.ReferenceIdeal.ReadP.val_main_v162 (F := F) x0 x1 x2 x3 x4 := by
  rw [SsaLine.binary_at writes_ops 192 main_v161 main_cst_22 main_v162 _ _ _ _ rfl (by decide) (by decide) (by decide) (by decide) (by decide) V, r_main_v161 V x0 x1 x2 x3 x4 x5 h0 h1 h2 h3 h4 h5, r_main_cst_22 V x0 x1 x2 x3 x4 x5 h0 h1 h2 h3 h4 h5]; rfl
theorem r_main_v163 : StableHlo.after (ops : List (HloOp τ sig (Elt F))) V (Proc.devRef .tc main_v163) = Cert.ReferenceIdeal.ReadP.val_main_v163 (F := F) x0 x1 x2 x3 x4 := by
  rw [SsaLine.unary_at writes_ops 193 main_v162 main_v163 _ _ _ rfl (by decide) (by decide) (by decide) V, r_main_v162 V x0 x1 x2 x3 x4 x5 h0 h1 h2 h3 h4 h5]; rfl
theorem r_main_v164 : StableHlo.after (ops : List (HloOp τ sig (Elt F))) V (Proc.devRef .tc main_v164) = Cert.ReferenceIdeal.ReadP.val_main_v164 (F := F) x0 x1 x2 x3 x4 := by
  rw [SsaLine.unary_at writes_ops 194 main_v163 main_v164 _ _ _ rfl (by decide) (by decide) (by decide) V, r_main_v163 V x0 x1 x2 x3 x4 x5 h0 h1 h2 h3 h4 h5]; rfl
theorem r_main_v165 : StableHlo.after (ops : List (HloOp τ sig (Elt F))) V (Proc.devRef .tc main_v165) = Cert.ReferenceIdeal.ReadP.val_main_v165 (F := F) x0 x1 x2 x3 x4 := by
  rw [SsaLine.binary_at writes_ops 195 main_v161 main_v164 main_v165 _ _ _ _ rfl (by decide) (by decide) (by decide) (by decide) (by decide) V, r_main_v161 V x0 x1 x2 x3 x4 x5 h0 h1 h2 h3 h4 h5, r_main_v164 V x0 x1 x2 x3 x4 x5 h0 h1 h2 h3 h4 h5]; rfl
theorem r_main_v166 : StableHlo.after (ops : List (HloOp τ sig (Elt F))) V (Proc.devRef .tc main_v166) = Cert.ReferenceIdeal.ReadP.val_main_v166 (F := F) x0 x1 x2 x3 x4 := by
  rw [SsaLine.unary_at writes_ops 196 main_v165 main_v166 _ _ _ rfl (by decide) (by decide) (by decide) V, r_main_v165 V x0 x1 x2 x3 x4 x5 h0 h1 h2 h3 h4 h5]; rfl
theorem r_main_v167 : StableHlo.after (ops : List (HloOp τ sig (Elt F))) V (Proc.devRef .tc main_v167) = Cert.ReferenceIdeal.ReadP.val_main_v167 (F := F) x0 x1 x2 x3 x4 := by
  rw [SsaLine.binary_at writes_ops 197 main_v151 main_v166 main_v167 _ _ _ _ rfl (by decide) (by decide) (by decide) (by decide) (by decide) V, r_main_v151 V x0 x1 x2 x3 x4 x5 h0 h1 h2 h3 h4 h5, r_main_v166 V x0 x1 x2 x3 x4 x5 h0 h1 h2 h3 h4 h5]; rfl
theorem r_main_cst_23 : StableHlo.after (ops : List (HloOp τ sig (Elt F))) V (Proc.devRef .tc main_cst_23) = Cert.ReferenceIdeal.ReadP.val_main_cst_23 (F := F) := by
  rw [SsaLine.nullary_at writes_ops 198 main_cst_23 _ _ rfl (by decide) V]; rfl
theorem r_main_v168 : StableHlo.after (ops : List (HloOp τ sig (Elt F))) V (Proc.devRef .tc main_v168) = Cert.ReferenceIdeal.ReadP.val_main_v168 (F := F) x0 x1 x2 x3 x4 := by
  rw [SsaLine.binary_at writes_ops 199 main_v167 main_cst_23 main_v168 _ _ _ _ rfl (by decide) (by decide) (by decide) (by decide) (by decide) V, r_main_v167 V x0 x1 x2 x3 x4 x5 h0 h1 h2 h3 h4 h5, r_main_cst_23 V x0 x1 x2 x3 x4 x5 h0 h1 h2 h3 h4 h5]; rfl
theorem r_main_v169 : StableHlo.after (ops : List (HloOp τ sig (Elt F))) V (Proc.devRef .tc main_v169) = Cert.ReferenceIdeal.ReadP.val_main_v169 (F := F) x0 x1 x2 x3 x4 x5 := by
  rw [SsaLine.binary_at writes_ops 200 main_v168 main_v56 main_v169 _ _ _ _ rfl (by decide) (by decide) (by decide) (by decide) (by decide) V, r_main_v168 V x0 x1 x2 x3 x4 x5 h0 h1 h2 h3 h4 h5, r_main_v56 V x0 x1 x2 x3 x4 x5 h0 h1 h2 h3 h4 h5]; rfl
theorem r_main_v170 : StableHlo.after (ops : List (HloOp τ sig (Elt F))) V (Proc.devRef .tc main_v170) = Cert.ReferenceIdeal.ReadP.val_main_v170 (F := F) x0 x1 x5 := by
  rw [SsaLine.binary_at writes_ops 201 main_v22 main_v58 main_v170 _ _ _ _ rfl (by decide) (by decide) (by decide) (by decide) (by decide) V, r_main_v22 V x0 x1 x2 x3 x4 x5 h0 h1 h2 h3 h4 h5, r_main_v58 V x0 x1 x2 x3 x4 x5 h0 h1 h2 h3 h4 h5]; rfl
theorem r_main_v171 : StableHlo.after (ops : List (HloOp τ sig (Elt F))) V (Proc.devRef .tc main_v171) = Cert.ReferenceIdeal.ReadP.val_main_v171 (F := F) x0 x1 x2 x3 x4 x5 := by
  rw [SsaLine.binary_at writes_ops 202 main_v169 main_v170 main_v171 _ _ _ _ rfl (by decide) (by decide) (by decide) (by decide) (by decide) V, r_main_v169 V x0 x1 x2 x3 x4 x5 h0 h1 h2 h3 h4 h5, r_main_v170 V x0 x1 x2 x3 x4 x5 h0 h1 h2 h3 h4 h5]; rfl
theorem r_main_v172 : StableHlo.after (ops : List (HloOp τ sig (Elt F))) V (Proc.devRef .tc main_v172) = Cert.ReferenceIdeal.ReadP.val_main_v172 (F := F) x1 := by
  rw [SsaLine.unary_at writes_ops 203 main_v60 main_v172 _ _ _ rfl (by decide) (by decide) (by decide) V, r_main_v60 V x0 x1 x2 x3 x4 x5 h0 h1 h2 h3 h4 h5]; rfl
theorem r_main_v173 : StableHlo.after (ops : List (HloOp τ sig (Elt F))) V (Proc.devRef .tc main_v173) = Cert.ReferenceIdeal.ReadP.val_main_v173 (F := F) x0 x1 x2 x3 x4 x5 := by
  rw [SsaLine.binary_at writes_ops 204 main_v171 main_v172 main_v173 _ _ _ _ rfl (by decide) (by decide) (by decide) (by decide) (by decide) V, r_main_v171 V x0 x1 x2 x3 x4 x5 h0 h1 h2 h3 h4 h5, r_main_v172 V x0 x1 x2 x3 x4 x5 h0 h1 h2 h3 h4 h5]; rfl
theorem r_main_v174 : StableHlo.after (ops : List (HloOp τ sig (Elt F))) V (Proc.devRef .tc main_v174) = Cert.ReferenceIdeal.ReadP.val_main_v174 (F := F) x0 x1 x2 x3 x4 x5 := by
  rw [SsaLine.binary_at writes_ops 205 main_v168 main_v58 main_v174 _ _ _ _ rfl (by decide) (by decide) (by decide) (by decide) (by decide) V, r_main_v168 V x0 x1 x2 x3 x4 x5 h0 h1 h2 h3 h4 h5, r_main_v58 V x0 x1 x2 x3 x4 x5 h0 h1 h2 h3 h4 h5]; rfl
theorem r_main_v175 : StableHlo.after (ops : List (HloOp τ sig (Elt F))) V (Proc.devRef .tc main_v175) = Cert.ReferenceIdeal.ReadP.val_main_v175 (F := F) x0 x1 x5 := by
  rw [SsaLine.binary_at writes_ops 206 main_v22 main_v56 main_v175 _ _ _ _ rfl (by decide) (by decide) (by decide) (by decide) (by decide) V, r_main_v22 V x0 x1 x2 x3 x4 x5 h0 h1 h2 h3 h4 h5, r_main_v56 V x0 x1 x2 x3 x4 x5 h0 h1 h2 h3 h4 h5]; rfl
theorem r_main_v176 : StableHlo.after (ops : List (HloOp τ sig (Elt F))) V (Proc.devRef .tc main_v176) = Cert.ReferenceIdeal.ReadP.val_main_v176 (F := F) x0 x1 x2 x3 x4 x5 := by
  rw [SsaLine.binary_at writes_ops 207 main_v174 main_v175 main_v176 _ _ _ _ rfl (by decide) (by decide) (by decide) (by decide) (by decide) V, r_main_v174 V x0 x1 x2 x3 x4 x5 h0 h1 h2 h3 h4 h5, r_main_v175 V x0 x1 x2 x3 x4 x5 h0 h1 h2 h3 h4 h5]; rfl
theorem r_main_v177 : StableHlo.after (ops : List (HloOp τ sig (Elt F))) V (Proc.devRef .tc main_v177) = Cert.ReferenceIdeal.ReadP.val_main_v177 (F := F) x1 := by
  rw [SsaLine.unary_at writes_ops 208 main_v62 main_v177 _ _ _ rfl (by decide) (by decide) (by decide) V, r_main_v62 V x0 x1 x2 x3 x4 x5 h0 h1 h2 h3 h4 h5]; rfl
theorem r_main_v178 : StableHlo.after (ops : List (HloOp τ sig (Elt F))) V (Proc.devRef .tc main_v178) = Cert.ReferenceIdeal.ReadP.val_main_v178 (F := F) x0 x1 x2 x3 x4 x5 := by
  rw [SsaLine.binary_at writes_ops 209 main_v176 main_v177 main_v178 _ _ _ _ rfl (by decide) (by decide) (by decide) (by decide) (by decide) V, r_main_v176 V x0 x1 x2 x3 x4 x5 h0 h1 h2 h3 h4 h5, r_main_v177 V x0 x1 x2 x3 x4 x5 h0 h1 h2 h3 h4 h5]; rfl
theorem r_main_v179 : StableHlo.after (ops : List (HloOp τ sig (Elt F))) V (Proc.devRef .tc main_v179) = Cert.ReferenceIdeal.ReadP.val_main_v179 (F := F) x0 x1 x2 x3 x4 x5 := by
  rw [SsaLine.binary_at writes_ops 210 main_v173 main_v178 main_v179 _ _ _ _ rfl (by decide) (by decide) (by decide) (by decide) (by decide) V, r_main_v173 V x0 x1 x2 x3 x4 x5 h0 h1 h2 h3 h4 h5, r_main_v178 V x0 x1 x2 x3 x4 x5 h0 h1 h2 h3 h4 h5]; rfl
theorem r_main_v180 : StableHlo.after (ops : List (HloOp τ sig (Elt F))) V (Proc.devRef .tc main_v180) = Cert.ReferenceIdeal.ReadP.val_main_v180 (F := F) x0 x1 := by
  rw [SsaLine.reshape_at writes_ops 211 main_v20 main_v180 _ _ _ _ rfl (by decide) (by decide) (by decide) V, r_main_v20 V x0 x1 x2 x3 x4 x5 h0 h1 h2 h3 h4 h5]; rfl
theorem r_main_v181 : StableHlo.after (ops : List (HloOp τ sig (Elt F))) V (Proc.devRef .tc main_v181) = Cert.ReferenceIdeal.ReadP.val_main_v181 (F := F) x0 x1 := by
  rw [SsaLine.binary_at writes_ops 212 main_v180 main_v180 main_v181 _ _ _ _ rfl (by decide) (by decide) (by decide) (by decide) (by decide) V, r_main_v180 V x0 x1 x2 x3 x4 x5 h0 h1 h2 h3 h4 h5]; rfl
theorem r_main_v182 : StableHlo.after (ops : List (HloOp τ sig (Elt F))) V (Proc.devRef .tc main_v182) = Cert.ReferenceIdeal.ReadP.val_main_v182 (F := F) x0 x1 := by
  rw [SsaLine.binary_at writes_ops 213 main_v22 main_v22 main_v182 _ _ _ _ rfl (by decide) (by decide) (by decide) (by decide) (by decide) V, r_main_v22 V x0 x1 x2 x3 x4 x5 h0 h1 h2 h3 h4 h5]; rfl
theorem r_main_v183 : StableHlo.after (ops : List (HloOp τ sig (Elt F))) V (Proc.devRef .tc main_v183) = Cert.ReferenceIdeal.ReadP.val_main_v183 (F := F) x0 x1 := by
  rw [SsaLine.binary_at writes_ops 214 main_v181 main_v182 main_v183 _ _ _ _ rfl (by decide) (by decide) (by decide) (by decide) (by decide) V, r_main_v181 V x0 x1 x2 x3 x4 x5 h0 h1 h2 h3 h4 h5, r_main_v182 V x0 x1 x2 x3 x4 x5 h0 h1 h2 h3 h4 h5]; rfl
theorem r_main_v184 : StableHlo.after (ops : List (HloOp τ sig (Elt F))) V (Proc.devRef .tc main_v184) = Cert.ReferenceIdeal.ReadP.val_main_v184 (F := F) x0 x1 := by
  rw [SsaLine.unary_at writes_ops 215 main_v183 main_v184 _ _ _ rfl (by decide) (by decide) (by decide) V, r_main_v183 V x0 x1 x2 x3 x4 x5 h0 h1 h2 h3 h4 h5]; rfl
theorem r_main_v185 : StableHlo.after (ops : List (HloOp τ sig (Elt F))) V (Proc.devRef .tc main_v185) = Cert.ReferenceIdeal.ReadP.val_main_v185 (F := F) x0 x5 := by
  rw [SsaLine.binary_at writes_ops 216 main_v56 main_v56 main_v185 _ _ _ _ rfl (by decide) (by decide) (by decide) (by decide) (by decide) V, r_main_v56 V x0 x1 x2 x3 x4 x5 h0 h1 h2 h3 h4 h5]; rfl
theorem r_main_v186 : StableHlo.after (ops : List (HloOp τ sig (Elt F))) V (Proc.devRef .tc main_v186) = Cert.ReferenceIdeal.ReadP.val_main_v186 (F := F) x0 x5 := by
  rw [SsaLine.binary_at writes_ops 217 main_v58 main_v58 main_v186 _ _ _ _ rfl (by decide) (by decide) (by decide) (by decide) (by decide) V, r_main_v58 V x0 x1 x2 x3 x4 x5 h0 h1 h2 h3 h4 h5]; rfl
theorem r_main_v187 : StableHlo.after (ops : List (HloOp τ sig (Elt F))) V (Proc.devRef .tc main_v187) = Cert.ReferenceIdeal.ReadP.val_main_v187 (F := F) x0 x5 := by
  rw [SsaLine.binary_at writes_ops 218 main_v185 main_v186 main_v187 _ _ _ _ rfl (by decide) (by decide) (by decide) (by decide) (by decide) V, r_main_v185 V x0 x1 x2 x3 x4 x5 h0 h1 h2 h3 h4 h5, r_main_v186 V x0 x1 x2 x3 x4 x5 h0 h1 h2 h3 h4 h5]; rfl
theorem r_main_v188 : StableHlo.after (ops : List (HloOp τ sig (Elt F))) V (Proc.devRef .tc main_v188) = Cert.ReferenceIdeal.ReadP.val_main_v188 (F := F) x0 x5 := by
  rw [SsaLine.unary_at writes_ops 219 main_v187 main_v188 _ _ _ rfl (by decide) (by decide) (by decide) V, r_main_v187 V x0 x1 x2 x3 x4 x5 h0 h1 h2 h3 h4 h5]; rfl
theorem r_main_v189 : StableHlo.after (ops : List (HloOp τ sig (Elt F))) V (Proc.devRef .tc main_v189) = Cert.ReferenceIdeal.ReadP.val_main_v189 (F := F) x0 x1 := by
  rw [SsaLine.binary_at writes_ops 220 main_v24 main_v24 main_v189 _ _ _ _ rfl (by decide) (by decide) (by decide) (by decide) (by decide) V, r_main_v24 V x0 x1 x2 x3 x4 x5 h0 h1 h2 h3 h4 h5]; rfl
theorem r_main_v190 : StableHlo.after (ops : List (HloOp τ sig (Elt F))) V (Proc.devRef .tc main_v190) = Cert.ReferenceIdeal.ReadP.val_main_v190 (F := F) x0 x1 := by
  rw [SsaLine.binary_at writes_ops 221 main_v26 main_v26 main_v190 _ _ _ _ rfl (by decide) (by decide) (by decide) (by decide) (by decide) V, r_main_v26 V x0 x1 x2 x3 x4 x5 h0 h1 h2 h3 h4 h5]; rfl
theorem r_main_v191 : StableHlo.after (ops : List (HloOp τ sig (Elt F))) V (Proc.devRef .tc main_v191) = Cert.ReferenceIdeal.ReadP.val_main_v191 (F := F) x0 x1 := by
  rw [SsaLine.binary_at writes_ops 222 main_v189 main_v190 main_v191 _ _ _ _ rfl (by decide) (by decide) (by decide) (by decide) (by decide) V, r_main_v189 V x0 x1 x2 x3 x4 x5 h0 h1 h2 h3 h4 h5, r_main_v190 V x0 x1 x2 x3 x4 x5 h0 h1 h2 h3 h4 h5]; rfl
theorem r_main_v192 : StableHlo.after (ops : List (HloOp τ sig (Elt F))) V (Proc.devRef .tc main_v192) = Cert.ReferenceIdeal.ReadP.val_main_v192 (F := F) x0 x1 := by
  rw [SsaLine.unary_at writes_ops 223 main_v191 main_v192 _ _ _ rfl (by decide) (by decide) (by decide) V, r_main_v191 V x0 x1 x2 x3 x4 x5 h0 h1 h2 h3 h4 h5]; rfl
theorem r_main_cst_24 : StableHlo.after (ops : List (HloOp τ sig (Elt F))) V (Proc.devRef .tc main_cst_24) = Cert.ReferenceIdeal.ReadP.val_main_cst_24 (F := F) := by
  rw [SsaLine.nullary_at writes_ops 224 main_cst_24 _ _ rfl (by decide) V]; rfl
theorem r_main_v193 : StableHlo.after (ops : List (HloOp τ sig (Elt F))) V (Proc.devRef .tc main_v193) = Cert.ReferenceIdeal.ReadP.val_main_v193 (F := F) := by
  rw [SsaLine.unary_at writes_ops 225 main_cst_24 main_v193 _ _ _ rfl (by decide) (by decide) (by decide) V, r_main_cst_24 V x0 x1 x2 x3 x4 x5 h0 h1 h2 h3 h4 h5]; rfl
theorem r_main_v194 : StableHlo.after (ops : List (HloOp τ sig (Elt F))) V (Proc.devRef .tc main_v194) = Cert.ReferenceIdeal.ReadP.val_main_v194 (F := F) x0 x1 := by
  rw [SsaLine.binary_at writes_ops 226 main_v192 main_v193 main_v194 _ _ _ _ rfl (by decide) (by decide) (by decide) (by decide) (by decide) V, r_main_v192 V x0 x1 x2 x3 x4 x5 h0 h1 h2 h3 h4 h5, r_main_v193 V x0 x1 x2 x3 x4 x5 h0 h1 h2 h3 h4 h5]; rfl
theorem r_main_v195 : StableHlo.after (ops : List (HloOp τ sig (Elt F))) V (Proc.devRef .tc main_v195) = Cert.ReferenceIdeal.ReadP.val_main_v195 (F := F) x0 x2 := by
  rw [SsaLine.binary_at writes_ops 227 main_v33 main_v33 main_v195 _ _ _ _ rfl (by decide) (by decide) (by decide) (by decide) (by decide) V, r_main_v33 V x0 x1 x2 x3 x4 x5 h0 h1 h2 h3 h4 h5]; rfl
theorem r_main_cst_25 : StableHlo.after (ops : List (HloOp τ sig (Elt F))) V (Proc.devRef .tc main_cst_25) = Cert.ReferenceIdeal.ReadP.val_main_cst_25 (F := F) := by
  rw [SsaLine.nullary_at writes_ops 228 main_cst_25 _ _ rfl (by decide) V]; rfl
theorem r_main_v196 : StableHlo.after (ops : List (HloOp τ sig (Elt F))) V (Proc.devRef .tc main_v196) = Cert.ReferenceIdeal.ReadP.val_main_v196 (F := F) x0 x2 := by
  rw [SsaLine.binary_at writes_ops 229 main_v195 main_cst_25 main_v196 _ _ _ _ rfl (by decide) (by decide) (by decide) (by decide) (by decide) V, r_main_v195 V x0 x1 x2 x3 x4 x5 h0 h1 h2 h3 h4 h5, r_main_cst_25 V x0 x1 x2 x3 x4 x5 h0 h1 h2 h3 h4 h5]; rfl
theorem r_main_v197 : StableHlo.after (ops : List (HloOp τ sig (Elt F))) V (Proc.devRef .tc main_v197) = Cert.ReferenceIdeal.ReadP.val_main_v197 (F := F) x0 x2 := by
  rw [SsaLine.unary_at writes_ops 230 main_v196 main_v197 _ _ _ rfl (by decide) (by decide) (by decide) V, r_main_v196 V x0 x1 x2 x3 x4 x5 h0 h1 h2 h3 h4 h5]; rfl
theorem r_main_v198 : StableHlo.after (ops : List (HloOp τ sig (Elt F))) V (Proc.devRef .tc main_v198) = Cert.ReferenceIdeal.ReadP.val_main_v198 (F := F) x0 x3 := by
  rw [SsaLine.binary_at writes_ops 231 main_v40 main_v40 main_v198 _ _ _ _ rfl (by decide) (by decide) (by decide) (by decide) (by decide) V, r_main_v40 V x0 x1 x2 x3 x4 x5 h0 h1 h2 h3 h4 h5]; rfl
theorem r_main_cst_26 : StableHlo.after (ops : List (HloOp τ sig (Elt F))) V (Proc.devRef .tc main_cst_26) = Cert.ReferenceIdeal.ReadP.val_main_cst_26 (F := F) := by
  rw [SsaLine.nullary_at writes_ops 232 main_cst_26 _ _ rfl (by decide) V]; rfl
theorem r_main_v199 : StableHlo.after (ops : List (HloOp τ sig (Elt F))) V (Proc.devRef .tc main_v199) = Cert.ReferenceIdeal.ReadP.val_main_v199 (F := F) x0 x3 := by
  rw [SsaLine.binary_at writes_ops 233 main_v198 main_cst_26 main_v199 _ _ _ _ rfl (by decide) (by decide) (by decide) (by decide) (by decide) V, r_main_v198 V x0 x1 x2 x3 x4 x5 h0 h1 h2 h3 h4 h5, r_main_cst_26 V x0 x1 x2 x3 x4 x5 h0 h1 h2 h3 h4 h5]; rfl
theorem r_main_v200 : StableHlo.after (ops : List (HloOp τ sig (Elt F))) V (Proc.devRef .tc main_v200) = Cert.ReferenceIdeal.ReadP.val_main_v200 (F := F) x0 x3 := by
  rw [SsaLine.unary_at writes_ops 234 main_v199 main_v200 _ _ _ rfl (by decide) (by decide) (by decide) V, r_main_v199 V x0 x1 x2 x3 x4 x5 h0 h1 h2 h3 h4 h5]; rfl

end

end Cert.ReferenceIdeal.Line

end
-- ==== Proof.RefRun.lean ====
import proofs.«103698_j86337432584674_2_alg».proof.Proof.RefLine

/-!
  The reference's run: every weakly fair execution of its @main — a straight line of host operations — ends, with each
  of its six results at the reference's stage function of the argument arrays, and the arguments as launched. Each
  result is read off the line one operation at a time (RefLine.lean).
-/

noncomputable section

namespace Cert.ReferenceIdeal.RunP

open Cert.ReferenceIdeal Cert.ReferenceIdeal.Gen Cert.ReferenceIdeal.ValueP Cert.ReferenceIdeal.ReadP Cert.ReferenceIdeal.Line
open Idealize.ShloMosaic Idealize.ShloMosaic.TcCoe Idealize.SL.Sem Idealize.ShloMosaic.StableHlo

variable {F : FTy → Type} [FloatOps F]

set_option maxRecDepth 16384 in
set_option maxHeartbeats 40000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v179) = val_main_v179 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v184) = val_main_v184 (F := F) (m ((c.tc : Thread nD τ).loc main_arg0)) (m ((c.tc : Thread nD τ).loc main_arg1))
      ∧ r.2.mem ((c.tc : Thread nD τ).loc main_v188) = val_main_v188 (F := F) (m ((c.tc : Thread nD τ).loc main_arg0)) (m ((c.tc : Thread nD τ).loc main_arg5))
      ∧ r.2.mem ((c.tc : Thread nD τ).loc main_v194) = val_main_v194 (F := F) (m ((c.tc : Thread nD τ).loc main_arg0)) (m ((c.tc : Thread nD τ).loc main_arg1))
      ∧ r.2.mem ((c.tc : Thread nD τ).loc main_v197) = val_main_v197 (F := F) (m ((c.tc : Thread nD τ).loc main_arg0)) (m ((c.tc : Thread nD τ).loc main_arg2))
      ∧ r.2.mem ((c.tc : Thread nD τ).loc main_v200) = val_main_v200 (F := F) (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      (h c main_v179).trans (r_main_v179 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) rfl rfl rfl rfl rfl rfl),
      (h c main_v184).trans (r_main_v184 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) rfl rfl rfl rfl rfl rfl),
      (h c main_v188).trans (r_main_v188 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) rfl rfl rfl rfl rfl rfl),
      (h c main_v194).trans (r_main_v194 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) rfl rfl rfl rfl rfl rfl),
      (h c main_v197).trans (r_main_v197 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) rfl rfl rfl rfl rfl rfl),
      (h c main_v200).trans (r_main_v200 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) rfl rfl rfl rfl rfl rfl),
      (h c main_arg0).trans (r_main_arg0 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) rfl rfl rfl rfl rfl rfl),
      (h c main_arg1).trans (r_main_arg1 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) rfl rfl rfl rfl rfl rfl),
      (h c main_arg2).trans (r_main_arg2 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) rfl rfl rfl rfl rfl rfl),
      (h c main_arg3).trans (r_main_arg3 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) rfl rfl rfl rfl rfl rfl),
      (h c main_arg4).trans (r_main_arg4 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) rfl rfl rfl rfl rfl rfl),
      (h c main_arg5).trans (r_main_arg5 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) rfl rfl rfl rfl rfl rfl)⟩)
    (run_seq scopedRefs_eq scopedSems_eq defs main (fun _ => ops) main_eq (fun _ => ops_sub) m ρ)

end Cert.ReferenceIdeal.RunP

end
-- ==== Proof.lean ====
/-
  The kernel computes, for 2000 queries against a table of 80000 entities, six arrays: the score table and five
  regularisation terms. Everything but the score product is plain host arithmetic, the same operations in the kernel
  program and in the reference: gathers of the query's rows, a quaternion rotation and a Lorentz boost of the head
  entity, a two-way softmax blend of the two, the complex product with the relation's auxiliary vectors giving the two
  query halves A and Bc (2000 × 320 each), and square roots of sums of squares. The two programs differ in the last step
  only. The reference multiplies A with the real halves of the entity table and Bc with the imaginary halves (two
  products over 320 coordinates) and adds the two tables; the kernel lays A and Bc side by side (2000 × 640), reads the
  entity table as 80000 × 640 — the real half of an entity's 640 coordinates first, the imaginary half after it — and
  makes ONE product over the 640 joint coordinates, tile by tile of 1280 entities in a pipelined region, rounding both
  factors to bf16 on the way. On the extended reals a change of float format is the identity, and a sum over 640 terms is
  the sum of its first 320 and its last 320 terms whatever the terms are (addition of extended reals is commutative and
  associative; no finiteness is used): so the two score tables are equal entry by entry. The five other results are the
  same host operations of the same gathered rows in both programs.

  The three frames: the reference is a straight line of host operations; the kernel program (at the bit-exact instance
  and at the ideal one) is host operations, the pipelined region — whose last tile overhangs both the entity table and
  the score table by half a tile, so that only the 640 rows and columns inside the arrays are fetched and written
  back —, and more host operations; nothing writes an argument array. No rewrite was applied by the idealization.
-/
import proofs.«103698_j86337432584674_2_alg».proof.Defs
import proofs.«103698_j86337432584674_2_alg».proof.Proof.Gen.Kernel
import proofs.«103698_j86337432584674_2_alg».proof.Proof.Gen.KernelIdeal
import proofs.«103698_j86337432584674_2_alg».proof.Proof.Gen.ReferenceIdeal
import proofs.«103698_j86337432584674_2_alg».proof.Proof.Gen.Pre_finite_inputs
import proofs.«103698_j86337432584674_2_alg».proof.Proof.KernelFrame
import proofs.«103698_j86337432584674_2_alg».proof.Proof.KernelIdealValue
import proofs.«103698_j86337432584674_2_alg».proof.Proof.RefRun
import Idealize.ShloMosaic.Adequacy
import Idealize.ShloMosaic.Init

noncomputable section

namespace Cert.Proof

open Idealize.ShloMosaic Idealize.ShloMosaic.TcCoe Idealize.SL.Sem
open Cert.ReferenceIdeal.ReadP (val_main_v179 val_main_v184 val_main_v188 val_main_v194 val_main_v197 val_main_v200)

/-- The kernel program at the bit-exact instance runs to the end and leaves its arguments alone. -/
theorem frame_k : Cert.frame_Kernel (hKernel := Cert.Kernel.Gen.facts) (hPre_finite_inputs := Cert.Pre_finite_inputs.Gen.facts) :=
  fun m ρ _ => Cert.Kernel.Frame.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Frame.frame m ρ

/-- The reference is host operations only: its run, with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2.2) (Cert.ReferenceIdeal.RunP.run (F := Ideal) m ρ)

/-- On the extended reals both programs end with the same six results: the reference's stage functions of the argument
    arrays — the kernel's score table by the split of the 640-term sum, the five others operation for operation. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => val_main_v179 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => val_main_v184 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => val_main_v188 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg5)),
    fun c => val_main_v194 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => val_main_v197 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c => val_main_v200 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)),
    Cert.KernelIdeal.Value2.kernel_run m ρ, ?_⟩
  refine (θ_run Cert.ReferenceIdeal.defs _ _).mono (fun _ h c => ?_) (Cert.ReferenceIdeal.RunP.run (F := Ideal) m' ρ')
  obtain ⟨r0, r1, r2, r3, r4, r5, k0, k1, k2, k3, k4, k5⟩ := h c
  obtain ⟨a0, a1, a2, a3, a4, a5⟩ := hagree c
  exact ⟨by rw [r0, a0, a1, a2, a3, a4, a5], by rw [r1, a0, a1], by rw [r2, a0, a5], by rw [r3, a0, a1], by rw [r4, a0, a2],
    by rw [r5, a0, a3], k0, k1, k2, k3, k4, k5⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
